-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg0 : IVec S1024x50 32) (main_v13 : IVec S_ 1) (main_v15 : IVec S1024x50 1) (main_c_5 : IVec S_ 32) : IVec S_ 1 :=
  let main_v16 : IVec S1024x50 32 := broadcastInDim S1024x50 ![] bcast_S_S1024x50 main_c_5
  let main_v17 : IVec S1024x50 1 := cmpi .sle main_arg0 main_v16
  let main_v18 : IVec S1024x50 1 := andi main_v15 main_v17
  let main_c_6 : IVec S_ 1 := constantI S_ 1 1#1
  let main_v19 : IVec S_ 1 := (fun x v => Host.reduce IntOp.andi x v reducesTo_S1024x50_S_d0_1 h_S_) main_v18 main_c_6
  let main_v20 : IVec S_ 1 := andi main_v13 main_v19
  main_v20

def fn {F : FTy → Type} [FloatOps F] (main_arg0 : IVec S1024x50 32) (main_arg1 : FVec F S100000x64 .f32) (main_arg2 : FVec F S100000x64 .f32) (main_arg3 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x50 32 := broadcastInDim S1024x50 ![] bcast_S_S1024x50 main_c_4
  let main_v15 : IVec S1024x50 1 := cmpi .sge main_arg0 main_v14
  let main_c_5 : IVec S_ 32 := constantI S_ 32 99999#32
  fn_part1 (F := F) main_arg0 main_v13 main_v15 main_c_5
-- ==== Kernel.lean ====
abbrev S1024x50 : Shape := ⟨2, ![1024, 50]⟩
abbrev S100000x64 : Shape := ⟨2, ![100000, 64]⟩
abbrev S100000 : Shape := ⟨1, ![100000]⟩
abbrev S50x1024 : Shape := ⟨2, ![50, 1024]⟩
abbrev S64x100000 : Shape := ⟨2, ![64, 100000]⟩
abbrev S64x1024 : Shape := ⟨2, ![64, 1024]⟩
abbrev S50x128 : Shape := ⟨2, ![50, 128]⟩
abbrev S2x1024 : Shape := ⟨2, ![2, 1024]⟩
abbrev S_ : Shape := ⟨0, ![]⟩
abbrev S1x100000 : Shape := ⟨2, ![1, 100000]⟩
abbrev S16 : Shape := ⟨1, ![16]⟩
abbrev S1x16 : Shape := ⟨2, ![1, 16]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S4096x1 : Shape := ⟨2, ![4096, 1]⟩
abbrev S1024x100000 : Shape := ⟨2, ![1024, 100000]⟩

abbrev nBuf : Table → Nat
  | .hbm => 11
  | .local .tc .vmem => 7
  | .local .scVector .vmem => 4
  | _ => 0

abbrev bufTy : (tb : Table) → Fin (nBuf tb) → BufTy
  | .hbm, ⟨0, _⟩ => ⟨S1024x50, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S50x1024, .i32⟩
  | .hbm, ⟨5, _⟩ => ⟨S64x100000, .f32⟩
  | .hbm, ⟨6, _⟩ => ⟨S64x1024, .f32⟩
  | .hbm, ⟨7, _⟩ => ⟨S64x100000, .f32⟩
  | .hbm, ⟨8, _⟩ => ⟨S1x100000, .f32⟩
  | .hbm, ⟨9, _⟩ => ⟨S100000x1024, .f32⟩
  | .hbm, ⟨10, _⟩ => ⟨S1024x100000, .f32⟩
  | .local .tc .vmem, ⟨0, _⟩ => ⟨S64x4096, .f32⟩
  | .local .tc .vmem, ⟨1, _⟩ => ⟨S64x4096, .f32⟩
  | .local .tc .vmem, ⟨2, _⟩ => ⟨S64x1024, .f32⟩
  | .local .tc .vmem, ⟨3, _⟩ => ⟨S1x4096, .f32⟩
  | .local .tc .vmem, ⟨4, _⟩ => ⟨S1x4096, .f32⟩
  | .local .tc .vmem, ⟨5, _⟩ => ⟨S4096x1024, .f32⟩
  | .local .tc .vmem, ⟨6, _⟩ => ⟨S4096x1024, .f32⟩
  | .local .scVector .vmem, ⟨0, _⟩ => ⟨S100000, .f32⟩
  | .local .scVector .vmem, ⟨1, _⟩ => ⟨S50x128, .i32⟩
  | .local .scVector .vmem, ⟨2, _⟩ => ⟨S50x128, .i32⟩
  | .local .scVector .vmem, ⟨3, _⟩ => ⟨S2x1024, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_1 : BitVec 32 := 0#32
  ![v3.toNat, 0]
@[reducible] def k0_t1_loop : Scf.Loop 32 :=
  let c0_i32_23 : BitVec 32 := 0#32
  let c50_i32 : BitVec 32 := 50#32
  let v26 : BitVec 32 := Scalar.addi c0_i32_23 c50_i32
  let c1_i32 : BitVec 32 := 1#32
  ⟨c0_i32_23, v26, c1_i32⟩
def k0_off2 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v759 : Index := Scalar.indexCast arg12
  let c0_642 : Index := 0#32
  ![v759.toNat, 0]

def k0_chk1 (v760 : IVec S16 32) : Prop :=
  (∀ a x, ((![v760] : Fin 1 → IVec S16 32) a x).toNat < S100000.size a)
instance k0_chk1.dec : ∀ (v760 : IVec S16 32), Decidable (k0_chk1 v760) := fun v760 => decidable_of_iff' _ (Iff.of_eq (k0_chk1.eq_1 v760))
theorem k0_idx1_inb : ∀ (v760 : IVec S16 32) (k0_hw1 : k0_chk1 v760), ∀ a x, ((![v760] : Fin 1 → IVec S16 32) a x).toNat < S100000.size a := fun v760 k0_hw1 => k0_hw1
def k0_off3 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v763 : Index := Scalar.indexCast arg12
  let c16_643 : Index := 16#32
  ![v763.toNat, 16]

def k0_chk2 (v764 : IVec S16 32) : Prop :=
  (∀ a x, ((![v764] : Fin 1 → IVec S16 32) a x).toNat < S100000.size a)
instance k0_chk2.dec : ∀ (v764 : IVec S16 32), Decidable (k0_chk2 v764) := fun v764 => decidable_of_iff' _ (Iff.of_eq (k0_chk2.eq_1 v764))
theorem k0_idx2_inb : ∀ (v764 : IVec S16 32) (k0_hw2 : k0_chk2 v764), ∀ a x, ((![v764] : Fin 1 → IVec S16 32) a x).toNat < S100000.size a := fun v764 k0_hw2 => k0_hw2
def k0_off4 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v767 : Index := Scalar.indexCast arg12
  let c32_644 : Index := 32#32
  ![v767.toNat, 32]

def k0_chk3 (v768 : IVec S16 32) : Prop :=
  (∀ a x, ((![v768] : Fin 1 → IVec S16 32) a x).toNat < S100000.size a)
instance k0_chk3.dec : ∀ (v768 : IVec S16 32), Decidable (k0_chk3 v768) := fun v768 => decidable_of_iff' _ (Iff.of_eq (k0_chk3.eq_1 v768))
theorem k0_idx3_inb : ∀ (v768 : IVec S16 32) (k0_hw3 : k0_chk3 v768), ∀ a x, ((![v768] : Fin 1 → IVec S16 32) a x).toNat < S100000.size a := fun v768 k0_hw3 => k0_hw3
def k0_off5 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v771 : Index := Scalar.indexCast arg12
  let c48_645 : Index := 48#32
  ![v771.toNat, 48]

def k0_chk4 (v772 : IVec S16 32) : Prop :=
  (∀ a x, ((![v772] : Fin 1 → IVec S16 32) a x).toNat < S100000.size a)
instance k0_chk4.dec : ∀ (v772 : IVec S16 32), Decidable (k0_chk4 v772) := fun v772 => decidable_of_iff' _ (Iff.of_eq (k0_chk4.eq_1 v772))
theorem k0_idx4_inb : ∀ (v772 : IVec S16 32) (k0_hw4 : k0_chk4 v772), ∀ a x, ((![v772] : Fin 1 → IVec S16 32) a x).toNat < S100000.size a := fun v772 k0_hw4 => k0_hw4
def k0_off6 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v775 : Index := Scalar.indexCast arg12
  let c64_646 : Index := 64#32
  ![v775.toNat, 64]

def k0_chk5 (v776 : IVec S16 32) : Prop :=
  (∀ a x, ((![v776] : Fin 1 → IVec S16 32) a x).toNat < S100000.size a)
instance k0_chk5.dec : ∀ (v776 : IVec S16 32), Decidable (k0_chk5 v776) := fun v776 => decidable_of_iff' _ (Iff.of_eq (k0_chk5.eq_1 v776))
theorem k0_idx5_inb : ∀ (v776 : IVec S16 32) (k0_hw5 : k0_chk5 v776), ∀ a x, ((![v776] : Fin 1 → IVec S16 32) a x).toNat < S100000.size a := fun v776 k0_hw5 => k0_hw5
def k0_off7 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v779 : Index := Scalar.indexCast arg12
  let c80_647 : Index := 80#32
  ![v779.toNat, 80]

def k0_chk6 (v780 : IVec S16 32) : Prop :=
  (∀ a x, ((![v780] : Fin 1 → IVec S16 32) a x).toNat < S100000.size a)
instance k0_chk6.dec : ∀ (v780 : IVec S16 32), Decidable (k0_chk6 v780) := fun v780 => decidable_of_iff' _ (Iff.of_eq (k0_chk6.eq_1 v780))
theorem k0_idx6_inb : ∀ (v780 : IVec S16 32) (k0_hw6 : k0_chk6 v780), ∀ a x, ((![v780] : Fin 1 → IVec S16 32) a x).toNat < S100000.size a := fun v780 k0_hw6 => k0_hw6
def k0_off8 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v783 : Index := Scalar.indexCast arg12
  let c96_648 : Index := 96#32
  ![v783.toNat, 96]

def k0_chk7 (v784 : IVec S16 32) : Prop :=
  (∀ a x, ((![v784] : Fin 1 → IVec S16 32) a x).toNat < S100000.size a)
instance k0_chk7.dec : ∀ (v784 : IVec S16 32), Decidable (k0_chk7 v784) := fun v784 => decidable_of_iff' _ (Iff.of_eq (k0_chk7.eq_1 v784))
theorem k0_idx7_inb : ∀ (v784 : IVec S16 32) (k0_hw7 : k0_chk7 v784), ∀ a x, ((![v784] : Fin 1 → IVec S16 32) a x).toNat < S100000.size a := fun v784 k0_hw7 => k0_hw7
def k0_off9 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let v787 : Index := Scalar.indexCast arg12
  let c112_649 : Index := 112#32
  ![v787.toNat, 112]

def k0_chk8 (v788 : IVec S16 32) : Prop :=
  (∀ a x, ((![v788] : Fin 1 → IVec S16 32) a x).toNat < S100000.size a)
instance k0_chk8.dec : ∀ (v788 : IVec S16 32), Decidable (k0_chk8 v788) := fun v788 => decidable_of_iff' _ (Iff.of_eq (k0_chk8.eq_1 v788))
theorem k0_idx8_inb : ∀ (v788 : IVec S16 32) (k0_hw8 : k0_chk8 v788), ∀ a x, ((![v788] : Fin 1 → IVec S16 32) a x).toNat < S100000.size a := fun v788 k0_hw8 => k0_hw8
@[reducible] def k0_t2_loop : Scf.Loop 32 :=
  let c0_i32_56 : BitVec 32 := 0#32
  let c50_i32_57 : BitVec 32 := 50#32
  let v72 : BitVec 32 := Scalar.addi c0_i32_56 c50_i32_57
  let c1_i32_58 : BitVec 32 := 1#32
  ⟨c0_i32_56, v72, c1_i32_58⟩
def k0_off10 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v759 : Index := Scalar.indexCast arg12
  let c0_642 : Index := 0#32
  ![v759.toNat, 0]

def k0_chk9 (v760 : IVec S16 32) : Prop :=
  (∀ a x, ((![v760] : Fin 1 → IVec S16 32) a x).toNat < S100000.size a)
instance k0_chk9.dec : ∀ (v760 : IVec S16 32), Decidable (k0_chk9 v760) := fun v760 => decidable_of_iff' _ (Iff.of_eq (k0_chk9.eq_1 v760))
theorem k0_idx9_inb : ∀ (v760 : IVec S16 32) (k0_hw9 : k0_chk9 v760), ∀ a x, ((![v760] : Fin 1 → IVec S16 32) a x).toNat < S100000.size a := fun v760 k0_hw9 => k0_hw9
def k0_off11 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v763 : Index := Scalar.indexCast arg12
  let c16_643 : Index := 16#32
  ![v763.toNat, 16]

def k0_chk10 (v764 : IVec S16 32) : Prop :=
  (∀ a x, ((![v764] : Fin 1 → IVec S16 32) a x).toNat < S100000.size a)
instance k0_chk10.dec : ∀ (v764 : IVec S16 32), Decidable (k0_chk10 v764) := fun v764 => decidable_of_iff' _ (Iff.of_eq (k0_chk10.eq_1 v764))
theorem k0_idx10_inb : ∀ (v764 : IVec S16 32) (k0_hw10 : k0_chk10 v764), ∀ a x, ((![v764] : Fin 1 → IVec S16 32) a x).toNat < S100000.size a := fun v764 k0_hw10 => k0_hw10
def k0_off12 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v767 : Index := Scalar.indexCast arg12
  let c32_644 : Index := 32#32
  ![v767.toNat, 32]

def k0_chk11 (v768 : IVec S16 32) : Prop :=
  (∀ a x, ((![v768] : Fin 1 → IVec S16 32) a x).toNat < S100000.size a)
instance k0_chk11.dec : ∀ (v768 : IVec S16 32), Decidable (k0_chk11 v768) := fun v768 => decidable_of_iff' _ (Iff.of_eq (k0_chk11.eq_1 v768))
theorem k0_idx11_inb : ∀ (v768 : IVec S16 32) (k0_hw11 : k0_chk11 v768), ∀ a x, ((![v768] : Fin 1 → IVec S16 32) a x).toNat < S100000.size a := fun v768 k0_hw11 => k0_hw11
def k0_off13 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v771 : Index := Scalar.indexCast arg12
  let c48_645 : Index := 48#32
  ![v771.toNat, 48]

def k0_chk12 (v772 : IVec S16 32) : Prop :=
  (∀ a x, ((![v772] : Fin 1 → IVec S16 32) a x).toNat < S100000.size a)
instance k0_chk12.dec : ∀ (v772 : IVec S16 32), Decidable (k0_chk12 v772) := fun v772 => decidable_of_iff' _ (Iff.of_eq (k0_chk12.eq_1 v772))
theorem k0_idx12_inb : ∀ (v772 : IVec S16 32) (k0_hw12 : k0_chk12 v772), ∀ a x, ((![v772] : Fin 1 → IVec S16 32) a x).toNat < S100000.size a := fun v772 k0_hw12 => k0_hw12
def k0_off14 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v775 : Index := Scalar.indexCast arg12
  let c64_646 : Index := 64#32
  ![v775.toNat, 64]

def k0_chk13 (v776 : IVec S16 32) : Prop :=
  (∀ a x, ((![v776] : Fin 1 → IVec S16 32) a x).toNat < S100000.size a)
instance k0_chk13.dec : ∀ (v776 : IVec S16 32), Decidable (k0_chk13 v776) := fun v776 => decidable_of_iff' _ (Iff.of_eq (k0_chk13.eq_1 v776))
theorem k0_idx13_inb : ∀ (v776 : IVec S16 32) (k0_hw13 : k0_chk13 v776), ∀ a x, ((![v776] : Fin 1 → IVec S16 32) a x).toNat < S100000.size a := fun v776 k0_hw13 => k0_hw13
def k0_off15 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v779 : Index := Scalar.indexCast arg12
  let c80_647 : Index := 80#32
  ![v779.toNat, 80]

def k0_chk14 (v780 : IVec S16 32) : Prop :=
  (∀ a x, ((![v780] : Fin 1 → IVec S16 32) a x).toNat < S100000.size a)
instance k0_chk14.dec : ∀ (v780 : IVec S16 32), Decidable (k0_chk14 v780) := fun v780 => decidable_of_iff' _ (Iff.of_eq (k0_chk14.eq_1 v780))
theorem k0_idx14_inb : ∀ (v780 : IVec S16 32) (k0_hw14 : k0_chk14 v780), ∀ a x, ((![v780] : Fin 1 → IVec S16 32) a x).toNat < S100000.size a := fun v780 k0_hw14 => k0_hw14
def k0_off16 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v783 : Index := Scalar.indexCast arg12
  let c96_648 : Index := 96#32
  ![v783.toNat, 96]

def k0_chk15 (v784 : IVec S16 32) : Prop :=
  (∀ a x, ((![v784] : Fin 1 → IVec S16 32) a x).toNat < S100000.size a)
instance k0_chk15.dec : ∀ (v784 : IVec S16 32), Decidable (k0_chk15 v784) := fun v784 => decidable_of_iff' _ (Iff.of_eq (k0_chk15.eq_1 v784))
theorem k0_idx15_inb : ∀ (v784 : IVec S16 32) (k0_hw15 : k0_chk15 v784), ∀ a x, ((![v784] : Fin 1 → IVec S16 32) a x).toNat < S100000.size a := fun v784 k0_hw15 => k0_hw15
def k0_off17 (k0_t2 : Fin k0_t2_loop.trips) : Fin 2 → Nat :=
  let c0_i32_56 : BitVec 32 := 0#32
  let c1_i32_58 : BitVec 32 := 1#32
  let arg12 : BitVec 32 := Scf.iv c0_i32_56 c1_i32_58 k0_t2
  let v787 : Index := Scalar.indexCast arg12
  let c112_649 : Index := 112#32
  ![v787.toNat, 112]

def k0_chk16 (v788 : IVec S16 32) : Prop :=
  (∀ a x, ((![v788] : Fin 1 → IVec S16 32) a x).toNat < S100000.size a)
instance k0_chk16.dec : ∀ (v788 : IVec S16 32), Decidable (k0_chk16 v788) := fun v788 => decidable_of_iff' _ (Iff.of_eq (k0_chk16.eq_1 v788))
theorem k0_idx16_inb : ∀ (v788 : IVec S16 32) (k0_hw16 : k0_chk16 v788), ∀ a x, ((![v788] : Fin 1 → IVec S16 32) a x).toNat < S100000.size a := fun v788 k0_hw16 => k0_hw16
@[reducible] def k0_t3_loop : Scf.Loop 32 :=
  let c0_i32_91 : BitVec 32 := 0#32
  let c50_i32_92 : BitVec 32 := 50#32
  let v118 : BitVec 32 := Scalar.addi c0_i32_91 c50_i32_92
  let c1_i32_93 : BitVec 32 := 1#32
  ⟨c0_i32_91, v118, c1_i32_93⟩
def k0_off18 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v759 : Index := Scalar.indexCast arg12
  let c0_642 : Index := 0#32
  ![v759.toNat, 0]

def k0_chk17 (v760 : IVec S16 32) : Prop :=
  (∀ a x, ((![v760] : Fin 1 → IVec S16 32) a x).toNat < S100000.size a)
instance k0_chk17.dec : ∀ (v760 : IVec S16 32), Decidable (k0_chk17 v760) := fun v760 => decidable_of_iff' _ (Iff.of_eq (k0_chk17.eq_1 v760))
theorem k0_idx17_inb : ∀ (v760 : IVec S16 32) (k0_hw17 : k0_chk17 v760), ∀ a x, ((![v760] : Fin 1 → IVec S16 32) a x).toNat < S100000.size a := fun v760 k0_hw17 => k0_hw17
def k0_off19 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v763 : Index := Scalar.indexCast arg12
  let c16_643 : Index := 16#32
  ![v763.toNat, 16]

def k0_chk18 (v764 : IVec S16 32) : Prop :=
  (∀ a x, ((![v764] : Fin 1 → IVec S16 32) a x).toNat < S100000.size a)
instance k0_chk18.dec : ∀ (v764 : IVec S16 32), Decidable (k0_chk18 v764) := fun v764 => decidable_of_iff' _ (Iff.of_eq (k0_chk18.eq_1 v764))
theorem k0_idx18_inb : ∀ (v764 : IVec S16 32) (k0_hw18 : k0_chk18 v764), ∀ a x, ((![v764] : Fin 1 → IVec S16 32) a x).toNat < S100000.size a := fun v764 k0_hw18 => k0_hw18
def k0_off20 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v767 : Index := Scalar.indexCast arg12
  let c32_644 : Index := 32#32
  ![v767.toNat, 32]

def k0_chk19 (v768 : IVec S16 32) : Prop :=
  (∀ a x, ((![v768] : Fin 1 → IVec S16 32) a x).toNat < S100000.size a)
instance k0_chk19.dec : ∀ (v768 : IVec S16 32), Decidable (k0_chk19 v768) := fun v768 => decidable_of_iff' _ (Iff.of_eq (k0_chk19.eq_1 v768))
theorem k0_idx19_inb : ∀ (v768 : IVec S16 32) (k0_hw19 : k0_chk19 v768), ∀ a x, ((![v768] : Fin 1 → IVec S16 32) a x).toNat < S100000.size a := fun v768 k0_hw19 => k0_hw19
def k0_off21 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v771 : Index := Scalar.indexCast arg12
  let c48_645 : Index := 48#32
  ![v771.toNat, 48]

def k0_chk20 (v772 : IVec S16 32) : Prop :=
  (∀ a x, ((![v772] : Fin 1 → IVec S16 32) a x).toNat < S100000.size a)
instance k0_chk20.dec : ∀ (v772 : IVec S16 32), Decidable (k0_chk20 v772) := fun v772 => decidable_of_iff' _ (Iff.of_eq (k0_chk20.eq_1 v772))
theorem k0_idx20_inb : ∀ (v772 : IVec S16 32) (k0_hw20 : k0_chk20 v772), ∀ a x, ((![v772] : Fin 1 → IVec S16 32) a x).toNat < S100000.size a := fun v772 k0_hw20 => k0_hw20
def k0_off22 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v775 : Index := Scalar.indexCast arg12
  let c64_646 : Index := 64#32
  ![v775.toNat, 64]

def k0_chk21 (v776 : IVec S16 32) : Prop :=
  (∀ a x, ((![v776] : Fin 1 → IVec S16 32) a x).toNat < S100000.size a)
instance k0_chk21.dec : ∀ (v776 : IVec S16 32), Decidable (k0_chk21 v776) := fun v776 => decidable_of_iff' _ (Iff.of_eq (k0_chk21.eq_1 v776))
theorem k0_idx21_inb : ∀ (v776 : IVec S16 32) (k0_hw21 : k0_chk21 v776), ∀ a x, ((![v776] : Fin 1 → IVec S16 32) a x).toNat < S100000.size a := fun v776 k0_hw21 => k0_hw21
def k0_off23 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v779 : Index := Scalar.indexCast arg12
  let c80_647 : Index := 80#32
  ![v779.toNat, 80]

def k0_chk22 (v780 : IVec S16 32) : Prop :=
  (∀ a x, ((![v780] : Fin 1 → IVec S16 32) a x).toNat < S100000.size a)
instance k0_chk22.dec : ∀ (v780 : IVec S16 32), Decidable (k0_chk22 v780) := fun v780 => decidable_of_iff' _ (Iff.of_eq (k0_chk22.eq_1 v780))
theorem k0_idx22_inb : ∀ (v780 : IVec S16 32) (k0_hw22 : k0_chk22 v780), ∀ a x, ((![v780] : Fin 1 → IVec S16 32) a x).toNat < S100000.size a := fun v780 k0_hw22 => k0_hw22
def k0_off24 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v783 : Index := Scalar.indexCast arg12
  let c96_648 : Index := 96#32
  ![v783.toNat, 96]

def k0_chk23 (v784 : IVec S16 32) : Prop :=
  (∀ a x, ((![v784] : Fin 1 → IVec S16 32) a x).toNat < S100000.size a)
instance k0_chk23.dec : ∀ (v784 : IVec S16 32), Decidable (k0_chk23 v784) := fun v784 => decidable_of_iff' _ (Iff.of_eq (k0_chk23.eq_1 v784))
theorem k0_idx23_inb : ∀ (v784 : IVec S16 32) (k0_hw23 : k0_chk23 v784), ∀ a x, ((![v784] : Fin 1 → IVec S16 32) a x).toNat < S100000.size a := fun v784 k0_hw23 => k0_hw23
def k0_off25 (k0_t3 : Fin k0_t3_loop.trips) : Fin 2 → Nat :=
  let c0_i32_91 : BitVec 32 := 0#32
  let c1_i32_93 : BitVec 32 := 1#32
  let arg12 : BitVec 32 := Scf.iv c0_i32_91 c1_i32_93 k0_t3
  let v787 : Index := Scalar.indexCast arg12
  let c112_649 : Index := 112#32
  ![v787.toNat, 112]

def k0_chk24 (v788 : IVec S16 32) : Prop :=
  (∀ a x, ((![v788] : Fin 1 → IVec S16 32) a x).toNat < S100000.size a)
instance k0_chk24.dec : ∀ (v788 : IVec S16 32), Decidable (k0_chk24 v788) := fun v788 => decidable_of_iff' _ (Iff.of_eq (k0_chk24.eq_1 v788))
theorem k0_idx24_inb : ∀ (v788 : IVec S16 32) (k0_hw24 : k0_chk24 v788), ∀ a x, ((![v788] : Fin 1 → IVec S16 32) a x).toNat < S100000.size a := fun v788 k0_hw24 => k0_hw24
@[reducible] def k0_t4_loop : Scf.Loop 32 :=
  let c0_i32_126 : BitVec 32 := 0#32
  let c50_i32_127 : BitVec 32 := 50#32
  let v164 : BitVec 32 := Scalar.addi c0_i32_126 c50_i32_127
  let c1_i32_128 : BitVec 32 := 1#32
  ⟨c0_i32_126, v164, c1_i32_128⟩
def k0_off26 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v759 : Index := Scalar.indexCast arg12
  let c0_642 : Index := 0#32
  ![v759.toNat, 0]

def k0_chk25 (v760 : IVec S16 32) : Prop :=
  (∀ a x, ((![v760] : Fin 1 → IVec S16 32) a x).toNat < S100000.size a)
instance k0_chk25.dec : ∀ (v760 : IVec S16 32), Decidable (k0_chk25 v760) := fun v760 => decidable_of_iff' _ (Iff.of_eq (k0_chk25.eq_1 v760))
theorem k0_idx25_inb : ∀ (v760 : IVec S16 32) (k0_hw25 : k0_chk25 v760), ∀ a x, ((![v760] : Fin 1 → IVec S16 32) a x).toNat < S100000.size a := fun v760 k0_hw25 => k0_hw25
def k0_off27 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v763 : Index := Scalar.indexCast arg12
  let c16_643 : Index := 16#32
  ![v763.toNat, 16]

def k0_chk26 (v764 : IVec S16 32) : Prop :=
  (∀ a x, ((![v764] : Fin 1 → IVec S16 32) a x).toNat < S100000.size a)
instance k0_chk26.dec : ∀ (v764 : IVec S16 32), Decidable (k0_chk26 v764) := fun v764 => decidable_of_iff' _ (Iff.of_eq (k0_chk26.eq_1 v764))
theorem k0_idx26_inb : ∀ (v764 : IVec S16 32) (k0_hw26 : k0_chk26 v764), ∀ a x, ((![v764] : Fin 1 → IVec S16 32) a x).toNat < S100000.size a := fun v764 k0_hw26 => k0_hw26
def k0_off28 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v767 : Index := Scalar.indexCast arg12
  let c32_644 : Index := 32#32
  ![v767.toNat, 32]

def k0_chk27 (v768 : IVec S16 32) : Prop :=
  (∀ a x, ((![v768] : Fin 1 → IVec S16 32) a x).toNat < S100000.size a)
instance k0_chk27.dec : ∀ (v768 : IVec S16 32), Decidable (k0_chk27 v768) := fun v768 => decidable_of_iff' _ (Iff.of_eq (k0_chk27.eq_1 v768))
theorem k0_idx27_inb : ∀ (v768 : IVec S16 32) (k0_hw27 : k0_chk27 v768), ∀ a x, ((![v768] : Fin 1 → IVec S16 32) a x).toNat < S100000.size a := fun v768 k0_hw27 => k0_hw27
def k0_off29 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v771 : Index := Scalar.indexCast arg12
  let c48_645 : Index := 48#32
  ![v771.toNat, 48]

def k0_chk28 (v772 : IVec S16 32) : Prop :=
  (∀ a x, ((![v772] : Fin 1 → IVec S16 32) a x).toNat < S100000.size a)
instance k0_chk28.dec : ∀ (v772 : IVec S16 32), Decidable (k0_chk28 v772) := fun v772 => decidable_of_iff' _ (Iff.of_eq (k0_chk28.eq_1 v772))
theorem k0_idx28_inb : ∀ (v772 : IVec S16 32) (k0_hw28 : k0_chk28 v772), ∀ a x, ((![v772] : Fin 1 → IVec S16 32) a x).toNat < S100000.size a := fun v772 k0_hw28 => k0_hw28
def k0_off30 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v775 : Index := Scalar.indexCast arg12
  let c64_646 : Index := 64#32
  ![v775.toNat, 64]

def k0_chk29 (v776 : IVec S16 32) : Prop :=
  (∀ a x, ((![v776] : Fin 1 → IVec S16 32) a x).toNat < S100000.size a)
instance k0_chk29.dec : ∀ (v776 : IVec S16 32), Decidable (k0_chk29 v776) := fun v776 => decidable_of_iff' _ (Iff.of_eq (k0_chk29.eq_1 v776))
theorem k0_idx29_inb : ∀ (v776 : IVec S16 32) (k0_hw29 : k0_chk29 v776), ∀ a x, ((![v776] : Fin 1 → IVec S16 32) a x).toNat < S100000.size a := fun v776 k0_hw29 => k0_hw29
def k0_off31 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v779 : Index := Scalar.indexCast arg12
  let c80_647 : Index := 80#32
  ![v779.toNat, 80]

def k0_chk30 (v780 : IVec S16 32) : Prop :=
  (∀ a x, ((![v780] : Fin 1 → IVec S16 32) a x).toNat < S100000.size a)
instance k0_chk30.dec : ∀ (v780 : IVec S16 32), Decidable (k0_chk30 v780) := fun v780 => decidable_of_iff' _ (Iff.of_eq (k0_chk30.eq_1 v780))
theorem k0_idx30_inb : ∀ (v780 : IVec S16 32) (k0_hw30 : k0_chk30 v780), ∀ a x, ((![v780] : Fin 1 → IVec S16 32) a x).toNat < S100000.size a := fun v780 k0_hw30 => k0_hw30
def k0_off32 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v783 : Index := Scalar.indexCast arg12
  let c96_648 : Index := 96#32
  ![v783.toNat, 96]

def k0_chk31 (v784 : IVec S16 32) : Prop :=
  (∀ a x, ((![v784] : Fin 1 → IVec S16 32) a x).toNat < S100000.size a)
instance k0_chk31.dec : ∀ (v784 : IVec S16 32), Decidable (k0_chk31 v784) := fun v784 => decidable_of_iff' _ (Iff.of_eq (k0_chk31.eq_1 v784))
theorem k0_idx31_inb : ∀ (v784 : IVec S16 32) (k0_hw31 : k0_chk31 v784), ∀ a x, ((![v784] : Fin 1 → IVec S16 32) a x).toNat < S100000.size a := fun v784 k0_hw31 => k0_hw31
def k0_off33 (k0_t4 : Fin k0_t4_loop.trips) : Fin 2 → Nat :=
  let c0_i32_126 : BitVec 32 := 0#32
  let c1_i32_128 : BitVec 32 := 1#32
  let arg12 : BitVec 32 := Scf.iv c0_i32_126 c1_i32_128 k0_t4
  let v787 : Index := Scalar.indexCast arg12
  let c112_649 : Index := 112#32
  ![v787.toNat, 112]

def k0_chk32 (v788 : IVec S16 32) : Prop :=
  (∀ a x, ((![v788] : Fin 1 → IVec S16 32) a x).toNat < S100000.size a)
instance k0_chk32.dec : ∀ (v788 : IVec S16 32), Decidable (k0_chk32 v788) := fun v788 => decidable_of_iff' _ (Iff.of_eq (k0_chk32.eq_1 v788))
theorem k0_idx32_inb : ∀ (v788 : IVec S16 32) (k0_hw32 : k0_chk32 v788), ∀ a x, ((![v788] : Fin 1 → IVec S16 32) a x).toNat < S100000.size a := fun v788 k0_hw32 => k0_hw32
@[reducible] def k0_t5_loop : Scf.Loop 32 :=
  let c0_i32_161 : BitVec 32 := 0#32
  let c50_i32_162 : BitVec 32 := 50#32
  let v210 : BitVec 32 := Scalar.addi c0_i32_161 c50_i32_162
  let c1_i32_163 : BitVec 32 := 1#32
  ⟨c0_i32_161, v210, c1_i32_163⟩
def k0_off34 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v759 : Index := Scalar.indexCast arg12
  let c0_642 : Index := 0#32
  ![v759.toNat, 0]

def k0_chk33 (v760 : IVec S16 32) : Prop :=
  (∀ a x, ((![v760] : Fin 1 → IVec S16 32) a x).toNat < S100000.size a)
instance k0_chk33.dec : ∀ (v760 : IVec S16 32), Decidable (k0_chk33 v760) := fun v760 => decidable_of_iff' _ (Iff.of_eq (k0_chk33.eq_1 v760))
theorem k0_idx33_inb : ∀ (v760 : IVec S16 32) (k0_hw33 : k0_chk33 v760), ∀ a x, ((![v760] : Fin 1 → IVec S16 32) a x).toNat < S100000.size a := fun v760 k0_hw33 => k0_hw33
def k0_off35 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v763 : Index := Scalar.indexCast arg12
  let c16_643 : Index := 16#32
  ![v763.toNat, 16]

def k0_chk34 (v764 : IVec S16 32) : Prop :=
  (∀ a x, ((![v764] : Fin 1 → IVec S16 32) a x).toNat < S100000.size a)
instance k0_chk34.dec : ∀ (v764 : IVec S16 32), Decidable (k0_chk34 v764) := fun v764 => decidable_of_iff' _ (Iff.of_eq (k0_chk34.eq_1 v764))
theorem k0_idx34_inb : ∀ (v764 : IVec S16 32) (k0_hw34 : k0_chk34 v764), ∀ a x, ((![v764] : Fin 1 → IVec S16 32) a x).toNat < S100000.size a := fun v764 k0_hw34 => k0_hw34
def k0_off36 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v767 : Index := Scalar.indexCast arg12
  let c32_644 : Index := 32#32
  ![v767.toNat, 32]

def k0_chk35 (v768 : IVec S16 32) : Prop :=
  (∀ a x, ((![v768] : Fin 1 → IVec S16 32) a x).toNat < S100000.size a)
instance k0_chk35.dec : ∀ (v768 : IVec S16 32), Decidable (k0_chk35 v768) := fun v768 => decidable_of_iff' _ (Iff.of_eq (k0_chk35.eq_1 v768))
theorem k0_idx35_inb : ∀ (v768 : IVec S16 32) (k0_hw35 : k0_chk35 v768), ∀ a x, ((![v768] : Fin 1 → IVec S16 32) a x).toNat < S100000.size a := fun v768 k0_hw35 => k0_hw35
def k0_off37 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v771 : Index := Scalar.indexCast arg12
  let c48_645 : Index := 48#32
  ![v771.toNat, 48]

def k0_chk36 (v772 : IVec S16 32) : Prop :=
  (∀ a x, ((![v772] : Fin 1 → IVec S16 32) a x).toNat < S100000.size a)
instance k0_chk36.dec : ∀ (v772 : IVec S16 32), Decidable (k0_chk36 v772) := fun v772 => decidable_of_iff' _ (Iff.of_eq (k0_chk36.eq_1 v772))
theorem k0_idx36_inb : ∀ (v772 : IVec S16 32) (k0_hw36 : k0_chk36 v772), ∀ a x, ((![v772] : Fin 1 → IVec S16 32) a x).toNat < S100000.size a := fun v772 k0_hw36 => k0_hw36
def k0_off38 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v775 : Index := Scalar.indexCast arg12
  let c64_646 : Index := 64#32
  ![v775.toNat, 64]

def k0_chk37 (v776 : IVec S16 32) : Prop :=
  (∀ a x, ((![v776] : Fin 1 → IVec S16 32) a x).toNat < S100000.size a)
instance k0_chk37.dec : ∀ (v776 : IVec S16 32), Decidable (k0_chk37 v776) := fun v776 => decidable_of_iff' _ (Iff.of_eq (k0_chk37.eq_1 v776))
theorem k0_idx37_inb : ∀ (v776 : IVec S16 32) (k0_hw37 : k0_chk37 v776), ∀ a x, ((![v776] : Fin 1 → IVec S16 32) a x).toNat < S100000.size a := fun v776 k0_hw37 => k0_hw37
def k0_off39 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v779 : Index := Scalar.indexCast arg12
  let c80_647 : Index := 80#32
  ![v779.toNat, 80]

def k0_chk38 (v780 : IVec S16 32) : Prop :=
  (∀ a x, ((![v780] : Fin 1 → IVec S16 32) a x).toNat < S100000.size a)
instance k0_chk38.dec : ∀ (v780 : IVec S16 32), Decidable (k0_chk38 v780) := fun v780 => decidable_of_iff' _ (Iff.of_eq (k0_chk38.eq_1 v780))
theorem k0_idx38_inb : ∀ (v780 : IVec S16 32) (k0_hw38 : k0_chk38 v780), ∀ a x, ((![v780] : Fin 1 → IVec S16 32) a x).toNat < S100000.size a := fun v780 k0_hw38 => k0_hw38
def k0_off40 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v783 : Index := Scalar.indexCast arg12
  let c96_648 : Index := 96#32
  ![v783.toNat, 96]

def k0_chk39 (v784 : IVec S16 32) : Prop :=
  (∀ a x, ((![v784] : Fin 1 → IVec S16 32) a x).toNat < S100000.size a)
instance k0_chk39.dec : ∀ (v784 : IVec S16 32), Decidable (k0_chk39 v784) := fun v784 => decidable_of_iff' _ (Iff.of_eq (k0_chk39.eq_1 v784))
theorem k0_idx39_inb : ∀ (v784 : IVec S16 32) (k0_hw39 : k0_chk39 v784), ∀ a x, ((![v784] : Fin 1 → IVec S16 32) a x).toNat < S100000.size a := fun v784 k0_hw39 => k0_hw39
def k0_off41 (k0_t5 : Fin k0_t5_loop.trips) : Fin 2 → Nat :=
  let c0_i32_161 : BitVec 32 := 0#32
  let c1_i32_163 : BitVec 32 := 1#32
  let arg12 : BitVec 32 := Scf.iv c0_i32_161 c1_i32_163 k0_t5
  let v787 : Index := Scalar.indexCast arg12
  let c112_649 : Index := 112#32
  ![v787.toNat, 112]

def k0_chk40 (v788 : IVec S16 32) : Prop :=
  (∀ a x, ((![v788] : Fin 1 → IVec S16 32) a x).toNat < S100000.size a)
instance k0_chk40.dec : ∀ (v788 : IVec S16 32), Decidable (k0_chk40 v788) := fun v788 => decidable_of_iff' _ (Iff.of_eq (k0_chk40.eq_1 v788))
theorem k0_idx40_inb : ∀ (v788 : IVec S16 32) (k0_hw40 : k0_chk40 v788), ∀ a x, ((![v788] : Fin 1 → IVec S16 32) a x).toNat < S100000.size a := fun v788 k0_hw40 => k0_hw40
@[reducible] def k0_t6_loop : Scf.Loop 32 :=
  let c0_i32_196 : BitVec 32 := 0#32
  let c50_i32_197 : BitVec 32 := 50#32
  let v256 : BitVec 32 := Scalar.addi c0_i32_196 c50_i32_197
  let c1_i32_198 : BitVec 32 := 1#32
  ⟨c0_i32_196, v256, c1_i32_198⟩
def k0_off42 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v759 : Index := Scalar.indexCast arg12
  let c0_642 : Index := 0#32
  ![v759.toNat, 0]

def k0_chk41 (v760 : IVec S16 32) : Prop :=
  (∀ a x, ((![v760] : Fin 1 → IVec S16 32) a x).toNat < S100000.size a)
instance k0_chk41.dec : ∀ (v760 : IVec S16 32), Decidable (k0_chk41 v760) := fun v760 => decidable_of_iff' _ (Iff.of_eq (k0_chk41.eq_1 v760))
theorem k0_idx41_inb : ∀ (v760 : IVec S16 32) (k0_hw41 : k0_chk41 v760), ∀ a x, ((![v760] : Fin 1 → IVec S16 32) a x).toNat < S100000.size a := fun v760 k0_hw41 => k0_hw41
def k0_off43 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v763 : Index := Scalar.indexCast arg12
  let c16_643 : Index := 16#32
  ![v763.toNat, 16]

def k0_chk42 (v764 : IVec S16 32) : Prop :=
  (∀ a x, ((![v764] : Fin 1 → IVec S16 32) a x).toNat < S100000.size a)
instance k0_chk42.dec : ∀ (v764 : IVec S16 32), Decidable (k0_chk42 v764) := fun v764 => decidable_of_iff' _ (Iff.of_eq (k0_chk42.eq_1 v764))
theorem k0_idx42_inb : ∀ (v764 : IVec S16 32) (k0_hw42 : k0_chk42 v764), ∀ a x, ((![v764] : Fin 1 → IVec S16 32) a x).toNat < S100000.size a := fun v764 k0_hw42 => k0_hw42
def k0_off44 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v767 : Index := Scalar.indexCast arg12
  let c32_644 : Index := 32#32
  ![v767.toNat, 32]

def k0_chk43 (v768 : IVec S16 32) : Prop :=
  (∀ a x, ((![v768] : Fin 1 → IVec S16 32) a x).toNat < S100000.size a)
instance k0_chk43.dec : ∀ (v768 : IVec S16 32), Decidable (k0_chk43 v768) := fun v768 => decidable_of_iff' _ (Iff.of_eq (k0_chk43.eq_1 v768))
theorem k0_idx43_inb : ∀ (v768 : IVec S16 32) (k0_hw43 : k0_chk43 v768), ∀ a x, ((![v768] : Fin 1 → IVec S16 32) a x).toNat < S100000.size a := fun v768 k0_hw43 => k0_hw43
def k0_off45 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v771 : Index := Scalar.indexCast arg12
  let c48_645 : Index := 48#32
  ![v771.toNat, 48]

def k0_chk44 (v772 : IVec S16 32) : Prop :=
  (∀ a x, ((![v772] : Fin 1 → IVec S16 32) a x).toNat < S100000.size a)
instance k0_chk44.dec : ∀ (v772 : IVec S16 32), Decidable (k0_chk44 v772) := fun v772 => decidable_of_iff' _ (Iff.of_eq (k0_chk44.eq_1 v772))
theorem k0_idx44_inb : ∀ (v772 : IVec S16 32) (k0_hw44 : k0_chk44 v772), ∀ a x, ((![v772] : Fin 1 → IVec S16 32) a x).toNat < S100000.size a := fun v772 k0_hw44 => k0_hw44
def k0_off46 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v775 : Index := Scalar.indexCast arg12
  let c64_646 : Index := 64#32
  ![v775.toNat, 64]

def k0_chk45 (v776 : IVec S16 32) : Prop :=
  (∀ a x, ((![v776] : Fin 1 → IVec S16 32) a x).toNat < S100000.size a)
instance k0_chk45.dec : ∀ (v776 : IVec S16 32), Decidable (k0_chk45 v776) := fun v776 => decidable_of_iff' _ (Iff.of_eq (k0_chk45.eq_1 v776))
theorem k0_idx45_inb : ∀ (v776 : IVec S16 32) (k0_hw45 : k0_chk45 v776), ∀ a x, ((![v776] : Fin 1 → IVec S16 32) a x).toNat < S100000.size a := fun v776 k0_hw45 => k0_hw45
def k0_off47 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v779 : Index := Scalar.indexCast arg12
  let c80_647 : Index := 80#32
  ![v779.toNat, 80]

def k0_chk46 (v780 : IVec S16 32) : Prop :=
  (∀ a x, ((![v780] : Fin 1 → IVec S16 32) a x).toNat < S100000.size a)
instance k0_chk46.dec : ∀ (v780 : IVec S16 32), Decidable (k0_chk46 v780) := fun v780 => decidable_of_iff' _ (Iff.of_eq (k0_chk46.eq_1 v780))
theorem k0_idx46_inb : ∀ (v780 : IVec S16 32) (k0_hw46 : k0_chk46 v780), ∀ a x, ((![v780] : Fin 1 → IVec S16 32) a x).toNat < S100000.size a := fun v780 k0_hw46 => k0_hw46
def k0_off48 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v783 : Index := Scalar.indexCast arg12
  let c96_648 : Index := 96#32
  ![v783.toNat, 96]

def k0_chk47 (v784 : IVec S16 32) : Prop :=
  (∀ a x, ((![v784] : Fin 1 → IVec S16 32) a x).toNat < S100000.size a)
instance k0_chk47.dec : ∀ (v784 : IVec S16 32), Decidable (k0_chk47 v784) := fun v784 => decidable_of_iff' _ (Iff.of_eq (k0_chk47.eq_1 v784))
theorem k0_idx47_inb : ∀ (v784 : IVec S16 32) (k0_hw47 : k0_chk47 v784), ∀ a x, ((![v784] : Fin 1 → IVec S16 32) a x).toNat < S100000.size a := fun v784 k0_hw47 => k0_hw47
def k0_off49 (k0_t6 : Fin k0_t6_loop.trips) : Fin 2 → Nat :=
  let c0_i32_196 : BitVec 32 := 0#32
  let c1_i32_198 : BitVec 32 := 1#32
  let arg12 : BitVec 32 := Scf.iv c0_i32_196 c1_i32_198 k0_t6
  let v787 : Index := Scalar.indexCast arg12
  let c112_649 : Index := 112#32
  ![v787.toNat, 112]

def k0_chk48 (v788 : IVec S16 32) : Prop :=
  (∀ a x, ((![v788] : Fin 1 → IVec S16 32) a x).toNat < S100000.size a)
instance k0_chk48.dec : ∀ (v788 : IVec S16 32), Decidable (k0_chk48 v788) := fun v788 => decidable_of_iff' _ (Iff.of_eq (k0_chk48.eq_1 v788))
theorem k0_idx48_inb : ∀ (v788 : IVec S16 32) (k0_hw48 : k0_chk48 v788), ∀ a x, ((![v788] : Fin 1 → IVec S16 32) a x).toNat < S100000.size a := fun v788 k0_hw48 => k0_hw48
@[reducible] def k0_t7_loop : Scf.Loop 32 :=
  let c0_i32_231 : BitVec 32 := 0#32
  let c50_i32_232 : BitVec 32 := 50#32
  let v302 : BitVec 32 := Scalar.addi c0_i32_231 c50_i32_232
  let c1_i32_233 : BitVec 32 := 1#32
  ⟨c0_i32_231, v302, c1_i32_233⟩
def k0_off50 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v759 : Index := Scalar.indexCast arg12
  let c0_642 : Index := 0#32
  ![v759.toNat, 0]

def k0_chk49 (v760 : IVec S16 32) : Prop :=
  (∀ a x, ((![v760] : Fin 1 → IVec S16 32) a x).toNat < S100000.size a)
instance k0_chk49.dec : ∀ (v760 : IVec S16 32), Decidable (k0_chk49 v760) := fun v760 => decidable_of_iff' _ (Iff.of_eq (k0_chk49.eq_1 v760))
theorem k0_idx49_inb : ∀ (v760 : IVec S16 32) (k0_hw49 : k0_chk49 v760), ∀ a x, ((![v760] : Fin 1 → IVec S16 32) a x).toNat < S100000.size a := fun v760 k0_hw49 => k0_hw49
def k0_off51 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v763 : Index := Scalar.indexCast arg12
  let c16_643 : Index := 16#32
  ![v763.toNat, 16]

def k0_chk50 (v764 : IVec S16 32) : Prop :=
  (∀ a x, ((![v764] : Fin 1 → IVec S16 32) a x).toNat < S100000.size a)
instance k0_chk50.dec : ∀ (v764 : IVec S16 32), Decidable (k0_chk50 v764) := fun v764 => decidable_of_iff' _ (Iff.of_eq (k0_chk50.eq_1 v764))
theorem k0_idx50_inb : ∀ (v764 : IVec S16 32) (k0_hw50 : k0_chk50 v764), ∀ a x, ((![v764] : Fin 1 → IVec S16 32) a x).toNat < S100000.size a := fun v764 k0_hw50 => k0_hw50
def k0_off52 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v767 : Index := Scalar.indexCast arg12
  let c32_644 : Index := 32#32
  ![v767.toNat, 32]

def k0_chk51 (v768 : IVec S16 32) : Prop :=
  (∀ a x, ((![v768] : Fin 1 → IVec S16 32) a x).toNat < S100000.size a)
instance k0_chk51.dec : ∀ (v768 : IVec S16 32), Decidable (k0_chk51 v768) := fun v768 => decidable_of_iff' _ (Iff.of_eq (k0_chk51.eq_1 v768))
theorem k0_idx51_inb : ∀ (v768 : IVec S16 32) (k0_hw51 : k0_chk51 v768), ∀ a x, ((![v768] : Fin 1 → IVec S16 32) a x).toNat < S100000.size a := fun v768 k0_hw51 => k0_hw51
def k0_off53 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v771 : Index := Scalar.indexCast arg12
  let c48_645 : Index := 48#32
  ![v771.toNat, 48]

def k0_chk52 (v772 : IVec S16 32) : Prop :=
  (∀ a x, ((![v772] : Fin 1 → IVec S16 32) a x).toNat < S100000.size a)
instance k0_chk52.dec : ∀ (v772 : IVec S16 32), Decidable (k0_chk52 v772) := fun v772 => decidable_of_iff' _ (Iff.of_eq (k0_chk52.eq_1 v772))
theorem k0_idx52_inb : ∀ (v772 : IVec S16 32) (k0_hw52 : k0_chk52 v772), ∀ a x, ((![v772] : Fin 1 → IVec S16 32) a x).toNat < S100000.size a := fun v772 k0_hw52 => k0_hw52
def k0_off54 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v775 : Index := Scalar.indexCast arg12
  let c64_646 : Index := 64#32
  ![v775.toNat, 64]

def k0_chk53 (v776 : IVec S16 32) : Prop :=
  (∀ a x, ((![v776] : Fin 1 → IVec S16 32) a x).toNat < S100000.size a)
instance k0_chk53.dec : ∀ (v776 : IVec S16 32), Decidable (k0_chk53 v776) := fun v776 => decidable_of_iff' _ (Iff.of_eq (k0_chk53.eq_1 v776))
theorem k0_idx53_inb : ∀ (v776 : IVec S16 32) (k0_hw53 : k0_chk53 v776), ∀ a x, ((![v776] : Fin 1 → IVec S16 32) a x).toNat < S100000.size a := fun v776 k0_hw53 => k0_hw53
def k0_off55 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v779 : Index := Scalar.indexCast arg12
  let c80_647 : Index := 80#32
  ![v779.toNat, 80]

def k0_chk54 (v780 : IVec S16 32) : Prop :=
  (∀ a x, ((![v780] : Fin 1 → IVec S16 32) a x).toNat < S100000.size a)
instance k0_chk54.dec : ∀ (v780 : IVec S16 32), Decidable (k0_chk54 v780) := fun v780 => decidable_of_iff' _ (Iff.of_eq (k0_chk54.eq_1 v780))
theorem k0_idx54_inb : ∀ (v780 : IVec S16 32) (k0_hw54 : k0_chk54 v780), ∀ a x, ((![v780] : Fin 1 → IVec S16 32) a x).toNat < S100000.size a := fun v780 k0_hw54 => k0_hw54
def k0_off56 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v783 : Index := Scalar.indexCast arg12
  let c96_648 : Index := 96#32
  ![v783.toNat, 96]

def k0_chk55 (v784 : IVec S16 32) : Prop :=
  (∀ a x, ((![v784] : Fin 1 → IVec S16 32) a x).toNat < S100000.size a)
instance k0_chk55.dec : ∀ (v784 : IVec S16 32), Decidable (k0_chk55 v784) := fun v784 => decidable_of_iff' _ (Iff.of_eq (k0_chk55.eq_1 v784))
theorem k0_idx55_inb : ∀ (v784 : IVec S16 32) (k0_hw55 : k0_chk55 v784), ∀ a x, ((![v784] : Fin 1 → IVec S16 32) a x).toNat < S100000.size a := fun v784 k0_hw55 => k0_hw55
def k0_off57 (k0_t7 : Fin k0_t7_loop.trips) : Fin 2 → Nat :=
  let c0_i32_231 : BitVec 32 := 0#32
  let c1_i32_233 : BitVec 32 := 1#32
  let arg12 : BitVec 32 := Scf.iv c0_i32_231 c1_i32_233 k0_t7
  let v787 : Index := Scalar.indexCast arg12
  let c112_649 : Index := 112#32
  ![v787.toNat, 112]

def k0_chk56 (v788 : IVec S16 32) : Prop :=
  (∀ a x, ((![v788] : Fin 1 → IVec S16 32) a x).toNat < S100000.size a)
instance k0_chk56.dec : ∀ (v788 : IVec S16 32), Decidable (k0_chk56 v788) := fun v788 => decidable_of_iff' _ (Iff.of_eq (k0_chk56.eq_1 v788))
theorem k0_idx56_inb : ∀ (v788 : IVec S16 32) (k0_hw56 : k0_chk56 v788), ∀ a x, ((![v788] : Fin 1 → IVec S16 32) a x).toNat < S100000.size a := fun v788 k0_hw56 => k0_hw56
@[reducible] def k0_t8_loop : Scf.Loop 32 :=
  let c0_i32_263 : BitVec 32 := 0#32
  let c50_i32_264 : BitVec 32 := 50#32
  let v346 : BitVec 32 := Scalar.addi c0_i32_263 c50_i32_264
  let c1_i32_265 : BitVec 32 := 1#32
  ⟨c0_i32_263, v346, c1_i32_265⟩
def k0_off58 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v759 : Index := Scalar.indexCast arg12
  let c0_642 : Index := 0#32
  ![v759.toNat, 0]

def k0_chk57 (v760 : IVec S16 32) : Prop :=
  (∀ a x, ((![v760] : Fin 1 → IVec S16 32) a x).toNat < S100000.size a)
instance k0_chk57.dec : ∀ (v760 : IVec S16 32), Decidable (k0_chk57 v760) := fun v760 => decidable_of_iff' _ (Iff.of_eq (k0_chk57.eq_1 v760))
theorem k0_idx57_inb : ∀ (v760 : IVec S16 32) (k0_hw57 : k0_chk57 v760), ∀ a x, ((![v760] : Fin 1 → IVec S16 32) a x).toNat < S100000.size a := fun v760 k0_hw57 => k0_hw57
def k0_off59 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v763 : Index := Scalar.indexCast arg12
  let c16_643 : Index := 16#32
  ![v763.toNat, 16]

def k0_chk58 (v764 : IVec S16 32) : Prop :=
  (∀ a x, ((![v764] : Fin 1 → IVec S16 32) a x).toNat < S100000.size a)
instance k0_chk58.dec : ∀ (v764 : IVec S16 32), Decidable (k0_chk58 v764) := fun v764 => decidable_of_iff' _ (Iff.of_eq (k0_chk58.eq_1 v764))
theorem k0_idx58_inb : ∀ (v764 : IVec S16 32) (k0_hw58 : k0_chk58 v764), ∀ a x, ((![v764] : Fin 1 → IVec S16 32) a x).toNat < S100000.size a := fun v764 k0_hw58 => k0_hw58
def k0_off60 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v767 : Index := Scalar.indexCast arg12
  let c32_644 : Index := 32#32
  ![v767.toNat, 32]

def k0_chk59 (v768 : IVec S16 32) : Prop :=
  (∀ a x, ((![v768] : Fin 1 → IVec S16 32) a x).toNat < S100000.size a)
instance k0_chk59.dec : ∀ (v768 : IVec S16 32), Decidable (k0_chk59 v768) := fun v768 => decidable_of_iff' _ (Iff.of_eq (k0_chk59.eq_1 v768))
theorem k0_idx59_inb : ∀ (v768 : IVec S16 32) (k0_hw59 : k0_chk59 v768), ∀ a x, ((![v768] : Fin 1 → IVec S16 32) a x).toNat < S100000.size a := fun v768 k0_hw59 => k0_hw59
def k0_off61 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v771 : Index := Scalar.indexCast arg12
  let c48_645 : Index := 48#32
  ![v771.toNat, 48]

def k0_chk60 (v772 : IVec S16 32) : Prop :=
  (∀ a x, ((![v772] : Fin 1 → IVec S16 32) a x).toNat < S100000.size a)
instance k0_chk60.dec : ∀ (v772 : IVec S16 32), Decidable (k0_chk60 v772) := fun v772 => decidable_of_iff' _ (Iff.of_eq (k0_chk60.eq_1 v772))
theorem k0_idx60_inb : ∀ (v772 : IVec S16 32) (k0_hw60 : k0_chk60 v772), ∀ a x, ((![v772] : Fin 1 → IVec S16 32) a x).toNat < S100000.size a := fun v772 k0_hw60 => k0_hw60
def k0_off62 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v775 : Index := Scalar.indexCast arg12
  let c64_646 : Index := 64#32
  ![v775.toNat, 64]

def k0_chk61 (v776 : IVec S16 32) : Prop :=
  (∀ a x, ((![v776] : Fin 1 → IVec S16 32) a x).toNat < S100000.size a)
instance k0_chk61.dec : ∀ (v776 : IVec S16 32), Decidable (k0_chk61 v776) := fun v776 => decidable_of_iff' _ (Iff.of_eq (k0_chk61.eq_1 v776))
theorem k0_idx61_inb : ∀ (v776 : IVec S16 32) (k0_hw61 : k0_chk61 v776), ∀ a x, ((![v776] : Fin 1 → IVec S16 32) a x).toNat < S100000.size a := fun v776 k0_hw61 => k0_hw61
def k0_off63 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v779 : Index := Scalar.indexCast arg12
  let c80_647 : Index := 80#32
  ![v779.toNat, 80]

def k0_chk62 (v780 : IVec S16 32) : Prop :=
  (∀ a x, ((![v780] : Fin 1 → IVec S16 32) a x).toNat < S100000.size a)
instance k0_chk62.dec : ∀ (v780 : IVec S16 32), Decidable (k0_chk62 v780) := fun v780 => decidable_of_iff' _ (Iff.of_eq (k0_chk62.eq_1 v780))
theorem k0_idx62_inb : ∀ (v780 : IVec S16 32) (k0_hw62 : k0_chk62 v780), ∀ a x, ((![v780] : Fin 1 → IVec S16 32) a x).toNat < S100000.size a := fun v780 k0_hw62 => k0_hw62
def k0_off64 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v783 : Index := Scalar.indexCast arg12
  let c96_648 : Index := 96#32
  ![v783.toNat, 96]

def k0_chk63 (v784 : IVec S16 32) : Prop :=
  (∀ a x, ((![v784] : Fin 1 → IVec S16 32) a x).toNat < S100000.size a)
instance k0_chk63.dec : ∀ (v784 : IVec S16 32), Decidable (k0_chk63 v784) := fun v784 => decidable_of_iff' _ (Iff.of_eq (k0_chk63.eq_1 v784))
theorem k0_idx63_inb : ∀ (v784 : IVec S16 32) (k0_hw63 : k0_chk63 v784), ∀ a x, ((![v784] : Fin 1 → IVec S16 32) a x).toNat < S100000.size a := fun v784 k0_hw63 => k0_hw63
def k0_off65 (k0_t8 : Fin k0_t8_loop.trips) : Fin 2 → Nat :=
  let c0_i32_263 : BitVec 32 := 0#32
  let c1_i32_265 : BitVec 32 := 1#32
  let arg12 : BitVec 32 := Scf.iv c0_i32_263 c1_i32_265 k0_t8
  let v787 : Index := Scalar.indexCast arg12
  let c112_649 : Index := 112#32
  ![v787.toNat, 112]

def k0_chk64 (v788 : IVec S16 32) : Prop :=
  (∀ a x, ((![v788] : Fin 1 → IVec S16 32) a x).toNat < S100000.size a)
instance k0_chk64.dec : ∀ (v788 : IVec S16 32), Decidable (k0_chk64 v788) := fun v788 => decidable_of_iff' _ (Iff.of_eq (k0_chk64.eq_1 v788))
theorem k0_idx64_inb : ∀ (v788 : IVec S16 32) (k0_hw64 : k0_chk64 v788), ∀ a x, ((![v788] : Fin 1 → IVec S16 32) a x).toNat < S100000.size a := fun v788 k0_hw64 => k0_hw64
@[reducible] def k0_t9_loop : Scf.Loop 32 :=
  let c0_i32_309 : BitVec 32 := 0#32
  let c50_i32_310 : BitVec 32 := 50#32
  let v404 : BitVec 32 := Scalar.addi c0_i32_309 c50_i32_310
  let c1_i32_311 : BitVec 32 := 1#32
  ⟨c0_i32_309, v404, c1_i32_311⟩
def k0_off66 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v759 : Index := Scalar.indexCast arg12
  let c0_642 : Index := 0#32
  ![v759.toNat, 0]

def k0_chk65 (v760 : IVec S16 32) : Prop :=
  (∀ a x, ((![v760] : Fin 1 → IVec S16 32) a x).toNat < S100000.size a)
instance k0_chk65.dec : ∀ (v760 : IVec S16 32), Decidable (k0_chk65 v760) := fun v760 => decidable_of_iff' _ (Iff.of_eq (k0_chk65.eq_1 v760))
theorem k0_idx65_inb : ∀ (v760 : IVec S16 32) (k0_hw65 : k0_chk65 v760), ∀ a x, ((![v760] : Fin 1 → IVec S16 32) a x).toNat < S100000.size a := fun v760 k0_hw65 => k0_hw65
def k0_off67 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v763 : Index := Scalar.indexCast arg12
  let c16_643 : Index := 16#32
  ![v763.toNat, 16]

def k0_chk66 (v764 : IVec S16 32) : Prop :=
  (∀ a x, ((![v764] : Fin 1 → IVec S16 32) a x).toNat < S100000.size a)
instance k0_chk66.dec : ∀ (v764 : IVec S16 32), Decidable (k0_chk66 v764) := fun v764 => decidable_of_iff' _ (Iff.of_eq (k0_chk66.eq_1 v764))
theorem k0_idx66_inb : ∀ (v764 : IVec S16 32) (k0_hw66 : k0_chk66 v764), ∀ a x, ((![v764] : Fin 1 → IVec S16 32) a x).toNat < S100000.size a := fun v764 k0_hw66 => k0_hw66
def k0_off68 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v767 : Index := Scalar.indexCast arg12
  let c32_644 : Index := 32#32
  ![v767.toNat, 32]

def k0_chk67 (v768 : IVec S16 32) : Prop :=
  (∀ a x, ((![v768] : Fin 1 → IVec S16 32) a x).toNat < S100000.size a)
instance k0_chk67.dec : ∀ (v768 : IVec S16 32), Decidable (k0_chk67 v768) := fun v768 => decidable_of_iff' _ (Iff.of_eq (k0_chk67.eq_1 v768))
theorem k0_idx67_inb : ∀ (v768 : IVec S16 32) (k0_hw67 : k0_chk67 v768), ∀ a x, ((![v768] : Fin 1 → IVec S16 32) a x).toNat < S100000.size a := fun v768 k0_hw67 => k0_hw67
def k0_off69 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v771 : Index := Scalar.indexCast arg12
  let c48_645 : Index := 48#32
  ![v771.toNat, 48]

def k0_chk68 (v772 : IVec S16 32) : Prop :=
  (∀ a x, ((![v772] : Fin 1 → IVec S16 32) a x).toNat < S100000.size a)
instance k0_chk68.dec : ∀ (v772 : IVec S16 32), Decidable (k0_chk68 v772) := fun v772 => decidable_of_iff' _ (Iff.of_eq (k0_chk68.eq_1 v772))
theorem k0_idx68_inb : ∀ (v772 : IVec S16 32) (k0_hw68 : k0_chk68 v772), ∀ a x, ((![v772] : Fin 1 → IVec S16 32) a x).toNat < S100000.size a := fun v772 k0_hw68 => k0_hw68
def k0_off70 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v775 : Index := Scalar.indexCast arg12
  let c64_646 : Index := 64#32
  ![v775.toNat, 64]

def k0_chk69 (v776 : IVec S16 32) : Prop :=
  (∀ a x, ((![v776] : Fin 1 → IVec S16 32) a x).toNat < S100000.size a)
instance k0_chk69.dec : ∀ (v776 : IVec S16 32), Decidable (k0_chk69 v776) := fun v776 => decidable_of_iff' _ (Iff.of_eq (k0_chk69.eq_1 v776))
theorem k0_idx69_inb : ∀ (v776 : IVec S16 32) (k0_hw69 : k0_chk69 v776), ∀ a x, ((![v776] : Fin 1 → IVec S16 32) a x).toNat < S100000.size a := fun v776 k0_hw69 => k0_hw69
def k0_off71 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v779 : Index := Scalar.indexCast arg12
  let c80_647 : Index := 80#32
  ![v779.toNat, 80]

def k0_chk70 (v780 : IVec S16 32) : Prop :=
  (∀ a x, ((![v780] : Fin 1 → IVec S16 32) a x).toNat < S100000.size a)
instance k0_chk70.dec : ∀ (v780 : IVec S16 32), Decidable (k0_chk70 v780) := fun v780 => decidable_of_iff' _ (Iff.of_eq (k0_chk70.eq_1 v780))
theorem k0_idx70_inb : ∀ (v780 : IVec S16 32) (k0_hw70 : k0_chk70 v780), ∀ a x, ((![v780] : Fin 1 → IVec S16 32) a x).toNat < S100000.size a := fun v780 k0_hw70 => k0_hw70
def k0_off72 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v783 : Index := Scalar.indexCast arg12
  let c96_648 : Index := 96#32
  ![v783.toNat, 96]

def k0_chk71 (v784 : IVec S16 32) : Prop :=
  (∀ a x, ((![v784] : Fin 1 → IVec S16 32) a x).toNat < S100000.size a)
instance k0_chk71.dec : ∀ (v784 : IVec S16 32), Decidable (k0_chk71 v784) := fun v784 => decidable_of_iff' _ (Iff.of_eq (k0_chk71.eq_1 v784))
theorem k0_idx71_inb : ∀ (v784 : IVec S16 32) (k0_hw71 : k0_chk71 v784), ∀ a x, ((![v784] : Fin 1 → IVec S16 32) a x).toNat < S100000.size a := fun v784 k0_hw71 => k0_hw71
def k0_off73 (k0_t9 : Fin k0_t9_loop.trips) : Fin 2 → Nat :=
  let c0_i32_309 : BitVec 32 := 0#32
  let c1_i32_311 : BitVec 32 := 1#32
  let arg12 : BitVec 32 := Scf.iv c0_i32_309 c1_i32_311 k0_t9
  let v787 : Index := Scalar.indexCast arg12
  let c112_649 : Index := 112#32
  ![v787.toNat, 112]

def k0_chk72 (v788 : IVec S16 32) : Prop :=
  (∀ a x, ((![v788] : Fin 1 → IVec S16 32) a x).toNat < S100000.size a)
instance k0_chk72.dec : ∀ (v788 : IVec S16 32), Decidable (k0_chk72 v788) := fun v788 => decidable_of_iff' _ (Iff.of_eq (k0_chk72.eq_1 v788))
theorem k0_idx72_inb : ∀ (v788 : IVec S16 32) (k0_hw72 : k0_chk72 v788), ∀ a x, ((![v788] : Fin 1 → IVec S16 32) a x).toNat < S100000.size a := fun v788 k0_hw72 => k0_hw72
@[reducible] def k0_t10_loop : Scf.Loop 32 :=
  let c0_i32_353 : BitVec 32 := 0#32
  let c50_i32_354 : BitVec 32 := 50#32
  let v450 : BitVec 32 := Scalar.addi c0_i32_353 c50_i32_354
  let c1_i32_355 : BitVec 32 := 1#32
  ⟨c0_i32_353, v450, c1_i32_355⟩
def k0_off74 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v759 : Index := Scalar.indexCast arg12
  let c0_642 : Index := 0#32
  ![v759.toNat, 0]

def k0_chk73 (v760 : IVec S16 32) : Prop :=
  (∀ a x, ((![v760] : Fin 1 → IVec S16 32) a x).toNat < S100000.size a)
instance k0_chk73.dec : ∀ (v760 : IVec S16 32), Decidable (k0_chk73 v760) := fun v760 => decidable_of_iff' _ (Iff.of_eq (k0_chk73.eq_1 v760))
theorem k0_idx73_inb : ∀ (v760 : IVec S16 32) (k0_hw73 : k0_chk73 v760), ∀ a x, ((![v760] : Fin 1 → IVec S16 32) a x).toNat < S100000.size a := fun v760 k0_hw73 => k0_hw73
def k0_off75 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v763 : Index := Scalar.indexCast arg12
  let c16_643 : Index := 16#32
  ![v763.toNat, 16]

def k0_chk74 (v764 : IVec S16 32) : Prop :=
  (∀ a x, ((![v764] : Fin 1 → IVec S16 32) a x).toNat < S100000.size a)
instance k0_chk74.dec : ∀ (v764 : IVec S16 32), Decidable (k0_chk74 v764) := fun v764 => decidable_of_iff' _ (Iff.of_eq (k0_chk74.eq_1 v764))
theorem k0_idx74_inb : ∀ (v764 : IVec S16 32) (k0_hw74 : k0_chk74 v764), ∀ a x, ((![v764] : Fin 1 → IVec S16 32) a x).toNat < S100000.size a := fun v764 k0_hw74 => k0_hw74
def k0_off76 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v767 : Index := Scalar.indexCast arg12
  let c32_644 : Index := 32#32
  ![v767.toNat, 32]

def k0_chk75 (v768 : IVec S16 32) : Prop :=
  (∀ a x, ((![v768] : Fin 1 → IVec S16 32) a x).toNat < S100000.size a)
instance k0_chk75.dec : ∀ (v768 : IVec S16 32), Decidable (k0_chk75 v768) := fun v768 => decidable_of_iff' _ (Iff.of_eq (k0_chk75.eq_1 v768))
theorem k0_idx75_inb : ∀ (v768 : IVec S16 32) (k0_hw75 : k0_chk75 v768), ∀ a x, ((![v768] : Fin 1 → IVec S16 32) a x).toNat < S100000.size a := fun v768 k0_hw75 => k0_hw75
def k0_off77 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v771 : Index := Scalar.indexCast arg12
  let c48_645 : Index := 48#32
  ![v771.toNat, 48]

def k0_chk76 (v772 : IVec S16 32) : Prop :=
  (∀ a x, ((![v772] : Fin 1 → IVec S16 32) a x).toNat < S100000.size a)
instance k0_chk76.dec : ∀ (v772 : IVec S16 32), Decidable (k0_chk76 v772) := fun v772 => decidable_of_iff' _ (Iff.of_eq (k0_chk76.eq_1 v772))
theorem k0_idx76_inb : ∀ (v772 : IVec S16 32) (k0_hw76 : k0_chk76 v772), ∀ a x, ((![v772] : Fin 1 → IVec S16 32) a x).toNat < S100000.size a := fun v772 k0_hw76 => k0_hw76
def k0_off78 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v775 : Index := Scalar.indexCast arg12
  let c64_646 : Index := 64#32
  ![v775.toNat, 64]

def k0_chk77 (v776 : IVec S16 32) : Prop :=
  (∀ a x, ((![v776] : Fin 1 → IVec S16 32) a x).toNat < S100000.size a)
instance k0_chk77.dec : ∀ (v776 : IVec S16 32), Decidable (k0_chk77 v776) := fun v776 => decidable_of_iff' _ (Iff.of_eq (k0_chk77.eq_1 v776))
theorem k0_idx77_inb : ∀ (v776 : IVec S16 32) (k0_hw77 : k0_chk77 v776), ∀ a x, ((![v776] : Fin 1 → IVec S16 32) a x).toNat < S100000.size a := fun v776 k0_hw77 => k0_hw77
def k0_off79 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v779 : Index := Scalar.indexCast arg12
  let c80_647 : Index := 80#32
  ![v779.toNat, 80]

def k0_chk78 (v780 : IVec S16 32) : Prop :=
  (∀ a x, ((![v780] : Fin 1 → IVec S16 32) a x).toNat < S100000.size a)
instance k0_chk78.dec : ∀ (v780 : IVec S16 32), Decidable (k0_chk78 v780) := fun v780 => decidable_of_iff' _ (Iff.of_eq (k0_chk78.eq_1 v780))
theorem k0_idx78_inb : ∀ (v780 : IVec S16 32) (k0_hw78 : k0_chk78 v780), ∀ a x, ((![v780] : Fin 1 → IVec S16 32) a x).toNat < S100000.size a := fun v780 k0_hw78 => k0_hw78
def k0_off80 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v783 : Index := Scalar.indexCast arg12
  let c96_648 : Index := 96#32
  ![v783.toNat, 96]

def k0_chk79 (v784 : IVec S16 32) : Prop :=
  (∀ a x, ((![v784] : Fin 1 → IVec S16 32) a x).toNat < S100000.size a)
instance k0_chk79.dec : ∀ (v784 : IVec S16 32), Decidable (k0_chk79 v784) := fun v784 => decidable_of_iff' _ (Iff.of_eq (k0_chk79.eq_1 v784))
theorem k0_idx79_inb : ∀ (v784 : IVec S16 32) (k0_hw79 : k0_chk79 v784), ∀ a x, ((![v784] : Fin 1 → IVec S16 32) a x).toNat < S100000.size a := fun v784 k0_hw79 => k0_hw79
def k0_off81 (k0_t10 : Fin k0_t10_loop.trips) : Fin 2 → Nat :=
  let c0_i32_353 : BitVec 32 := 0#32
  let c1_i32_355 : BitVec 32 := 1#32
  let arg12 : BitVec 32 := Scf.iv c0_i32_353 c1_i32_355 k0_t10
  let v787 : Index := Scalar.indexCast arg12
  let c112_649 : Index := 112#32
  ![v787.toNat, 112]

def k0_chk80 (v788 : IVec S16 32) : Prop :=
  (∀ a x, ((![v788] : Fin 1 → IVec S16 32) a x).toNat < S100000.size a)
instance k0_chk80.dec : ∀ (v788 : IVec S16 32), Decidable (k0_chk80 v788) := fun v788 => decidable_of_iff' _ (Iff.of_eq (k0_chk80.eq_1 v788))
theorem k0_idx80_inb : ∀ (v788 : IVec S16 32) (k0_hw80 : k0_chk80 v788), ∀ a x, ((![v788] : Fin 1 → IVec S16 32) a x).toNat < S100000.size a := fun v788 k0_hw80 => k0_hw80
@[reducible] def k0_t11_loop : Scf.Loop 32 :=
  let c0_i32_397 : BitVec 32 := 0#32
  let c50_i32_398 : BitVec 32 := 50#32
  let v496 : BitVec 32 := Scalar.addi c0_i32_397 c50_i32_398
  let c1_i32_399 : BitVec 32 := 1#32
  ⟨c0_i32_397, v496, c1_i32_399⟩
def k0_off82 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v759 : Index := Scalar.indexCast arg12
  let c0_642 : Index := 0#32
  ![v759.toNat, 0]

def k0_chk81 (v760 : IVec S16 32) : Prop :=
  (∀ a x, ((![v760] : Fin 1 → IVec S16 32) a x).toNat < S100000.size a)
instance k0_chk81.dec : ∀ (v760 : IVec S16 32), Decidable (k0_chk81 v760) := fun v760 => decidable_of_iff' _ (Iff.of_eq (k0_chk81.eq_1 v760))
theorem k0_idx81_inb : ∀ (v760 : IVec S16 32) (k0_hw81 : k0_chk81 v760), ∀ a x, ((![v760] : Fin 1 → IVec S16 32) a x).toNat < S100000.size a := fun v760 k0_hw81 => k0_hw81
def k0_off83 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v763 : Index := Scalar.indexCast arg12
  let c16_643 : Index := 16#32
  ![v763.toNat, 16]

def k0_chk82 (v764 : IVec S16 32) : Prop :=
  (∀ a x, ((![v764] : Fin 1 → IVec S16 32) a x).toNat < S100000.size a)
instance k0_chk82.dec : ∀ (v764 : IVec S16 32), Decidable (k0_chk82 v764) := fun v764 => decidable_of_iff' _ (Iff.of_eq (k0_chk82.eq_1 v764))
theorem k0_idx82_inb : ∀ (v764 : IVec S16 32) (k0_hw82 : k0_chk82 v764), ∀ a x, ((![v764] : Fin 1 → IVec S16 32) a x).toNat < S100000.size a := fun v764 k0_hw82 => k0_hw82
def k0_off84 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v767 : Index := Scalar.indexCast arg12
  let c32_644 : Index := 32#32
  ![v767.toNat, 32]

def k0_chk83 (v768 : IVec S16 32) : Prop :=
  (∀ a x, ((![v768] : Fin 1 → IVec S16 32) a x).toNat < S100000.size a)
instance k0_chk83.dec : ∀ (v768 : IVec S16 32), Decidable (k0_chk83 v768) := fun v768 => decidable_of_iff' _ (Iff.of_eq (k0_chk83.eq_1 v768))
theorem k0_idx83_inb : ∀ (v768 : IVec S16 32) (k0_hw83 : k0_chk83 v768), ∀ a x, ((![v768] : Fin 1 → IVec S16 32) a x).toNat < S100000.size a := fun v768 k0_hw83 => k0_hw83
def k0_off85 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v771 : Index := Scalar.indexCast arg12
  let c48_645 : Index := 48#32
  ![v771.toNat, 48]

def k0_chk84 (v772 : IVec S16 32) : Prop :=
  (∀ a x, ((![v772] : Fin 1 → IVec S16 32) a x).toNat < S100000.size a)
instance k0_chk84.dec : ∀ (v772 : IVec S16 32), Decidable (k0_chk84 v772) := fun v772 => decidable_of_iff' _ (Iff.of_eq (k0_chk84.eq_1 v772))
theorem k0_idx84_inb : ∀ (v772 : IVec S16 32) (k0_hw84 : k0_chk84 v772), ∀ a x, ((![v772] : Fin 1 → IVec S16 32) a x).toNat < S100000.size a := fun v772 k0_hw84 => k0_hw84
def k0_off86 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v775 : Index := Scalar.indexCast arg12
  let c64_646 : Index := 64#32
  ![v775.toNat, 64]

def k0_chk85 (v776 : IVec S16 32) : Prop :=
  (∀ a x, ((![v776] : Fin 1 → IVec S16 32) a x).toNat < S100000.size a)
instance k0_chk85.dec : ∀ (v776 : IVec S16 32), Decidable (k0_chk85 v776) := fun v776 => decidable_of_iff' _ (Iff.of_eq (k0_chk85.eq_1 v776))
theorem k0_idx85_inb : ∀ (v776 : IVec S16 32) (k0_hw85 : k0_chk85 v776), ∀ a x, ((![v776] : Fin 1 → IVec S16 32) a x).toNat < S100000.size a := fun v776 k0_hw85 => k0_hw85
def k0_off87 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v779 : Index := Scalar.indexCast arg12
  let c80_647 : Index := 80#32
  ![v779.toNat, 80]

def k0_chk86 (v780 : IVec S16 32) : Prop :=
  (∀ a x, ((![v780] : Fin 1 → IVec S16 32) a x).toNat < S100000.size a)
instance k0_chk86.dec : ∀ (v780 : IVec S16 32), Decidable (k0_chk86 v780) := fun v780 => decidable_of_iff' _ (Iff.of_eq (k0_chk86.eq_1 v780))
theorem k0_idx86_inb : ∀ (v780 : IVec S16 32) (k0_hw86 : k0_chk86 v780), ∀ a x, ((![v780] : Fin 1 → IVec S16 32) a x).toNat < S100000.size a := fun v780 k0_hw86 => k0_hw86
def k0_off88 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v783 : Index := Scalar.indexCast arg12
  let c96_648 : Index := 96#32
  ![v783.toNat, 96]

def k0_chk87 (v784 : IVec S16 32) : Prop :=
  (∀ a x, ((![v784] : Fin 1 → IVec S16 32) a x).toNat < S100000.size a)
instance k0_chk87.dec : ∀ (v784 : IVec S16 32), Decidable (k0_chk87 v784) := fun v784 => decidable_of_iff' _ (Iff.of_eq (k0_chk87.eq_1 v784))
theorem k0_idx87_inb : ∀ (v784 : IVec S16 32) (k0_hw87 : k0_chk87 v784), ∀ a x, ((![v784] : Fin 1 → IVec S16 32) a x).toNat < S100000.size a := fun v784 k0_hw87 => k0_hw87
def k0_off89 (k0_t11 : Fin k0_t11_loop.trips) : Fin 2 → Nat :=
  let c0_i32_397 : BitVec 32 := 0#32
  let c1_i32_399 : BitVec 32 := 1#32
  let arg12 : BitVec 32 := Scf.iv c0_i32_397 c1_i32_399 k0_t11
  let v787 : Index := Scalar.indexCast arg12
  let c112_649 : Index := 112#32
  ![v787.toNat, 112]

def k0_chk88 (v788 : IVec S16 32) : Prop :=
  (∀ a x, ((![v788] : Fin 1 → IVec S16 32) a x).toNat < S100000.size a)
instance k0_chk88.dec : ∀ (v788 : IVec S16 32), Decidable (k0_chk88 v788) := fun v788 => decidable_of_iff' _ (Iff.of_eq (k0_chk88.eq_1 v788))
theorem k0_idx88_inb : ∀ (v788 : IVec S16 32) (k0_hw88 : k0_chk88 v788), ∀ a x, ((![v788] : Fin 1 → IVec S16 32) a x).toNat < S100000.size a := fun v788 k0_hw88 => k0_hw88
@[reducible] def k0_t12_loop : Scf.Loop 32 :=
  let c0_i32_441 : BitVec 32 := 0#32
  let c50_i32_442 : BitVec 32 := 50#32
  let v542 : BitVec 32 := Scalar.addi c0_i32_441 c50_i32_442
  let c1_i32_443 : BitVec 32 := 1#32
  ⟨c0_i32_441, v542, c1_i32_443⟩
def k0_off90 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v759 : Index := Scalar.indexCast arg12
  let c0_642 : Index := 0#32
  ![v759.toNat, 0]

def k0_chk89 (v760 : IVec S16 32) : Prop :=
  (∀ a x, ((![v760] : Fin 1 → IVec S16 32) a x).toNat < S100000.size a)
instance k0_chk89.dec : ∀ (v760 : IVec S16 32), Decidable (k0_chk89 v760) := fun v760 => decidable_of_iff' _ (Iff.of_eq (k0_chk89.eq_1 v760))
theorem k0_idx89_inb : ∀ (v760 : IVec S16 32) (k0_hw89 : k0_chk89 v760), ∀ a x, ((![v760] : Fin 1 → IVec S16 32) a x).toNat < S100000.size a := fun v760 k0_hw89 => k0_hw89
def k0_off91 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v763 : Index := Scalar.indexCast arg12
  let c16_643 : Index := 16#32
  ![v763.toNat, 16]

def k0_chk90 (v764 : IVec S16 32) : Prop :=
  (∀ a x, ((![v764] : Fin 1 → IVec S16 32) a x).toNat < S100000.size a)
instance k0_chk90.dec : ∀ (v764 : IVec S16 32), Decidable (k0_chk90 v764) := fun v764 => decidable_of_iff' _ (Iff.of_eq (k0_chk90.eq_1 v764))
theorem k0_idx90_inb : ∀ (v764 : IVec S16 32) (k0_hw90 : k0_chk90 v764), ∀ a x, ((![v764] : Fin 1 → IVec S16 32) a x).toNat < S100000.size a := fun v764 k0_hw90 => k0_hw90
def k0_off92 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v767 : Index := Scalar.indexCast arg12
  let c32_644 : Index := 32#32
  ![v767.toNat, 32]

def k0_chk91 (v768 : IVec S16 32) : Prop :=
  (∀ a x, ((![v768] : Fin 1 → IVec S16 32) a x).toNat < S100000.size a)
instance k0_chk91.dec : ∀ (v768 : IVec S16 32), Decidable (k0_chk91 v768) := fun v768 => decidable_of_iff' _ (Iff.of_eq (k0_chk91.eq_1 v768))
theorem k0_idx91_inb : ∀ (v768 : IVec S16 32) (k0_hw91 : k0_chk91 v768), ∀ a x, ((![v768] : Fin 1 → IVec S16 32) a x).toNat < S100000.size a := fun v768 k0_hw91 => k0_hw91
def k0_off93 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v771 : Index := Scalar.indexCast arg12
  let c48_645 : Index := 48#32
  ![v771.toNat, 48]

def k0_chk92 (v772 : IVec S16 32) : Prop :=
  (∀ a x, ((![v772] : Fin 1 → IVec S16 32) a x).toNat < S100000.size a)
instance k0_chk92.dec : ∀ (v772 : IVec S16 32), Decidable (k0_chk92 v772) := fun v772 => decidable_of_iff' _ (Iff.of_eq (k0_chk92.eq_1 v772))
theorem k0_idx92_inb : ∀ (v772 : IVec S16 32) (k0_hw92 : k0_chk92 v772), ∀ a x, ((![v772] : Fin 1 → IVec S16 32) a x).toNat < S100000.size a := fun v772 k0_hw92 => k0_hw92
def k0_off94 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v775 : Index := Scalar.indexCast arg12
  let c64_646 : Index := 64#32
  ![v775.toNat, 64]

def k0_chk93 (v776 : IVec S16 32) : Prop :=
  (∀ a x, ((![v776] : Fin 1 → IVec S16 32) a x).toNat < S100000.size a)
instance k0_chk93.dec : ∀ (v776 : IVec S16 32), Decidable (k0_chk93 v776) := fun v776 => decidable_of_iff' _ (Iff.of_eq (k0_chk93.eq_1 v776))
theorem k0_idx93_inb : ∀ (v776 : IVec S16 32) (k0_hw93 : k0_chk93 v776), ∀ a x, ((![v776] : Fin 1 → IVec S16 32) a x).toNat < S100000.size a := fun v776 k0_hw93 => k0_hw93
def k0_off95 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v779 : Index := Scalar.indexCast arg12
  let c80_647 : Index := 80#32
  ![v779.toNat, 80]

def k0_chk94 (v780 : IVec S16 32) : Prop :=
  (∀ a x, ((![v780] : Fin 1 → IVec S16 32) a x).toNat < S100000.size a)
instance k0_chk94.dec : ∀ (v780 : IVec S16 32), Decidable (k0_chk94 v780) := fun v780 => decidable_of_iff' _ (Iff.of_eq (k0_chk94.eq_1 v780))
theorem k0_idx94_inb : ∀ (v780 : IVec S16 32) (k0_hw94 : k0_chk94 v780), ∀ a x, ((![v780] : Fin 1 → IVec S16 32) a x).toNat < S100000.size a := fun v780 k0_hw94 => k0_hw94
def k0_off96 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v783 : Index := Scalar.indexCast arg12
  let c96_648 : Index := 96#32
  ![v783.toNat, 96]

def k0_chk95 (v784 : IVec S16 32) : Prop :=
  (∀ a x, ((![v784] : Fin 1 → IVec S16 32) a x).toNat < S100000.size a)
instance k0_chk95.dec : ∀ (v784 : IVec S16 32), Decidable (k0_chk95 v784) := fun v784 => decidable_of_iff' _ (Iff.of_eq (k0_chk95.eq_1 v784))
theorem k0_idx95_inb : ∀ (v784 : IVec S16 32) (k0_hw95 : k0_chk95 v784), ∀ a x, ((![v784] : Fin 1 → IVec S16 32) a x).toNat < S100000.size a := fun v784 k0_hw95 => k0_hw95
def k0_off97 (k0_t12 : Fin k0_t12_loop.trips) : Fin 2 → Nat :=
  let c0_i32_441 : BitVec 32 := 0#32
  let c1_i32_443 : BitVec 32 := 1#32
  let arg12 : BitVec 32 := Scf.iv c0_i32_441 c1_i32_443 k0_t12
  let v787 : Index := Scalar.indexCast arg12
  let c112_649 : Index := 112#32
  ![v787.toNat, 112]

def k0_chk96 (v788 : IVec S16 32) : Prop :=
  (∀ a x, ((![v788] : Fin 1 → IVec S16 32) a x).toNat < S100000.size a)
instance k0_chk96.dec : ∀ (v788 : IVec S16 32), Decidable (k0_chk96 v788) := fun v788 => decidable_of_iff' _ (Iff.of_eq (k0_chk96.eq_1 v788))
theorem k0_idx96_inb : ∀ (v788 : IVec S16 32) (k0_hw96 : k0_chk96 v788), ∀ a x, ((![v788] : Fin 1 → IVec S16 32) a x).toNat < S100000.size a := fun v788 k0_hw96 => k0_hw96
@[reducible] def k0_t13_loop : Scf.Loop 32 :=
  let c0_i32_485 : BitVec 32 := 0#32
  let c50_i32_486 : BitVec 32 := 50#32
  let v588 : BitVec 32 := Scalar.addi c0_i32_485 c50_i32_486
  let c1_i32_487 : BitVec 32 := 1#32
  ⟨c0_i32_485, v588, c1_i32_487⟩
def k0_off98 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v759 : Index := Scalar.indexCast arg12
  let c0_642 : Index := 0#32
  ![v759.toNat, 0]

def k0_chk97 (v760 : IVec S16 32) : Prop :=
  (∀ a x, ((![v760] : Fin 1 → IVec S16 32) a x).toNat < S100000.size a)
instance k0_chk97.dec : ∀ (v760 : IVec S16 32), Decidable (k0_chk97 v760) := fun v760 => decidable_of_iff' _ (Iff.of_eq (k0_chk97.eq_1 v760))
theorem k0_idx97_inb : ∀ (v760 : IVec S16 32) (k0_hw97 : k0_chk97 v760), ∀ a x, ((![v760] : Fin 1 → IVec S16 32) a x).toNat < S100000.size a := fun v760 k0_hw97 => k0_hw97
def k0_off99 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v763 : Index := Scalar.indexCast arg12
  let c16_643 : Index := 16#32
  ![v763.toNat, 16]

def k0_chk98 (v764 : IVec S16 32) : Prop :=
  (∀ a x, ((![v764] : Fin 1 → IVec S16 32) a x).toNat < S100000.size a)
instance k0_chk98.dec : ∀ (v764 : IVec S16 32), Decidable (k0_chk98 v764) := fun v764 => decidable_of_iff' _ (Iff.of_eq (k0_chk98.eq_1 v764))
theorem k0_idx98_inb : ∀ (v764 : IVec S16 32) (k0_hw98 : k0_chk98 v764), ∀ a x, ((![v764] : Fin 1 → IVec S16 32) a x).toNat < S100000.size a := fun v764 k0_hw98 => k0_hw98
def k0_off100 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v767 : Index := Scalar.indexCast arg12
  let c32_644 : Index := 32#32
  ![v767.toNat, 32]

def k0_chk99 (v768 : IVec S16 32) : Prop :=
  (∀ a x, ((![v768] : Fin 1 → IVec S16 32) a x).toNat < S100000.size a)
instance k0_chk99.dec : ∀ (v768 : IVec S16 32), Decidable (k0_chk99 v768) := fun v768 => decidable_of_iff' _ (Iff.of_eq (k0_chk99.eq_1 v768))
theorem k0_idx99_inb : ∀ (v768 : IVec S16 32) (k0_hw99 : k0_chk99 v768), ∀ a x, ((![v768] : Fin 1 → IVec S16 32) a x).toNat < S100000.size a := fun v768 k0_hw99 => k0_hw99
def k0_off101 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v771 : Index := Scalar.indexCast arg12
  let c48_645 : Index := 48#32
  ![v771.toNat, 48]

def k0_chk100 (v772 : IVec S16 32) : Prop :=
  (∀ a x, ((![v772] : Fin 1 → IVec S16 32) a x).toNat < S100000.size a)
instance k0_chk100.dec : ∀ (v772 : IVec S16 32), Decidable (k0_chk100 v772) := fun v772 => decidable_of_iff' _ (Iff.of_eq (k0_chk100.eq_1 v772))
theorem k0_idx100_inb : ∀ (v772 : IVec S16 32) (k0_hw100 : k0_chk100 v772), ∀ a x, ((![v772] : Fin 1 → IVec S16 32) a x).toNat < S100000.size a := fun v772 k0_hw100 => k0_hw100
def k0_off102 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v775 : Index := Scalar.indexCast arg12
  let c64_646 : Index := 64#32
  ![v775.toNat, 64]

def k0_chk101 (v776 : IVec S16 32) : Prop :=
  (∀ a x, ((![v776] : Fin 1 → IVec S16 32) a x).toNat < S100000.size a)
instance k0_chk101.dec : ∀ (v776 : IVec S16 32), Decidable (k0_chk101 v776) := fun v776 => decidable_of_iff' _ (Iff.of_eq (k0_chk101.eq_1 v776))
theorem k0_idx101_inb : ∀ (v776 : IVec S16 32) (k0_hw101 : k0_chk101 v776), ∀ a x, ((![v776] : Fin 1 → IVec S16 32) a x).toNat < S100000.size a := fun v776 k0_hw101 => k0_hw101
def k0_off103 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v779 : Index := Scalar.indexCast arg12
  let c80_647 : Index := 80#32
  ![v779.toNat, 80]

def k0_chk102 (v780 : IVec S16 32) : Prop :=
  (∀ a x, ((![v780] : Fin 1 → IVec S16 32) a x).toNat < S100000.size a)
instance k0_chk102.dec : ∀ (v780 : IVec S16 32), Decidable (k0_chk102 v780) := fun v780 => decidable_of_iff' _ (Iff.of_eq (k0_chk102.eq_1 v780))
theorem k0_idx102_inb : ∀ (v780 : IVec S16 32) (k0_hw102 : k0_chk102 v780), ∀ a x, ((![v780] : Fin 1 → IVec S16 32) a x).toNat < S100000.size a := fun v780 k0_hw102 => k0_hw102
def k0_off104 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v783 : Index := Scalar.indexCast arg12
  let c96_648 : Index := 96#32
  ![v783.toNat, 96]

def k0_chk103 (v784 : IVec S16 32) : Prop :=
  (∀ a x, ((![v784] : Fin 1 → IVec S16 32) a x).toNat < S100000.size a)
instance k0_chk103.dec : ∀ (v784 : IVec S16 32), Decidable (k0_chk103 v784) := fun v784 => decidable_of_iff' _ (Iff.of_eq (k0_chk103.eq_1 v784))
theorem k0_idx103_inb : ∀ (v784 : IVec S16 32) (k0_hw103 : k0_chk103 v784), ∀ a x, ((![v784] : Fin 1 → IVec S16 32) a x).toNat < S100000.size a := fun v784 k0_hw103 => k0_hw103
def k0_off105 (k0_t13 : Fin k0_t13_loop.trips) : Fin 2 → Nat :=
  let c0_i32_485 : BitVec 32 := 0#32
  let c1_i32_487 : BitVec 32 := 1#32
  let arg12 : BitVec 32 := Scf.iv c0_i32_485 c1_i32_487 k0_t13
  let v787 : Index := Scalar.indexCast arg12
  let c112_649 : Index := 112#32
  ![v787.toNat, 112]

def k0_chk104 (v788 : IVec S16 32) : Prop :=
  (∀ a x, ((![v788] : Fin 1 → IVec S16 32) a x).toNat < S100000.size a)
instance k0_chk104.dec : ∀ (v788 : IVec S16 32), Decidable (k0_chk104 v788) := fun v788 => decidable_of_iff' _ (Iff.of_eq (k0_chk104.eq_1 v788))
theorem k0_idx104_inb : ∀ (v788 : IVec S16 32) (k0_hw104 : k0_chk104 v788), ∀ a x, ((![v788] : Fin 1 → IVec S16 32) a x).toNat < S100000.size a := fun v788 k0_hw104 => k0_hw104
@[reducible] def k0_t14_loop : Scf.Loop 32 :=
  let c0_i32_529 : BitVec 32 := 0#32
  let c50_i32_530 : BitVec 32 := 50#32
  let v634 : BitVec 32 := Scalar.addi c0_i32_529 c50_i32_530
  let c1_i32_531 : BitVec 32 := 1#32
  ⟨c0_i32_529, v634, c1_i32_531⟩
def k0_off106 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v759 : Index := Scalar.indexCast arg12
  let c0_642 : Index := 0#32
  ![v759.toNat, 0]

def k0_chk105 (v760 : IVec S16 32) : Prop :=
  (∀ a x, ((![v760] : Fin 1 → IVec S16 32) a x).toNat < S100000.size a)
instance k0_chk105.dec : ∀ (v760 : IVec S16 32), Decidable (k0_chk105 v760) := fun v760 => decidable_of_iff' _ (Iff.of_eq (k0_chk105.eq_1 v760))
theorem k0_idx105_inb : ∀ (v760 : IVec S16 32) (k0_hw105 : k0_chk105 v760), ∀ a x, ((![v760] : Fin 1 → IVec S16 32) a x).toNat < S100000.size a := fun v760 k0_hw105 => k0_hw105
def k0_off107 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v763 : Index := Scalar.indexCast arg12
  let c16_643 : Index := 16#32
  ![v763.toNat, 16]

def k0_chk106 (v764 : IVec S16 32) : Prop :=
  (∀ a x, ((![v764] : Fin 1 → IVec S16 32) a x).toNat < S100000.size a)
instance k0_chk106.dec : ∀ (v764 : IVec S16 32), Decidable (k0_chk106 v764) := fun v764 => decidable_of_iff' _ (Iff.of_eq (k0_chk106.eq_1 v764))
theorem k0_idx106_inb : ∀ (v764 : IVec S16 32) (k0_hw106 : k0_chk106 v764), ∀ a x, ((![v764] : Fin 1 → IVec S16 32) a x).toNat < S100000.size a := fun v764 k0_hw106 => k0_hw106
def k0_off108 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v767 : Index := Scalar.indexCast arg12
  let c32_644 : Index := 32#32
  ![v767.toNat, 32]

def k0_chk107 (v768 : IVec S16 32) : Prop :=
  (∀ a x, ((![v768] : Fin 1 → IVec S16 32) a x).toNat < S100000.size a)
instance k0_chk107.dec : ∀ (v768 : IVec S16 32), Decidable (k0_chk107 v768) := fun v768 => decidable_of_iff' _ (Iff.of_eq (k0_chk107.eq_1 v768))
theorem k0_idx107_inb : ∀ (v768 : IVec S16 32) (k0_hw107 : k0_chk107 v768), ∀ a x, ((![v768] : Fin 1 → IVec S16 32) a x).toNat < S100000.size a := fun v768 k0_hw107 => k0_hw107
def k0_off109 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v771 : Index := Scalar.indexCast arg12
  let c48_645 : Index := 48#32
  ![v771.toNat, 48]

def k0_chk108 (v772 : IVec S16 32) : Prop :=
  (∀ a x, ((![v772] : Fin 1 → IVec S16 32) a x).toNat < S100000.size a)
instance k0_chk108.dec : ∀ (v772 : IVec S16 32), Decidable (k0_chk108 v772) := fun v772 => decidable_of_iff' _ (Iff.of_eq (k0_chk108.eq_1 v772))
theorem k0_idx108_inb : ∀ (v772 : IVec S16 32) (k0_hw108 : k0_chk108 v772), ∀ a x, ((![v772] : Fin 1 → IVec S16 32) a x).toNat < S100000.size a := fun v772 k0_hw108 => k0_hw108
def k0_off110 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v775 : Index := Scalar.indexCast arg12
  let c64_646 : Index := 64#32
  ![v775.toNat, 64]

def k0_chk109 (v776 : IVec S16 32) : Prop :=
  (∀ a x, ((![v776] : Fin 1 → IVec S16 32) a x).toNat < S100000.size a)
instance k0_chk109.dec : ∀ (v776 : IVec S16 32), Decidable (k0_chk109 v776) := fun v776 => decidable_of_iff' _ (Iff.of_eq (k0_chk109.eq_1 v776))
theorem k0_idx109_inb : ∀ (v776 : IVec S16 32) (k0_hw109 : k0_chk109 v776), ∀ a x, ((![v776] : Fin 1 → IVec S16 32) a x).toNat < S100000.size a := fun v776 k0_hw109 => k0_hw109
def k0_off111 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v779 : Index := Scalar.indexCast arg12
  let c80_647 : Index := 80#32
  ![v779.toNat, 80]

def k0_chk110 (v780 : IVec S16 32) : Prop :=
  (∀ a x, ((![v780] : Fin 1 → IVec S16 32) a x).toNat < S100000.size a)
instance k0_chk110.dec : ∀ (v780 : IVec S16 32), Decidable (k0_chk110 v780) := fun v780 => decidable_of_iff' _ (Iff.of_eq (k0_chk110.eq_1 v780))
theorem k0_idx110_inb : ∀ (v780 : IVec S16 32) (k0_hw110 : k0_chk110 v780), ∀ a x, ((![v780] : Fin 1 → IVec S16 32) a x).toNat < S100000.size a := fun v780 k0_hw110 => k0_hw110
def k0_off112 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v783 : Index := Scalar.indexCast arg12
  let c96_648 : Index := 96#32
  ![v783.toNat, 96]

def k0_chk111 (v784 : IVec S16 32) : Prop :=
  (∀ a x, ((![v784] : Fin 1 → IVec S16 32) a x).toNat < S100000.size a)
instance k0_chk111.dec : ∀ (v784 : IVec S16 32), Decidable (k0_chk111 v784) := fun v784 => decidable_of_iff' _ (Iff.of_eq (k0_chk111.eq_1 v784))
theorem k0_idx111_inb : ∀ (v784 : IVec S16 32) (k0_hw111 : k0_chk111 v784), ∀ a x, ((![v784] : Fin 1 → IVec S16 32) a x).toNat < S100000.size a := fun v784 k0_hw111 => k0_hw111
def k0_off113 (k0_t14 : Fin k0_t14_loop.trips) : Fin 2 → Nat :=
  let c0_i32_529 : BitVec 32 := 0#32
  let c1_i32_531 : BitVec 32 := 1#32
  let arg12 : BitVec 32 := Scf.iv c0_i32_529 c1_i32_531 k0_t14
  let v787 : Index := Scalar.indexCast arg12
  let c112_649 : Index := 112#32
  ![v787.toNat, 112]

def k0_chk112 (v788 : IVec S16 32) : Prop :=
  (∀ a x, ((![v788] : Fin 1 → IVec S16 32) a x).toNat < S100000.size a)
instance k0_chk112.dec : ∀ (v788 : IVec S16 32), Decidable (k0_chk112 v788) := fun v788 => decidable_of_iff' _ (Iff.of_eq (k0_chk112.eq_1 v788))
theorem k0_idx112_inb : ∀ (v788 : IVec S16 32) (k0_hw112 : k0_chk112 v788), ∀ a x, ((![v788] : Fin 1 → IVec S16 32) a x).toNat < S100000.size a := fun v788 k0_hw112 => k0_hw112
@[reducible] def k0_t15_loop : Scf.Loop 32 :=
  let c0_i32_573 : BitVec 32 := 0#32
  let c50_i32_574 : BitVec 32 := 50#32
  let v680 : BitVec 32 := Scalar.addi c0_i32_573 c50_i32_574
  let c1_i32_575 : BitVec 32 := 1#32
  ⟨c0_i32_573, v680, c1_i32_575⟩
def k0_off114 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v759 : Index := Scalar.indexCast arg12
  let c0_642 : Index := 0#32
  ![v759.toNat, 0]

def k0_chk113 (v760 : IVec S16 32) : Prop :=
  (∀ a x, ((![v760] : Fin 1 → IVec S16 32) a x).toNat < S100000.size a)
instance k0_chk113.dec : ∀ (v760 : IVec S16 32), Decidable (k0_chk113 v760) := fun v760 => decidable_of_iff' _ (Iff.of_eq (k0_chk113.eq_1 v760))
theorem k0_idx113_inb : ∀ (v760 : IVec S16 32) (k0_hw113 : k0_chk113 v760), ∀ a x, ((![v760] : Fin 1 → IVec S16 32) a x).toNat < S100000.size a := fun v760 k0_hw113 => k0_hw113
def k0_off115 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v763 : Index := Scalar.indexCast arg12
  let c16_643 : Index := 16#32
  ![v763.toNat, 16]

def k0_chk114 (v764 : IVec S16 32) : Prop :=
  (∀ a x, ((![v764] : Fin 1 → IVec S16 32) a x).toNat < S100000.size a)
instance k0_chk114.dec : ∀ (v764 : IVec S16 32), Decidable (k0_chk114 v764) := fun v764 => decidable_of_iff' _ (Iff.of_eq (k0_chk114.eq_1 v764))
theorem k0_idx114_inb : ∀ (v764 : IVec S16 32) (k0_hw114 : k0_chk114 v764), ∀ a x, ((![v764] : Fin 1 → IVec S16 32) a x).toNat < S100000.size a := fun v764 k0_hw114 => k0_hw114
def k0_off116 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v767 : Index := Scalar.indexCast arg12
  let c32_644 : Index := 32#32
  ![v767.toNat, 32]

def k0_chk115 (v768 : IVec S16 32) : Prop :=
  (∀ a x, ((![v768] : Fin 1 → IVec S16 32) a x).toNat < S100000.size a)
instance k0_chk115.dec : ∀ (v768 : IVec S16 32), Decidable (k0_chk115 v768) := fun v768 => decidable_of_iff' _ (Iff.of_eq (k0_chk115.eq_1 v768))
theorem k0_idx115_inb : ∀ (v768 : IVec S16 32) (k0_hw115 : k0_chk115 v768), ∀ a x, ((![v768] : Fin 1 → IVec S16 32) a x).toNat < S100000.size a := fun v768 k0_hw115 => k0_hw115
def k0_off117 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v771 : Index := Scalar.indexCast arg12
  let c48_645 : Index := 48#32
  ![v771.toNat, 48]

def k0_chk116 (v772 : IVec S16 32) : Prop :=
  (∀ a x, ((![v772] : Fin 1 → IVec S16 32) a x).toNat < S100000.size a)
instance k0_chk116.dec : ∀ (v772 : IVec S16 32), Decidable (k0_chk116 v772) := fun v772 => decidable_of_iff' _ (Iff.of_eq (k0_chk116.eq_1 v772))
theorem k0_idx116_inb : ∀ (v772 : IVec S16 32) (k0_hw116 : k0_chk116 v772), ∀ a x, ((![v772] : Fin 1 → IVec S16 32) a x).toNat < S100000.size a := fun v772 k0_hw116 => k0_hw116
def k0_off118 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v775 : Index := Scalar.indexCast arg12
  let c64_646 : Index := 64#32
  ![v775.toNat, 64]

def k0_chk117 (v776 : IVec S16 32) : Prop :=
  (∀ a x, ((![v776] : Fin 1 → IVec S16 32) a x).toNat < S100000.size a)
instance k0_chk117.dec : ∀ (v776 : IVec S16 32), Decidable (k0_chk117 v776) := fun v776 => decidable_of_iff' _ (Iff.of_eq (k0_chk117.eq_1 v776))
theorem k0_idx117_inb : ∀ (v776 : IVec S16 32) (k0_hw117 : k0_chk117 v776), ∀ a x, ((![v776] : Fin 1 → IVec S16 32) a x).toNat < S100000.size a := fun v776 k0_hw117 => k0_hw117
def k0_off119 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v779 : Index := Scalar.indexCast arg12
  let c80_647 : Index := 80#32
  ![v779.toNat, 80]

def k0_chk118 (v780 : IVec S16 32) : Prop :=
  (∀ a x, ((![v780] : Fin 1 → IVec S16 32) a x).toNat < S100000.size a)
instance k0_chk118.dec : ∀ (v780 : IVec S16 32), Decidable (k0_chk118 v780) := fun v780 => decidable_of_iff' _ (Iff.of_eq (k0_chk118.eq_1 v780))
theorem k0_idx118_inb : ∀ (v780 : IVec S16 32) (k0_hw118 : k0_chk118 v780), ∀ a x, ((![v780] : Fin 1 → IVec S16 32) a x).toNat < S100000.size a := fun v780 k0_hw118 => k0_hw118
def k0_off120 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v783 : Index := Scalar.indexCast arg12
  let c96_648 : Index := 96#32
  ![v783.toNat, 96]

def k0_chk119 (v784 : IVec S16 32) : Prop :=
  (∀ a x, ((![v784] : Fin 1 → IVec S16 32) a x).toNat < S100000.size a)
instance k0_chk119.dec : ∀ (v784 : IVec S16 32), Decidable (k0_chk119 v784) := fun v784 => decidable_of_iff' _ (Iff.of_eq (k0_chk119.eq_1 v784))
theorem k0_idx119_inb : ∀ (v784 : IVec S16 32) (k0_hw119 : k0_chk119 v784), ∀ a x, ((![v784] : Fin 1 → IVec S16 32) a x).toNat < S100000.size a := fun v784 k0_hw119 => k0_hw119
def k0_off121 (k0_t15 : Fin k0_t15_loop.trips) : Fin 2 → Nat :=
  let c0_i32_573 : BitVec 32 := 0#32
  let c1_i32_575 : BitVec 32 := 1#32
  let arg12 : BitVec 32 := Scf.iv c0_i32_573 c1_i32_575 k0_t15
  let v787 : Index := Scalar.indexCast arg12
  let c112_649 : Index := 112#32
  ![v787.toNat, 112]

def k0_chk120 (v788 : IVec S16 32) : Prop :=
  (∀ a x, ((![v788] : Fin 1 → IVec S16 32) a x).toNat < S100000.size a)
instance k0_chk120.dec : ∀ (v788 : IVec S16 32), Decidable (k0_chk120 v788) := fun v788 => decidable_of_iff' _ (Iff.of_eq (k0_chk120.eq_1 v788))
theorem k0_idx120_inb : ∀ (v788 : IVec S16 32) (k0_hw120 : k0_chk120 v788), ∀ a x, ((![v788] : Fin 1 → IVec S16 32) a x).toNat < S100000.size a := fun v788 k0_hw120 => k0_hw120
@[reducible] def k0_t16_loop : Scf.Loop 32 :=
  let c0_i32_613 : BitVec 32 := 0#32
  let c50_i32_614 : BitVec 32 := 50#32
  let v724 : BitVec 32 := Scalar.addi c0_i32_613 c50_i32_614
  let c1_i32_615 : BitVec 32 := 1#32
  ⟨c0_i32_613, v724, c1_i32_615⟩
def k0_off122 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v759 : Index := Scalar.indexCast arg12
  let c0_642 : Index := 0#32
  ![v759.toNat, 0]

def k0_chk121 (v760 : IVec S16 32) : Prop :=
  (∀ a x, ((![v760] : Fin 1 → IVec S16 32) a x).toNat < S100000.size a)
instance k0_chk121.dec : ∀ (v760 : IVec S16 32), Decidable (k0_chk121 v760) := fun v760 => decidable_of_iff' _ (Iff.of_eq (k0_chk121.eq_1 v760))
theorem k0_idx121_inb : ∀ (v760 : IVec S16 32) (k0_hw121 : k0_chk121 v760), ∀ a x, ((![v760] : Fin 1 → IVec S16 32) a x).toNat < S100000.size a := fun v760 k0_hw121 => k0_hw121
def k0_off123 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v763 : Index := Scalar.indexCast arg12
  let c16_643 : Index := 16#32
  ![v763.toNat, 16]

def k0_chk122 (v764 : IVec S16 32) : Prop :=
  (∀ a x, ((![v764] : Fin 1 → IVec S16 32) a x).toNat < S100000.size a)
instance k0_chk122.dec : ∀ (v764 : IVec S16 32), Decidable (k0_chk122 v764) := fun v764 => decidable_of_iff' _ (Iff.of_eq (k0_chk122.eq_1 v764))
theorem k0_idx122_inb : ∀ (v764 : IVec S16 32) (k0_hw122 : k0_chk122 v764), ∀ a x, ((![v764] : Fin 1 → IVec S16 32) a x).toNat < S100000.size a := fun v764 k0_hw122 => k0_hw122
def k0_off124 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v767 : Index := Scalar.indexCast arg12
  let c32_644 : Index := 32#32
  ![v767.toNat, 32]

def k0_chk123 (v768 : IVec S16 32) : Prop :=
  (∀ a x, ((![v768] : Fin 1 → IVec S16 32) a x).toNat < S100000.size a)
instance k0_chk123.dec : ∀ (v768 : IVec S16 32), Decidable (k0_chk123 v768) := fun v768 => decidable_of_iff' _ (Iff.of_eq (k0_chk123.eq_1 v768))
theorem k0_idx123_inb : ∀ (v768 : IVec S16 32) (k0_hw123 : k0_chk123 v768), ∀ a x, ((![v768] : Fin 1 → IVec S16 32) a x).toNat < S100000.size a := fun v768 k0_hw123 => k0_hw123
def k0_off125 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v771 : Index := Scalar.indexCast arg12
  let c48_645 : Index := 48#32
  ![v771.toNat, 48]

def k0_chk124 (v772 : IVec S16 32) : Prop :=
  (∀ a x, ((![v772] : Fin 1 → IVec S16 32) a x).toNat < S100000.size a)
instance k0_chk124.dec : ∀ (v772 : IVec S16 32), Decidable (k0_chk124 v772) := fun v772 => decidable_of_iff' _ (Iff.of_eq (k0_chk124.eq_1 v772))
theorem k0_idx124_inb : ∀ (v772 : IVec S16 32) (k0_hw124 : k0_chk124 v772), ∀ a x, ((![v772] : Fin 1 → IVec S16 32) a x).toNat < S100000.size a := fun v772 k0_hw124 => k0_hw124
def k0_off126 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v775 : Index := Scalar.indexCast arg12
  let c64_646 : Index := 64#32
  ![v775.toNat, 64]

def k0_chk125 (v776 : IVec S16 32) : Prop :=
  (∀ a x, ((![v776] : Fin 1 → IVec S16 32) a x).toNat < S100000.size a)
instance k0_chk125.dec : ∀ (v776 : IVec S16 32), Decidable (k0_chk125 v776) := fun v776 => decidable_of_iff' _ (Iff.of_eq (k0_chk125.eq_1 v776))
theorem k0_idx125_inb : ∀ (v776 : IVec S16 32) (k0_hw125 : k0_chk125 v776), ∀ a x, ((![v776] : Fin 1 → IVec S16 32) a x).toNat < S100000.size a := fun v776 k0_hw125 => k0_hw125
def k0_off127 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v779 : Index := Scalar.indexCast arg12
  let c80_647 : Index := 80#32
  ![v779.toNat, 80]

def k0_chk126 (v780 : IVec S16 32) : Prop :=
  (∀ a x, ((![v780] : Fin 1 → IVec S16 32) a x).toNat < S100000.size a)
instance k0_chk126.dec : ∀ (v780 : IVec S16 32), Decidable (k0_chk126 v780) := fun v780 => decidable_of_iff' _ (Iff.of_eq (k0_chk126.eq_1 v780))
theorem k0_idx126_inb : ∀ (v780 : IVec S16 32) (k0_hw126 : k0_chk126 v780), ∀ a x, ((![v780] : Fin 1 → IVec S16 32) a x).toNat < S100000.size a := fun v780 k0_hw126 => k0_hw126
def k0_off128 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v783 : Index := Scalar.indexCast arg12
  let c96_648 : Index := 96#32
  ![v783.toNat, 96]

def k0_chk127 (v784 : IVec S16 32) : Prop :=
  (∀ a x, ((![v784] : Fin 1 → IVec S16 32) a x).toNat < S100000.size a)
instance k0_chk127.dec : ∀ (v784 : IVec S16 32), Decidable (k0_chk127 v784) := fun v784 => decidable_of_iff' _ (Iff.of_eq (k0_chk127.eq_1 v784))
theorem k0_idx127_inb : ∀ (v784 : IVec S16 32) (k0_hw127 : k0_chk127 v784), ∀ a x, ((![v784] : Fin 1 → IVec S16 32) a x).toNat < S100000.size a := fun v784 k0_hw127 => k0_hw127
def k0_off129 (k0_t16 : Fin k0_t16_loop.trips) : Fin 2 → Nat :=
  let c0_i32_613 : BitVec 32 := 0#32
  let c1_i32_615 : BitVec 32 := 1#32
  let arg12 : BitVec 32 := Scf.iv c0_i32_613 c1_i32_615 k0_t16
  let v787 : Index := Scalar.indexCast arg12
  let c112_649 : Index := 112#32
  ![v787.toNat, 112]

def k0_chk128 (v788 : IVec S16 32) : Prop :=
  (∀ a x, ((![v788] : Fin 1 → IVec S16 32) a x).toNat < S100000.size a)
instance k0_chk128.dec : ∀ (v788 : IVec S16 32), Decidable (k0_chk128 v788) := fun v788 => decidable_of_iff' _ (Iff.of_eq (k0_chk128.eq_1 v788))
theorem k0_idx128_inb : ∀ (v788 : IVec S16 32) (k0_hw128 : k0_chk128 v788), ∀ a x, ((![v788] : Fin 1 → IVec S16 32) a x).toNat < S100000.size a := fun v788 k0_hw128 => k0_hw128
def k0_off130 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_641 : BitVec 32 := 2#32
  let v758 : BitVec 32 := Scalar.muli v1 c2_i32_641
  let c0_i32_642_r0 : BitVec 32 := 0#32
  ![v758.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x50_S50x1024_1_0 : S1024x50.Transposes [1, 0] S50x1024
  transposes_S100000x64_S64x100000_1_0 : S100000x64.Transposes [1, 0] S64x100000
  squeezes_S1x100000_S100000 : S1x100000.Squeezes S100000
  inb_S50x1024_S50x128_0_0 : ∀ a, (![0, 0] : Fin 2 → Nat) a + S50x128.size a ≤ S50x1024.size a
  inb_S50x1024_S50x128_0_128 : ∀ a, (![0, 128] : Fin 2 → Nat) a + S50x128.size a ≤ S50x1024.size a
  h_S1x16 : 0 < S1x16.numel
  shapeCasts_S1x16_S16 : S1x16.ShapeCasts S16
  h_S100000 : 0 < S100000.numel
  inb_S2x1024_S1x16_0_0 : ∀ a, (![0, 0] : Fin 2 → Nat) a + S1x16.size a ≤ S2x1024.size a
  shapeCasts_S16_S1x16 : S16.ShapeCasts S1x16
  inb_S2x1024_S1x16_0_16 : ∀ a, (![0, 16] : Fin 2 → Nat) a + S1x16.size a ≤ S2x1024.size a
  inb_S2x1024_S1x16_0_32 : ∀ a, (![0, 32] : Fin 2 → Nat) a + S1x16.size a ≤ S2x1024.size a
  inb_S2x1024_S1x16_0_48 : ∀ a, (![0, 48] : Fin 2 → Nat) a + S1x16.size a ≤ S2x1024.size a
  inb_S2x1024_S1x16_0_64 : ∀ a, (![0, 64] : Fin 2 → Nat) a + S1x16.size a ≤ S2x1024.size a
  inb_S2x1024_S1x16_0_80 : ∀ a, (![0, 80] : Fin 2 → Nat) a + S1x16.size a ≤ S2x1024.size a
  inb_S2x1024_S1x16_0_96 : ∀ a, (![0, 96] : Fin 2 → Nat) a + S1x16.size a ≤ S2x1024.size a
  inb_S2x1024_S1x16_0_112 : ∀ a, (![0, 112] : Fin 2 → Nat) a + S1x16.size a ≤ S2x1024.size a
  inb_S50x1024_S50x128_0_256 : ∀ a, (![0, 256] : Fin 2 → Nat) a + S50x128.size a ≤ S50x1024.size a
  inb_S2x1024_S1x16_0_128 : ∀ a, (![0, 128] : Fin 2 → Nat) a + S1x16.size a ≤ S2x1024.size a
  inb_S2x1024_S1x16_0_144 : ∀ a, (![0, 144] : Fin 2 → Nat) a + S1x16.size a ≤ S2x1024.size a
  inb_S2x1024_S1x16_0_160 : ∀ a, (![0, 160] : Fin 2 → Nat) a + S1x16.size a ≤ S2x1024.size a
  inb_S2x1024_S1x16_0_176 : ∀ a, (![0, 176] : Fin 2 → Nat) a + S1x16.size a ≤ S2x1024.size a
  inb_S2x1024_S1x16_0_192 : ∀ a, (![0, 192] : Fin 2 → Nat) a + S1x16.size a ≤ S2x1024.size a
  inb_S2x1024_S1x16_0_208 : ∀ a, (![0, 208] : Fin 2 → Nat) a + S1x16.size a ≤ S2x1024.size a
  inb_S2x1024_S1x16_0_224 : ∀ a, (![0, 224] : Fin 2 → Nat) a + S1x16.size a ≤ S2x1024.size a
  inb_S2x1024_S1x16_0_240 : ∀ a, (![0, 240] : Fin 2 → Nat) a + S1x16.size a ≤ S2x1024.size a
  inb_S50x1024_S50x128_0_384 : ∀ a, (![0, 384] : Fin 2 → Nat) a + S50x128.size a ≤ S50x1024.size a
  inb_S2x1024_S1x16_0_256 : ∀ a, (![0, 256] : Fin 2 → Nat) a + S1x16.size a ≤ S2x1024.size a
  inb_S2x1024_S1x16_0_272 : ∀ a, (![0, 272] : Fin 2 → Nat) a + S1x16.size a ≤ S2x1024.size a
  inb_S2x1024_S1x16_0_288 : ∀ a, (![0, 288] : Fin 2 → Nat) a + S1x16.size a ≤ S2x1024.size a
  inb_S2x1024_S1x16_0_304 : ∀ a, (![0, 304] : Fin 2 → Nat) a + S1x16.size a ≤ S2x1024.size a
  inb_S2x1024_S1x16_0_320 : ∀ a, (![0, 320] : Fin 2 → Nat) a + S1x16.size a ≤ S2x1024.size a
  inb_S2x1024_S1x16_0_336 : ∀ a, (![0, 336] : Fin 2 → Nat) a + S1x16.size a ≤ S2x1024.size a
  inb_S2x1024_S1x16_0_352 : ∀ a, (![0, 352] : Fin 2 → Nat) a + S1x16.size a ≤ S2x1024.size a
  inb_S2x1024_S1x16_0_368 : ∀ a, (![0, 368] : Fin 2 → Nat) a + S1x16.size a ≤ S2x1024.size a
  inb_S50x1024_S50x128_0_512 : ∀ a, (![0, 512] : Fin 2 → Nat) a + S50x128.size a ≤ S50x1024.size a
  inb_S2x1024_S1x16_0_384 : ∀ a, (![0, 384] : Fin 2 → Nat) a + S1x16.size a ≤ S2x1024.size a
  inb_S2x1024_S1x16_0_400 : ∀ a, (![0, 400] : Fin 2 → Nat) a + S1x16.size a ≤ S2x1024.size a
  inb_S2x1024_S1x16_0_416 : ∀ a, (![0, 416] : Fin 2 → Nat) a + S1x16.size a ≤ S2x1024.size a
  inb_S2x1024_S1x16_0_432 : ∀ a, (![0, 432] : Fin 2 → Nat) a + S1x16.size a ≤ S2x1024.size a
  inb_S2x1024_S1x16_0_448 : ∀ a, (![0, 448] : Fin 2 → Nat) a + S1x16.size a ≤ S2x1024.size a
  inb_S2x1024_S1x16_0_464 : ∀ a, (![0, 464] : Fin 2 → Nat) a + S1x16.size a ≤ S2x1024.size a
  inb_S2x1024_S1x16_0_480 : ∀ a, (![0, 480] : Fin 2 → Nat) a + S1x16.size a ≤ S2x1024.size a
  inb_S2x1024_S1x16_0_496 : ∀ a, (![0, 496] : Fin 2 → Nat) a + S1x16.size a ≤ S2x1024.size a
  inb_S50x1024_S50x128_0_640 : ∀ a, (![0, 640] : Fin 2 → Nat) a + S50x128.size a ≤ S50x1024.size a
  inb_S2x1024_S1x16_0_512 : ∀ a, (![0, 512] : Fin 2 → Nat) a + S1x16.size a ≤ S2x1024.size a
  inb_S2x1024_S1x16_0_528 : ∀ a, (![0, 528] : Fin 2 → Nat) a + S1x16.size a ≤ S2x1024.size a
  inb_S2x1024_S1x16_0_544 : ∀ a, (![0, 544] : Fin 2 → Nat) a + S1x16.size a ≤ S2x1024.size a
  inb_S2x1024_S1x16_0_560 : ∀ a, (![0, 560] : Fin 2 → Nat) a + S1x16.size a ≤ S2x1024.size a
  inb_S2x1024_S1x16_0_576 : ∀ a, (![0, 576] : Fin 2 → Nat) a + S1x16.size a ≤ S2x1024.size a
  inb_S2x1024_S1x16_0_592 : ∀ a, (![0, 592] : Fin 2 → Nat) a + S1x16.size a ≤ S2x1024.size a
  inb_S2x1024_S1x16_0_608 : ∀ a, (![0, 608] : Fin 2 → Nat) a + S1x16.size a ≤ S2x1024.size a
  inb_S2x1024_S1x16_0_624 : ∀ a, (![0, 624] : Fin 2 → Nat) a + S1x16.size a ≤ S2x1024.size a
  inb_S50x1024_S50x128_0_768 : ∀ a, (![0, 768] : Fin 2 → Nat) a + S50x128.size a ≤ S50x1024.size a
  inb_S2x1024_S1x16_0_640 : ∀ a, (![0, 640] : Fin 2 → Nat) a + S1x16.size a ≤ S2x1024.size a
  inb_S2x1024_S1x16_0_656 : ∀ a, (![0, 656] : Fin 2 → Nat) a + S1x16.size a ≤ S2x1024.size a
  inb_S2x1024_S1x16_0_672 : ∀ a, (![0, 672] : Fin 2 → Nat) a + S1x16.size a ≤ S2x1024.size a
  inb_S2x1024_S1x16_0_688 : ∀ a, (![0, 688] : Fin 2 → Nat) a + S1x16.size a ≤ S2x1024.size a
  inb_S2x1024_S1x16_0_704 : ∀ a, (![0, 704] : Fin 2 → Nat) a + S1x16.size a ≤ S2x1024.size a
  inb_S2x1024_S1x16_0_720 : ∀ a, (![0, 720] : Fin 2 → Nat) a + S1x16.size a ≤ S2x1024.size a
  inb_S2x1024_S1x16_0_736 : ∀ a, (![0, 736] : Fin 2 → Nat) a + S1x16.size a ≤ S2x1024.size a
  inb_S2x1024_S1x16_0_752 : ∀ a, (![0, 752] : Fin 2 → Nat) a + S1x16.size a ≤ S2x1024.size a
  inb_S50x1024_S50x128_0_896 : ∀ a, (![0, 896] : Fin 2 → Nat) a + S50x128.size a ≤ S50x1024.size a
  inb_S2x1024_S1x16_0_768 : ∀ a, (![0, 768] : Fin 2 → Nat) a + S1x16.size a ≤ S2x1024.size a
  inb_S2x1024_S1x16_0_784 : ∀ a, (![0, 784] : Fin 2 → Nat) a + S1x16.size a ≤ S2x1024.size a
  inb_S2x1024_S1x16_0_800 : ∀ a, (![0, 800] : Fin 2 → Nat) a + S1x16.size a ≤ S2x1024.size a
  inb_S2x1024_S1x16_0_816 : ∀ a, (![0, 816] : Fin 2 → Nat) a + S1x16.size a ≤ S2x1024.size a
  inb_S2x1024_S1x16_0_832 : ∀ a, (![0, 832] : Fin 2 → Nat) a + S1x16.size a ≤ S2x1024.size a
  inb_S2x1024_S1x16_0_848 : ∀ a, (![0, 848] : Fin 2 → Nat) a + S1x16.size a ≤ S2x1024.size a
  inb_S2x1024_S1x16_0_864 : ∀ a, (![0, 864] : Fin 2 → Nat) a + S1x16.size a ≤ S2x1024.size a
  inb_S2x1024_S1x16_0_880 : ∀ a, (![0, 880] : Fin 2 → Nat) a + S1x16.size a ≤ S2x1024.size a
  inb_S2x1024_S1x16_0_896 : ∀ a, (![0, 896] : Fin 2 → Nat) a + S1x16.size a ≤ S2x1024.size a
  inb_S2x1024_S1x16_0_912 : ∀ a, (![0, 912] : Fin 2 → Nat) a + S1x16.size a ≤ S2x1024.size a
  inb_S2x1024_S1x16_0_928 : ∀ a, (![0, 928] : Fin 2 → Nat) a + S1x16.size a ≤ S2x1024.size a
  inb_S2x1024_S1x16_0_944 : ∀ a, (![0, 944] : Fin 2 → Nat) a + S1x16.size a ≤ S2x1024.size a
  inb_S2x1024_S1x16_0_960 : ∀ a, (![0, 960] : Fin 2 → Nat) a + S1x16.size a ≤ S2x1024.size a
  inb_S2x1024_S1x16_0_976 : ∀ a, (![0, 976] : Fin 2 → Nat) a + S1x16.size a ≤ S2x1024.size a
  inb_S2x1024_S1x16_0_992 : ∀ a, (![0, 992] : Fin 2 → Nat) a + S1x16.size a ≤ S2x1024.size a
  inb_S2x1024_S1x16_0_1008 : ∀ a, (![0, 1008] : Fin 2 → Nat) a + S1x16.size a ≤ S2x1024.size a
  inb_S2x1024_S1x16_1_0 : ∀ a, (![1, 0] : Fin 2 → Nat) a + S1x16.size a ≤ S2x1024.size a
  inb_S2x1024_S1x16_1_16 : ∀ a, (![1, 16] : Fin 2 → Nat) a + S1x16.size a ≤ S2x1024.size a
  inb_S2x1024_S1x16_1_32 : ∀ a, (![1, 32] : Fin 2 → Nat) a + S1x16.size a ≤ S2x1024.size a
  inb_S2x1024_S1x16_1_48 : ∀ a, (![1, 48] : Fin 2 → Nat) a + S1x16.size a ≤ S2x1024.size a
  inb_S2x1024_S1x16_1_64 : ∀ a, (![1, 64] : Fin 2 → Nat) a + S1x16.size a ≤ S2x1024.size a
  inb_S2x1024_S1x16_1_80 : ∀ a, (![1, 80] : Fin 2 → Nat) a + S1x16.size a ≤ S2x1024.size a
  inb_S2x1024_S1x16_1_96 : ∀ a, (![1, 96] : Fin 2 → Nat) a + S1x16.size a ≤ S2x1024.size a
  inb_S2x1024_S1x16_1_112 : ∀ a, (![1, 112] : Fin 2 → Nat) a + S1x16.size a ≤ S2x1024.size a
  inb_S2x1024_S1x16_1_128 : ∀ a, (![1, 128] : Fin 2 → Nat) a + S1x16.size a ≤ S2x1024.size a
  inb_S2x1024_S1x16_1_144 : ∀ a, (![1, 144] : Fin 2 → Nat) a + S1x16.size a ≤ S2x1024.size a
  inb_S2x1024_S1x16_1_160 : ∀ a, (![1, 160] : Fin 2 → Nat) a + S1x16.size a ≤ S2x1024.size a
  inb_S2x1024_S1x16_1_176 : ∀ a, (![1, 176] : Fin 2 → Nat) a + S1x16.size a ≤ S2x1024.size a
  inb_S2x1024_S1x16_1_192 : ∀ a, (![1, 192] : Fin 2 → Nat) a + S1x16.size a ≤ S2x1024.size a
  inb_S2x1024_S1x16_1_208 : ∀ a, (![1, 208] : Fin 2 → Nat) a + S1x16.size a ≤ S2x1024.size a
  inb_S2x1024_S1x16_1_224 : ∀ a, (![1, 224] : Fin 2 → Nat) a + S1x16.size a ≤ S2x1024.size a
  inb_S2x1024_S1x16_1_240 : ∀ a, (![1, 240] : Fin 2 → Nat) a + S1x16.size a ≤ S2x1024.size a
  inb_S2x1024_S1x16_1_256 : ∀ a, (![1, 256] : Fin 2 → Nat) a + S1x16.size a ≤ S2x1024.size a
  inb_S2x1024_S1x16_1_272 : ∀ a, (![1, 272] : Fin 2 → Nat) a + S1x16.size a ≤ S2x1024.size a
  inb_S2x1024_S1x16_1_288 : ∀ a, (![1, 288] : Fin 2 → Nat) a + S1x16.size a ≤ S2x1024.size a
  inb_S2x1024_S1x16_1_304 : ∀ a, (![1, 304] : Fin 2 → Nat) a + S1x16.size a ≤ S2x1024.size a
  inb_S2x1024_S1x16_1_320 : ∀ a, (![1, 320] : Fin 2 → Nat) a + S1x16.size a ≤ S2x1024.size a
  inb_S2x1024_S1x16_1_336 : ∀ a, (![1, 336] : Fin 2 → Nat) a + S1x16.size a ≤ S2x1024.size a
  inb_S2x1024_S1x16_1_352 : ∀ a, (![1, 352] : Fin 2 → Nat) a + S1x16.size a ≤ S2x1024.size a
  inb_S2x1024_S1x16_1_368 : ∀ a, (![1, 368] : Fin 2 → Nat) a + S1x16.size a ≤ S2x1024.size a
  inb_S2x1024_S1x16_1_384 : ∀ a, (![1, 384] : Fin 2 → Nat) a + S1x16.size a ≤ S2x1024.size a
  inb_S2x1024_S1x16_1_400 : ∀ a, (![1, 400] : Fin 2 → Nat) a + S1x16.size a ≤ S2x1024.size a
  inb_S2x1024_S1x16_1_416 : ∀ a, (![1, 416] : Fin 2 → Nat) a + S1x16.size a ≤ S2x1024.size a
  inb_S2x1024_S1x16_1_432 : ∀ a, (![1, 432] : Fin 2 → Nat) a + S1x16.size a ≤ S2x1024.size a
  inb_S2x1024_S1x16_1_448 : ∀ a, (![1, 448] : Fin 2 → Nat) a + S1x16.size a ≤ S2x1024.size a
  inb_S2x1024_S1x16_1_464 : ∀ a, (![1, 464] : Fin 2 → Nat) a + S1x16.size a ≤ S2x1024.size a
  inb_S2x1024_S1x16_1_480 : ∀ a, (![1, 480] : Fin 2 → Nat) a + S1x16.size a ≤ S2x1024.size a
  inb_S2x1024_S1x16_1_496 : ∀ a, (![1, 496] : Fin 2 → Nat) a + S1x16.size a ≤ S2x1024.size a
  inb_S2x1024_S1x16_1_512 : ∀ a, (![1, 512] : Fin 2 → Nat) a + S1x16.size a ≤ S2x1024.size a
  inb_S2x1024_S1x16_1_528 : ∀ a, (![1, 528] : Fin 2 → Nat) a + S1x16.size a ≤ S2x1024.size a
  inb_S2x1024_S1x16_1_544 : ∀ a, (![1, 544] : Fin 2 → Nat) a + S1x16.size a ≤ S2x1024.size a
  inb_S2x1024_S1x16_1_560 : ∀ a, (![1, 560] : Fin 2 → Nat) a + S1x16.size a ≤ S2x1024.size a
  inb_S2x1024_S1x16_1_576 : ∀ a, (![1, 576] : Fin 2 → Nat) a + S1x16.size a ≤ S2x1024.size a
  inb_S2x1024_S1x16_1_592 : ∀ a, (![1, 592] : Fin 2 → Nat) a + S1x16.size a ≤ S2x1024.size a
  inb_S2x1024_S1x16_1_608 : ∀ a, (![1, 608] : Fin 2 → Nat) a + S1x16.size a ≤ S2x1024.size a
  inb_S2x1024_S1x16_1_624 : ∀ a, (![1, 624] : Fin 2 → Nat) a + S1x16.size a ≤ S2x1024.size a
  inb_S2x1024_S1x16_1_640 : ∀ a, (![1, 640] : Fin 2 → Nat) a + S1x16.size a ≤ S2x1024.size a
  inb_S2x1024_S1x16_1_656 : ∀ a, (![1, 656] : Fin 2 → Nat) a + S1x16.size a ≤ S2x1024.size a
  inb_S2x1024_S1x16_1_672 : ∀ a, (![1, 672] : Fin 2 → Nat) a + S1x16.size a ≤ S2x1024.size a
  inb_S2x1024_S1x16_1_688 : ∀ a, (![1, 688] : Fin 2 → Nat) a + S1x16.size a ≤ S2x1024.size a
  inb_S2x1024_S1x16_1_704 : ∀ a, (![1, 704] : Fin 2 → Nat) a + S1x16.size a ≤ S2x1024.size a
  inb_S2x1024_S1x16_1_720 : ∀ a, (![1, 720] : Fin 2 → Nat) a + S1x16.size a ≤ S2x1024.size a
  inb_S2x1024_S1x16_1_736 : ∀ a, (![1, 736] : Fin 2 → Nat) a + S1x16.size a ≤ S2x1024.size a
  inb_S2x1024_S1x16_1_752 : ∀ a, (![1, 752] : Fin 2 → Nat) a + S1x16.size a ≤ S2x1024.size a
  inb_S2x1024_S1x16_1_768 : ∀ a, (![1, 768] : Fin 2 → Nat) a + S1x16.size a ≤ S2x1024.size a
  inb_S2x1024_S1x16_1_784 : ∀ a, (![1, 784] : Fin 2 → Nat) a + S1x16.size a ≤ S2x1024.size a
  inb_S2x1024_S1x16_1_800 : ∀ a, (![1, 800] : Fin 2 → Nat) a + S1x16.size a ≤ S2x1024.size a
  inb_S2x1024_S1x16_1_816 : ∀ a, (![1, 816] : Fin 2 → Nat) a + S1x16.size a ≤ S2x1024.size a
  inb_S2x1024_S1x16_1_832 : ∀ a, (![1, 832] : Fin 2 → Nat) a + S1x16.size a ≤ S2x1024.size a
  inb_S2x1024_S1x16_1_848 : ∀ a, (![1, 848] : Fin 2 → Nat) a + S1x16.size a ≤ S2x1024.size a
  inb_S2x1024_S1x16_1_864 : ∀ a, (![1, 864] : Fin 2 → Nat) a + S1x16.size a ≤ S2x1024.size a
  inb_S2x1024_S1x16_1_880 : ∀ a, (![1, 880] : Fin 2 → Nat) a + S1x16.size a ≤ S2x1024.size a
  inb_S2x1024_S1x16_1_896 : ∀ a, (![1, 896] : Fin 2 → Nat) a + S1x16.size a ≤ S2x1024.size a
  inb_S2x1024_S1x16_1_912 : ∀ a, (![1, 912] : Fin 2 → Nat) a + S1x16.size a ≤ S2x1024.size a
  inb_S2x1024_S1x16_1_928 : ∀ a, (![1, 928] : Fin 2 → Nat) a + S1x16.size a ≤ S2x1024.size a
  inb_S2x1024_S1x16_1_944 : ∀ a, (![1, 944] : Fin 2 → Nat) a + S1x16.size a ≤ S2x1024.size a
  inb_S2x1024_S1x16_1_960 : ∀ a, (![1, 960] : Fin 2 → Nat) a + S1x16.size a ≤ S2x1024.size a
  inb_S2x1024_S1x16_1_976 : ∀ a, (![1, 976] : Fin 2 → Nat) a + S1x16.size a ≤ S2x1024.size a
  inb_S2x1024_S1x16_1_992 : ∀ a, (![1, 992] : Fin 2 → Nat) a + S1x16.size a ≤ S2x1024.size a
  inb_S2x1024_S1x16_1_1008 : ∀ a, (![1, 1008] : Fin 2 → Nat) a + S1x16.size a ≤ S2x1024.size a
  shapeCasts_S100000_S1x100000 : S100000.ShapeCasts S1x100000
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S64x4096_S64x1024_S4096x1024_0_0_1_1_n_n_wf : DotDims.WF S64x4096 S64x1024 S4096x1024 [0] [0] [1] [1] [] []
  hcc0_scratch4 : 0 + S_.numel ≤ 11
  hcc0_scratch5 : 1 + S_.numel ≤ 11
  hcc0_scratch6 : 2 + S_.numel ≤ 11
  hcc0_scoped0 : 3 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x100000.size a ≤ S64x100000.size a
  k0_t1_ok : k0_t1_loop.OK
  k0_off2_inb : ∀ k0_t1 : Fin k0_t1_loop.trips, ∀ a, (k0_off2 k0_t1) a + S1x16.size a ≤ S50x128.size a
  k0_off3_inb : ∀ k0_t1 : Fin k0_t1_loop.trips, ∀ a, (k0_off3 k0_t1) a + S1x16.size a ≤ S50x128.size a
  k0_off4_inb : ∀ k0_t1 : Fin k0_t1_loop.trips, ∀ a, (k0_off4 k0_t1) a + S1x16.size a ≤ S50x128.size a
  k0_off5_inb : ∀ k0_t1 : Fin k0_t1_loop.trips, ∀ a, (k0_off5 k0_t1) a + S1x16.size a ≤ S50x128.size a
  k0_off6_inb : ∀ k0_t1 : Fin k0_t1_loop.trips, ∀ a, (k0_off6 k0_t1) a + S1x16.size a ≤ S50x128.size a
  k0_off7_inb : ∀ k0_t1 : Fin k0_t1_loop.trips, ∀ a, (k0_off7 k0_t1) a + S1x16.size a ≤ S50x128.size a
  k0_off8_inb : ∀ k0_t1 : Fin k0_t1_loop.trips, ∀ a, (k0_off8 k0_t1) a + S1x16.size a ≤ S50x128.size a
  k0_off9_inb : ∀ k0_t1 : Fin k0_t1_loop.trips, ∀ a, (k0_off9 k0_t1) a + S1x16.size a ≤ S50x128.size a
  k0_t2_ok : k0_t2_loop.OK
  k0_off10_inb : ∀ k0_t2 : Fin k0_t2_loop.trips, ∀ a, (k0_off10 k0_t2) a + S1x16.size a ≤ S50x128.size a
  k0_off11_inb : ∀ k0_t2 : Fin k0_t2_loop.trips, ∀ a, (k0_off11 k0_t2) a + S1x16.size a ≤ S50x128.size a
  k0_off12_inb : ∀ k0_t2 : Fin k0_t2_loop.trips, ∀ a, (k0_off12 k0_t2) a + S1x16.size a ≤ S50x128.size a
  k0_off13_inb : ∀ k0_t2 : Fin k0_t2_loop.trips, ∀ a, (k0_off13 k0_t2) a + S1x16.size a ≤ S50x128.size a
  k0_off14_inb : ∀ k0_t2 : Fin k0_t2_loop.trips, ∀ a, (k0_off14 k0_t2) a + S1x16.size a ≤ S50x128.size a
  k0_off15_inb : ∀ k0_t2 : Fin k0_t2_loop.trips, ∀ a, (k0_off15 k0_t2) a + S1x16.size a ≤ S50x128.size a
  k0_off16_inb : ∀ k0_t2 : Fin k0_t2_loop.trips, ∀ a, (k0_off16 k0_t2) a + S1x16.size a ≤ S50x128.size a
  k0_off17_inb : ∀ k0_t2 : Fin k0_t2_loop.trips, ∀ a, (k0_off17 k0_t2) a + S1x16.size a ≤ S50x128.size a
  k0_t3_ok : k0_t3_loop.OK
  k0_off18_inb : ∀ k0_t3 : Fin k0_t3_loop.trips, ∀ a, (k0_off18 k0_t3) a + S1x16.size a ≤ S50x128.size a
  k0_off19_inb : ∀ k0_t3 : Fin k0_t3_loop.trips, ∀ a, (k0_off19 k0_t3) a + S1x16.size a ≤ S50x128.size a
  k0_off20_inb : ∀ k0_t3 : Fin k0_t3_loop.trips, ∀ a, (k0_off20 k0_t3) a + S1x16.size a ≤ S50x128.size a
  k0_off21_inb : ∀ k0_t3 : Fin k0_t3_loop.trips, ∀ a, (k0_off21 k0_t3) a + S1x16.size a ≤ S50x128.size a
  k0_off22_inb : ∀ k0_t3 : Fin k0_t3_loop.trips, ∀ a, (k0_off22 k0_t3) a + S1x16.size a ≤ S50x128.size a
  k0_off23_inb : ∀ k0_t3 : Fin k0_t3_loop.trips, ∀ a, (k0_off23 k0_t3) a + S1x16.size a ≤ S50x128.size a
  k0_off24_inb : ∀ k0_t3 : Fin k0_t3_loop.trips, ∀ a, (k0_off24 k0_t3) a + S1x16.size a ≤ S50x128.size a
  k0_off25_inb : ∀ k0_t3 : Fin k0_t3_loop.trips, ∀ a, (k0_off25 k0_t3) a + S1x16.size a ≤ S50x128.size a
  k0_t4_ok : k0_t4_loop.OK
  k0_off26_inb : ∀ k0_t4 : Fin k0_t4_loop.trips, ∀ a, (k0_off26 k0_t4) a + S1x16.size a ≤ S50x128.size a
  k0_off27_inb : ∀ k0_t4 : Fin k0_t4_loop.trips, ∀ a, (k0_off27 k0_t4) a + S1x16.size a ≤ S50x128.size a
  k0_off28_inb : ∀ k0_t4 : Fin k0_t4_loop.trips, ∀ a, (k0_off28 k0_t4) a + S1x16.size a ≤ S50x128.size a
  k0_off29_inb : ∀ k0_t4 : Fin k0_t4_loop.trips, ∀ a, (k0_off29 k0_t4) a + S1x16.size a ≤ S50x128.size a
  k0_off30_inb : ∀ k0_t4 : Fin k0_t4_loop.trips, ∀ a, (k0_off30 k0_t4) a + S1x16.size a ≤ S50x128.size a
  k0_off31_inb : ∀ k0_t4 : Fin k0_t4_loop.trips, ∀ a, (k0_off31 k0_t4) a + S1x16.size a ≤ S50x128.size a
  k0_off32_inb : ∀ k0_t4 : Fin k0_t4_loop.trips, ∀ a, (k0_off32 k0_t4) a + S1x16.size a ≤ S50x128.size a
  k0_off33_inb : ∀ k0_t4 : Fin k0_t4_loop.trips, ∀ a, (k0_off33 k0_t4) a + S1x16.size a ≤ S50x128.size a
  k0_t5_ok : k0_t5_loop.OK
  k0_off34_inb : ∀ k0_t5 : Fin k0_t5_loop.trips, ∀ a, (k0_off34 k0_t5) a + S1x16.size a ≤ S50x128.size a
  k0_off35_inb : ∀ k0_t5 : Fin k0_t5_loop.trips, ∀ a, (k0_off35 k0_t5) a + S1x16.size a ≤ S50x128.size a
  k0_off36_inb : ∀ k0_t5 : Fin k0_t5_loop.trips, ∀ a, (k0_off36 k0_t5) a + S1x16.size a ≤ S50x128.size a
  k0_off37_inb : ∀ k0_t5 : Fin k0_t5_loop.trips, ∀ a, (k0_off37 k0_t5) a + S1x16.size a ≤ S50x128.size a
  k0_off38_inb : ∀ k0_t5 : Fin k0_t5_loop.trips, ∀ a, (k0_off38 k0_t5) a + S1x16.size a ≤ S50x128.size a
  k0_off39_inb : ∀ k0_t5 : Fin k0_t5_loop.trips, ∀ a, (k0_off39 k0_t5) a + S1x16.size a ≤ S50x128.size a
  k0_off40_inb : ∀ k0_t5 : Fin k0_t5_loop.trips, ∀ a, (k0_off40 k0_t5) a + S1x16.size a ≤ S50x128.size a
  k0_off41_inb : ∀ k0_t5 : Fin k0_t5_loop.trips, ∀ a, (k0_off41 k0_t5) a + S1x16.size a ≤ S50x128.size a
  k0_t6_ok : k0_t6_loop.OK
  k0_off42_inb : ∀ k0_t6 : Fin k0_t6_loop.trips, ∀ a, (k0_off42 k0_t6) a + S1x16.size a ≤ S50x128.size a
  k0_off43_inb : ∀ k0_t6 : Fin k0_t6_loop.trips, ∀ a, (k0_off43 k0_t6) a + S1x16.size a ≤ S50x128.size a
  k0_off44_inb : ∀ k0_t6 : Fin k0_t6_loop.trips, ∀ a, (k0_off44 k0_t6) a + S1x16.size a ≤ S50x128.size a
  k0_off45_inb : ∀ k0_t6 : Fin k0_t6_loop.trips, ∀ a, (k0_off45 k0_t6) a + S1x16.size a ≤ S50x128.size a
  k0_off46_inb : ∀ k0_t6 : Fin k0_t6_loop.trips, ∀ a, (k0_off46 k0_t6) a + S1x16.size a ≤ S50x128.size a
  k0_off47_inb : ∀ k0_t6 : Fin k0_t6_loop.trips, ∀ a, (k0_off47 k0_t6) a + S1x16.size a ≤ S50x128.size a
  k0_off48_inb : ∀ k0_t6 : Fin k0_t6_loop.trips, ∀ a, (k0_off48 k0_t6) a + S1x16.size a ≤ S50x128.size a
  k0_off49_inb : ∀ k0_t6 : Fin k0_t6_loop.trips, ∀ a, (k0_off49 k0_t6) a + S1x16.size a ≤ S50x128.size a
  k0_t7_ok : k0_t7_loop.OK
  k0_off50_inb : ∀ k0_t7 : Fin k0_t7_loop.trips, ∀ a, (k0_off50 k0_t7) a + S1x16.size a ≤ S50x128.size a
  k0_off51_inb : ∀ k0_t7 : Fin k0_t7_loop.trips, ∀ a, (k0_off51 k0_t7) a + S1x16.size a ≤ S50x128.size a
  k0_off52_inb : ∀ k0_t7 : Fin k0_t7_loop.trips, ∀ a, (k0_off52 k0_t7) a + S1x16.size a ≤ S50x128.size a
  k0_off53_inb : ∀ k0_t7 : Fin k0_t7_loop.trips, ∀ a, (k0_off53 k0_t7) a + S1x16.size a ≤ S50x128.size a
  k0_off54_inb : ∀ k0_t7 : Fin k0_t7_loop.trips, ∀ a, (k0_off54 k0_t7) a + S1x16.size a ≤ S50x128.size a
  k0_off55_inb : ∀ k0_t7 : Fin k0_t7_loop.trips, ∀ a, (k0_off55 k0_t7) a + S1x16.size a ≤ S50x128.size a
  k0_off56_inb : ∀ k0_t7 : Fin k0_t7_loop.trips, ∀ a, (k0_off56 k0_t7) a + S1x16.size a ≤ S50x128.size a
  k0_off57_inb : ∀ k0_t7 : Fin k0_t7_loop.trips, ∀ a, (k0_off57 k0_t7) a + S1x16.size a ≤ S50x128.size a
  k0_t8_ok : k0_t8_loop.OK
  k0_off58_inb : ∀ k0_t8 : Fin k0_t8_loop.trips, ∀ a, (k0_off58 k0_t8) a + S1x16.size a ≤ S50x128.size a
  k0_off59_inb : ∀ k0_t8 : Fin k0_t8_loop.trips, ∀ a, (k0_off59 k0_t8) a + S1x16.size a ≤ S50x128.size a
  k0_off60_inb : ∀ k0_t8 : Fin k0_t8_loop.trips, ∀ a, (k0_off60 k0_t8) a + S1x16.size a ≤ S50x128.size a
  k0_off61_inb : ∀ k0_t8 : Fin k0_t8_loop.trips, ∀ a, (k0_off61 k0_t8) a + S1x16.size a ≤ S50x128.size a
  k0_off62_inb : ∀ k0_t8 : Fin k0_t8_loop.trips, ∀ a, (k0_off62 k0_t8) a + S1x16.size a ≤ S50x128.size a
  k0_off63_inb : ∀ k0_t8 : Fin k0_t8_loop.trips, ∀ a, (k0_off63 k0_t8) a + S1x16.size a ≤ S50x128.size a
  k0_off64_inb : ∀ k0_t8 : Fin k0_t8_loop.trips, ∀ a, (k0_off64 k0_t8) a + S1x16.size a ≤ S50x128.size a
  k0_off65_inb : ∀ k0_t8 : Fin k0_t8_loop.trips, ∀ a, (k0_off65 k0_t8) a + S1x16.size a ≤ S50x128.size a
  k0_t9_ok : k0_t9_loop.OK
  k0_off66_inb : ∀ k0_t9 : Fin k0_t9_loop.trips, ∀ a, (k0_off66 k0_t9) a + S1x16.size a ≤ S50x128.size a
  k0_off67_inb : ∀ k0_t9 : Fin k0_t9_loop.trips, ∀ a, (k0_off67 k0_t9) a + S1x16.size a ≤ S50x128.size a
  k0_off68_inb : ∀ k0_t9 : Fin k0_t9_loop.trips, ∀ a, (k0_off68 k0_t9) a + S1x16.size a ≤ S50x128.size a
  k0_off69_inb : ∀ k0_t9 : Fin k0_t9_loop.trips, ∀ a, (k0_off69 k0_t9) a + S1x16.size a ≤ S50x128.size a
  k0_off70_inb : ∀ k0_t9 : Fin k0_t9_loop.trips, ∀ a, (k0_off70 k0_t9) a + S1x16.size a ≤ S50x128.size a
  k0_off71_inb : ∀ k0_t9 : Fin k0_t9_loop.trips, ∀ a, (k0_off71 k0_t9) a + S1x16.size a ≤ S50x128.size a
  k0_off72_inb : ∀ k0_t9 : Fin k0_t9_loop.trips, ∀ a, (k0_off72 k0_t9) a + S1x16.size a ≤ S50x128.size a
  k0_off73_inb : ∀ k0_t9 : Fin k0_t9_loop.trips, ∀ a, (k0_off73 k0_t9) a + S1x16.size a ≤ S50x128.size a
  k0_t10_ok : k0_t10_loop.OK
  k0_off74_inb : ∀ k0_t10 : Fin k0_t10_loop.trips, ∀ a, (k0_off74 k0_t10) a + S1x16.size a ≤ S50x128.size a
  k0_off75_inb : ∀ k0_t10 : Fin k0_t10_loop.trips, ∀ a, (k0_off75 k0_t10) a + S1x16.size a ≤ S50x128.size a
  k0_off76_inb : ∀ k0_t10 : Fin k0_t10_loop.trips, ∀ a, (k0_off76 k0_t10) a + S1x16.size a ≤ S50x128.size a
  k0_off77_inb : ∀ k0_t10 : Fin k0_t10_loop.trips, ∀ a, (k0_off77 k0_t10) a + S1x16.size a ≤ S50x128.size a
  k0_off78_inb : ∀ k0_t10 : Fin k0_t10_loop.trips, ∀ a, (k0_off78 k0_t10) a + S1x16.size a ≤ S50x128.size a
  k0_off79_inb : ∀ k0_t10 : Fin k0_t10_loop.trips, ∀ a, (k0_off79 k0_t10) a + S1x16.size a ≤ S50x128.size a
  k0_off80_inb : ∀ k0_t10 : Fin k0_t10_loop.trips, ∀ a, (k0_off80 k0_t10) a + S1x16.size a ≤ S50x128.size a
  k0_off81_inb : ∀ k0_t10 : Fin k0_t10_loop.trips, ∀ a, (k0_off81 k0_t10) a + S1x16.size a ≤ S50x128.size a
  k0_t11_ok : k0_t11_loop.OK
  k0_off82_inb : ∀ k0_t11 : Fin k0_t11_loop.trips, ∀ a, (k0_off82 k0_t11) a + S1x16.size a ≤ S50x128.size a
  k0_off83_inb : ∀ k0_t11 : Fin k0_t11_loop.trips, ∀ a, (k0_off83 k0_t11) a + S1x16.size a ≤ S50x128.size a
  k0_off84_inb : ∀ k0_t11 : Fin k0_t11_loop.trips, ∀ a, (k0_off84 k0_t11) a + S1x16.size a ≤ S50x128.size a
  k0_off85_inb : ∀ k0_t11 : Fin k0_t11_loop.trips, ∀ a, (k0_off85 k0_t11) a + S1x16.size a ≤ S50x128.size a
  k0_off86_inb : ∀ k0_t11 : Fin k0_t11_loop.trips, ∀ a, (k0_off86 k0_t11) a + S1x16.size a ≤ S50x128.size a
  k0_off87_inb : ∀ k0_t11 : Fin k0_t11_loop.trips, ∀ a, (k0_off87 k0_t11) a + S1x16.size a ≤ S50x128.size a
  k0_off88_inb : ∀ k0_t11 : Fin k0_t11_loop.trips, ∀ a, (k0_off88 k0_t11) a + S1x16.size a ≤ S50x128.size a
  k0_off89_inb : ∀ k0_t11 : Fin k0_t11_loop.trips, ∀ a, (k0_off89 k0_t11) a + S1x16.size a ≤ S50x128.size a
  k0_t12_ok : k0_t12_loop.OK
  k0_off90_inb : ∀ k0_t12 : Fin k0_t12_loop.trips, ∀ a, (k0_off90 k0_t12) a + S1x16.size a ≤ S50x128.size a
  k0_off91_inb : ∀ k0_t12 : Fin k0_t12_loop.trips, ∀ a, (k0_off91 k0_t12) a + S1x16.size a ≤ S50x128.size a
  k0_off92_inb : ∀ k0_t12 : Fin k0_t12_loop.trips, ∀ a, (k0_off92 k0_t12) a + S1x16.size a ≤ S50x128.size a
  k0_off93_inb : ∀ k0_t12 : Fin k0_t12_loop.trips, ∀ a, (k0_off93 k0_t12) a + S1x16.size a ≤ S50x128.size a
  k0_off94_inb : ∀ k0_t12 : Fin k0_t12_loop.trips, ∀ a, (k0_off94 k0_t12) a + S1x16.size a ≤ S50x128.size a
  k0_off95_inb : ∀ k0_t12 : Fin k0_t12_loop.trips, ∀ a, (k0_off95 k0_t12) a + S1x16.size a ≤ S50x128.size a
  k0_off96_inb : ∀ k0_t12 : Fin k0_t12_loop.trips, ∀ a, (k0_off96 k0_t12) a + S1x16.size a ≤ S50x128.size a
  k0_off97_inb : ∀ k0_t12 : Fin k0_t12_loop.trips, ∀ a, (k0_off97 k0_t12) a + S1x16.size a ≤ S50x128.size a
  k0_t13_ok : k0_t13_loop.OK
  k0_off98_inb : ∀ k0_t13 : Fin k0_t13_loop.trips, ∀ a, (k0_off98 k0_t13) a + S1x16.size a ≤ S50x128.size a
  k0_off99_inb : ∀ k0_t13 : Fin k0_t13_loop.trips, ∀ a, (k0_off99 k0_t13) a + S1x16.size a ≤ S50x128.size a
  k0_off100_inb : ∀ k0_t13 : Fin k0_t13_loop.trips, ∀ a, (k0_off100 k0_t13) a + S1x16.size a ≤ S50x128.size a
  k0_off101_inb : ∀ k0_t13 : Fin k0_t13_loop.trips, ∀ a, (k0_off101 k0_t13) a + S1x16.size a ≤ S50x128.size a
  k0_off102_inb : ∀ k0_t13 : Fin k0_t13_loop.trips, ∀ a, (k0_off102 k0_t13) a + S1x16.size a ≤ S50x128.size a
  k0_off103_inb : ∀ k0_t13 : Fin k0_t13_loop.trips, ∀ a, (k0_off103 k0_t13) a + S1x16.size a ≤ S50x128.size a
  k0_off104_inb : ∀ k0_t13 : Fin k0_t13_loop.trips, ∀ a, (k0_off104 k0_t13) a + S1x16.size a ≤ S50x128.size a
  k0_off105_inb : ∀ k0_t13 : Fin k0_t13_loop.trips, ∀ a, (k0_off105 k0_t13) a + S1x16.size a ≤ S50x128.size a
  k0_t14_ok : k0_t14_loop.OK
  k0_off106_inb : ∀ k0_t14 : Fin k0_t14_loop.trips, ∀ a, (k0_off106 k0_t14) a + S1x16.size a ≤ S50x128.size a
  k0_off107_inb : ∀ k0_t14 : Fin k0_t14_loop.trips, ∀ a, (k0_off107 k0_t14) a + S1x16.size a ≤ S50x128.size a
  k0_off108_inb : ∀ k0_t14 : Fin k0_t14_loop.trips, ∀ a, (k0_off108 k0_t14) a + S1x16.size a ≤ S50x128.size a
  k0_off109_inb : ∀ k0_t14 : Fin k0_t14_loop.trips, ∀ a, (k0_off109 k0_t14) a + S1x16.size a ≤ S50x128.size a
  k0_off110_inb : ∀ k0_t14 : Fin k0_t14_loop.trips, ∀ a, (k0_off110 k0_t14) a + S1x16.size a ≤ S50x128.size a
  k0_off111_inb : ∀ k0_t14 : Fin k0_t14_loop.trips, ∀ a, (k0_off111 k0_t14) a + S1x16.size a ≤ S50x128.size a
  k0_off112_inb : ∀ k0_t14 : Fin k0_t14_loop.trips, ∀ a, (k0_off112 k0_t14) a + S1x16.size a ≤ S50x128.size a
  k0_off113_inb : ∀ k0_t14 : Fin k0_t14_loop.trips, ∀ a, (k0_off113 k0_t14) a + S1x16.size a ≤ S50x128.size a
  k0_t15_ok : k0_t15_loop.OK
  k0_off114_inb : ∀ k0_t15 : Fin k0_t15_loop.trips, ∀ a, (k0_off114 k0_t15) a + S1x16.size a ≤ S50x128.size a
  k0_off115_inb : ∀ k0_t15 : Fin k0_t15_loop.trips, ∀ a, (k0_off115 k0_t15) a + S1x16.size a ≤ S50x128.size a
  k0_off116_inb : ∀ k0_t15 : Fin k0_t15_loop.trips, ∀ a, (k0_off116 k0_t15) a + S1x16.size a ≤ S50x128.size a
  k0_off117_inb : ∀ k0_t15 : Fin k0_t15_loop.trips, ∀ a, (k0_off117 k0_t15) a + S1x16.size a ≤ S50x128.size a
  k0_off118_inb : ∀ k0_t15 : Fin k0_t15_loop.trips, ∀ a, (k0_off118 k0_t15) a + S1x16.size a ≤ S50x128.size a
  k0_off119_inb : ∀ k0_t15 : Fin k0_t15_loop.trips, ∀ a, (k0_off119 k0_t15) a + S1x16.size a ≤ S50x128.size a
  k0_off120_inb : ∀ k0_t15 : Fin k0_t15_loop.trips, ∀ a, (k0_off120 k0_t15) a + S1x16.size a ≤ S50x128.size a
  k0_off121_inb : ∀ k0_t15 : Fin k0_t15_loop.trips, ∀ a, (k0_off121 k0_t15) a + S1x16.size a ≤ S50x128.size a
  k0_t16_ok : k0_t16_loop.OK
  k0_off122_inb : ∀ k0_t16 : Fin k0_t16_loop.trips, ∀ a, (k0_off122 k0_t16) a + S1x16.size a ≤ S50x128.size a
  k0_off123_inb : ∀ k0_t16 : Fin k0_t16_loop.trips, ∀ a, (k0_off123 k0_t16) a + S1x16.size a ≤ S50x128.size a
  k0_off124_inb : ∀ k0_t16 : Fin k0_t16_loop.trips, ∀ a, (k0_off124 k0_t16) a + S1x16.size a ≤ S50x128.size a
  k0_off125_inb : ∀ k0_t16 : Fin k0_t16_loop.trips, ∀ a, (k0_off125 k0_t16) a + S1x16.size a ≤ S50x128.size a
  k0_off126_inb : ∀ k0_t16 : Fin k0_t16_loop.trips, ∀ a, (k0_off126 k0_t16) a + S1x16.size a ≤ S50x128.size a
  k0_off127_inb : ∀ k0_t16 : Fin k0_t16_loop.trips, ∀ a, (k0_off127 k0_t16) a + S1x16.size a ≤ S50x128.size a
  k0_off128_inb : ∀ k0_t16 : Fin k0_t16_loop.trips, ∀ a, (k0_off128 k0_t16) a + S1x16.size a ≤ S50x128.size a
  k0_off129_inb : ∀ k0_t16 : Fin k0_t16_loop.trips, ∀ a, (k0_off129 k0_t16) a + S1x16.size a ≤ S50x128.size a
  k0_off130_inb : ∀ i : grid0.Coords, ∀ a, (k0_off130 i) a + S2x1024.size a ≤ S64x1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S64x4096.size a < S64x100000.size a
  hwx1_0 : ∀ i : grid1.Coords, EltTy.bits .f32 = 32 ∨ (Rect.unit (s := S64x100000) (fun a => cc1_transform_0 i a * S64x4096.size a) (fun a => (Pipeline.Clip.of (cc1_transform_0 i a) (S64x4096.size a) (S64x100000.size a)).extent (S64x4096.size a)) fun a => Pipeline.Clip.inb (Pipeline.Clip.ok_of (hstart1_0 i a))).WholeWords (EltTy.packing .f32)
  hwxs1_0 : ∀ i : grid1.Coords, EltTy.bits .f32 = 32 ∨ (Rect.unit (s := S64x4096) (fun _ => 0) (fun a => (Pipeline.Clip.of (cc1_transform_0 i a) (S64x4096.size a) (S64x100000.size a)).extent (S64x4096.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x100000.size a
  hwx1_2 : ∀ i : grid1.Coords, EltTy.bits .f32 = 32 ∨ (Rect.unit (s := S1x100000) (fun a => cc1_transform_2 i a * S1x4096.size a) (fun a => (Pipeline.Clip.of (cc1_transform_2 i a) (S1x4096.size a) (S1x100000.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x100000.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x1024.size a < S100000x1024.size a
  hwx1_3 : ∀ i : grid1.Coords, EltTy.bits .f32 = 32 ∨ (Rect.unit (s := S100000x1024) (fun a => cc1_transform_3 i a * S4096x1024.size a) (fun a => (Pipeline.Clip.of (cc1_transform_3 i a) (S4096x1024.size a) (S100000x1024.size a)).extent (S4096x1024.size a)) fun a => Pipeline.Clip.inb (Pipeline.Clip.ok_of (hstart1_3 i a))).WholeWords (EltTy.packing .f32)
  hwxs1_3 : ∀ i : grid1.Coords, EltTy.bits .f32 = 32 ∨ (Rect.unit (s := S4096x1024) (fun _ => 0) (fun a => (Pipeline.Clip.of (cc1_transform_3 i a) (S4096x1024.size a) (S100000x1024.size a)).extent (S4096x1024.size a)) fun a => (Nat.zero_add _).trans_le (Pipeline.Clip.extent_le (Pipeline.Clip.ok_of (hstart1_3 i a)))).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0
def dot_S64x4096_S64x1024_S4096x1024_0_0_1_1_n_n : DotDims S64x4096 S64x1024 S4096x1024 where
  lhsContracting := [0]
  rhsContracting := [0]
  lhsNonContracting := [1]
  rhsNonContracting := [1]
  lhsBatch := []
  rhsBatch := []
  wf := dot_S64x4096_S64x1024_S4096x1024_0_0_1_1_n_n_wf

abbrev win1_0 : Pipeline.Window sig grid1 :=
  Pipeline.Window.ofSpecClip (Memref.whole main_v3) S64x4096.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2) S64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v4) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v5) S4096x1024.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x50 : Shape := ⟨2, ![1024, 50]⟩
abbrev S100000x64 : Shape := ⟨2, ![100000, 64]⟩
abbrev S100000 : Shape := ⟨1, ![100000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x64 : Shape := ⟨3, ![1024, 50, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x50, .i32⟩
  | .hbm, ⟨6, _⟩ => ⟨S1024x50, .i1⟩
  | .hbm, ⟨7, _⟩ => ⟨S_, .i32⟩
  | .hbm, ⟨8, _⟩ => ⟨S1024x50, .i32⟩
  | .hbm, ⟨9, _⟩ => ⟨S1024x50, .i32⟩
  | .hbm, ⟨10, _⟩ => ⟨S1024x50, .i32⟩
  | .hbm, ⟨11, _⟩ => ⟨S1024x50x1, .i32⟩
  | .hbm, ⟨12, _⟩ => ⟨S1, .i32⟩
  | .hbm, ⟨13, _⟩ => ⟨S_, .i32⟩
  | .hbm, ⟨14, _⟩ => ⟨S1024x50x1, .i32⟩
  | .hbm, ⟨15, _⟩ => ⟨S1024x50x1, .i1⟩
  | .hbm, ⟨16, _⟩ => ⟨S1x1x1, .i32⟩
  | .hbm, ⟨17, _⟩ => ⟨S1024x50x1, .i32⟩
  | .hbm, ⟨18, _⟩ => ⟨S1024x50x1, .i1⟩
  | .hbm, ⟨19, _⟩ => ⟨S1024x50x1, .i1⟩
  | .hbm, ⟨20, _⟩ => ⟨S_, .i1⟩
  | .hbm, ⟨21, _⟩ => ⟨S1024x50, .i1⟩
  | .hbm, ⟨22, _⟩ => ⟨S1024x50x64, .f32⟩
  | .hbm, ⟨23, _⟩ => ⟨S1024x50x64, .i1⟩
  | .hbm, ⟨24, _⟩ => ⟨S_, .f32⟩
  | .hbm, ⟨25, _⟩ => ⟨S1024x50x64, .f32⟩
  | .hbm, ⟨26, _⟩ => ⟨S1024x50x64, .f32⟩
  | .hbm, ⟨27, _⟩ => ⟨S_, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S64x100000, .f32⟩
  | .hbm, ⟨33, _⟩ => ⟨S1024x100000, .f32⟩
  | .hbm, ⟨34, _⟩ => ⟨S1x100000, .f32⟩
  | .hbm, ⟨35, _⟩ => ⟨S1024x100000, .f32⟩
  | .hbm, ⟨36, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x64_0_1 : S1024x50.BroadcastsInDim S1024x50x64 (![0, 1] : Fin 2 → Fin S1024x50x64.rank)
  bcast_S_S1024x50x64 : S_.BroadcastsInDim S1024x50x64 (![] : Fin 0 → Fin S1024x50x64.rank)
  reducesTo_S1024x50x64_S1024x64_d1 : S1024x50x64.ReducesTo [1] S1024x64
  bcast_S_S1024x64 : S_.BroadcastsInDim S1024x64 (![] : Fin 0 → Fin S1024x64.rank)
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x50x1_S1024x50x64_2_0_n_n_0_2_164_wf : GatherDims.WF S100000x64 S1024x50x1 S1024x50x64 [2] [0] [] [0] [] 2 ![1, 64]
  dot_S1024x64_S64x100000_S1024x100000_1_0_0_1_n_n_wf : DotDims.WF S1024x64 S64x100000 S1024x100000 [1] [0] [0] [1] [] []

variable [Facts₀]

def gather_S100000x64_S1024x50x1_S1024x50x64_2_0_n_n_0_2_164 : GatherDims S100000x64 S1024x50x1 S1024x50x64 where
  offsetDims := [2]
  collapsedSliceDims := [0]
  operandBatchingDims := []
  startIndicesBatchingDims := []
  startIndexMap := [0]
  indexVectorDim := 2
  sliceSizes := ![1, 64]
  wf := gather_S100000x64_S1024x50x1_S1024x50x64_2_0_n_n_0_2_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.PoolFold.lean ====
/-
  The pooling kernel's arithmetic as functions of whole arrays, for any float instance.

  A worker holds one row of the feature-major table (100000 entries) and, chunk by chunk, 128 examples' context words
  (50 positions by 128 examples). For lane group `g` (16 examples) it keeps a 16-lane accumulator, from zero, and at
  context position `k` adds the 16 table entries the 16 words at (k, 16 g + lane) name. After 50 positions the
  accumulator is multiplied by the reciprocal of 50. Entry (d, b) of the result is lane b mod 16 of group (b mod 128) / 16
  of chunk b / 128, over table row d.
-/
import Idealize.ShloMosaic.PureOps
import Idealize.ShloMosaic.PureOps.Ideal
import Idealize.ShloMosaic.Lib.ValueIdx

noncomputable section

namespace Cert.PoolFold

open Idealize.ShloMosaic Idealize.ShloMosaic.ValueIdx

variable {F : FTy → Type} [FloatOps F]

abbrev S16 : Shape := ⟨1, ![16]⟩
abbrev S1x16 : Shape := ⟨2, ![1, 16]⟩
/-- One row of the feature-major table. -/
abbrev SRow : Shape := ⟨1, ![100000]⟩
/-- One staged chunk of context words: 50 positions of 128 examples. -/
abbrev SChunk : Shape := ⟨2, ![50, 128]⟩
/-- The context words, position-major: 50 positions of 1024 examples. -/
abbrev SCtxT : Shape := ⟨2, ![50, 1024]⟩
/-- The table, feature-major: 64 features of 100000 words. -/
abbrev STabT : Shape := ⟨2, ![64, 100000]⟩
/-- The averaged features, feature-major. -/
abbrev SPoolT : Shape := ⟨2, ![64, 1024]⟩

/-- The table entry a word names: the word as a natural number, reduced modulo the row's length (the identity on a word
    in range). -/
def pick (row : FVec F SRow .f32) (w : BitVec 32) : F .f32 :=
  row (ix1 ⟨w.toNat % 100000, Nat.mod_lt _ (by norm_num)⟩)

/-- The 16 words of a chunk at context position `k` (reduced modulo 50) for lane group `g`. -/
def words (ch : IVec SChunk 32) (k : ℕ) (g : Fin 8) : IVec S16 32 :=
  fun l => ch (ix2 ⟨k % 50, Nat.mod_lt _ (by norm_num)⟩ ⟨16 * g.val + (l 0).val, by have h1 : (l 0).val < 16 := (l 0).isLt; have := g.isLt; omega⟩)

/-- One accumulation step: add, lane by lane, the table entries the 16 words name. -/
def gstep (row : FVec F SRow .f32) (ch : IVec SChunk 32) (k : ℕ) (g : Fin 8) (acc : FVec F S16 .f32) : FVec F S16 .f32 :=
  addf acc (fun l => pick row (words ch k g l))

/-- The accumulator of lane group `g` after the first `n` context positions, from zero. -/
def accF (row : FVec F SRow .f32) (ch : IVec SChunk 32) (g : Fin 8) : ℕ → FVec F S16 .f32
  | 0 => broadcast S16 (Scalar.ofBits .f32 0x00000000#32)
  | n + 1 => gstep row ch n g (accF row ch g n)

/-- The 16 averaged entries of lane group `g`: the full accumulator times the reciprocal `c`. -/
def outVec (c : F .f32) (row : FVec F SRow .f32) (ch : IVec SChunk 32) (g : Fin 8) : FVec F S16 .f32 :=
  mulf (accF row ch g 50) (broadcast S16 c)

/-- Chunk `c` of the position-major context words: examples 128 c to 128 c + 127. -/
def chunkOf (ctxT : IVec SCtxT 32) (c : Fin 8) : IVec SChunk 32 :=
  fun i => ctxT (ix2 (i 0) ⟨128 * c.val + (i 1).val, by have h1 : (i 1).val < 128 := (i 1).isLt; have := c.isLt; omega⟩)

/-- Row `d` of the feature-major table. -/
def rowOf (tabT : FVec F STabT .f32) (d : Fin 64) : FVec F SRow .f32 :=
  fun i => tabT (ix2 d (i 0))

/-- What the pooling kernel leaves, as a whole feature-major array: entry (d, b). -/
def poolF (c : F .f32) (ctxT : IVec SCtxT 32) (tabT : FVec F STabT .f32) : FVec F SPoolT .f32 :=
  fun i =>
    outVec c (rowOf tabT (i 0))
      (chunkOf ctxT ⟨(i 1).val / 128, by have h1 : (i 1).val < 1024 := (i 1).isLt; omega⟩)
      ⟨(i 1).val % 128 / 16, by omega⟩
      (ix1 ⟨(i 1).val % 16, Nat.mod_lt _ (by norm_num)⟩)

theorem accF_succ (row : FVec F SRow .f32) (ch : IVec SChunk 32) (g : Fin 8) (n : ℕ) :
    accF row ch g (n + 1) = gstep row ch n g (accF row ch g n) := rfl

theorem accF_zero (row : FVec F SRow .f32) (ch : IVec SChunk 32) (g : Fin 8) :
    accF row ch g 0 = broadcast S16 (Scalar.ofBits .f32 0x00000000#32) := rfl

end Cert.PoolFold

end
-- ==== Proof.TileDefs.lean ====
/-
  A vector subcore's task of the pooling kernel: the names of its arrays and scratch buffers, what a loop over the 50
  context positions keeps true, and that the words it reads off a staged chunk name table rows.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204130_g36155034698017_cont_8to1_b_1516_18_alg».proof.Proof.Gen.KernelIdeal
import proofs.«204130_g36155034698017_cont_8to1_b_1516_18_alg».proof.Proof.Gen.KernelIdeal.Skeleton
import proofs.«204130_g36155034698017_cont_8to1_b_1516_18_alg».proof.Proof.PoolFold

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep rowOf chunkOf)

variable {F : FTy → Type} [FloatOps F] [Named F]
variable {U : Type} [URA U] [CountersIn U]

local notation "𝕄" => MT nD τ sig (HIx 1) (Elt F) ℕ U ℕ

abbrev 𝒱₀ : Variants := Variants.none

local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)

variable (d : Dev nD) (L : grid0.Coords)

/-- The SparseCore and the vector subcore a grid point names. -/
abbrev cV (L : grid0.Coords) : Fin τ.nSC := (L 0).castLE hcore0
abbrev jV (L : grid0.Coords) : Fin τ.nSub := (L 1).castLE hsub0

/-- The eight accumulators after `n` context positions over table row `row` and staged chunk `ch`. -/
def accT (row : FVec F S100000 .f32) (ch : IVec S50x128 32) (n : ℕ) :
    FVec F S16 .f32 × FVec F S16 .f32 × FVec F S16 .f32 × FVec F S16 .f32 × FVec F S16 .f32 × FVec F S16 .f32 × FVec F S16 .f32 × FVec F S16 .f32 :=
  (accF row ch 0 n, accF row ch 1 n, accF row ch 2 n, accF row ch 3 n, accF row ch 4 n, accF row ch 5 n, accF row ch 6 n, accF row ch 7 n)

/-- The table row a task's round `r` works on: a task handles two consecutive rows, and the tasks' pairs are dealt
    subcore-major over the two cores. -/
def dRow (L : grid0.Coords) (r : Fin 2) : Fin 64 :=
  ⟨4 * (L 1).val + 2 * (L 0).val + r.val, by
    have h1 : (L 1).val < 16 := (L 1).isLt
    have h0 : (L 0).val < 2 := (L 0).isLt
    have := r.isLt; omega⟩

/-- What a loop over the context positions keeps, the chunk staged in the FIRST index buffer: the row scratch holds table
    row `dd` of the feature-major table `A1`, the index buffer chunk `c` of the position-major context words `A0`, both
    whole and only read, and the accumulators are at their values after `n` positions. -/
def linv0 (A0 : IVec S50x1024 32) (A1 : FVec F S64x100000 .f32) (dd : Fin 64) (c : Fin 8) (n : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(∃ (row : Buf (Elt F) ((V d (cV L) (jV L)).loc cc0_scratch0)) (ch : Buf (Elt F) ((V d (cV L) (jV L)).loc cc0_scratch1)),
    ((rowV).view.loc (V d (cV L) (jV L)) ↦{fullShare} row) ∗ ((i0V).view.loc (V d (cV L) (jV L)) ↦{fullShare} ch)
      ∗ ⌜acc = accT row ch n ∧ row = rowOf A1 dd ∧ ch = chunkOf A0 c⌝)

/-- The same with the chunk staged in the SECOND index buffer. -/
def linv1 (A0 : IVec S50x1024 32) (A1 : FVec F S64x100000 .f32) (dd : Fin 64) (c : Fin 8) (n : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(∃ (row : Buf (Elt F) ((V d (cV L) (jV L)).loc cc0_scratch0)) (ch : Buf (Elt F) ((V d (cV L) (jV L)).loc cc0_scratch2)),
    ((rowV).view.loc (V d (cV L) (jV L)) ↦{fullShare} row) ∗ ((i1V).view.loc (V d (cV L) (jV L)) ↦{fullShare} ch)
      ∗ ⌜acc = accT row ch n ∧ row = rowOf A1 dd ∧ ch = chunkOf A0 c⌝)

omit [FloatOps F] [Named F] [CountersIn U] in
/-- Every word of a chunk of the context words names a table row when every context word does. -/
theorem chunk_lt (A0 : IVec S50x1024 32) (hA0 : ∀ x, (A0 x).toNat < 100000) (c : Fin 8) : ∀ x, (chunkOf A0 c x).toNat < 100000 :=
  fun _ => hA0 _

omit [Named F] [CountersIn U] in
/-- Words read off the first index buffer all name table rows when every word of the buffer does. -/
theorem chk_ok0 (ch : Buf (Elt F) ((V d (cV L) (jV L)).loc cc0_scratch1)) (hch : ∀ x, (ch x).toNat < 100000)
    (r : LoadRect S50x128) (hsc : r.shape.ShapeCasts S16) :
    ∀ a x, ((![shapeCast S16 (View.readAt (Elt F) (i0V).view r ch) hsc] : Fin 1 → IVec S16 32) a x).toNat < S100000.size a := by
  intro a x
  match a with
  | ⟨0, _⟩ =>
    show (shapeCast S16 (View.readAt (Elt F) (i0V).view r ch) hsc x).toNat < 100000
    unfold shapeCast
    rw [View.readAt_apply]
    simp only [Memref.view_whole, View.read_whole]
    exact hch _

omit [Named F] [CountersIn U] in
/-- The same for the second index buffer. -/
theorem chk_ok1 (ch : Buf (Elt F) ((V d (cV L) (jV L)).loc cc0_scratch2)) (hch : ∀ x, (ch x).toNat < 100000)
    (r : LoadRect S50x128) (hsc : r.shape.ShapeCasts S16) :
    ∀ a x, ((![shapeCast S16 (View.readAt (Elt F) (i1V).view r ch) hsc] : Fin 1 → IVec S16 32) a x).toNat < S100000.size a := by
  intro a x
  match a with
  | ⟨0, _⟩ =>
    show (shapeCast S16 (View.readAt (Elt F) (i1V).view r ch) hsc x).toNat < 100000
    unfold shapeCast
    rw [View.readAt_apply]
    simp only [Memref.view_whole, View.read_whole]
    exact hch _

end Cert.KernelIdeal.Tile

end
-- ==== Proof.PoolFoldStep.lean ====
/-
  One accumulation step of a pooling worker, as the symbolic run of its program writes it, is the step `gstep`.

  The run loads the 16 context words of lane group `g` at context position `k` as the 1 x 16 rectangle of the staged
  chunk at offsets (k, 16 g), re-laid as a 16-lane vector, gathers the 16 table entries those words name out of the
  table row, and adds them to the accumulator lane by lane. Lane `l` of the re-laid rectangle is its entry (0, l),
  which is entry (k, 16 g + l) of the chunk: the word `words ch k g l`. A word in range names the entry of its own
  number, which is what `pick` reads after reduction modulo the row's length.
-/
import Idealize.ShloMosaic.PureOps
import Idealize.ShloMosaic.Lib.ValueIdx
import proofs.«204130_g36155034698017_cont_8to1_b_1516_18_alg».proof.Proof.PoolFold

noncomputable section

namespace Cert.PoolFold

open Idealize.ShloMosaic Idealize.ShloMosaic.ValueIdx

variable {F : FTy → Type} [FloatOps F]

/-- Lane `l` of a 1 x 16 vector re-laid as 16 lanes is its entry (0, l): the two have the same row-major position. -/
theorem shapeCast_row_apply {α : Type} (v : S1x16.Idx → α) (hsc : S1x16.ShapeCasts S16) (q : Fin 16) :
    shapeCast S16 v hsc (ix1 q) = v (ix2 (0 : Fin 1) q) := by
  unfold shapeCast
  refine congrArg v (Shape.reshapeEquiv_eq_of_rowMajor hsc ?_)
  rw [Shape.rowMajor_val_two, Shape.rowMajor_val_one]
  show (0 : ℕ) * 16 + q.val = q.val
  omega

/-- The 1 x 16 rectangle of a chunk at offsets (k, 16 g), re-laid as 16 lanes, holds the words of lane group `g` at
    context position `k`: entry (0, l) of the rectangle is entry (k + 0, 16 g + l) of the chunk. -/
theorem words_eq (ch : IVec SChunk 32) (k : ℕ) (hk : k < 50) (g : Fin 8)
    (inb : ∀ a, (![k, 16 * g.val] : Fin 2 → Nat) a + S1x16.size a ≤ SChunk.size a) (hsc : S1x16.ShapeCasts S16) :
    shapeCast S16 (fun x => ch ((Rect.unit (s := SChunk) ![k, 16 * g.val] S1x16.size inb).emb x)) hsc = words ch k g := by
  funext l
  obtain ⟨q, rfl⟩ : ∃ q : Fin 16, l = ix1 q := ⟨l 0, eq_ix1 l⟩
  rw [shapeCast_row_apply]
  unfold words
  refine congrArg ch (funext fun a => Fin.ext ?_)
  match a with
  | ⟨0, _⟩ =>
    show k + 1 * 0 = k % 50
    omega
  | ⟨1, _⟩ =>
    show 16 * g.val + 1 * q.val = 16 * g.val + q.val
    omega

/-- The step of the symbolic run is `gstep`: the gathered entries are the entries `pick` reads, because every word
    is below the row's length (the gather's side condition `h`) and so is its own residue. -/
theorem step_eq (row : FVec F SRow .f32) (ch : IVec SChunk 32) (k : ℕ) (hk : k < 50) (g : Fin 8) (off : Fin 2 → Nat) (hoff : off = ![k, 16 * g.val]) (inb : ∀ a, off a + S1x16.size a ≤ SChunk.size a) (hsc : S1x16.ShapeCasts S16) (h : ∀ a x, ((![shapeCast S16 (fun x => ch ((Rect.unit (s := SChunk) off S1x16.size inb).emb x)) hsc] : Fin 1 → IVec S16 32) a x).toNat < SRow.size a) (acc : FVec F S16 .f32) :
    addf acc (loadIdx (e := .f32) row ![shapeCast S16 (fun x => ch ((Rect.unit (s := SChunk) off S1x16.size inb).emb x)) hsc] h) = gstep row ch k g acc := by
  subst hoff
  unfold gstep
  refine congrArg (addf acc) (funext fun l => ?_)
  have hw := words_eq ch k hk g inb hsc
  have hl : (words ch k g l).toNat < 100000 := by
    have := h 0 l
    rw [← hw]
    exact this
  show row (idxAt _ h l) = pick row (words ch k g l)
  unfold pick
  refine congrArg row (funext fun a => Fin.ext ?_)
  match a with
  | ⟨0, _⟩ =>
    show (shapeCast S16 (fun x => ch ((Rect.unit (s := SChunk) ![k, 16 * g.val] S1x16.size inb).emb x)) hsc l).toNat
      = (words ch k g l).toNat % 100000
    rw [hw, Nat.mod_eq_of_lt hl]

end Cert.PoolFold

end
-- ==== Proof.TileStep.lean ====
/-
  One accumulation step of a pooling worker in the spelling of its program's symbolic run: the table row and the 16
  context words are read off the worker's scratch buffers through their views. A whole buffer read through its whole
  view at the whole rectangle is its contents; read at a unit-stride rectangle it is its contents at the rectangle's
  placed indices. With the two reads so rewritten the step is the step `gstep` of the pooling arithmetic.
-/
import proofs.«204130_g36155034698017_cont_8to1_b_1516_18_alg».proof.Proof.TileDefs
import proofs.«204130_g36155034698017_cont_8to1_b_1516_18_alg».proof.Proof.PoolFoldStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

/-- The step of the symbolic run over the first index buffer is `gstep`: the whole row scratch read through its whole view
    is its contents, the 1 x 16 rectangle of the index buffer read through its whole view is the buffer at the
    rectangle's placed indices, and the rest is `Cert.PoolFold.step_eq`. -/
theorem step0 (row : Buf (Elt F) ((V d (cV L) (jV L)).loc cc0_scratch0)) (ch : Buf (Elt F) ((V d (cV L) (jV L)).loc cc0_scratch1))
    (k : ℕ) (hk : k < 50) (g : Fin 8) (off : Fin 2 → Nat) (hoff : off = ![k, 16 * g.val])
    (inb : ∀ a, off a + S1x16.size a ≤ S50x128.size a) (h) (acc : FVec F S16 .f32) :
    addf acc (loadIdx (e := .f32) (View.readAt (Elt F) (rowV).view (LoadRect.whole S100000) row)
        ![shapeCast S16 (View.readAt (Elt F) (i0V).view (Rect.unit (s := S50x128) off S1x16.size inb).toLoadRect ch) shapeCasts_S1x16_S16] h)
      = gstep row ch k g acc := by
  have e1 : View.readAt (Elt F) (rowV).view (LoadRect.whole S100000) row = row :=
    Memref.readAt_whole (Elt F) cc0_scratch0 row
  have e2 : View.readAt (Elt F) (i0V).view (Rect.unit (s := S50x128) off S1x16.size inb).toLoadRect ch
      = fun x => ch ((Rect.unit (s := S50x128) off S1x16.size inb).emb x) := by
    funext x
    rw [View.readAt_apply]
    simp only [Memref.view_whole, View.read_whole]
    rfl
  revert h
  rw [e1, e2]
  intro h
  exact Cert.PoolFold.step_eq row ch k hk g off hoff inb _ h acc

/-- The step of the symbolic run over the second index buffer is `gstep`: the whole row scratch read through its whole view
    is its contents, the 1 x 16 rectangle of the index buffer read through its whole view is the buffer at the
    rectangle's placed indices, and the rest is `Cert.PoolFold.step_eq`. -/
theorem step1 (row : Buf (Elt F) ((V d (cV L) (jV L)).loc cc0_scratch0)) (ch : Buf (Elt F) ((V d (cV L) (jV L)).loc cc0_scratch2))
    (k : ℕ) (hk : k < 50) (g : Fin 8) (off : Fin 2 → Nat) (hoff : off = ![k, 16 * g.val])
    (inb : ∀ a, off a + S1x16.size a ≤ S50x128.size a) (h) (acc : FVec F S16 .f32) :
    addf acc (loadIdx (e := .f32) (View.readAt (Elt F) (rowV).view (LoadRect.whole S100000) row)
        ![shapeCast S16 (View.readAt (Elt F) (i1V).view (Rect.unit (s := S50x128) off S1x16.size inb).toLoadRect ch) shapeCasts_S1x16_S16] h)
      = gstep row ch k g acc := by
  have e1 : View.readAt (Elt F) (rowV).view (LoadRect.whole S100000) row = row :=
    Memref.readAt_whole (Elt F) cc0_scratch0 row
  have e2 : View.readAt (Elt F) (i1V).view (Rect.unit (s := S50x128) off S1x16.size inb).toLoadRect ch
      = fun x => ch ((Rect.unit (s := S50x128) off S1x16.size inb).emb x) := by
    funext x
    rw [View.readAt_apply]
    simp only [Memref.view_whole, View.read_whole]
    rfl
  revert h
  rw [e1, e2]
  intro h
  exact Cert.PoolFold.step_eq row ch k hk g off hoff inb _ h acc

end Cert.KernelIdeal.Tile

end
-- ==== Proof.LoopsA.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.TileDefs
import proofs.«204130_g36155034698017_cont_8to1_b_1516_18_alg».proof.Proof.TileStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

/-- One trip of the loop over the context positions, chunk loop 1: 16 words per lane group are read, found to name table
    rows, and the entries they name added to the group's accumulator. -/
theorem trip1 (A0 : IVec S50x1024 32) (hA0 : ∀ x, (A0 x).toNat < 100000) (A1 : FVec F S64x100000 .f32) (dd : Fin 64) (c : Fin 8) (v18 : FVec F S16 .f32) (v19 : FVec F S16 .f32) (v20 : FVec F S16 .f32) (v21 : FVec F S16 .f32) (v22 : FVec F S16 .f32) (v23 : FVec F S16 .f32) (v24 : FVec F S16 .f32) (v25 : FVec F S16 .f32)
    (k : Fin k0_t1_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t1_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v18 v19 v20 v21 v22 v23 v24 v25 k acc)
          (linv0 (F := F) (U := U) d L A0 A1 dd c (k.val + 1)) := by
  obtain ⟨a0, a1, a2, a3, a4, a5, a6, a7⟩ := acc
  have hk : k.val < 50 := lt_of_lt_of_le k.isLt k0_t1_abs.2.1
  unfold k0_t1_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off2 k) (k0_off2_eq k) _ _ _
  · exact step0 d L row ch k.val hk 1 (k0_off3 k) (k0_off3_eq k) _ _ _
  · exact step0 d L row ch k.val hk 2 (k0_off4 k) (k0_off4_eq k) _ _ _
  · exact step0 d L row ch k.val hk 3 (k0_off5 k) (k0_off5_eq k) _ _ _
  · exact step0 d L row ch k.val hk 4 (k0_off6 k) (k0_off6_eq k) _ _ _
  · exact step0 d L row ch k.val hk 5 (k0_off7 k) (k0_off7_eq k) _ _ _
  · exact step0 d L row ch k.val hk 6 (k0_off8 k) (k0_off8_eq k) _ _ _
  · exact step0 d L row ch k.val hk 7 (k0_off9 k) (k0_off9_eq k) _ _ _

/-- One trip of the loop over the context positions, chunk loop 2: 16 words per lane group are read, found to name table
    rows, and the entries they name added to the group's accumulator. -/
theorem trip2 (A0 : IVec S50x1024 32) (hA0 : ∀ x, (A0 x).toNat < 100000) (A1 : FVec F S64x100000 .f32) (dd : Fin 64) (c : Fin 8) (v27_6 : FVec F S16 .f32) (v27_7 : FVec F S16 .f32)
    (k : Fin k0_t2_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t2_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v27_6 v27_7 k acc)
          (linv1 (F := F) (U := U) d L A0 A1 dd c (k.val + 1)) := by
  obtain ⟨a0, a1, a2, a3, a4, a5, a6, a7⟩ := acc
  have hk : k.val < 50 := lt_of_lt_of_le k.isLt k0_t2_abs.2.1
  unfold k0_t2_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off10 k) (k0_off10_eq k) _ _ _
  · exact step1 d L row ch k.val hk 1 (k0_off11 k) (k0_off11_eq k) _ _ _
  · exact step1 d L row ch k.val hk 2 (k0_off12 k) (k0_off12_eq k) _ _ _
  · exact step1 d L row ch k.val hk 3 (k0_off13 k) (k0_off13_eq k) _ _ _
  · exact step1 d L row ch k.val hk 4 (k0_off14 k) (k0_off14_eq k) _ _ _
  · exact step1 d L row ch k.val hk 5 (k0_off15 k) (k0_off15_eq k) _ _ _
  · exact step1 d L row ch k.val hk 6 (k0_off16 k) (k0_off16_eq k) _ _ _
  · exact step1 d L row ch k.val hk 7 (k0_off17 k) (k0_off17_eq k) _ _ _

/-- One trip of the loop over the context positions, chunk loop 3: 16 words per lane group are read, found to name table
    rows, and the entries they name added to the group's accumulator. -/
theorem trip3 (A0 : IVec S50x1024 32) (hA0 : ∀ x, (A0 x).toNat < 100000) (A1 : FVec F S64x100000 .f32) (dd : Fin 64) (c : Fin 8) (v103 : FVec F S16 .f32)
    (k : Fin k0_t3_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t3_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v103 k acc)
          (linv0 (F := F) (U := U) d L A0 A1 dd c (k.val + 1)) := by
  obtain ⟨a0, a1, a2, a3, a4, a5, a6, a7⟩ := acc
  have hk : k.val < 50 := lt_of_lt_of_le k.isLt k0_t3_abs.2.1
  unfold k0_t3_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off18 k) (k0_off18_eq k) _ _ _
  · exact step0 d L row ch k.val hk 1 (k0_off19 k) (k0_off19_eq k) _ _ _
  · exact step0 d L row ch k.val hk 2 (k0_off20 k) (k0_off20_eq k) _ _ _
  · exact step0 d L row ch k.val hk 3 (k0_off21 k) (k0_off21_eq k) _ _ _
  · exact step0 d L row ch k.val hk 4 (k0_off22 k) (k0_off22_eq k) _ _ _
  · exact step0 d L row ch k.val hk 5 (k0_off23 k) (k0_off23_eq k) _ _ _
  · exact step0 d L row ch k.val hk 6 (k0_off24 k) (k0_off24_eq k) _ _ _
  · exact step0 d L row ch k.val hk 7 (k0_off25 k) (k0_off25_eq k) _ _ _

/-- One trip of the loop over the context positions, chunk loop 4: 16 words per lane group are read, found to name table
    rows, and the entries they name added to the group's accumulator. -/
theorem trip4 (A0 : IVec S50x1024 32) (hA0 : ∀ x, (A0 x).toNat < 100000) (A1 : FVec F S64x100000 .f32) (dd : Fin 64) (c : Fin 8)
    (k : Fin k0_t4_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t4_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv1 (F := F) (U := U) d L A0 A1 dd c (k.val + 1)) := by
  obtain ⟨a0, a1, a2, a3, a4, a5, a6, a7⟩ := acc
  have hk : k.val < 50 := lt_of_lt_of_le k.isLt k0_t4_abs.2.1
  unfold k0_t4_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off26 k) (k0_off26_eq k) _ _ _
  · exact step1 d L row ch k.val hk 1 (k0_off27 k) (k0_off27_eq k) _ _ _
  · exact step1 d L row ch k.val hk 2 (k0_off28 k) (k0_off28_eq k) _ _ _
  · exact step1 d L row ch k.val hk 3 (k0_off29 k) (k0_off29_eq k) _ _ _
  · exact step1 d L row ch k.val hk 4 (k0_off30 k) (k0_off30_eq k) _ _ _
  · exact step1 d L row ch k.val hk 5 (k0_off31 k) (k0_off31_eq k) _ _ _
  · exact step1 d L row ch k.val hk 6 (k0_off32 k) (k0_off32_eq k) _ _ _
  · exact step1 d L row ch k.val hk 7 (k0_off33 k) (k0_off33_eq k) _ _ _

end Cert.KernelIdeal.Tile

end
-- ==== Proof.LoopsB.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.TileDefs
import proofs.«204130_g36155034698017_cont_8to1_b_1516_18_alg».proof.Proof.TileStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

/-- One trip of the loop over the context positions, chunk loop 5: 16 words per lane group are read, found to name table
    rows, and the entries they name added to the group's accumulator. -/
theorem trip5 (A0 : IVec S50x1024 32) (hA0 : ∀ x, (A0 x).toNat < 100000) (A1 : FVec F S64x100000 .f32) (dd : Fin 64) (c : Fin 8) (v202 : FVec F S16 .f32) (v203 : FVec F S16 .f32)
    (k : Fin k0_t5_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t5_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v202 v203 k acc)
          (linv0 (F := F) (U := U) d L A0 A1 dd c (k.val + 1)) := by
  obtain ⟨a0, a1, a2, a3, a4, a5, a6, a7⟩ := acc
  have hk : k.val < 50 := lt_of_lt_of_le k.isLt k0_t5_abs.2.1
  unfold k0_t5_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off34 k) (k0_off34_eq k) _ _ _
  · exact step0 d L row ch k.val hk 1 (k0_off35 k) (k0_off35_eq k) _ _ _
  · exact step0 d L row ch k.val hk 2 (k0_off36 k) (k0_off36_eq k) _ _ _
  · exact step0 d L row ch k.val hk 3 (k0_off37 k) (k0_off37_eq k) _ _ _
  · exact step0 d L row ch k.val hk 4 (k0_off38 k) (k0_off38_eq k) _ _ _
  · exact step0 d L row ch k.val hk 5 (k0_off39 k) (k0_off39_eq k) _ _ _
  · exact step0 d L row ch k.val hk 6 (k0_off40 k) (k0_off40_eq k) _ _ _
  · exact step0 d L row ch k.val hk 7 (k0_off41 k) (k0_off41_eq k) _ _ _

/-- One trip of the loop over the context positions, chunk loop 6: 16 words per lane group are read, found to name table
    rows, and the entries they name added to the group's accumulator. -/
theorem trip6 (A0 : IVec S50x1024 32) (hA0 : ∀ x, (A0 x).toNat < 100000) (A1 : FVec F S64x100000 .f32) (dd : Fin 64) (c : Fin 8) (v248 : FVec F S16 .f32) (v249 : FVec F S16 .f32) (v250 : FVec F S16 .f32) (v251 : FVec F S16 .f32) (v252 : FVec F S16 .f32) (v253 : FVec F S16 .f32) (v254 : FVec F S16 .f32) (v255 : FVec F S16 .f32)
    (k : Fin k0_t6_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t6_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v248 v249 v250 v251 v252 v253 v254 v255 k acc)
          (linv1 (F := F) (U := U) d L A0 A1 dd c (k.val + 1)) := by
  obtain ⟨a0, a1, a2, a3, a4, a5, a6, a7⟩ := acc
  have hk : k.val < 50 := lt_of_lt_of_le k.isLt k0_t6_abs.2.1
  unfold k0_t6_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off42 k) (k0_off42_eq k) _ _ _
  · exact step1 d L row ch k.val hk 1 (k0_off43 k) (k0_off43_eq k) _ _ _
  · exact step1 d L row ch k.val hk 2 (k0_off44 k) (k0_off44_eq k) _ _ _
  · exact step1 d L row ch k.val hk 3 (k0_off45 k) (k0_off45_eq k) _ _ _
  · exact step1 d L row ch k.val hk 4 (k0_off46 k) (k0_off46_eq k) _ _ _
  · exact step1 d L row ch k.val hk 5 (k0_off47 k) (k0_off47_eq k) _ _ _
  · exact step1 d L row ch k.val hk 6 (k0_off48 k) (k0_off48_eq k) _ _ _
  · exact step1 d L row ch k.val hk 7 (k0_off49 k) (k0_off49_eq k) _ _ _

/-- One trip of the loop over the context positions, chunk loop 7: 16 words per lane group are read, found to name table
    rows, and the entries they name added to the group's accumulator. -/
theorem trip7 (A0 : IVec S50x1024 32) (hA0 : ∀ x, (A0 x).toNat < 100000) (A1 : FVec F S64x100000 .f32) (dd : Fin 64) (c : Fin 8) (v257_6 : FVec F S16 .f32) (v257_7 : FVec F S16 .f32)
    (k : Fin k0_t7_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t7_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v257_6 v257_7 k acc)
          (linv0 (F := F) (U := U) d L A0 A1 dd c (k.val + 1)) := by
  obtain ⟨a0, a1, a2, a3, a4, a5, a6, a7⟩ := acc
  have hk : k.val < 50 := lt_of_lt_of_le k.isLt k0_t7_abs.2.1
  unfold k0_t7_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off50 k) (k0_off50_eq k) _ _ _
  · exact step0 d L row ch k.val hk 1 (k0_off51 k) (k0_off51_eq k) _ _ _
  · exact step0 d L row ch k.val hk 2 (k0_off52 k) (k0_off52_eq k) _ _ _
  · exact step0 d L row ch k.val hk 3 (k0_off53 k) (k0_off53_eq k) _ _ _
  · exact step0 d L row ch k.val hk 4 (k0_off54 k) (k0_off54_eq k) _ _ _
  · exact step0 d L row ch k.val hk 5 (k0_off55 k) (k0_off55_eq k) _ _ _
  · exact step0 d L row ch k.val hk 6 (k0_off56 k) (k0_off56_eq k) _ _ _
  · exact step0 d L row ch k.val hk 7 (k0_off57 k) (k0_off57_eq k) _ _ _

/-- One trip of the loop over the context positions, chunk loop 8: 16 words per lane group are read, found to name table
    rows, and the entries they name added to the group's accumulator. -/
theorem trip8 (A0 : IVec S50x1024 32) (hA0 : ∀ x, (A0 x).toNat < 100000) (A1 : FVec F S64x100000 .f32) (dd : Fin 64) (c : Fin 8) (v333 : FVec F S16 .f32)
    (k : Fin k0_t8_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t8_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v333 k acc)
          (linv1 (F := F) (U := U) d L A0 A1 dd c (k.val + 1)) := by
  obtain ⟨a0, a1, a2, a3, a4, a5, a6, a7⟩ := acc
  have hk : k.val < 50 := lt_of_lt_of_le k.isLt k0_t8_abs.2.1
  unfold k0_t8_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off58 k) (k0_off58_eq k) _ _ _
  · exact step1 d L row ch k.val hk 1 (k0_off59 k) (k0_off59_eq k) _ _ _
  · exact step1 d L row ch k.val hk 2 (k0_off60 k) (k0_off60_eq k) _ _ _
  · exact step1 d L row ch k.val hk 3 (k0_off61 k) (k0_off61_eq k) _ _ _
  · exact step1 d L row ch k.val hk 4 (k0_off62 k) (k0_off62_eq k) _ _ _
  · exact step1 d L row ch k.val hk 5 (k0_off63 k) (k0_off63_eq k) _ _ _
  · exact step1 d L row ch k.val hk 6 (k0_off64 k) (k0_off64_eq k) _ _ _
  · exact step1 d L row ch k.val hk 7 (k0_off65 k) (k0_off65_eq k) _ _ _

end Cert.KernelIdeal.Tile

end
-- ==== Proof.LoopsC.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.TileDefs
import proofs.«204130_g36155034698017_cont_8to1_b_1516_18_alg».proof.Proof.TileStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

/-- One trip of the loop over the context positions, chunk loop 9: 16 words per lane group are read, found to name table
    rows, and the entries they name added to the group's accumulator. -/
theorem trip9 (A0 : IVec S50x1024 32) (hA0 : ∀ x, (A0 x).toNat < 100000) (A1 : FVec F S64x100000 .f32) (dd : Fin 64) (c : Fin 8)
    (k : Fin k0_t9_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t9_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t9_abs.2.1
  unfold k0_t9_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off66 k) (k0_off66_eq k) _ _ _
  · exact step0 d L row ch k.val hk 1 (k0_off67 k) (k0_off67_eq k) _ _ _
  · exact step0 d L row ch k.val hk 2 (k0_off68 k) (k0_off68_eq k) _ _ _
  · exact step0 d L row ch k.val hk 3 (k0_off69 k) (k0_off69_eq k) _ _ _
  · exact step0 d L row ch k.val hk 4 (k0_off70 k) (k0_off70_eq k) _ _ _
  · exact step0 d L row ch k.val hk 5 (k0_off71 k) (k0_off71_eq k) _ _ _
  · exact step0 d L row ch k.val hk 6 (k0_off72 k) (k0_off72_eq k) _ _ _
  · exact step0 d L row ch k.val hk 7 (k0_off73 k) (k0_off73_eq k) _ _ _

/-- One trip of the loop over the context positions, chunk loop 10: 16 words per lane group are read, found to name table
    rows, and the entries they name added to the group's accumulator. -/
theorem trip10 (A0 : IVec S50x1024 32) (hA0 : ∀ x, (A0 x).toNat < 100000) (A1 : FVec F S64x100000 .f32) (dd : Fin 64) (c : Fin 8)
    (k : Fin k0_t10_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t10_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv1 (F := F) (U := U) d L A0 A1 dd c (k.val + 1)) := by
  obtain ⟨a0, a1, a2, a3, a4, a5, a6, a7⟩ := acc
  have hk : k.val < 50 := lt_of_lt_of_le k.isLt k0_t10_abs.2.1
  unfold k0_t10_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off74 k) (k0_off74_eq k) _ _ _
  · exact step1 d L row ch k.val hk 1 (k0_off75 k) (k0_off75_eq k) _ _ _
  · exact step1 d L row ch k.val hk 2 (k0_off76 k) (k0_off76_eq k) _ _ _
  · exact step1 d L row ch k.val hk 3 (k0_off77 k) (k0_off77_eq k) _ _ _
  · exact step1 d L row ch k.val hk 4 (k0_off78 k) (k0_off78_eq k) _ _ _
  · exact step1 d L row ch k.val hk 5 (k0_off79 k) (k0_off79_eq k) _ _ _
  · exact step1 d L row ch k.val hk 6 (k0_off80 k) (k0_off80_eq k) _ _ _
  · exact step1 d L row ch k.val hk 7 (k0_off81 k) (k0_off81_eq k) _ _ _

/-- One trip of the loop over the context positions, chunk loop 11: 16 words per lane group are read, found to name table
    rows, and the entries they name added to the group's accumulator. -/
theorem trip11 (A0 : IVec S50x1024 32) (hA0 : ∀ x, (A0 x).toNat < 100000) (A1 : FVec F S64x100000 .f32) (dd : Fin 64) (c : Fin 8)
    (k : Fin k0_t11_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t11_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t11_abs.2.1
  unfold k0_t11_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off82 k) (k0_off82_eq k) _ _ _
  · exact step0 d L row ch k.val hk 1 (k0_off83 k) (k0_off83_eq k) _ _ _
  · exact step0 d L row ch k.val hk 2 (k0_off84 k) (k0_off84_eq k) _ _ _
  · exact step0 d L row ch k.val hk 3 (k0_off85 k) (k0_off85_eq k) _ _ _
  · exact step0 d L row ch k.val hk 4 (k0_off86 k) (k0_off86_eq k) _ _ _
  · exact step0 d L row ch k.val hk 5 (k0_off87 k) (k0_off87_eq k) _ _ _
  · exact step0 d L row ch k.val hk 6 (k0_off88 k) (k0_off88_eq k) _ _ _
  · exact step0 d L row ch k.val hk 7 (k0_off89 k) (k0_off89_eq k) _ _ _

/-- One trip of the loop over the context positions, chunk loop 12: 16 words per lane group are read, found to name table
    rows, and the entries they name added to the group's accumulator. -/
theorem trip12 (A0 : IVec S50x1024 32) (hA0 : ∀ x, (A0 x).toNat < 100000) (A1 : FVec F S64x100000 .f32) (dd : Fin 64) (c : Fin 8) (v534 : FVec F S16 .f32) (v535 : FVec F S16 .f32) (v536 : FVec F S16 .f32) (v537 : FVec F S16 .f32) (v538 : FVec F S16 .f32)
    (k : Fin k0_t12_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t12_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v534 v535 v536 v537 v538 k acc)
          (linv1 (F := F) (U := U) d L A0 A1 dd c (k.val + 1)) := by
  obtain ⟨a0, a1, a2, a3, a4, a5, a6, a7⟩ := acc
  have hk : k.val < 50 := lt_of_lt_of_le k.isLt k0_t12_abs.2.1
  unfold k0_t12_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off90 k) (k0_off90_eq k) _ _ _
  · exact step1 d L row ch k.val hk 1 (k0_off91 k) (k0_off91_eq k) _ _ _
  · exact step1 d L row ch k.val hk 2 (k0_off92 k) (k0_off92_eq k) _ _ _
  · exact step1 d L row ch k.val hk 3 (k0_off93 k) (k0_off93_eq k) _ _ _
  · exact step1 d L row ch k.val hk 4 (k0_off94 k) (k0_off94_eq k) _ _ _
  · exact step1 d L row ch k.val hk 5 (k0_off95 k) (k0_off95_eq k) _ _ _
  · exact step1 d L row ch k.val hk 6 (k0_off96 k) (k0_off96_eq k) _ _ _
  · exact step1 d L row ch k.val hk 7 (k0_off97 k) (k0_off97_eq k) _ _ _

end Cert.KernelIdeal.Tile

end
-- ==== Proof.LoopsD.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.TileDefs
import proofs.«204130_g36155034698017_cont_8to1_b_1516_18_alg».proof.Proof.TileStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

/-- One trip of the loop over the context positions, chunk loop 13: 16 words per lane group are read, found to name table
    rows, and the entries they name added to the group's accumulator. -/
theorem trip13 (A0 : IVec S50x1024 32) (hA0 : ∀ x, (A0 x).toNat < 100000) (A1 : FVec F S64x100000 .f32) (dd : Fin 64) (c : Fin 8) (v543_6 : FVec F S16 .f32) (v543_7 : FVec F S16 .f32) (v565 : FVec F S16 .f32)
    (k : Fin k0_t13_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t13_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v543_6 v543_7 v565 k acc)
          (linv0 (F := F) (U := U) d L A0 A1 dd c (k.val + 1)) := by
  obtain ⟨a0, a1, a2, a3, a4, a5, a6, a7⟩ := acc
  have hk : k.val < 50 := lt_of_lt_of_le k.isLt k0_t13_abs.2.1
  unfold k0_t13_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off98 k) (k0_off98_eq k) _ _ _
  · exact step0 d L row ch k.val hk 1 (k0_off99 k) (k0_off99_eq k) _ _ _
  · exact step0 d L row ch k.val hk 2 (k0_off100 k) (k0_off100_eq k) _ _ _
  · exact step0 d L row ch k.val hk 3 (k0_off101 k) (k0_off101_eq k) _ _ _
  · exact step0 d L row ch k.val hk 4 (k0_off102 k) (k0_off102_eq k) _ _ _
  · exact step0 d L row ch k.val hk 5 (k0_off103 k) (k0_off103_eq k) _ _ _
  · exact step0 d L row ch k.val hk 6 (k0_off104 k) (k0_off104_eq k) _ _ _
  · exact step0 d L row ch k.val hk 7 (k0_off105 k) (k0_off105_eq k) _ _ _

/-- One trip of the loop over the context positions, chunk loop 14: 16 words per lane group are read, found to name table
    rows, and the entries they name added to the group's accumulator. -/
theorem trip14 (A0 : IVec S50x1024 32) (hA0 : ∀ x, (A0 x).toNat < 100000) (A1 : FVec F S64x100000 .f32) (dd : Fin 64) (c : Fin 8) (v589_7 : FVec F S16 .f32) (v615 : FVec F S16 .f32)
    (k : Fin k0_t14_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t14_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v589_7 v615 k acc)
          (linv1 (F := F) (U := U) d L A0 A1 dd c (k.val + 1)) := by
  obtain ⟨a0, a1, a2, a3, a4, a5, a6, a7⟩ := acc
  have hk : k.val < 50 := lt_of_lt_of_le k.isLt k0_t14_abs.2.1
  unfold k0_t14_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off106 k) (k0_off106_eq k) _ _ _
  · exact step1 d L row ch k.val hk 1 (k0_off107 k) (k0_off107_eq k) _ _ _
  · exact step1 d L row ch k.val hk 2 (k0_off108 k) (k0_off108_eq k) _ _ _
  · exact step1 d L row ch k.val hk 3 (k0_off109 k) (k0_off109_eq k) _ _ _
  · exact step1 d L row ch k.val hk 4 (k0_off110 k) (k0_off110_eq k) _ _ _
  · exact step1 d L row ch k.val hk 5 (k0_off111 k) (k0_off111_eq k) _ _ _
  · exact step1 d L row ch k.val hk 6 (k0_off112 k) (k0_off112_eq k) _ _ _
  · exact step1 d L row ch k.val hk 7 (k0_off113 k) (k0_off113_eq k) _ _ _

/-- One trip of the loop over the context positions, chunk loop 15: 16 words per lane group are read, found to name table
    rows, and the entries they name added to the group's accumulator. -/
theorem trip15 (A0 : IVec S50x1024 32) (hA0 : ∀ x, (A0 x).toNat < 100000) (A1 : FVec F S64x100000 .f32) (dd : Fin 64) (c : Fin 8)
    (k : Fin k0_t15_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t15_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t15_abs.2.1
  unfold k0_t15_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off114 k) (k0_off114_eq k) _ _ _
  · exact step0 d L row ch k.val hk 1 (k0_off115 k) (k0_off115_eq k) _ _ _
  · exact step0 d L row ch k.val hk 2 (k0_off116 k) (k0_off116_eq k) _ _ _
  · exact step0 d L row ch k.val hk 3 (k0_off117 k) (k0_off117_eq k) _ _ _
  · exact step0 d L row ch k.val hk 4 (k0_off118 k) (k0_off118_eq k) _ _ _
  · exact step0 d L row ch k.val hk 5 (k0_off119 k) (k0_off119_eq k) _ _ _
  · exact step0 d L row ch k.val hk 6 (k0_off120 k) (k0_off120_eq k) _ _ _
  · exact step0 d L row ch k.val hk 7 (k0_off121 k) (k0_off121_eq k) _ _ _

/-- One trip of the loop over the context positions, chunk loop 16: 16 words per lane group are read, found to name table
    rows, and the entries they name added to the group's accumulator. -/
theorem trip16 (A0 : IVec S50x1024 32) (hA0 : ∀ x, (A0 x).toNat < 100000) (A1 : FVec F S64x100000 .f32) (dd : Fin 64) (c : Fin 8) (v716 : FVec F S16 .f32) (v717 : FVec F S16 .f32) (cst_607 : F .f32)
    (k : Fin k0_t16_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t16_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v716 v717 cst_607 k acc)
          (linv1 (F := F) (U := U) d L A0 A1 dd c (k.val + 1)) := by
  obtain ⟨a0, a1, a2, a3, a4, a5, a6, a7⟩ := acc
  have hk : k.val < 50 := lt_of_lt_of_le k.isLt k0_t16_abs.2.1
  unfold k0_t16_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off122 k) (k0_off122_eq k) _ _ _
  · exact step1 d L row ch k.val hk 1 (k0_off123 k) (k0_off123_eq k) _ _ _
  · exact step1 d L row ch k.val hk 2 (k0_off124 k) (k0_off124_eq k) _ _ _
  · exact step1 d L row ch k.val hk 3 (k0_off125 k) (k0_off125_eq k) _ _ _
  · exact step1 d L row ch k.val hk 4 (k0_off126 k) (k0_off126_eq k) _ _ _
  · exact step1 d L row ch k.val hk 5 (k0_off127 k) (k0_off127_eq k) _ _ _
  · exact step1 d L row ch k.val hk 6 (k0_off128 k) (k0_off128_eq k) _ _ _
  · exact step1 d L row ch k.val hk 7 (k0_off129 k) (k0_off129_eq k) _ _ _

end Cert.KernelIdeal.Tile

end
-- ==== Proof.TileStage.lean ====
/-
  What a copy leaves in a scratch buffer, as a whole function. A task copies a window of an array into a scratch
  buffer of the window's shape, writing every element of the buffer: afterwards the buffer holds the window, whatever it
  held before. The window of 128 examples at column offset 128 c of the position-major context words is chunk c; the
  window of one row at row offset d of the feature-major table, with its unit axis dropped, is row d.
-/
import proofs.«204130_g36155034698017_cont_8to1_b_1516_18_alg».proof.Proof.TileDefs

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)
open Cert.PoolFold (rowOf chunkOf)

variable {F : FTy → Type} [FloatOps F] [Named F]
variable {U : Type} [URA U] [CountersIn U]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)

variable (d : Dev nD) (L : grid0.Coords)

omit [FloatOps F] [Named F] in
/-- The window of 128 examples at column offset 128 c of the context words, read at an index, is the array at that
    position and example 128 c + the window's example. -/
theorem window_chunk (A0 : Buf (Elt F) ((SparseCore.T d : Thread nD τ).loc main_v0)) (c : Fin 8)
    (inb : ∀ a, (![0, 128 * c.val] : Fin 2 → Nat) a + S50x128.size a ≤ S50x1024.size a)
    (hst : ∀ a, (Rect.unit (s := S50x1024) ![0, 128 * c.val] S50x128.size inb).stride a = 1) :
    View.read (Elt F) ((ctxV).slice (Rect.unit (s := S50x1024) ![0, 128 * c.val] S50x128.size inb) hst).view A0 = chunkOf A0 c := by
  funext i
  rw [View.read_apply, cast_eq]
  unfold chunkOf
  refine congrArg A0 (funext fun a => Fin.ext ?_)
  match a with
  | ⟨0, _⟩ =>
    show 0 + 1 * (i 0).val = (i 0).val
    omega
  | ⟨1, _⟩ =>
    show 128 * c.val + 1 * (i 1).val = 128 * c.val + (i 1).val
    omega

omit [FloatOps F] [Named F] in
/-- A chunk copied into the first index buffer: the buffer holds the chunk. -/
theorem staged0_eq (A0 : Buf (Elt F) ((SparseCore.T d : Thread nD τ).loc main_v0)) (prev : Buf (Elt F) ((V d (cV L) (jV L)).loc cc0_scratch1))
    (c : Fin 8) (off : Fin 2 → Nat) (hoff : off = ![0, 128 * c.val]) (inb : ∀ a, off a + S50x128.size a ≤ S50x1024.size a)
    (hst : ∀ a, (Rect.unit (s := S50x1024) off S50x128.size inb).stride a = 1) :
    View.write (Elt F) (i0V).view prev
        (ReadAs.same.apply (View.read (Elt F) ((ctxV).slice (Rect.unit (s := S50x1024) off S50x128.size inb) hst).view A0)) Finset.univ
      = chunkOf A0 c := by
  subst hoff
  simp only [Memref.view_whole, View.write_whole_univ, ReadAs.apply_same]
  exact window_chunk d A0 c inb hst

omit [FloatOps F] [Named F] in
/-- A chunk copied into the second index buffer: the buffer holds the chunk. -/
theorem staged1_eq (A0 : Buf (Elt F) ((SparseCore.T d : Thread nD τ).loc main_v0)) (prev : Buf (Elt F) ((V d (cV L) (jV L)).loc cc0_scratch2))
    (c : Fin 8) (off : Fin 2 → Nat) (hoff : off = ![0, 128 * c.val]) (inb : ∀ a, off a + S50x128.size a ≤ S50x1024.size a)
    (hst : ∀ a, (Rect.unit (s := S50x1024) off S50x128.size inb).stride a = 1) :
    View.write (Elt F) (i1V).view prev
        (ReadAs.same.apply (View.read (Elt F) ((ctxV).slice (Rect.unit (s := S50x1024) off S50x128.size inb) hst).view A0)) Finset.univ
      = chunkOf A0 c := by
  subst hoff
  simp only [Memref.view_whole, View.write_whole_univ, ReadAs.apply_same]
  exact window_chunk d A0 c inb hst

omit [Named F] in
/-- The window of one row at row offset d of the feature-major table, its unit axis dropped, read at an index, is the
    table at row d and that column. -/
theorem window_row (A1 : Buf (Elt F) ((SparseCore.T d : Thread nD τ).loc main_v1)) (dd : Fin 64)
    (inb : ∀ a, (![dd.val, 0] : Fin 2 → Nat) a + S1x100000.size a ≤ S64x100000.size a)
    (hst : ∀ a, (Rect.unit (s := S64x100000) ![dd.val, 0] S1x100000.size inb).stride a = 1)
    (hsq : (Rect.unit (s := S64x100000) ![dd.val, 0] S1x100000.size inb).shape.Squeezes S100000) :
    View.read (Elt F) (((tabV).slice (Rect.unit (s := S64x100000) ![dd.val, 0] S1x100000.size inb) hst).squeeze S100000 hsq).view A1
      = rowOf A1 dd := by
  funext j
  rw [View.read_apply, cast_eq]
  unfold rowOf
  -- the index of the window with the unit axis restored: row 0, the same column
  have hy : Shape.reshapeEquiv hsq.numel_eq j
      = (fun a => match a with
          | ⟨0, _⟩ => ⟨0, Nat.one_pos⟩
          | ⟨1, _⟩ => ⟨(j 0).val, (j 0).isLt⟩ : (⟨2, S1x100000.size⟩ : Shape).Idx) := by
    refine Shape.reshapeEquiv_eq_of_rowMajor hsq.numel_eq ?_
    rw [Shape.rowMajor_val_two, Shape.rowMajor_val_one]
    show 0 * 100000 + (j 0).val = (j 0).val
    omega
  refine congrArg A1 (funext fun a => Fin.ext ?_)
  match a with
  | ⟨0, _⟩ =>
    show dd.val + 1 * ((Shape.reshapeEquiv hsq.numel_eq j) (0 : Fin 2)).val = dd.val
    rw [hy]
    show dd.val + 1 * 0 = dd.val
    omega
  | ⟨1, _⟩ =>
    show 0 + 1 * ((Shape.reshapeEquiv hsq.numel_eq j) (1 : Fin 2)).val = (j 0).val
    rw [hy]
    show 0 + 1 * (j 0).val = (j 0).val
    omega

omit [Named F] in
/-- A table row copied into the row scratch: the buffer holds the row. -/
theorem staged_row_eq (A1 : Buf (Elt F) ((SparseCore.T d : Thread nD τ).loc main_v1)) (prev : Buf (Elt F) ((V d (cV L) (jV L)).loc cc0_scratch0))
    (dd : Fin 64) (off : Fin 2 → Nat) (hoff : off = ![dd.val, 0]) (inb : ∀ a, off a + S1x100000.size a ≤ S64x100000.size a)
    (hst : ∀ a, (Rect.unit (s := S64x100000) off S1x100000.size inb).stride a = 1)
    (hsq : (Rect.unit (s := S64x100000) off S1x100000.size inb).shape.Squeezes S100000) :
    View.write (Elt F) (rowV).view prev
        (ReadAs.same.apply (View.read (Elt F) (((tabV).slice (Rect.unit (s := S64x100000) off S1x100000.size inb) hst).squeeze S100000 hsq).view A1))
        Finset.univ
      = rowOf A1 dd := by
  subst hoff
  simp only [Memref.view_whole, View.write_whole_univ, ReadAs.apply_same]
  exact window_row d A1 dd inb hst hsq

end Cert.KernelIdeal.Tile

end
-- ==== Proof.TileNames.lean ====
/-
  The pooling kernel as the launch theorem sees it: the call's configuration and facts, a task's thread and grid point,
  the two result rows a task writes, and its four transfer semaphores.
-/
import proofs.«204130_g36155034698017_cont_8to1_b_1516_18_alg».proof.Proof.TileDefs

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

abbrev ΛP : Labels := Pipeline.Sig Λ₀ (Fin 1) fun p => (pcfgs (F := F) p).Adm
abbrev K : SparseCore.Cfg τ sig (ΛP (F := F)) 1 := sc (F := F)

/-- The two rows of the result this task writes, as the task slices them. -/
abbrev oRowK (L : grid0.Coords) : Memref sig .scVector .hbm S2x1024 .f32 :=
  (outV).slice (Rect.unit (s := S64x1024) (k0_off130 L) S2x1024.size (k0_off130_inb L)) (fun _ => rfl)

abbrev semA (d : Dev nD) (c : Fin τ.nSC) (i : Fin τ.nSub) : GSem nD τ sig := (V d c i, .dma cc0_scratch4.sem)
abbrev semB (d : Dev nD) (c : Fin τ.nSC) (i : Fin τ.nSub) : GSem nD τ sig := (V d c i, .dma cc0_scratch5.sem)
abbrev semC (d : Dev nD) (c : Fin τ.nSC) (i : Fin τ.nSub) : GSem nD τ sig := (V d c i, .dma cc0_scratch6.sem)
abbrev semD (d : Dev nD) (c : Fin τ.nSC) (i : Fin τ.nSub) : GSem nD τ sig := (V d c i, .dma cc0_scoped0.sem)

abbrev D : Defs nD τ sig (Elt F) (ΛP (F := F)) := Pipeline.defs pcfgs defs₀
abbrev 𝒱 : Variants := 𝒱₀.lift
abbrev v₀ : 𝒱.V := Sum.inl none

omit [FloatOps F] [Named F] in
theorem nSub_zero : (K (F := F)).nSub 0 = 16 := rfl
omit [FloatOps F] [Named F] in
theorem nCore_zero : (K (F := F)).nCore 0 = 2 := rfl

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The reciprocal of the number of context positions, as the kernel's body spells it. -/
def c50 : F .f32 := Named.named κ "inv_50" 0x3CA3D70A#32

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A task's number among the 32: subcore-major over the two cores. It writes result rows 2 w and 2 w + 1. -/
def wid (L : grid0.Coords) : ℕ := 2 * (L 1).val + (L 0).val

omit [FloatOps F] [Named F] in
theorem wid_lt (L : grid0.Coords) : wid L < 32 := by
  have h1 : (L 1).val < 16 := (L 1).isLt
  have h0 : (L 0).val < 2 := (L 0).isLt
  unfold wid; omega

theorem odiv : 32 ∣ S64x1024.size 0 := ⟨2, rfl⟩
/-- Result rows 2 w and 2 w + 1. -/
abbrev orow (w : Fin 32) : Rect S64x1024 := Rect.part (s := S64x1024) (a₀ := 0) odiv w
abbrev oRowSet (w : Fin 32) : Finset S64x1024.Idx := ((outV).view.slice (orow w)).set

end Cert.KernelIdeal.Tile

end
-- ==== Proof.TileOut.lean ====
/-
  What a task leaves in its accumulator scratch and in its two result rows. The scratch is 2 rows of 1024 lanes; the
  task stores 128 tiles of 16 lanes into it: tile (r, c, g) sits in row r at lanes 128 c + 16 g to 128 c + 16 g + 15 and
  holds the 16 averaged entries of lane group g of chunk c over the table row of round r. The tiles are pairwise
  disjoint and cover the scratch, so the scratch read at (r, b) is the tile of chunk b / 128, lane group (b mod 128) / 16,
  at lane b mod 16: the pooled array at (row of round r, b). The two result rows are then written whole from the scratch.
-/
import proofs.«204130_g36155034698017_cont_8to1_b_1516_18_alg».proof.Proof.TileNames
import Idealize.ShloMosaic.Lib.WritesUnit
import Idealize.ShloMosaic.Lib.Pipeline.Value

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)
open Cert.PoolFold (rowOf chunkOf outVec poolF)
open Idealize.ShloMosaic.ValueIdx (ix1 ix2 eq_ix2)

variable {F : FTy → Type} [FloatOps F] [Named F]
variable {U : Type} [URA U] [CountersIn U]

local notation "outV" => (Memref.whole Cert.KernelIdeal.main_v2_scv : Memref Cert.KernelIdeal.sig Kind.scVector Space.hbm Cert.KernelIdeal.S64x1024 EltTy.f32)
local notation "accV" => (Memref.whole Cert.KernelIdeal.cc0_scratch3 : Memref Cert.KernelIdeal.sig Kind.scVector Space.vmem Cert.KernelIdeal.S2x1024 EltTy.f32)

variable (d : Dev nD) (L : grid0.Coords)

/-- Tile (r, c, g) lies inside the 2 x 1024 scratch. -/
theorem tile_inb (r : Fin 2) (c g : Fin 8) :
    ∀ a, (![r.val, 128 * c.val + 16 * g.val] : Fin 2 → ℕ) a + S1x16.size a ≤ S2x1024.size a := by
  intro a
  have hr := r.isLt
  have hc := c.isLt
  have hg := g.isLt
  match a with
  | ⟨0, _⟩ =>
    show r.val + 1 ≤ 2
    omega
  | ⟨1, _⟩ =>
    show 128 * c.val + 16 * g.val + 16 ≤ 1024
    omega

/-- Tile (r, c, g): its rectangle, and the 16 averaged entries it holds. -/
def tile (cc : F .f32) (A0 : IVec S50x1024 32) (A1 : FVec F S64x100000 .f32) (L : grid0.Coords) (r : Fin 2) (c g : Fin 8) :
    View.Piece (Elt F) S2x1024 .f32 :=
  ⟨Rect.unit (s := S2x1024) ![r.val, 128 * c.val + 16 * g.val] S1x16.size (tile_inb r c g),
    shapeCast S1x16 (outVec cc (rowOf A1 (dRow L r)) (chunkOf A0 c) g) shapeCasts_S16_S1x16⟩

/-- The tile stored `t`-th: round t / 64, chunk (t mod 64) / 8, lane group t mod 8. -/
def tileAt (cc : F .f32) (A0 : IVec S50x1024 32) (A1 : FVec F S64x100000 .f32) (L : grid0.Coords) (t : ℕ) :
    View.Piece (Elt F) S2x1024 .f32 :=
  tile cc A0 A1 L ⟨t / 64 % 2, Nat.mod_lt _ (by norm_num)⟩ ⟨t % 64 / 8, by omega⟩ ⟨t % 8, Nat.mod_lt _ (by norm_num)⟩

/-- The first `n` tiles stored, the latest first. -/
def tilesUpTo (cc : F .f32) (A0 : IVec S50x1024 32) (A1 : FVec F S64x100000 .f32) (L : grid0.Coords) :
    ℕ → List (View.Piece (Elt F) S2x1024 .f32)
  | 0 => []
  | n + 1 => tileAt cc A0 A1 L n :: tilesUpTo cc A0 A1 L n

/-- All 128 tiles, the latest first. -/
def tiles (cc : F .f32) (A0 : IVec S50x1024 32) (A1 : FVec F S64x100000 .f32) (L : grid0.Coords) :
    List (View.Piece (Elt F) S2x1024 .f32) :=
  tilesUpTo cc A0 A1 L 128

omit [Named F] in
/-- Under the latest tile the scratch reads that tile's entry at the lane. -/
theorem read_tile_hit (cc : F .f32) (A0 : IVec S50x1024 32) (A1 : FVec F S64x100000 .f32)
    (fa : Buf (Elt F) ((V d (cV L) (jV L)).loc cc0_scratch3)) (Lst : List (View.Piece (Elt F) S2x1024 .f32))
    (r : Fin 2) (c g : Fin 8) (b : Fin 1024) (hb : b.val = 128 * c.val + 16 * g.val + b.val % 16) :
    (accV).view.read (Elt F) ((accV).view.writes (Elt F) fa (tile cc A0 A1 L r c g :: Lst)) (ix2 r b)
      = outVec cc (rowOf A1 (dRow L r)) (chunkOf A0 c) g (ix1 ⟨b.val % 16, Nat.mod_lt _ (by norm_num)⟩) := by
  unfold tile
  rw [View.read_writes_cons_unit_of_mem (accV).view fa (tile_inb r c g) _ Lst (ix2 r b)
    (fun a => match a with
      | ⟨0, _⟩ => ⟨0, Nat.one_pos⟩
      | ⟨1, _⟩ => ⟨b.val % 16, Nat.mod_lt _ (by norm_num)⟩) rfl
    (fun a => by
      match a with
      | ⟨0, _⟩ => show r.val = r.val + 0; omega
      | ⟨1, _⟩ => show b.val = 128 * c.val + 16 * g.val + b.val % 16; exact hb)]
  refine shapeCast_apply _ _ _ _ ?_
  rw [Shape.rowMajor_val_one, Shape.rowMajor_val_two]
  show b.val % 16 = 0 * 16 + b.val % 16
  omega

omit [Named F] in
/-- Off the latest tile the scratch reads what the earlier tiles left. -/
theorem read_tile_miss (cc : F .f32) (A0 : IVec S50x1024 32) (A1 : FVec F S64x100000 .f32)
    (fa : Buf (Elt F) ((V d (cV L) (jV L)).loc cc0_scratch3)) (Lst : List (View.Piece (Elt F) S2x1024 .f32))
    (r : Fin 2) (c g : Fin 8) (r' : Fin 2) (b : Fin 1024)
    (h : r'.val ≠ r.val ∨ b.val < 128 * c.val + 16 * g.val ∨ 128 * c.val + 16 * g.val + 16 ≤ b.val) :
    (accV).view.read (Elt F) ((accV).view.writes (Elt F) fa (tile cc A0 A1 L r c g :: Lst)) (ix2 r' b)
      = (accV).view.read (Elt F) ((accV).view.writes (Elt F) fa Lst) (ix2 r' b) := by
  unfold tile
  rcases h with h | h
  · exact View.read_writes_cons_unit_of_not_mem (accV).view fa (tile_inb r c g) _ Lst (ix2 r' b) rfl (0 : Fin 2) (by
      show r'.val < r.val ∨ r.val + 1 ≤ r'.val
      omega)
  · exact View.read_writes_cons_unit_of_not_mem (accV).view fa (tile_inb r c g) _ Lst (ix2 r' b) rfl (1 : Fin 2) (by
      show b.val < 128 * c.val + 16 * g.val ∨ 128 * c.val + 16 * g.val + 16 ≤ b.val
      exact h)

omit [Named F] in
/-- After the first `n` tiles, an entry whose tile is among them reads its tile. -/
theorem read_tilesUpTo (cc : F .f32) (A0 : IVec S50x1024 32) (A1 : FVec F S64x100000 .f32)
    (fa : Buf (Elt F) ((V d (cV L) (jV L)).loc cc0_scratch3)) (r : Fin 2) (b : Fin 1024) :
    ∀ n : ℕ, n ≤ 128 → 64 * r.val + 8 * (b.val / 128) + b.val % 128 / 16 < n →
      (accV).view.read (Elt F) ((accV).view.writes (Elt F) fa (tilesUpTo cc A0 A1 L n)) (ix2 r b)
        = outVec cc (rowOf A1 (dRow L r)) (chunkOf A0 ⟨b.val / 128, by have := b.isLt; omega⟩)
            ⟨b.val % 128 / 16, by omega⟩ (ix1 ⟨b.val % 16, Nat.mod_lt _ (by norm_num)⟩)
  | 0, _, h => absurd h (Nat.not_lt_zero _)
  | n + 1, hn, h => by
    have hr := r.isLt
    have hb := b.isLt
    show (accV).view.read (Elt F) ((accV).view.writes (Elt F) fa (tileAt cc A0 A1 L n :: tilesUpTo cc A0 A1 L n)) (ix2 r b) = _
    unfold tileAt
    by_cases hit : n = 64 * r.val + 8 * (b.val / 128) + b.val % 128 / 16
    · have e1 : (⟨n / 64 % 2, Nat.mod_lt _ (by norm_num)⟩ : Fin 2) = r := Fin.ext (by show n / 64 % 2 = r.val; omega)
      have e2 : (⟨n % 64 / 8, by omega⟩ : Fin 8) = ⟨b.val / 128, by omega⟩ := Fin.ext (by show n % 64 / 8 = b.val / 128; omega)
      have e3 : (⟨n % 8, Nat.mod_lt _ (by norm_num)⟩ : Fin 8) = ⟨b.val % 128 / 16, by omega⟩ :=
        Fin.ext (by show n % 8 = b.val % 128 / 16; omega)
      rw [e1, e2, e3]
      exact read_tile_hit d L cc A0 A1 fa _ r _ _ b (by show b.val = 128 * (b.val / 128) + 16 * (b.val % 128 / 16) + b.val % 16; omega)
    · rw [read_tile_miss d L cc A0 A1 fa _ _ _ _ r b (by
        show r.val ≠ n / 64 % 2 ∨ b.val < 128 * (n % 64 / 8) + 16 * (n % 8) ∨ 128 * (n % 64 / 8) + 16 * (n % 8) + 16 ≤ b.val
        omega)]
      exact read_tilesUpTo cc A0 A1 fa r b n (by omega) (by omega)

omit [Named F] in
/-- THE SCRATCH READ BACK: after the 128 tiles, entry (r, b) is the pooled array at (row of round r, b). -/
theorem acc_readback (cc : F .f32) (A0 : IVec S50x1024 32) (A1 : FVec F S64x100000 .f32)
    (fa : Buf (Elt F) ((V d (cV L) (jV L)).loc cc0_scratch3)) (r : Fin 2) (b : Fin 1024) :
    (accV).view.writes (Elt F) fa (tiles cc A0 A1 L) (ix2 r b) = poolF cc A0 A1 (ix2 (dRow L r) b) := by
  have hr := r.isLt
  have hb := b.isLt
  exact read_tilesUpTo d L cc A0 A1 fa r b 128 (Nat.le_refl _) (by omega)

omit [Named F] in
/-- THE RESULT ROWS: the two rows a task writes whole from its scratch hold the pooled array. -/
theorem out_rows_eq (cc : F .f32) (A0 : IVec S50x1024 32) (A1 : FVec F S64x100000 .f32)
    (fo : Buf (Elt F) ((SparseCore.T d : Thread nD τ).loc main_v2)) (fa : Buf (Elt F) ((V d (cV L) (jV L)).loc cc0_scratch3))
    (LL : List (View.Piece (Elt F) S2x1024 .f32)) (hLL : LL = tiles cc A0 A1 L) :
    ∀ i ∈ (oRowK L).view.set,
      ((oRowK L).view.writes (Elt F) fo
        [⟨Rect.whole S2x1024, ReadAs.same.apply (View.read (Elt F) (accV).view ((accV).view.writes (Elt F) fa LL))⟩]) i
        = poolF cc A0 A1 i := by
  subst hLL
  intro i hi
  obtain ⟨y, -, rfl⟩ := Finset.mem_map.mp hi
  obtain ⟨r, b, rfl⟩ : ∃ (r : Fin 2) (b : Fin 1024), y = ix2 r b := ⟨y 0, y 1, eq_ix2 y⟩
  have hrd := View.read_writes_cons_emb (oRowK L).view fo (Rect.whole S2x1024)
    (ReadAs.same.apply (View.read (Elt F) (accV).view ((accV).view.writes (Elt F) fa (tiles cc A0 A1 L)))) [] (ix2 r b)
  rw [Rect.emb_whole_apply, View.read_apply, cast_eq] at hrd
  rw [hrd]
  have hacc := acc_readback d L cc A0 A1 fa r b
  have hidx : (oRowK L).view.emb (ix2 r b) = ix2 (dRow L r) b := by
    funext a
    refine Fin.ext ?_
    have ho := k0_off130_eq L
    match a with
    | ⟨0, _⟩ =>
      show k0_off130 L 0 + 1 * r.val = 4 * (L 1).val + 2 * (L 0).val + r.val
      rw [ho]
      show 4 * (L 1).val + 2 * (L 0).val + 1 * r.val = _
      omega
    | ⟨1, _⟩ =>
      show k0_off130 L 1 + 1 * b.val = b.val
      rw [ho]
      show 0 + 1 * b.val = b.val
      omega
  rw [hidx]
  exact hacc

end Cert.KernelIdeal.Tile

end
-- ==== Proof.TileBody.lean ====
/-
  A task of the pooling kernel, run: two table rows, for each eight chunks of 128 examples; the chunk's context words and the
  table row are staged by copies whose waits precede every read; eight accumulators sum 50 looked-up entries each and are
  stored times the reciprocal of 50; the two finished rows are written out by one copy.
-/
import proofs.«204130_g36155034698017_cont_8to1_b_1516_18_alg».proof.Proof.TileDefs
import proofs.«204130_g36155034698017_cont_8to1_b_1516_18_alg».proof.Proof.LoopsA
import proofs.«204130_g36155034698017_cont_8to1_b_1516_18_alg».proof.Proof.LoopsB
import proofs.«204130_g36155034698017_cont_8to1_b_1516_18_alg».proof.Proof.LoopsC
import proofs.«204130_g36155034698017_cont_8to1_b_1516_18_alg».proof.Proof.LoopsD
import proofs.«204130_g36155034698017_cont_8to1_b_1516_18_alg».proof.Proof.TileStage
import proofs.«204130_g36155034698017_cont_8to1_b_1516_18_alg».proof.Proof.TileNames
import proofs.«204130_g36155034698017_cont_8to1_b_1516_18_alg».proof.Proof.TileOut

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F] [Named F]
variable {U : Type} [URA U] [CountersIn U]

local notation "𝕄" => MT nD τ sig (HIx 1) (Elt F) ℕ U ℕ

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

variable (d : Dev nD) (L : grid0.Coords)

omit [FloatOps F] [Named F] [CountersIn U] in
theorem waits_grow {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

set_option maxHeartbeats 40000000 in
/-- A task of the pooling kernel, in the spelling its body's memrefs give the resources: from its shares of the two read-only
    arrays, its two result rows, its four scratch buffers and four transfer semaphores at zero, it runs to the end, gives
    all of them back, the two result rows at the averaged features. -/
theorem tile_core (q0 q1 : PosShare TreeShare)
    (A0 : Buf (Elt F) ((SparseCore.T d).loc main_v0)) (A1 : Buf (Elt F) ((SparseCore.T d).loc main_v1))
    (fo : Buf (Elt F) ((SparseCore.T d).loc main_v2))
    (hA0 : ∀ x, (A0 x).toNat < 100000)
    (fr : Buf (Elt F) ((V d (cV L) (jV L)).loc cc0_scratch0)) (f0 : Buf (Elt F) ((V d (cV L) (jV L)).loc cc0_scratch1))
    (f1 : Buf (Elt F) ((V d (cV L) (jV L)).loc cc0_scratch2)) (fa : Buf (Elt F) ((V d (cV L) (jV L)).loc cc0_scratch3))
    (O : CellTallies nD τ sig (HIx 1)) (W : Waits sig (HIx 1)) :
    iprop(Transfers.MayWaits (V d (cV L) (jV L)) (default : HIx 1) O
        ∗ ((ctxV).view.loc (V d (cV L) (jV L)) ↦{q0} A0) ∗ ((tabV).view.loc (V d (cV L) (jV L)) ↦{q1} A1)
        ∗ ((oRowK L).view.loc (V d (cV L) (jV L)) ↦[(oRowK L).view.set]{fullShare} fo)
        ∗ ((rowV).view.loc (V d (cV L) (jV L)) ↦{fullShare} fr) ∗ ((i0V).view.loc (V d (cV L) (jV L)) ↦{fullShare} f0)
        ∗ ((i1V).view.loc (V d (cV L) (jV L)) ↦{fullShare} f1) ∗ ((accV).view.loc (V d (cV L) (jV L)) ↦{fullShare} fa)
        ∗ semVal (semA d (cV L) (jV L)) 0 ∗ semVal (semB d (cV L) (jV L)) 0 ∗ semVal (semC d (cV L) (jV L)) 0 ∗ semVal (semD d (cV L) (jV L)) 0
        ∗ owes (V d (cV L) (jV L)) O W)
      ⊢ wp frame (wpE (defs₀ (F := F)) 𝒱₀ (V d (cV L) (jV L)) none) Set.univ
          (cc0__sc_pool_kernel L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0)
          fun _ => (iprop(((ctxV).view.loc (V d (cV L) (jV L)) ↦{q0} A0) ∗ ((tabV).view.loc (V d (cV L) (jV L)) ↦{q1} A1)
            ∗ ((oRowK L).view.loc (V d (cV L) (jV L)) ↦[(oRowK L).view.set]{fullShare} Cert.PoolFold.poolF (c50 (F := F)) A0 A1)
            ∗ (∃ f, (rowV).view.loc (V d (cV L) (jV L)) ↦{fullShare} f) ∗ (∃ f, (i0V).view.loc (V d (cV L) (jV L)) ↦{fullShare} f)
            ∗ (∃ f, (i1V).view.loc (V d (cV L) (jV L)) ↦{fullShare} f) ∗ (∃ f, (accV).view.loc (V d (cV L) (jV L)) ↦{fullShare} f)
            ∗ semVal (semA d (cV L) (jV L)) 0 ∗ semVal (semB d (cV L) (jV L)) 0 ∗ semVal (semC d (cV L) (jV L)) 0 ∗ semVal (semD d (cV L) (jV L)) 0
            ∗ ∃ W' : Waits sig (HIx 1), ⌜∀ p ∈ W', p ∈ W ∨ p.2 = none⌝ ∗ owes (V d (cV L) (jV L)) O W') : sProp 𝕄) := by
  rw [cc0__sc_pool_kernel_eq_skeleton]; unfold cc0__sc_pool_kernel_skel
  iintro ⟨Hmw, Hc, Ht, Ho, Hrow, Hi0, Hi1, Hacc, HsA, HsB, HsC, HsD, HO⟩
  sl_exec_parts
  -- chunk 0 of table round 0
  sl_for (linv0 (F := F) (U := U) d L A0 A1 (dRow L 0) 0) $$ [Hrow Hi0]
  case region =>
    intro k acc
    exact trip1 d L A0 hA0 A1 (dRow L 0) 0 _ _ _ _ _ _ _ _ k acc
  · unfold linv0
    iexists _, _
    isplitl [Hrow]; · iexact Hrow
    isplitl [Hi0]; · iexact Hi0
    ipureintro
    exact ⟨rfl, staged_row_eq d L A1 _ (dRow L 0) _ (k0_off1_eq L 0) _ _ _, staged0_eq d L A0 _ 0 _ rfl _ _⟩
  iintro %acc1 HI
  unfold linv0
  icases HI with ⟨%row1, %ch1, Hrow, Hi0, %hf1⟩
  obtain ⟨hacc1, hrow1, hch1⟩ := hf1
  have hacc1' : acc1 = accT row1 ch1 50 := hacc1
  clear hacc1
  subst hacc1' hrow1 hch1
  sl_exec_parts
  -- chunk 1 of table round 0
  sl_for (linv1 (F := F) (U := U) d L A0 A1 (dRow L 0) 1) $$ [Hrow Hi1]
  case region =>
    intro k acc
    exact trip2 d L A0 hA0 A1 (dRow L 0) 1 _ _ k acc
  · unfold linv1
    iexists _, _
    isplitl [Hrow]; · iexact Hrow
    isplitl [Hi1]; · iexact Hi1
    ipureintro
    exact ⟨rfl, rfl, staged1_eq d L A0 _ 1 _ rfl _ _⟩
  iintro %acc2 HI
  unfold linv1
  icases HI with ⟨%row2, %ch2, Hrow, Hi1, %hf2⟩
  obtain ⟨hacc2, hrow2, hch2⟩ := hf2
  have hacc2' : acc2 = accT row2 ch2 50 := hacc2
  clear hacc2
  subst hacc2' hrow2 hch2
  sl_exec_parts
  -- chunk 2 of table round 0
  sl_for (linv0 (F := F) (U := U) d L A0 A1 (dRow L 0) 2) $$ [Hrow Hi0]
  case region =>
    intro k acc
    exact trip3 d L A0 hA0 A1 (dRow L 0) 2 _ k acc
  · unfold linv0
    iexists _, _
    isplitl [Hrow]; · iexact Hrow
    isplitl [Hi0]; · iexact Hi0
    ipureintro
    exact ⟨rfl, rfl, staged0_eq d L A0 _ 2 _ rfl _ _⟩
  iintro %acc3 HI
  unfold linv0
  icases HI with ⟨%row3, %ch3, Hrow, Hi0, %hf3⟩
  obtain ⟨hacc3, hrow3, hch3⟩ := hf3
  have hacc3' : acc3 = accT row3 ch3 50 := hacc3
  clear hacc3
  subst hacc3' hrow3 hch3
  sl_exec_parts
  -- chunk 3 of table round 0
  sl_for (linv1 (F := F) (U := U) d L A0 A1 (dRow L 0) 3) $$ [Hrow Hi1]
  case region =>
    intro k acc
    exact trip4 d L A0 hA0 A1 (dRow L 0) 3  k acc
  · unfold linv1
    iexists _, _
    isplitl [Hrow]; · iexact Hrow
    isplitl [Hi1]; · iexact Hi1
    ipureintro
    exact ⟨rfl, rfl, staged1_eq d L A0 _ 3 _ rfl _ _⟩
  iintro %acc4 HI
  unfold linv1
  icases HI with ⟨%row4, %ch4, Hrow, Hi1, %hf4⟩
  obtain ⟨hacc4, hrow4, hch4⟩ := hf4
  have hacc4' : acc4 = accT row4 ch4 50 := hacc4
  clear hacc4
  subst hacc4' hrow4 hch4
  sl_exec_parts
  -- chunk 4 of table round 0
  sl_for (linv0 (F := F) (U := U) d L A0 A1 (dRow L 0) 4) $$ [Hrow Hi0]
  case region =>
    intro k acc
    exact trip5 d L A0 hA0 A1 (dRow L 0) 4 _ _ k acc
  · unfold linv0
    iexists _, _
    isplitl [Hrow]; · iexact Hrow
    isplitl [Hi0]; · iexact Hi0
    ipureintro
    exact ⟨rfl, rfl, staged0_eq d L A0 _ 4 _ rfl _ _⟩
  iintro %acc5 HI
  unfold linv0
  icases HI with ⟨%row5, %ch5, Hrow, Hi0, %hf5⟩
  obtain ⟨hacc5, hrow5, hch5⟩ := hf5
  have hacc5' : acc5 = accT row5 ch5 50 := hacc5
  clear hacc5
  subst hacc5' hrow5 hch5
  sl_exec_parts
  -- chunk 5 of table round 0
  sl_for (linv1 (F := F) (U := U) d L A0 A1 (dRow L 0) 5) $$ [Hrow Hi1]
  case region =>
    intro k acc
    exact trip6 d L A0 hA0 A1 (dRow L 0) 5 _ _ _ _ _ _ _ _ k acc
  · unfold linv1
    iexists _, _
    isplitl [Hrow]; · iexact Hrow
    isplitl [Hi1]; · iexact Hi1
    ipureintro
    exact ⟨rfl, rfl, staged1_eq d L A0 _ 5 _ rfl _ _⟩
  iintro %acc6 HI
  unfold linv1
  icases HI with ⟨%row6, %ch6, Hrow, Hi1, %hf6⟩
  obtain ⟨hacc6, hrow6, hch6⟩ := hf6
  have hacc6' : acc6 = accT row6 ch6 50 := hacc6
  clear hacc6
  subst hacc6' hrow6 hch6
  sl_exec_parts
  -- chunk 6 of table round 0
  sl_for (linv0 (F := F) (U := U) d L A0 A1 (dRow L 0) 6) $$ [Hrow Hi0]
  case region =>
    intro k acc
    exact trip7 d L A0 hA0 A1 (dRow L 0) 6 _ _ k acc
  · unfold linv0
    iexists _, _
    isplitl [Hrow]; · iexact Hrow
    isplitl [Hi0]; · iexact Hi0
    ipureintro
    exact ⟨rfl, rfl, staged0_eq d L A0 _ 6 _ rfl _ _⟩
  iintro %acc7 HI
  unfold linv0
  icases HI with ⟨%row7, %ch7, Hrow, Hi0, %hf7⟩
  obtain ⟨hacc7, hrow7, hch7⟩ := hf7
  have hacc7' : acc7 = accT row7 ch7 50 := hacc7
  clear hacc7
  subst hacc7' hrow7 hch7
  sl_exec_parts
  -- chunk 7 of table round 0
  sl_for (linv1 (F := F) (U := U) d L A0 A1 (dRow L 0) 7) $$ [Hrow Hi1]
  case region =>
    intro k acc
    exact trip8 d L A0 hA0 A1 (dRow L 0) 7 _ k acc
  · unfold linv1
    iexists _, _
    isplitl [Hrow]; · iexact Hrow
    isplitl [Hi1]; · iexact Hi1
    ipureintro
    exact ⟨rfl, rfl, staged1_eq d L A0 _ 7 _ rfl _ _⟩
  iintro %acc8 HI
  unfold linv1
  icases HI with ⟨%row8, %ch8, Hrow, Hi1, %hf8⟩
  obtain ⟨hacc8, hrow8, hch8⟩ := hf8
  have hacc8' : acc8 = accT row8 ch8 50 := hacc8
  clear hacc8
  subst hacc8' hrow8 hch8
  sl_exec_parts
  -- chunk 0 of table round 1
  sl_for (linv0 (F := F) (U := U) d L A0 A1 (dRow L 1) 0) $$ [Hrow Hi0]
  case region =>
    intro k acc
    exact trip9 d L A0 hA0 A1 (dRow L 1) 0  k acc
  · unfold linv0
    iexists _, _
    isplitl [Hrow]; · iexact Hrow
    isplitl [Hi0]; · iexact Hi0
    ipureintro
    exact ⟨rfl, staged_row_eq d L A1 _ (dRow L 1) _ (k0_off1_eq L 1) _ _ _, staged0_eq d L A0 _ 0 _ rfl _ _⟩
  iintro %acc9 HI
  unfold linv0
  icases HI with ⟨%row9, %ch9, Hrow, Hi0, %hf9⟩
  obtain ⟨hacc9, hrow9, hch9⟩ := hf9
  have hacc9' : acc9 = accT row9 ch9 50 := hacc9
  clear hacc9
  subst hacc9' hrow9 hch9
  sl_exec_parts
  -- chunk 1 of table round 1
  sl_for (linv1 (F := F) (U := U) d L A0 A1 (dRow L 1) 1) $$ [Hrow Hi1]
  case region =>
    intro k acc
    exact trip10 d L A0 hA0 A1 (dRow L 1) 1  k acc
  · unfold linv1
    iexists _, _
    isplitl [Hrow]; · iexact Hrow
    isplitl [Hi1]; · iexact Hi1
    ipureintro
    exact ⟨rfl, rfl, staged1_eq d L A0 _ 1 _ rfl _ _⟩
  iintro %acc10 HI
  unfold linv1
  icases HI with ⟨%row10, %ch10, Hrow, Hi1, %hf10⟩
  obtain ⟨hacc10, hrow10, hch10⟩ := hf10
  have hacc10' : acc10 = accT row10 ch10 50 := hacc10
  clear hacc10
  subst hacc10' hrow10 hch10
  sl_exec_parts
  -- chunk 2 of table round 1
  sl_for (linv0 (F := F) (U := U) d L A0 A1 (dRow L 1) 2) $$ [Hrow Hi0]
  case region =>
    intro k acc
    exact trip11 d L A0 hA0 A1 (dRow L 1) 2  k acc
  · unfold linv0
    iexists _, _
    isplitl [Hrow]; · iexact Hrow
    isplitl [Hi0]; · iexact Hi0
    ipureintro
    exact ⟨rfl, rfl, staged0_eq d L A0 _ 2 _ rfl _ _⟩
  iintro %acc11 HI
  unfold linv0
  icases HI with ⟨%row11, %ch11, Hrow, Hi0, %hf11⟩
  obtain ⟨hacc11, hrow11, hch11⟩ := hf11
  have hacc11' : acc11 = accT row11 ch11 50 := hacc11
  clear hacc11
  subst hacc11' hrow11 hch11
  sl_exec_parts
  -- chunk 3 of table round 1
  sl_for (linv1 (F := F) (U := U) d L A0 A1 (dRow L 1) 3) $$ [Hrow Hi1]
  case region =>
    intro k acc
    exact trip12 d L A0 hA0 A1 (dRow L 1) 3 _ _ _ _ _ k acc
  · unfold linv1
    iexists _, _
    isplitl [Hrow]; · iexact Hrow
    isplitl [Hi1]; · iexact Hi1
    ipureintro
    exact ⟨rfl, rfl, staged1_eq d L A0 _ 3 _ rfl _ _⟩
  iintro %acc12 HI
  unfold linv1
  icases HI with ⟨%row12, %ch12, Hrow, Hi1, %hf12⟩
  obtain ⟨hacc12, hrow12, hch12⟩ := hf12
  have hacc12' : acc12 = accT row12 ch12 50 := hacc12
  clear hacc12
  subst hacc12' hrow12 hch12
  sl_exec_parts
  -- chunk 4 of table round 1
  sl_for (linv0 (F := F) (U := U) d L A0 A1 (dRow L 1) 4) $$ [Hrow Hi0]
  case region =>
    intro k acc
    exact trip13 d L A0 hA0 A1 (dRow L 1) 4 _ _ _ k acc
  · unfold linv0
    iexists _, _
    isplitl [Hrow]; · iexact Hrow
    isplitl [Hi0]; · iexact Hi0
    ipureintro
    exact ⟨rfl, rfl, staged0_eq d L A0 _ 4 _ rfl _ _⟩
  iintro %acc13 HI
  unfold linv0
  icases HI with ⟨%row13, %ch13, Hrow, Hi0, %hf13⟩
  obtain ⟨hacc13, hrow13, hch13⟩ := hf13
  have hacc13' : acc13 = accT row13 ch13 50 := hacc13
  clear hacc13
  subst hacc13' hrow13 hch13
  sl_exec_parts
  -- chunk 5 of table round 1
  sl_for (linv1 (F := F) (U := U) d L A0 A1 (dRow L 1) 5) $$ [Hrow Hi1]
  case region =>
    intro k acc
    exact trip14 d L A0 hA0 A1 (dRow L 1) 5 _ _ k acc
  · unfold linv1
    iexists _, _
    isplitl [Hrow]; · iexact Hrow
    isplitl [Hi1]; · iexact Hi1
    ipureintro
    exact ⟨rfl, rfl, staged1_eq d L A0 _ 5 _ rfl _ _⟩
  iintro %acc14 HI
  unfold linv1
  icases HI with ⟨%row14, %ch14, Hrow, Hi1, %hf14⟩
  obtain ⟨hacc14, hrow14, hch14⟩ := hf14
  have hacc14' : acc14 = accT row14 ch14 50 := hacc14
  clear hacc14
  subst hacc14' hrow14 hch14
  sl_exec_parts
  -- chunk 6 of table round 1
  sl_for (linv0 (F := F) (U := U) d L A0 A1 (dRow L 1) 6) $$ [Hrow Hi0]
  case region =>
    intro k acc
    exact trip15 d L A0 hA0 A1 (dRow L 1) 6  k acc
  · unfold linv0
    iexists _, _
    isplitl [Hrow]; · iexact Hrow
    isplitl [Hi0]; · iexact Hi0
    ipureintro
    exact ⟨rfl, rfl, staged0_eq d L A0 _ 6 _ rfl _ _⟩
  iintro %acc15 HI
  unfold linv0
  icases HI with ⟨%row15, %ch15, Hrow, Hi0, %hf15⟩
  obtain ⟨hacc15, hrow15, hch15⟩ := hf15
  have hacc15' : acc15 = accT row15 ch15 50 := hacc15
  clear hacc15
  subst hacc15' hrow15 hch15
  sl_exec_parts
  -- chunk 7 of table round 1
  sl_for (linv1 (F := F) (U := U) d L A0 A1 (dRow L 1) 7) $$ [Hrow Hi1]
  case region =>
    intro k acc
    exact trip16 d L A0 hA0 A1 (dRow L 1) 7 _ _ _ k acc
  · unfold linv1
    iexists _, _
    isplitl [Hrow]; · iexact Hrow
    isplitl [Hi1]; · iexact Hi1
    ipureintro
    exact ⟨rfl, rfl, staged1_eq d L A0 _ 7 _ rfl _ _⟩
  iintro %acc16 HI
  unfold linv1
  icases HI with ⟨%row16, %ch16, Hrow, Hi1, %hf16⟩
  obtain ⟨hacc16, hrow16, hch16⟩ := hf16
  have hacc16' : acc16 = accT row16 ch16 50 := hacc16
  clear hacc16
  subst hacc16' hrow16 hch16
  sl_exec_parts
  sl_step
  isplitl [Hc]; · iexact Hc
  isplitl [Ht]; · iexact Ht
  isplitl [Ho]
  · ihave Ho' := (Entails.of_eq (pointsTo_congr (out_rows_eq (F := F) d L (c50 (F := F)) A0 A1 fo fa _ rfl))) $$ Ho
    iexact Ho'
  isplitl [Hrow]; · iexists _; iexact Hrow
  isplitl [Hi0]; · iexists _; iexact Hi0
  isplitl [Hi1]; · iexists _; iexact Hi1
  isplitl [Hacc]; · iexists _; iexact Hacc
  isplitl [HsA]; · iexact HsA
  isplitl [HsB]; · iexact HsB
  isplitl [HsC]; · iexact HsC
  isplitl [HsD]; · iexact HsD
  iexists _; isplitr
  swap; · iexact HO
  ipureintro
  repeat' apply waits_grow
  exact fun p hp => .inl hp

end Cert.KernelIdeal.Tile

end
-- ==== Proof.LaunchDefs.lean ====
/-
  The launch of the pooling kernel's 32 tasks and what the handshakes carry: the ghost state (the handshakes' rounds, the
  matrix unit's staging cells, the transfers' counters), the contents of the two transposed arrays at the call, the shares
  of them a task reads, the two result rows a task writes, and the record of what each start / go / done hands over.
-/
import proofs.«204130_g36155034698017_cont_8to1_b_1516_18_alg».proof.Proof.TileNames

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

/-! ## The resource algebra -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-- The handshakes' rounds: the first factor. -/
def EH : Emb UH (MT nD τ sig (HIx 1) (Elt F) ℕ UU ℕ) :=
  ((Emb.inl : Emb UH (UH × UP)).trans (Emb.inl : Emb (UH × UP) UU)).trans
    (uEmb (nD := nD) (τ := τ) (sig := sig) (Ix := HIx 1) (Val := Elt F) (Name := ℕ) (U := UU) (Lvl := ℕ)).toEmb
/-- The matrix unit's staging cells' rounds: the second factor. -/
def EP : Emb UP (MT nD τ sig (HIx 1) (Elt F) ℕ UU ℕ) :=
  ((Emb.inr : Emb UP (UH × UP)).trans (Emb.inl : Emb (UH × UP) UU)).trans
    (uEmb (nD := nD) (τ := τ) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- The context words position-major, as the first host operation leaves them. -/
def A0 (d : Dev nD) : Buf (Elt F) (v0Loc d) :=
  transpose S50x1024 [1, 0] (m (a0Loc d)) transposes_S1024x50_S50x1024_1_0
/-- The table feature-major, as the second host operation leaves it. -/
def A1 (d : Dev nD) : Buf (Elt F) (v1Loc d) :=
  transpose S64x100000 [1, 0] (m (a1Loc d)) transposes_S100000x64_S64x100000_1_0
/-- What the pooling kernel leaves: the averaged features, feature-major. -/
def PF (d : Dev nD) : Buf (Elt F) (v2Loc d) := Cert.PoolFold.poolF (c50 (F := F)) (A0 m d) (A1 m d)

/-! ## Shares: the full share halved five times, one leaf per task -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of the two read-only arrays task `w` holds. -/
abbrev tq (w : Fin 32) : PosShare TreeShare := leaf 5 fullShare w

/-! ## What the handshakes carry -/

/-- What a task is handed: its shares of the two read-only arrays and its two result rows, at anything. -/
def goP (d : Dev nD) (w : Fin 32) : sProp 𝕄 :=
  iprop((v0Loc d ↦{tq w} A0 m d) ∗ (v1Loc d ↦{tq w} A1 m d) ∗ ∃ f, v2Loc d ↦[oRowSet w]{fullShare} f)
/-- What a task hands back: the same shares, and its two result rows at the averaged features. -/
def tdP (d : Dev nD) (w : Fin 32) : sProp 𝕄 :=
  iprop((v0Loc d ↦{tq w} A0 m d) ∗ (v1Loc d ↦{tq w} A1 m d) ∗ (v2Loc d ↦[oRowSet w]{fullShare} PF m d))

/-- Task number of vector subcore `i` of SparseCore `c`, as numbers. -/
def wOf (c i : ℕ) : Fin 32 := ⟨(2 * i + c) % 32, Nat.mod_lt _ (by norm_num)⟩

/-- The one call hands SparseCore `c` its sixteen tasks' parts, each task its own, and takes them back. -/
def P : (K (F := F)).Pay (nD := nD) (Val := Elt F) (Name := ℕ) (U := UU) where
  st := fun q d c => bigSep Finset.univ fun i : Fin ((K (F := F)).nSub q) => goP m d (wOf c.val i.val)
  dn := fun q d c => bigSep Finset.univ fun i : Fin ((K (F := F)).nSub q) => tdP m d (wOf c.val i.val)
  go := fun _ d c i => goP m d (wOf c.val i.val)
  td := fun _ d c i => tdP m d (wOf c.val i.val)
  x := fun _ _ => iprop(emp)

instance P_storable : (P (F := F) m).IsStorable where
  st _ _ _ := by unfold P goP; infer_instance
  dn _ _ _ := by unfold P tdP; infer_instance
  go _ _ _ _ := by unfold P goP; infer_instance
  td _ _ _ _ := by unfold P tdP; infer_instance

/-- The sequencer deals its tasks' parts as they come and collects them as they return. -/
theorem vecSplit : (K (F := F)).VecSplit' (P m) 0 := by
  intro d c
  show (bigSep Finset.univ fun i : Fin ((K (F := F)).nSub 0) => goP m d (wOf c.val i.val)) ⊢ |={Set.univ}=> iprop(
      (bigSep Finset.univ fun i : Fin ((K (F := F)).nSub 0) => goP m d (wOf c.val i.val))
      ∗ ((bigSep Finset.univ fun i : Fin ((K (F := F)).nSub 0) => tdP m d (wOf c.val i.val))
          -∗ (bigSep Finset.univ fun i : Fin ((K (F := F)).nSub 0) => tdP m d (wOf c.val i.val))))
  iintro H; imodintro
  isplitl [H]; · iexact H
  iintro H; iexact H

end Cert.KernelIdeal.Tile

end
-- ==== Proof.PoolSpec.lean ====
/-
  The function both programs compute, on the extended reals. Each of 1024 examples carries 50 context words; every
  word names a row of a 100000 x 64 embedding table; the rows are averaged feature by feature, and the 64 averaged
  features are projected on the vocabulary by a 100000 x 64 weight matrix plus a bias:

    out[p, v] = (sum over d of  W[v, d] * ((sum over j of E[ctx[p, j], d]) * (1/50)))  +  b[v].

  The mean is written as the product with 1/50; on the extended reals that is the quotient by 50.
-/
import Idealize.ShloMosaic.PureOps.Ideal
import Idealize.ShloMosaic.Lib.ValueIdx

noncomputable section

open scoped BigOperators

namespace Cert.PoolSpec

open Idealize.ShloMosaic Idealize.ShloMosaic.ValueIdx

/-- The context words: 1024 examples of 50 words. -/
abbrev SCtx : Shape := ⟨2, ![1024, 50]⟩
/-- The embedding table and the weight matrix: 100000 rows of 64 features. -/
abbrev STab : Shape := ⟨2, ![100000, 64]⟩
/-- The bias: one entry per vocabulary word. -/
abbrev SBias : Shape := ⟨1, ![100000]⟩
/-- The averaged features, feature-major: 64 features of 1024 examples. -/
abbrev SPoolT : Shape := ⟨2, ![64, 1024]⟩
/-- The result: 1024 examples of 100000 scores. -/
abbrev SOut : Shape := ⟨2, ![1024, 100000]⟩

/-- The table row a context word names: the word read as a natural number, reduced modulo the table's height
    (the identity on a word in range, and the precondition admits no other). -/
def row (ctx : IVec SCtx 32) (p : Fin 1024) (j : Fin 50) : Fin 100000 :=
  ⟨(ctx (ix2 p j)).toNat % 100000, Nat.mod_lt _ (by norm_num)⟩

/-- Feature `d` of the 50 looked-up rows of example `p`, summed. -/
def bag (ctx : IVec SCtx 32) (E : FVec Ideal STab .f32) (p : Fin 1024) (d : Fin 64) : EReal :=
  ∑ j : Fin 50, E (ix2 (row ctx p j) d)

/-- The mean of those 50 entries, as the product of their sum with 1/50. -/
def pooled (ctx : IVec SCtx 32) (E : FVec Ideal STab .f32) (p : Fin 1024) (d : Fin 64) : EReal :=
  bag ctx E p d * ((1 / 50 : ℝ) : EReal)

/-- The averaged features as a feature-major array: entry (d, p) is feature `d` of example `p`. -/
def poolT (ctx : IVec SCtx 32) (E : FVec Ideal STab .f32) : FVec Ideal SPoolT .f32 :=
  fun i => pooled ctx E (i 1) (i 0)

/-- The scores: for example `p` and vocabulary word `v`, the weight row `v` against the averaged features, plus the bias. -/
def out (ctx : IVec SCtx 32) (E W : FVec Ideal STab .f32) (b : FVec Ideal SBias .f32) : FVec Ideal SOut .f32 :=
  fun i => (∑ d : Fin 64, W (ix2 (i 1) d) * pooled ctx E (i 0) d) + b (ix1 (i 1))

theorem out_apply (ctx : IVec SCtx 32) (E W : FVec Ideal STab .f32) (b : FVec Ideal SBias .f32) (p : Fin 1024) (v : Fin 100000) :
    out ctx E W b (ix2 p v) = (∑ d : Fin 64, W (ix2 v d) * pooled ctx E p d) + b (ix1 v) := rfl

theorem poolT_apply (ctx : IVec SCtx 32) (E : FVec Ideal STab .f32) (d : Fin 64) (p : Fin 1024) :
    poolT ctx E (ix2 d p) = pooled ctx E p d := rfl

/-- A word in range names the row of its own number. -/
theorem row_val_of_lt (ctx : IVec SCtx 32) (p : Fin 1024) (j : Fin 50) (h : (ctx (ix2 p j)).toNat < 100000) :
    (row ctx p j).val = (ctx (ix2 p j)).toNat := Nat.mod_eq_of_lt h

end Cert.PoolSpec

end
-- ==== Proof.PoolFoldIdeal.lean ====
/-
  The pooling kernel's arithmetic at the extended reals is the specification's averaged features.

  At the extended reals the 16-lane accumulator after n context positions is, lane by lane, the sum of the n table
  entries the lane's words name (the zero word is the real 0, an addition is the extended reals' addition). The whole
  array then reads, at feature d and example b, the sum over the 50 context positions times the reciprocal: example b
  is lane b mod 16 of lane group (b mod 128) / 16 of chunk b / 128, and 128 (b / 128) + 16 ((b mod 128) / 16) + b mod 16 = b,
  so the lane's word at position j is the context word (b, j), and the entry it names in row d of the feature-major
  table is entry (that word's row, d) of the table.

  Also here: the transpose of a rank-2 array read at an index, and a vector re-laid as one row read at an index.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import proofs.«204130_g36155034698017_cont_8to1_b_1516_18_alg».proof.Proof.PoolSpec
import proofs.«204130_g36155034698017_cont_8to1_b_1516_18_alg».proof.Proof.PoolFold

noncomputable section

open scoped BigOperators

namespace Cert.PoolFold

open Idealize.ShloMosaic Idealize.ShloMosaic.ValueIdx

/-- At the extended reals the accumulator after `n` positions is the sum of the `n` entries picked so far. -/
theorem accF_ideal (row : FVec Ideal SRow .f32) (ch : IVec SChunk 32) (g : Fin 8) (n : ℕ) (l : S16.Idx) :
    accF row ch g n l = ∑ j ∈ Finset.range n, pick row (words ch j g l) := by
  induction n with
  | zero =>
    rw [accF_zero, Finset.range_zero, Finset.sum_empty]
    exact Ideal.ofBits_zero_f32
  | succ n ih =>
    rw [accF_succ, Finset.sum_range_succ, ← ih]
    rfl

/-- The word of example `b` at context position `j`, found through the chunk, lane group and lane of `b` in the
    position-major words, is the context word (b, j). -/
theorem words_chunkOf (ctx : IVec Cert.PoolSpec.SCtx 32) (b : Fin 1024) (j : Fin 50)
    (h0 : b.val / 128 < 8) (h1 : b.val % 128 / 16 < 8) (h2 : b.val % 16 < 16) :
    words (chunkOf (fun i => ctx (ix2 (i 1) (i 0))) ⟨b.val / 128, h0⟩) j.val ⟨b.val % 128 / 16, h1⟩ (ix1 ⟨b.val % 16, h2⟩)
      = ctx (ix2 b j) := by
  show ctx _ = ctx _
  refine congrArg ctx (funext fun a => Fin.ext ?_)
  have hj := j.isLt
  have hb := b.isLt
  match a with
  | ⟨0, _⟩ =>
    show 128 * (b.val / 128) + (16 * (b.val % 128 / 16) + b.val % 16) = b.val
    omega
  | ⟨1, _⟩ =>
    show j.val % 50 = j.val
    omega

/-- The entry a word names in row `d` of the feature-major table is entry (the word's row, d) of the table. -/
theorem pick_rowOf (E : FVec Ideal Cert.PoolSpec.STab .f32) (d : Fin 64) (w : BitVec 32) :
    pick (rowOf (fun i => E (ix2 (i 1) (i 0))) d) w = E (ix2 ⟨w.toNat % 100000, Nat.mod_lt _ (by norm_num)⟩ d) := rfl

/-- What the pooling kernel leaves, at the extended reals and with the reciprocal of 50 as its constant, is the
    specification's feature-major array of averaged features. -/
theorem poolF_ideal (ctx : IVec Cert.PoolSpec.SCtx 32) (E : FVec Ideal Cert.PoolSpec.STab .f32) (c : EReal) (hc : c = ((1 / 50 : ℝ) : EReal)) :
    poolF (F := Ideal) c (fun i => ctx (ix2 (i 1) (i 0))) (fun i => E (ix2 (i 1) (i 0))) = Cert.PoolSpec.poolT ctx E := by
  funext i
  obtain ⟨d, b, rfl⟩ : ∃ (d : Fin 64) (b : Fin 1024), i = ix2 d b := ⟨i 0, i 1, eq_ix2 i⟩
  have hb := b.isLt
  have h0 : b.val / 128 < 8 := by omega
  have h1 : b.val % 128 / 16 < 8 := by omega
  have h2 : b.val % 16 < 16 := by omega
  rw [Cert.PoolSpec.poolT_apply]
  unfold Cert.PoolSpec.pooled Cert.PoolSpec.bag
  show accF (rowOf (fun i => E (ix2 (i 1) (i 0))) d) (chunkOf (fun i => ctx (ix2 (i 1) (i 0))) ⟨b.val / 128, h0⟩)
      ⟨b.val % 128 / 16, h1⟩ 50 (ix1 ⟨b.val % 16, h2⟩) * c = _
  rw [accF_ideal, Finset.sum_range, hc]
  refine congrArg (· * ((1 / 50 : ℝ) : EReal)) (Finset.sum_congr rfl fun j _ => ?_)
  exact (pick_rowOf E d _).trans
    (congrArg (fun w : BitVec 32 => E (ix2 (⟨w.toNat % 100000, Nat.mod_lt _ (by norm_num)⟩ : Fin 100000) d))
      (words_chunkOf ctx b j h0 h1 h2))

/-- The transpose of a rank-2 array reads, at (p, q), the array at (q, p). -/
theorem transpose_swap {α : Type} {a b : Nat} (x : (⟨2, ![a, b]⟩ : Shape).Idx → α)
    (h : (⟨2, ![a, b]⟩ : Shape).Transposes [1, 0] ⟨2, ![b, a]⟩) :
    transpose ⟨2, ![b, a]⟩ [1, 0] x h = fun i => x (ix2 (i 1) (i 0)) := by
  funext i
  refine transpose_apply [1, 0] x h i (ix2 (i 1) (i 0)) fun c => ?_
  match c with
  | ⟨0, _⟩ => rfl
  | ⟨1, _⟩ => rfl

/-- A vector of `n` entries re-laid as one row of `n` reads, at (0, q), the vector at q: the two have the same
    row-major position. -/
theorem shapeCast_toRow_apply {α : Type} {n : Nat} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) := by
  refine shapeCast_apply v h _ _ ?_
  rw [Shape.rowMajor_val_one, Shape.rowMajor_val_two]
  show q.val = 0 * n + q.val
  rw [Nat.zero_mul, Nat.zero_add]

end Cert.PoolFold

end
-- ==== Proof.TileObl.lean ====
/-
  The launch theorem's obligation for a task: from what the go handshake hands it, its own scratch buffers and semaphores,
  the task runs (its body's run) and hands back what the done handshake carries.
-/
import proofs.«204130_g36155034698017_cont_8to1_b_1516_18_alg».proof.Proof.TileBody
import proofs.«204130_g36155034698017_cont_8to1_b_1516_18_alg».proof.Proof.LaunchDefs
import proofs.«204130_g36155034698017_cont_8to1_b_1516_18_alg».proof.Proof.PoolFoldIdeal

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

local notation "𝕄" => MT nD τ sig (HIx 1) (Elt F) ℕ UU ℕ

variable (m : (ℓ : Loc nD τ sig) → Buf (Elt F) ℓ) (ρ : Dev nD → PrngReg)

/-- What the proof asks of the launch memory: every context word names a table row. -/
def PreOK : Prop := ∀ (d : Dev nD) (x : S1024x50.Idx), (m (a0Loc d) x).toNat < 100000

omit [Named F] in
theorem A0_lt (hpre : PreOK m) (d : Dev nD) : ∀ x, (A0 m d x).toNat < 100000 := by
  intro x
  unfold A0
  rw [Cert.PoolFold.transpose_swap]
  exact hpre d _

section Tile

variable (d : Dev nD) (L : grid0.Coords)

omit [FloatOps F] [Named F] in
/-- The rows the task slices are its two rows of the launch's dealing. -/
theorem oRowK_rect : Rect.unit (s := S64x1024) (k0_off130 L) S2x1024.size (k0_off130_inb L) = orow ⟨wid L, wid_lt L⟩ := by
  unfold orow Rect.part Rect.block
  congr 1 <;> funext a
  · rw [k0_off130_eq]
    match a with
    | 0 => simp [Shape.partIx, Shape.partSize, wid]; omega
    | 1 => simp [Shape.partIx, Shape.partSize]
  · match a with
    | 0 => simp [Shape.partSize]
    | 1 => simp [Shape.partSize]

omit [FloatOps F] [Named F] in
theorem set_oRowK : (oRowK L).view.set = oRowSet ⟨wid L, wid_lt L⟩ := by
  show ((outV).view.slice (Rect.unit (s := S64x1024) (k0_off130 L) S2x1024.size (k0_off130_inb L))).set = ((outV).view.slice (orow ⟨wid L, wid_lt L⟩)).set
  rw [oRowK_rect]

omit [FloatOps F] [Named F] in
theorem pts_oRowK (f : Buf (Elt F) (v2Loc d)) :
    ((oRowK L).view.loc (V d (cV L) (jV L)) ↦[(oRowK L).view.set]{fullShare} f : sProp 𝕄) = v2Loc d ↦[oRowSet ⟨wid L, wid_lt L⟩]{fullShare} f := by
  rw [set_oRowK]
omit [FloatOps F] [Named F] in
theorem pts_ctxV (q : PosShare TreeShare) (f : Buf (Elt F) (v0Loc d)) :
    ((ctxV).view.loc (V d (cV L) (jV L)) ↦{q} f : sProp 𝕄) = v0Loc d ↦{q} f := rfl
omit [FloatOps F] [Named F] in
theorem pts_tabV (q : PosShare TreeShare) (f : Buf (Elt F) (v1Loc d)) :
    ((tabV).view.loc (V d (cV L) (jV L)) ↦{q} f : sProp 𝕄) = v1Loc d ↦{q} f := rfl
omit [FloatOps F] [Named F] in
theorem pts_rowV (f : Buf (Elt F) ((V d (cV L) (jV L)).loc cc0_scratch0)) :
    ((rowV).view.loc (V d (cV L) (jV L)) ↦{fullShare} f : sProp 𝕄) = (V d (cV L) (jV L)).loc cc0_scratch0 ↦{fullShare} f := rfl
omit [FloatOps F] [Named F] in
theorem pts_i0V (f : Buf (Elt F) ((V d (cV L) (jV L)).loc cc0_scratch1)) :
    ((i0V).view.loc (V d (cV L) (jV L)) ↦{fullShare} f : sProp 𝕄) = (V d (cV L) (jV L)).loc cc0_scratch1 ↦{fullShare} f := rfl
omit [FloatOps F] [Named F] in
theorem pts_i1V (f : Buf (Elt F) ((V d (cV L) (jV L)).loc cc0_scratch2)) :
    ((i1V).view.loc (V d (cV L) (jV L)) ↦{fullShare} f : sProp 𝕄) = (V d (cV L) (jV L)).loc cc0_scratch2 ↦{fullShare} f := rfl
omit [FloatOps F] [Named F] in
theorem pts_accV (f : Buf (Elt F) ((V d (cV L) (jV L)).loc cc0_scratch3)) :
    ((accV).view.loc (V d (cV L) (jV L)) ↦{fullShare} f : sProp 𝕄) = (V d (cV L) (jV L)).loc cc0_scratch3 ↦{fullShare} f := rfl

omit [FloatOps F] [Named F] in
/-- The task's four transfer semaphores are among its own scoped cells. -/
theorem ownSems0_V :
    (ownSems0 (V d (cV L) (jV L)) : sProp 𝕄)
      = iprop(semVal (semA d (cV L) (jV L)) 0 ∗ semVal (semB d (cV L) (jV L)) 0 ∗ semVal (semC d (cV L) (jV L)) 0 ∗ semVal (semD d (cV L) (jV L)) 0
          ∗ bigSep (((((ownCells (V d (cV L) (jV L))).erase (semA d (cV L) (jV L))).erase (semB d (cV L) (jV L))).erase (semC d (cV L) (jV L))).erase (semD d (cV L) (jV L))) fun g => semVal g 0) := by
  unfold SparseCore.Cfg.ownSems0
  rw [SparseCore.bigSep_erase' ((mem_ownCells (g := semA d (cV L) (jV L))).mpr ⟨rfl, by
      show (SemLoc.dma cc0_scratch4.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scratch5.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d (cV L) (jV L))).mpr ⟨rfl, by show (SemLoc.dma cc0_scratch6.sem : SemLoc sig).isScoped .scVector = true; decide⟩⟩⟩),
    SparseCore.bigSep_erase' (Finset.mem_erase.mpr ⟨by simp [semC, semD]; decide, Finset.mem_erase.mpr ⟨by simp [semB, semD]; decide, Finset.mem_erase.mpr ⟨by simp [semA, semD]; decide,
      (mem_ownCells (g := semD d (cV L) (jV L))).mpr ⟨rfl, by show (SemLoc.dma cc0_scoped0.sem : SemLoc sig).isScoped .scVector = true; decide⟩⟩⟩⟩)]

omit [FloatOps F] [Named F] in
/-- The task's four scratch buffers are among its own, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

/-- What the body's run leaves, in the spelling of its memrefs. -/
abbrev corePost (O : CellTallies nD τ sig (HIx 1)) (W : Waits sig (HIx 1)) : PUnit → sProp 𝕄 :=
  let q0 := tq ⟨wid L, wid_lt L⟩; let q1 := tq ⟨wid L, wid_lt L⟩; let A0 := A0 m d; let A1 := A1 m d
  fun _ => (iprop(((ctxV).view.loc (V d (cV L) (jV L)) ↦{q0} A0) ∗ ((tabV).view.loc (V d (cV L) (jV L)) ↦{q1} A1)
            ∗ ((oRowK L).view.loc (V d (cV L) (jV L)) ↦[(oRowK L).view.set]{fullShare} Cert.PoolFold.poolF (c50 (F := F)) A0 A1)
            ∗ (∃ f, (rowV).view.loc (V d (cV L) (jV L)) ↦{fullShare} f) ∗ (∃ f, (i0V).view.loc (V d (cV L) (jV L)) ↦{fullShare} f)
            ∗ (∃ f, (i1V).view.loc (V d (cV L) (jV L)) ↦{fullShare} f) ∗ (∃ f, (accV).view.loc (V d (cV L) (jV L)) ↦{fullShare} f)
            ∗ semVal (semA d (cV L) (jV L)) 0 ∗ semVal (semB d (cV L) (jV L)) 0 ∗ semVal (semC d (cV L) (jV L)) 0 ∗ semVal (semD d (cV L) (jV L)) 0
            ∗ ∃ W' : Waits sig (HIx 1), ⌜∀ p ∈ W', p ∈ W ∨ p.2 = none⌝ ∗ owes (V d (cV L) (jV L)) O W') : sProp 𝕄)

set_option maxHeartbeats 4000000 in
/-- The task on vector subcore `(L 0, L 1)` of device `d`, in the launch's spelling. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d ⟨wid L, wid_lt L⟩
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_pool_kernel L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0)
          fun _ => (iprop(tdP m d ⟨wid L, wid_lt L⟩ ∗ scopedBufs (V d (cV L) (jV L)) ∗ scopedSems0 (V d (cV L) (jV L))
            ∗ ∃ W' : Waits sig (HIx 1), ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  unfold goP tdP
  iintro ⟨#Hlv, -, ⟨Hc, Ht, %fo, Ho⟩, ⟨⟨%fr, Hrow⟩, ⟨%f0, Hi0⟩, ⟨%f1, Hi1⟩, ⟨%fa, Hacc⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  iapply (wp_wand_r frame (wpE (defs₀ (F := F)) 𝒱₀ (V d (cV L) (jV L)) none) Set.univ (Q := corePost (F := F) m d L O W))
  isplitl [Hmw Hc Ht Ho' Hrow Hi0 Hi1 Hacc HsA HsB HsC HsD HO]
  · iapply (tile_core (F := F) (U := UU) d L (tq ⟨wid L, wid_lt L⟩) (tq ⟨wid L, wid_lt L⟩) (A0 m d) (A1 m d) fo (A0_lt m hpre d) fr f0 f1 fa O W)
    isplitl [Hmw]; · iexact Hmw
    isplitl [Hc]; · iexact Hc
    isplitl [Ht]; · iexact Ht
    isplitl [Ho']; · iexact Ho'
    isplitl [Hrow]; · iexact Hrow
    isplitl [Hi0]; · iexact Hi0
    isplitl [Hi1]; · iexact Hi1
    isplitl [Hacc]; · iexact Hacc
    isplitl [HsA]; · iexact HsA
    isplitl [HsB]; · iexact HsB
    isplitl [HsC]; · iexact HsC
    isplitl [HsD]; · iexact HsD
    iexact HO
  iintro %u HQ
  icases HQ with ⟨Hc, Ht, Ho, ⟨%fr', Hrow⟩, ⟨%f0', Hi0⟩, ⟨%f1', Hi1⟩, ⟨%fa', Hacc⟩, HsA, HsB, HsC, HsD, ⟨%W', %hW', HO⟩⟩
  ihave Ho'' := (Entails.of_eq (pts_oRowK (F := F) d L _)) $$ Ho
  isplitl [Hc Ht Ho'']
  · isplitl [Hc]; · iexact Hc
    isplitl [Ht]; · iexact Ht
    iexact Ho''
  isplitl [Hrow Hi0 Hi1 Hacc Hbufs]
  · isplitl [Hrow]; · iexists _; iexact Hrow
    isplitl [Hi0]; · iexists _; iexact Hi0
    isplitl [Hi1]; · iexists _; iexact Hi1
    isplitl [Hacc]; · iexists _; iexact Hacc
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists W'; isplitr
  · ipureintro; exact hW'
  · iexact HO

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_pool_kernel (coordsV c s)
          ctxV (Memref.isWhole_whole _) tabV (Memref.isWhole_whole _) outV (Memref.isWhole_whole _)
          rowV (Memref.isWhole_whole _) i0V (Memref.isWhole_whole _) i1V (Memref.isWhole_whole _) accV (Memref.isWhole_whole _)
          cc0_scratch4 cc0_scratch5 cc0_scratch6 cc0_scoped0) ⟨⟩ c s := rfl

set_option maxRecDepth 16384 in
/-- The launch theorem's obligation at the one call: every task runs its body. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wOf c.val i.val = ⟨wid (coordsV ⟨_, hci.1⟩ ⟨_, hci.2⟩), wid_lt _⟩ := by
    apply Fin.ext
    show (2 * i.val + c.val) % 32 = 2 * i.val + c.val
    have h1 : i.val < 16 := i.isLt
    have h0 : c.val < 2 := c.isLt
    omega
  show iprop(_ ∗ _ ∗ goP m d (wOf c.val i.val) ∗ _) ⊢ wp _ _ _ _ (fun _ => iprop(tdP m d (wOf c.val i.val) ∗ _))
  rw [hw]
  exact (tile_body m d (coordsV ⟨_, hci.1⟩ ⟨_, hci.2⟩) hF hpre O W hO).trans (wp_mono frame _ _ fun _ => obl_post)

end Tile

end Cert.KernelIdeal.Tile

end
-- ==== Proof.LaunchSplit.lean ====
/-
  Dealing the three arrays of the pooling call to its 32 tasks, and collecting them.

  The two read-only arrays go out as shares: the full share halved five times has 32 leaves, and a points-to at a share is
  its two halves' at once, so by induction on the depth it is all its leaves' at once. The result array goes out by rows:
  the 32 pairs of rows are pairwise disjoint and cover the array, so a points-to of the whole array is the 32 pairs' at
  once. A task is named by its SparseCore c and its vector subcore i as number 2 i + c, a bijection of the 2 x 16 pairs
  with the 32 numbers, so the separating conjunction over the cores of the conjunctions over their subcores is the
  conjunction over the 32 tasks. A task is handed its rows at anything (the contents it finds, introduced row by row);
  it hands them back at the averaged features, one function for all tasks, so the rows join with no choice to make.
-/
import proofs.«204130_g36155034698017_cont_8to1_b_1516_18_alg».proof.Proof.LaunchDefs

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

local notation "𝕄" => MT nD τ sig (HIx 1) (Elt F) ℕ UU ℕ

variable (m : (ℓ : Loc nD τ sig) → Buf (Elt F) ℓ) (ρ : Dev nD → PrngReg)

/-! ## The shares: a points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

/-- A leaf in the first half of depth `n + 1` is the leaf of the left half-share at depth `n`. -/
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
/-- A leaf in the second half is the leaf of the right half-share. -/
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The context words, whole, are the 32 tasks' shares of them. -/
theorem v0_shares (d : Dev nD) (f : Buf (Elt F) (v0Loc d)) :
    (v0Loc d ↦{fullShare} f : sProp 𝕄) = bigSep Finset.univ fun w : Fin 32 => v0Loc d ↦{tq w} f :=
  pointsTo_leaves Finset.univ f 5 fullShare
/-- The table, whole, is the 32 tasks' shares of it. -/
theorem v1_shares (d : Dev nD) (f : Buf (Elt F) (v1Loc d)) :
    (v1Loc d ↦{fullShare} f : sProp 𝕄) = bigSep Finset.univ fun w : Fin 32 => v1Loc d ↦{tq w} f :=
  pointsTo_leaves Finset.univ f 5 fullShare

/-! ## The rows of the result -/

/-- A task's element set of the result is its pair of rows. -/
theorem oRowSet_eq (w : Fin 32) : oRowSet w = (orow w).set := by
  show ((View.whole (main_v2_scv : Ref sig .scVector)).slice (orow w)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)

/-- The result, whole, is the 32 tasks' pairs of rows. -/
theorem v2_rows (d : Dev nD) (f : Buf (Elt F) (v2Loc d)) :
    (v2Loc d ↦{fullShare} f : sProp 𝕄) = bigSep Finset.univ fun w : Fin 32 => v2Loc d ↦[oRowSet w]{fullShare} f := by
  rw [← pointsTo_biUnion Finset.univ (ℓ := v2Loc d) oRowSet orows_disjoint, orows_cover]; try rfl

/-- Each pair of rows held at the one contents `f` is held at some contents. -/
theorem v2_rows_exists (d : Dev nD) (f : Buf (Elt F) (v2Loc d)) :
    (v2Loc d ↦{fullShare} f : sProp 𝕄) ⊢ bigSep Finset.univ fun w : Fin 32 => iprop(∃ g, v2Loc d ↦[oRowSet w]{fullShare} g) := by
  rw [v2_rows]
  refine bigSep_mono fun w _ => ?_
  show (v2Loc d ↦[oRowSet w]{fullShare} f : sProp 𝕄) ⊢ iprop(∃ g, v2Loc d ↦[oRowSet w]{fullShare} g)
  iintro H; iexists f; iexact H

/-! ## The 32 tasks as 2 cores of 16 subcores -/

/-- Subcore `i` of core `c` is task `2 i + c`: a bijection of the 2 x 16 pairs with the 32 tasks. -/
def wEquiv : Fin 2 × Fin 16 ≃ Fin 32 where
  toFun p := wOf p.1.val p.2.val
  invFun w := (⟨w.val % 2, Nat.mod_lt _ (by norm_num)⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 32 % 2 = c.val
      omega
    · show (2 * i.val + c.val) % 32 / 2 = i.val
      omega
  right_inv w := by
    have hw := w.isLt
    refine Fin.ext ?_
    show (2 * (w.val / 2) + w.val % 2) % 32 = w.val
    omega

/-- The conjunction over the cores of the conjunctions over their subcores is the conjunction over the tasks. -/
theorem bigSep_tasks (Φ : Fin 32 → sProp 𝕄) :
    (bigSep Finset.univ fun c : Fin ((K (F := F)).nCore 0) => bigSep Finset.univ fun i : Fin ((K (F := F)).nSub 0) => Φ (wOf c.val i.val))
      = bigSep Finset.univ Φ := by
  show (bigSep (Finset.univ : Finset (Fin 2)) fun c => bigSep (Finset.univ : Finset (Fin 16)) fun i => Φ (wOf c.val i.val)) = _
  rw [bigSep_univ_equiv wEquiv Φ, bigSep_univ_prod]
  rfl

/-- What the call hands a SparseCore: its sixteen tasks' parts. -/
theorem st_eq (d : Dev nD) (c : Fin ((K (F := F)).nCore 0)) :
    (P m).st 0 d c = bigSep Finset.univ fun i : Fin ((K (F := F)).nSub 0) => goP m d (wOf c.val i.val) := rfl
/-- What a SparseCore hands back: its sixteen tasks' parts. -/
theorem dn_eq (d : Dev nD) (c : Fin ((K (F := F)).nCore 0)) :
    (P m).dn 0 d c = bigSep Finset.univ fun i : Fin ((K (F := F)).nSub 0) => tdP m d (wOf c.val i.val) := rfl

/-- All tasks' hand-outs: the shares of the two read-only arrays, and every pair of result rows at something. -/
theorem goP_all (d : Dev nD) :
    (bigSep Finset.univ fun w : Fin 32 => goP m d w)
      = iprop((bigSep Finset.univ fun w : Fin 32 => v0Loc d ↦{tq w} A0 m d) ∗ (bigSep Finset.univ fun w : Fin 32 => v1Loc d ↦{tq w} A1 m d)
          ∗ bigSep Finset.univ fun w : Fin 32 => iprop(∃ g, v2Loc d ↦[oRowSet w]{fullShare} g)) := by
  unfold goP
  rw [bigSep_sep', bigSep_sep']
/-- All tasks' returns: the same shares, and every pair of result rows at the averaged features. -/
theorem tdP_all (d : Dev nD) :
    (bigSep Finset.univ fun w : Fin 32 => tdP m d w)
      = iprop((bigSep Finset.univ fun w : Fin 32 => v0Loc d ↦{tq w} A0 m d) ∗ (bigSep Finset.univ fun w : Fin 32 => v1Loc d ↦{tq w} A1 m d)
          ∗ bigSep Finset.univ fun w : Fin 32 => v2Loc d ↦[oRowSet w]{fullShare} PF m d) := by
  unfold tdP
  rw [bigSep_sep', bigSep_sep']

/-! ## Dealing and collecting -/

/-- The three arrays, whole, are what the call hands its SparseCores. -/
theorem split_st (d : Dev nD) (f : Buf (Elt F) (v2Loc d)) :
    iprop((v0Loc d ↦{fullShare} A0 m d) ∗ (v1Loc d ↦{fullShare} A1 m d) ∗ (v2Loc d ↦{fullShare} f))
      ⊢ (bigSep Finset.univ fun c : Fin ((K (F := F)).nCore 0) => (P m).st 0 d c : sProp 𝕄) := by
  rw [bigSep_congr (fun c _ => st_eq m d c), bigSep_tasks (F := F) (fun w => goP m d w), goP_all, ← v0_shares, ← v1_shares]
  iintro ⟨H0, H1, H2⟩
  isplitl [H0]; · iexact H0
  isplitl [H1]; · iexact H1
  iapply (v2_rows_exists d f); iexact H2

/-- What the SparseCores hand back is the three arrays, whole, the result at the averaged features. -/
theorem join_dn (d : Dev nD) :
    (bigSep Finset.univ fun c : Fin ((K (F := F)).nCore 0) => (P m).dn 0 d c : sProp 𝕄)
      ⊢ iprop((v0Loc d ↦{fullShare} A0 m d) ∗ (v1Loc d ↦{fullShare} A1 m d) ∗ (v2Loc d ↦{fullShare} PF m d)) := by
  rw [bigSep_congr (fun c _ => dn_eq m d c), bigSep_tasks (F := F) (fun w => tdP m d w), tdP_all, ← v0_shares, ← v1_shares, ← v2_rows]

end Cert.KernelIdeal.Tile

end
-- ==== Proof.LaunchGhost.lean ====
/-
  The launch element of the ghost state and what it funds: the handshakes' rounds as the launch theorem takes them, and
  for each device the matrix unit's staging cells at round 0 with a duty token for every transfer its pipeline issues.
  The transfers' counters start at their unit and the handshakes carry nothing of a kernel's own.
-/
import proofs.«204130_g36155034698017_cont_8to1_b_1516_18_alg».proof.Proof.LaunchDefs
import proofs.«204130_g36155034698017_cont_8to1_b_1516_18_alg».proof.Proof.Gen.KernelIdeal.Launch
import Idealize.ShloMosaic.Lib.Pipeline.Kit

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-- What the launch deals device `d`'s TensorCore for the projection's region: its staging cells' ghost state and the
    duty tokens of its pipeline's transfers. -/
def G (d : Dev nD) : sProp 𝕄 := iprop(Pipeline.cellsGhost cfgs (EP (F := F)) 0 d ∗ Pipeline.toksInit cfgs (EP (F := F)) 0 d)

/-- The launch element: the handshakes' cells and tokens, the staging cells and the pipeline's transfers, the counters'
    unit. -/
def u₀ : UU :=
  ((initOf (K (F := F)).hsCells (K (F := F)).hsToks,
    initOf (Pipeline.cells (nD := nD) (τ := τ) cfgs cellOf_inj) (Pipeline.launchToks (nD := nD) (τ := τ) cfgs cellOf_inj)), 1)

theorem bigSep_emp' {I : Type} (s : Finset I) : (bigSep s fun _ => iprop(emp)) = (iprop(emp) : sProp 𝕄) := bigSep_emp_const s

/-- The launch element splits into its three factors: the handshakes' goes to the launch theorem as it is, the staging
    cells' is dealt per device, the counters' is let go. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  unfold u₀ EH
  iintro Hu
  ihave H := (ownU_pair _ _) $$ Hu
  icases H with ⟨HL, -⟩
  ihave H2 := (own_pair_emb (embL (A := UH × UP) (B := Counters)) _ _) $$ HL
  icases H2 with ⟨HH, HP⟩
  imod (Pipeline.fund_ghost (nD := nD) (τ := τ) cfgs (EP (F := F)) cellOf_inj) $$ [HP] with ⟨Hg, Ht⟩
  · unfold EP; iexact HP
  ihave Hg' := (Entails.of_eq e1) $$ Hg
  ihave Ht' := (Entails.of_eq e2) $$ Ht
  imodintro
  isplitl [HH]; · iexact HH
  isplitl [Hg' Ht']
  · unfold G; rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Tile

end
-- ==== Proof.MmBody.lean ====
/-
  The projection kernel's body and the proof data of its region.

  One grid point of the projection reads a block of the transposed weights (64 rows, 4096 columns), the whole pooled
  operand (64 rows, 1024 columns) and a block of the bias row (4096 entries), and stores the 4096 × 1024 block
  `mmBlock wt x bb`: the contraction of `wt` and `x` over their 64 rows, plus the bias entry of the block's row
  broadcast along the row. The three input buffers are left as found.

  The contraction is, for an arbitrary float instance, a function of its WHOLE operands. At the last grid point the
  weight block and the bias block overhang their arrays: the buffers' columns past the arrays' end hold words nothing
  names. So the proof data is relational: what the output buffer ends with is `mmBlock` of three buffers each of which
  is its array's block on the part inside the array and anything elsewhere (`fet0`, `fet1`, `fet2`).
-/
import proofs.«204130_g36155034698017_cont_8to1_b_1516_18_alg».proof.Proof.Gen.KernelIdeal.Skeleton
import proofs.«204130_g36155034698017_cont_8to1_b_1516_18_alg».proof.Proof.Gen.KernelIdeal.Launch
import proofs.«204130_g36155034698017_cont_8to1_b_1516_18_alg».proof.Proof.Gen.KernelIdeal.Points
import Idealize.ShloMosaic.Lib.Tactic
import Idealize.ShloMosaic.Lib.Pipeline.FrameBody
import Idealize.ShloMosaic.Lib.Pipeline.Value

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The block of the product the kernel stores at one grid point, as a function of the three blocks it loads:
    the transposed weight block times the pooled block, the bias row transposed and broadcast along the columns. -/
def mmBlock (wt : Vec F S64x4096 .f32) (x : Vec F S64x1024 .f32) (bb : Vec F S1x4096 .f32) : Vec F S4096x1024 .f32 :=
  k1_pay1 wt x bb

theorem hz2 : (![0, 0] : Fin 2 → Nat) = fun _ => 0 := funext fun a => by fin_cases a <;> rfl

/-- The body at symbolic whole staging memrefs: the three input buffers are read and left as they were, the output
    buffer ends at `mmBlock` of what they read. -/
theorem mm_body [∀ e, Nonempty (Elt F e)] (c : Dev nD) (E : Set Name) (i : grid1.Coords)
    (M1 : Memref sig .tc .vmem S64x4096 .f32) (h1 : M1.IsWhole) (M2 : Memref sig .tc .vmem S64x1024 .f32) (h2 : M2.IsWhole)
    (M3 : Memref sig .tc .vmem S1x4096 .f32) (h3 : M3.IsWhole) (M4 : Memref sig .tc .vmem S4096x1024 .f32) (h4 : M4.IsWhole)
    (X1 : Vec F S64x4096 .f32) (X2 : Vec F S64x1024 .f32) (X3 : Vec F S1x4096 .f32) (X4 : Vec F S4096x1024 .f32)
    (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4
        ∗ (iprop(owns (c : Thread nD τ) M1 fullShare X1 ∗ owns (c : Thread nD τ) M2 fullShare X2 ∗ owns (c : Thread nD τ) M3 fullShare X3
              ∗ owns (c : Thread nD τ) M4 fullShare (mmBlock X1 X2 X3)) -∗ K ⟨⟩))
      ⊢ wp frame (wpE (defs₀ (F := F)) Variants.none (c : Thread nD τ) none) E (cc1__mm_kernel i M1 h1 M2 h2 M3 h3 M4 h4) K := by
  unfold owns
  iintro ⟨⟨%f1, %e1, H1⟩, ⟨%f2, %e2, H2⟩, ⟨%f3, %e3, H3⟩, ⟨%f4, %e4, H4⟩, Hk⟩
  simp only [cc1__mm_kernel_eq_skeleton]; unfold cc1__mm_kernel_skel
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  · iexists _; isplitr; swap; (· iexact H4)
    ipureintro
    rw [View.read_writes_eq_canon _ _ _ (fun y => ⟨_, List.mem_singleton_self _, View.mem_set_unit_zero hz2 inb_S4096x1024_S4096x1024_0_0 y⟩),
      View.canon_unit_zero hz2, View.readAt_eq_ld, View.readAt_eq_ld, View.readAt_eq_ld,
      View.ld_unit_zero (S := S64x4096) hz2, View.ld_unit_zero (S := S64x1024) hz2, View.ld_unit_zero (S := S1x4096) hz2, e1, e2, e3]
    rfl

/-! ## The proof data of the region on one core -/

section Data

variable (c : Dev nD) (a3 : Buf (Elt F) ((c : Thread nD τ).loc main_v3)) (a2 : Buf (Elt F) ((c : Thread nD τ).loc main_v2))
  (a4 : Buf (Elt F) ((c : Thread nD τ).loc main_v4)) (a5 : Buf (Elt F) ((c : Thread nD τ).loc main_v5))

/-- What the weight window's staging buffer holds once the fetch at point `t` has landed in it, if it held `d`:
    the columns of block `t` that lie inside the array, `d` on the columns past its end. -/
def fet0 (t : Fin cfg1.N) (d : S64x4096.Idx → Elt F .f32) : S64x4096.Idx → Elt F .f32 :=
  win1_0.fill (grid1.coords t) d ((win1_0.blk t).view.read (Elt F) a3)
/-- The pooled operand's: its one block is the whole array. -/
def fet1 (t : Fin cfg1.N) (d : S64x1024.Idx → Elt F .f32) : S64x1024.Idx → Elt F .f32 :=
  win1_1.fill (grid1.coords t) d ((win1_1.blk t).view.read (Elt F) a2)
/-- The bias row's, as the weight's. -/
def fet2 (t : Fin cfg1.N) (d : S1x4096.Idx → Elt F .f32) : S1x4096.Idx → Elt F .f32 :=
  win1_2.fill (grid1.coords t) d ((win1_2.blk t).view.read (Elt F) a4)

/-- The proof data: the four arrays at entry; the body leaves the three input buffers as it found them and the
    output buffer at `mmBlock` of three fetched buffers (whatever lay past the arrays' ends in them); no invariant; the
    core owes `O` throughout, its recorded waits within `B`. -/
def rdat (O : CellTallies nD τ sig Ix) (B : Set (SemLoc sig × Ix)) : RDat τ (Elt F) Ix Name U Lvl cfg1 c where
  A w := match w with
    | ⟨0, _⟩ => a3
    | ⟨1, _⟩ => a2
    | ⟨2, _⟩ => a4
    | ⟨3, _⟩ => a5
  after w t := match w with
    | ⟨0, _⟩ => fun Y X => X = Y
    | ⟨1, _⟩ => fun Y X => X = Y
    | ⟨2, _⟩ => fun Y X => X = Y
    | ⟨3, _⟩ => fun _ X => ∃ d0 d1 d2, X = mmBlock (fet0 c a3 t d0) (fet1 c a2 t d1) (fet2 c a4 t d2)
  Φ _ := iprop(emp)
  q _ := fullShare
  owed _ := O
  recorded _ := B

variable [∀ e, Nonempty (Elt F e)]

theorem finds0 (O : CellTallies nD τ sig Ix) (B : Set (SemLoc sig × Ix)) (t : Fin cfg1.N) (Y)
    (h : (rdat (Name := Name) (U := U) (Lvl := Lvl) c a3 a2 a4 a5 O B).Finds 0 t Y) : ∃ d, Y = fet0 c a3 t d :=
  RDat.finds_in_eq_fetched (rdat (Name := Name) (U := U) (Lvl := Lvl) c a3 a2 a4 a5 O B) 0 rfl
    (fun t t' h => funext fun a => by
      show Pipeline.Clip.of (cc1_transform_0 (grid1.coords t) a) _ _ = Pipeline.Clip.of (cc1_transform_0 (grid1.coords t') a) _ _
      rw [show cc1_transform_0 (grid1.coords t) a = cc1_transform_0 (grid1.coords t') a from congrFun h a])
    (fun _ _ _ h => h) t Y h

theorem finds1 (O : CellTallies nD τ sig Ix) (B : Set (SemLoc sig × Ix)) (t : Fin cfg1.N) (Y)
    (h : (rdat (Name := Name) (U := U) (Lvl := Lvl) c a3 a2 a4 a5 O B).Finds 1 t Y) : ∃ d, Y = fet1 c a2 t d :=
  RDat.finds_in_eq_fetched (rdat (Name := Name) (U := U) (Lvl := Lvl) c a3 a2 a4 a5 O B) 1 rfl
    (fun _ _ _ => rfl) (fun _ _ _ h => h) t Y h

theorem finds2 (O : CellTallies nD τ sig Ix) (B : Set (SemLoc sig × Ix)) (t : Fin cfg1.N) (Y)
    (h : (rdat (Name := Name) (U := U) (Lvl := Lvl) c a3 a2 a4 a5 O B).Finds 2 t Y) : ∃ d, Y = fet2 c a4 t d :=
  RDat.finds_in_eq_fetched (rdat (Name := Name) (U := U) (Lvl := Lvl) c a3 a2 a4 a5 O B) 2 rfl
    (fun t t' h => funext fun a => by
      show Pipeline.Clip.of (cc1_transform_2 (grid1.coords t) a) _ _ = Pipeline.Clip.of (cc1_transform_2 (grid1.coords t') a) _ _
      rw [show cc1_transform_2 (grid1.coords t) a = cc1_transform_2 (grid1.coords t') a from congrFun h a])
    (fun _ _ _ h => h) t Y h

/-- The library's body obligation over the relational data: whatever the three input buffers hold is a fetched
    buffer; the body leaves them so and the output buffer at `mmBlock` of them. -/
theorem body_obligation (ι : Ix) (O : CellTallies nD τ sig Ix) (B : Set (SemLoc sig × Ix)) :
    (rdat (Name := Name) (U := U) (Lvl := Lvl) c a3 a2 a4 a5 O B).BodyObligation (defs₀ (F := F)) Variants.none ι Set.univ := by
  intro t Y hY
  obtain ⟨d0, e0⟩ := finds0 c a3 a2 a4 a5 O B t _ (hY 0)
  obtain ⟨d1, e1⟩ := finds1 c a3 a2 a4 a5 O B t _ (hY 1)
  obtain ⟨d2, e2⟩ := finds2 c a3 a2 a4 a5 O B t _ (hY 2)
  rw [bigSep_W1, bigSep_W1,
    show (rdat (Name := Name) (U := U) (Lvl := Lvl) c a3 a2 a4 a5 O B).Φ t.succ = (rdat (Name := Name) (U := U) (Lvl := Lvl) c a3 a2 a4 a5 O B).Φ t.castSucc from rfl,
    show (rdat (Name := Name) (U := U) (Lvl := Lvl) c a3 a2 a4 a5 O B).owesAt ι t.succ = (rdat (Name := Name) (U := U) (Lvl := Lvl) c a3 a2 a4 a5 O B).owesAt ι t.castSucc from rfl]
  iintro ⟨HΦ, HO, H0, H1, H2, H3⟩
  iapply (mm_body (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists mmBlock (Y 0) (Y 1) (Y 2); isplitr; swap; (· iexact H3)
    ipureintro
    exact ⟨d0, d1, d2, by rw [e0, e1, e2]⟩

end Data

end Cert.KernelIdeal.Mm

end
-- ==== Proof.MmPost.lean ====
/-
  What the projection's region leaves in its result array, as a predicate on the array's final contents: the
  write-backs of the 25 grid points, in order, each overwriting the part of its 4096-row block that lies inside the
  array with that part of `mmBlock` of three fetched buffers. The buffers' words past the arrays' end are quantified:
  for an arbitrary float instance the contraction may read them.
-/
import proofs.«204130_g36155034698017_cont_8to1_b_1516_18_alg».proof.Proof.MmBody

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

section Post

variable (c : Dev nD) (a3 : Buf (Elt F) ((c : Thread nD τ).loc main_v3)) (a2 : Buf (Elt F) ((c : Thread nD τ).loc main_v2))
  (a4 : Buf (Elt F) ((c : Thread nD τ).loc main_v4)) (a5 : Buf (Elt F) ((c : Thread nD τ).loc main_v5))

/-- What the result array may hold after the write-backs of the points below `n`: its contents at entry, the part of
    each block inside the array overwritten, in point order, by that part of `mmBlock` of three fetched buffers. -/
def MmArr : Nat → Buf (Elt F) ((c : Thread nD τ).loc main_v5) → Prop
  | 0 => fun G => G = a5
  | n + 1 => fun G =>
    if h : n < cfg1.N then
      ∃ G₀ d0 d1 d2, MmArr n G₀ ∧
        G = (win1_3.blk ⟨n, h⟩).view.write (Elt F) G₀
              (win1_3.cut (grid1.coords ⟨n, h⟩) (mmBlock (fet0 c a3 ⟨n, h⟩ d0) (fet1 c a2 ⟨n, h⟩ d1) (fet2 c a4 ⟨n, h⟩ d2))) Finset.univ
    else MmArr n G

/-- What the region leaves in the result array: every block written back. -/
def MmPost (f5 : Buf (Elt F) ((c : Thread nD τ).loc main_v5)) : Prop := MmArr c a3 a2 a4 a5 cfg1.N f5

variable [∀ e, Nonempty (Elt F e)]

/-- What the pipeline's relational data let the result array hold is that. -/
theorem mmArr_of_arrAt (O : CellTallies nD τ sig Ix) (B : Set (SemLoc sig × Ix)) :
    ∀ (n : Nat), n ≤ cfg1.N → ∀ G, (rdat (Name := Name) (U := U) (Lvl := Lvl) c a3 a2 a4 a5 O B).ArrAt 3 n G → MmArr c a3 a2 a4 a5 n G
  | 0, _, G, h => h
  | n + 1, hn', G, h => by
    have hn : n < cfg1.N := hn'
    have e := RDat.ArrAt_succ (rdat (Name := Name) (U := U) (Lvl := Lvl) c a3 a2 a4 a5 O B) 3 ⟨n, hn⟩
    rw [if_pos (flush1_3 ⟨n, hn⟩)] at e
    obtain ⟨G₀, X, hG₀, ⟨Y, -, hX⟩, hG⟩ := (congrFun e G).mp h
    obtain ⟨d0, d1, d2, rfl⟩ := hX
    unfold MmArr; rw [dif_pos hn]
    exact ⟨G₀, d0, d1, d2, mmArr_of_arrAt O B n (Nat.le_of_lt hn) G₀ hG₀, hG⟩

end Post

end Cert.KernelIdeal.Mm

end
-- ==== Proof.MmRegion.lean ====
/-
  The projection's region, run on a device's TensorCore inside a program that also launches SparseCore kernels: one
  lemma, for an arbitrary float instance and an arbitrary ghost algebra that holds a copy of the pipeline's rounds.

  From the three operand arrays and the result array held whole, what the core owes (every unit of it at an index
  other than the pipeline's own, so that the pipeline's waits may pass: `hw`), the region boundary, and the staging
  cells' ghost state as the launch deals it, the custom call runs the 25 grid points — fetch, body, write-back — and
  returns the operands unchanged and the result array at contents `MmPost` describes.
-/
import proofs.«204130_g36155034698017_cont_8to1_b_1516_18_alg».proof.Proof.MmPost
import Idealize.ShloMosaic.Lib.Pipeline.Regions
import Idealize.ShloMosaic.Lib.SparseCore.Threads

noncomputable section

namespace Cert.KernelIdeal.Mm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Idealize.ShloMosaic.SparseCore.Cfg (HIx)

variable {F : FTy → Type} [FloatOps F] [Named F] [∀ e, Nonempty (Elt F e)]
variable {Name : Type} [DecidableEq Name] [Infinite Name] {U : Type} [URA U]

local notation "𝕄" => MT nD τ sig (HIx 1) (Elt F) Name U ℕ

/-- The region's pipeline prefetches no table: the one admissible contents. -/
abbrev adm : (p : Fin 1) → (pcfgs (F := F) p).Adm := fun p => (cfgs p).toPCfg_adm

section Region

variable (a3 : (c : Dev nD) → Buf (Elt F) ((c : Thread nD τ).loc main_v3)) (a2 : (c : Dev nD) → Buf (Elt F) ((c : Thread nD τ).loc main_v2))
  (a4 : (c : Dev nD) → Buf (Elt F) ((c : Thread nD τ).loc main_v4)) (a5 : (c : Dev nD) → Buf (Elt F) ((c : Thread nD τ).loc main_v5))
  (O : Dev nD → CellTallies nD τ sig (HIx 1)) (B : Set (SemLoc sig × HIx 1))

/-- The proof data on every core. -/
def rdats (_ : Fin 1) (c : Dev nD) : RDat τ (Elt F) (HIx 1) Name U ℕ cfg1 c :=
  rdat c (a3 c) (a2 c) (a4 c) (a5 c) (O c) B

/-- What the region is entered from on core `c`: the three operand arrays and the result array held whole, and what the
    core owes, its recorded waits within `B`. -/
def pre (c : Dev nD) : sProp 𝕄 :=
  iprop((((c : Thread nD τ).loc main_v3) ↦{fullShare} a3 c) ∗ (((c : Thread nD τ).loc main_v2) ↦{fullShare} a2 c)
    ∗ (((c : Thread nD τ).loc main_v4) ↦{fullShare} a4 c) ∗ (((c : Thread nD τ).loc main_v5) ↦{fullShare} a5 c)
    ∗ Pipeline.owesWithin c (O c) B)

/-- What it leaves: the operands as they were, the result array at contents the write-backs may have left, the core
    owing the same, its recorded waits grown by the pipeline's own. -/
def post (c : Dev nD) : sProp 𝕄 :=
  iprop((((c : Thread nD τ).loc main_v3) ↦{fullShare} a3 c) ∗ (((c : Thread nD τ).loc main_v2) ↦{fullShare} a2 c)
    ∗ (((c : Thread nD τ).loc main_v4) ↦{fullShare} a4 c)
    ∗ (∃ f5, (((c : Thread nD τ).loc main_v5) ↦{fullShare} f5) ∗ ⌜MmPost c (a3 c) (a2 c) (a4 c) (a5 c) f5⌝)
    ∗ Pipeline.owesWithin c (O c) (B ∪ Cfg.waitPairs cfg1 (none : HIx 1)))

theorem A0 (c : Dev nD) : (rdats (Name := Name) (U := U) a3 a2 a4 a5 O B 0 c).A 0 = a3 c := by dsimp only [rdats, rdat]
theorem A1 (c : Dev nD) : (rdats (Name := Name) (U := U) a3 a2 a4 a5 O B 0 c).A 1 = a2 c := by dsimp only [rdats, rdat]
theorem A2 (c : Dev nD) : (rdats (Name := Name) (U := U) a3 a2 a4 a5 O B 0 c).A 2 = a4 c := by dsimp only [rdats, rdat]

theorem arr_pt (c : Dev nD) (w : Fin 4) (G : Buf (Elt F) ((cfg1.win w).arr.view.loc (c : Thread nD τ))) :
    (((cfg1.win w).arr.view.loc (c : Thread nD τ)) ↦[(cfg1.win w).arr.view.set]{(rdats (Name := Name) (U := U) a3 a2 a4 a5 O B 0 c).share w} G : sProp 𝕄)
      = (((c : Thread nD τ).loc (Pipeline.arrRef spec1 w)) ↦{fullShare} G) := by
  rw [(arr_whole1 w).set_eq_univ, Pipeline.RDat.share_full _ (fun _ => rfl)]

-- the record's fields are stated over the pinned configuration, which unfolds to `cfg1`
set_option backward.isDefEq.respectTransparency.types false in
set_option maxHeartbeats 1600000 in
/-- The region as the library's record: the decided layout, no semaphore of the kernel's own, the body obligation,
    the wait evidence from the level facts, and the entry and exit around `pre` and `post`. -/
@[reducible] def reg (L : GSem nD τ sig → Finset (HIx 1)) (lv : GSem nD τ sig → HIx 1 → ℕ)
    (hw : ∀ (c : Dev nD) (sm : SemLoc sig), (levAts L lv : sProp 𝕄) ⊢ MayWait (c : Thread nD τ) sm (none : HIx 1) (O c)) :
    Pipeline.RDat.RegionSeg (pcfgs (F := F)) adm (rdats (Name := Name) (U := U) a3 a2 a4 a5 O B) (none : HIx 1) defs₀ Variants.none L lv 0 where
  win := launch1.win.to₀
  block_pos := launch1.block_pos
  stage_whole := launch1.stage_whole
  K := PEmpty
  osem := fun k => k.elim
  ho := Pipeline.OwnSemFacts.none _
  hbody c := body_obligation c (a3 c) (a2 c) (a4 c) (a5 c) none (O c) B
  hwaits c := Pipeline.RDat.cellsWaits_intro _ _ _ 0 c fun w s t => hw c _
  pre := pre a3 a2 a4 a5 O B
  post := post a3 a2 a4 a5 O B
  X _ := iprop(emp)
  Y _ := iprop(emp)
  Z _ := iprop(emp)
  hentry c := by
    rw [Pipeline.RDat.arrays_eq (pcfgs (F := F)) adm (rdats (Name := Name) (U := U) a3 a2 a4 a5 O B) 0 c launch1.arr_whole
      (fun w => Pipeline.RDat.share_full _ (fun _ => rfl) w), bigSep_W1]
    unfold pre
    iintro ⟨⟨H3, H2, H4, H5, HO⟩, -, -⟩
    imodintro
    isplitl [H3 H2 H4 H5]
    · isplitl [H3]; · iexact H3
      isplitl [H2]; · iexact H2
      isplitl [H4]; · iexact H4
      iexact H5
    isplitr
    · unfold Pipeline.prefHeld; rw [show (Finset.univ : Finset (Fin 0)) = ∅ from rfl, BI.bigSep_empty]; iempintro
    isplitl [HO]
    · iapply (Pipeline.owesWithin_mono c (O c) (Set.subset_union_left (s := B) (t := Cfg.waitPairs cfg1 (none : HIx 1)))); iexact HO
    isplitr <;> iempintro
  hin c := by iintro -; iempintro
  hout c := by
    rw [Pipeline.ownSems0_none, scopedRest1_eq]
    iintro -
    isplitr; · iempintro
    isplitr <;> iempintro
  hexit c := by
    have hsh := Pipeline.RDat.share_full (rdats (Name := Name) (U := U) a3 a2 a4 a5 O B 0 c) (fun _ => rfl)
    unfold RDat.arraysAt post
    rw [bigSep_W1]
    simp only [View.set_whole, hsh]
    iintro ⟨⟨⟨%F0, %h0, H0⟩, ⟨%F1, %h1, H1⟩, ⟨%F2, %h2, H2⟩, ⟨%F3, %h3, H3⟩⟩, HO, -, -⟩
    have e0 : F0 = a3 c :=
      ((congrFun (RDat.ArrAt_in (rdats (Name := Name) (U := U) a3 a2 a4 a5 O B 0 c) 0 rfl _) F0).mp h0).trans (A0 a3 a2 a4 a5 O B c)
    have e1 : F1 = a2 c :=
      ((congrFun (RDat.ArrAt_in (rdats (Name := Name) (U := U) a3 a2 a4 a5 O B 0 c) 1 rfl _) F1).mp h1).trans (A1 a3 a2 a4 a5 O B c)
    have e2 : F2 = a4 c :=
      ((congrFun (RDat.ArrAt_in (rdats (Name := Name) (U := U) a3 a2 a4 a5 O B 0 c) 2 rfl _) F2).mp h2).trans (A2 a3 a2 a4 a5 O B c)
    subst e0 e1 e2
    imodintro
    isplitl [H0]; · iexact H0
    isplitl [H1]; · iexact H1
    isplitl [H2]; · iexact H2
    isplitl [H3]
    · iexists F3; isplitl [H3]; · iexact H3
      ipureintro
      exact mmArr_of_arrAt c (a3 c) (a2 c) (a4 c) (a5 c) (O c) B cfg1.N (Nat.le_refl _) F3 h3
    iexact HO

-- as `reg`; and the region rule is stated for a device's TensorCore written `c.tc`
set_option backward.isDefEq.respectTransparency.types false in
/-- THE REGION. On device `d`'s TensorCore, in the program's extended body table: from the region boundary, the level
    facts, the staging cells' launch ghost state and duty tokens, and `pre`, the projection's custom call runs to the
    boundary and `post`. -/
theorem mm_region (EP : Emb (URounds (GSem nD τ sig) Unit) (MT nD τ sig (HIx 1) (Elt F) Name U ℕ)) [EP.LandsIn (upEmb : UEmb _ 𝕄)]
    (L : GSem nD τ sig → Finset (HIx 1)) (lv : GSem nD τ sig → HIx 1 → ℕ)
    (hw : ∀ (c : Dev nD) (sm : SemLoc sig), (levAts L lv : sProp 𝕄) ⊢ MayWait (c : Thread nD τ) sm (none : HIx 1) (O c))
    (d : Dev nD) (Φ : PUnit → sProp 𝕄) :
    iprop(boundary (d : Thread nD τ) ∗ levAts L lv ∗ Pipeline.cellsGhost cfgs EP 0 d ∗ Pipeline.toksInit cfgs EP 0 d
        ∗ pre a3 a2 a4 a5 O B d
        ∗ (iprop(boundary (d : Thread nD τ) ∗ post a3 a2 a4 a5 O B d) -∗ Φ ⟨⟩))
      ⊢ wp frame (wpE ((sc (F := F)).defs (Pipeline.defs pcfgs defs₀)) (Variants.lift Variants.none) (SparseCore.T d) none) Set.univ
          (Prog.lift (.customCall (SparseCore.inner (Pipeline.entry 0)) ())) Φ := by
  iintro ⟨Hb, #Hl, Hg, Ht, Hpre, Hk⟩
  iapply ((sc (F := F)).wp_liftProg (Pipeline.defs pcfgs defs₀) (Variants.lift Variants.none) (SparseCore.T d) Set.univ none
    (.op (.customCall (Pipeline.entry 0) ()) fun _ => .ret ⟨⟩) Φ)
  iapply (Pipeline.RDat.RegionSeg.wp (pcfgs (F := F)) adm (rdats (Name := Name) (U := U) a3 a2 a4 a5 O B) (none : HIx 1) cellOf_inj EP defs₀ Variants.none L lv
    (reg a3 a2 a4 a5 O B L lv hw) d none (fun _ h => nomatch h) (fun _ => .ret ⟨⟩) Φ)
  isplitl [Hk]
  · iintro H
    rw [wp_ret]
    imodintro
    iapply Hk; iexact H
  isplitl [Hb]; · iexact Hb
  isplitl [Hpre]; · iexact Hpre
  isplitr; · iexact Hl
  isplitl [Hg]; · iexact Hg
  iexact Ht

end Region

end Cert.KernelIdeal.Mm

end
-- ==== Proof.MmStep.lean ====
/-
  The projection's region as a step of @main between two states of the TensorCore's handshakes with the SparseCores:
  `mm_region` with what the TensorCore owes taken out of, and put back into, its handshake state.
-/
import proofs.«204130_g36155034698017_cont_8to1_b_1516_18_alg».proof.Proof.MmRegion

noncomputable section

namespace Cert.KernelIdeal.Mm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)
open Idealize.ShloMosaic.SparseCore.Cfg (HIx)

variable {F : FTy → Type} [FloatOps F] [Named F] [∀ e, Nonempty (Elt F e)]
variable {Name : Type} [DecidableEq Name] [Infinite Name] {U : Type} [URA U]

local notation "𝕄" => MT nD τ sig (HIx 1) (Elt F) Name U ℕ

/-- After the one SparseCore call the TensorCore owes nothing at the index of a kernel's own waits. -/
theorem Otc_none (d : Dev nD) (n : ℕ) (g : GSem nD τ sig) : (sc (F := F)).Otc d n g none = 0 := by
  by_contra h
  have := SparseCore.Cfg.lev_of_Otc_pos (K := sc (F := F)) (Nat.pos_of_ne_zero h)
  rw [SparseCore.Cfg.lev_none] at this; omega

-- as `mm_region`
set_option backward.isDefEq.respectTransparency.types false in
/-- THE REGION STEP of @main on device `d`'s TensorCore, after the SparseCore call has returned: from the handshakes'
    context, the TensorCore's handshake state before call 1, the region boundary, the staging cells' launch ghost state
    and the four arrays, the projection's custom call runs to the same with the result array at contents `MmPost`
    describes. The pipeline's waits sit at the index of a kernel's own waits, level 0, below everything the TensorCore
    owes; they add recorded pairs at level 0 only, so the state's bound on the recorded pairs is kept. -/
theorem mm_step (EH : Emb (URounds (GSem nD τ sig) ℕ) (MT nD τ sig (HIx 1) (Elt F) Name U ℕ))
    (EP : Emb (URounds (GSem nD τ sig) Unit) (MT nD τ sig (HIx 1) (Elt F) Name U ℕ)) [EP.LandsIn (upEmb : UEmb _ 𝕄)]
    (P : (sc (F := F)).Pay (nD := nD) (Val := Elt F) (Name := Name) (U := U)) (κ : GSem nD τ sig → Name) (d : Dev nD)
    (a3 : Buf (Elt F) ((d : Thread nD τ).loc main_v3)) (a2 : Buf (Elt F) ((d : Thread nD τ).loc main_v2))
    (a4 : Buf (Elt F) ((d : Thread nD τ).loc main_v4)) (a5 : Buf (Elt F) ((d : Thread nD τ).loc main_v5))
    (Φ : PUnit → sProp 𝕄) :
    iprop((sc (F := F)).ctx EH P κ ∗ (sc (F := F)).tcSt EH d 1 ∗ boundary (SparseCore.T d)
        ∗ Pipeline.cellsGhost cfgs EP 0 d ∗ Pipeline.toksInit cfgs EP 0 d
        ∗ (((SparseCore.T d).loc main_v3) ↦{fullShare} a3) ∗ (((SparseCore.T d).loc main_v2) ↦{fullShare} a2)
        ∗ (((SparseCore.T d).loc main_v4) ↦{fullShare} a4) ∗ (((SparseCore.T d).loc main_v5) ↦{fullShare} a5)
        ∗ (iprop((sc (F := F)).tcSt EH d 1 ∗ boundary (SparseCore.T d)
              ∗ (((SparseCore.T d).loc main_v3) ↦{fullShare} a3) ∗ (((SparseCore.T d).loc main_v2) ↦{fullShare} a2)
              ∗ (((SparseCore.T d).loc main_v4) ↦{fullShare} a4)
              ∗ ∃ f5, (((SparseCore.T d).loc main_v5) ↦{fullShare} f5) ∗ ⌜MmPost d a3 a2 a4 a5 f5⌝) -∗ Φ ⟨⟩))
      ⊢ wp frame (wpE ((sc (F := F)).defs (Pipeline.defs pcfgs defs₀)) (Variants.lift Variants.none) (SparseCore.T d) none) Set.univ
          (Prog.lift (.customCall (SparseCore.inner (Pipeline.entry 0)) ())) Φ := by
  unfold SparseCore.Cfg.tcSt
  iintro ⟨#Hctx, ⟨⟨%W, %hW, HO⟩, Hat, Hrd, Hrs, Htoks⟩, Hb, Hg, Ht, H3, H2, H4, H5, Hk⟩
  ihave Hlev := (SparseCore.Cfg.ctx_levAts (K := sc (F := F)) (EH := EH) (P := P) κ) $$ Hctx
  iapply (mm_region (F := F) (Name := Name) (U := U) (fun _ => a3) (fun _ => a2) (fun _ => a4) (fun _ => a5)
    (fun c => (sc (F := F)).Otc c 1) {p | (sc (F := F)).lev (SparseCore.T d, p.1) p.2 ≤ 8 * 1} EP (sc (F := F)).L (sc (F := F)).lev
    (fun c sm => (sc (F := F)).mayWait_none sm (Otc_none c 1)) d Φ)
  isplitl [Hb]; · iexact Hb
  isplitl [Hlev]; · iexact Hlev
  isplitl [Hg]; · iexact Hg
  isplitl [Ht]; · iexact Ht
  isplitl [H3 H2 H4 H5 HO]
  · unfold pre
    isplitl [H3]; · iexact H3
    isplitl [H2]; · iexact H2
    isplitl [H4]; · iexact H4
    isplitl [H5]; · iexact H5
    iexists W; isplitr
    · ipureintro; exact fun p hp => hW p (Finset.mem_coe.mp hp)
    iexact HO
  iintro ⟨Hb, Hpost⟩
  unfold post
  icases Hpost with ⟨H3, H2, H4, H5, ⟨%W', %hW', HO⟩⟩
  iapply Hk
  isplitl [HO Hat Hrd Hrs Htoks]
  · isplitl [HO]
    · iexists W'; isplitr
      · ipureintro
        intro p hp
        rcases hW' (Finset.mem_coe.mpr hp) with h | ⟨w, s, e⟩
        · exact h
        · subst e; exact Nat.zero_le _
      iexact HO
    isplitl [Hat]; · iexact Hat
    isplitl [Hrd]; · iexact Hrd
    isplitl [Hrs]; · iexact Hrs
    iexact Htoks
  isplitl [Hb]; · iexact Hb
  isplitl [H3]; · iexact H3
  isplitl [H2]; · iexact H2
  isplitl [H4]; · iexact H4
  iexact H5

end Cert.KernelIdeal.Mm

end
-- ==== Proof.LaunchMain.lean ====
/-
  @main on the TensorCore: two transposes lay the context words out position-major and the table feature-major; the
  pooling call takes them and the result array, deals them to its 32 tasks and collects them with the result at the
  averaged features; a transpose and a reshape lay the weights and the bias out for the projection; the projection's
  region runs over them and the averaged features; a last transpose gives the scores. Each host operation reads one
  array and writes another; the arguments are never written.
-/
import proofs.«204130_g36155034698017_cont_8to1_b_1516_18_alg».proof.Proof.LaunchSplit
import proofs.«204130_g36155034698017_cont_8to1_b_1516_18_alg».proof.Proof.LaunchGhost
import proofs.«204130_g36155034698017_cont_8to1_b_1516_18_alg».proof.Proof.MmStep

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

local notation "𝕄" => MT nD τ sig (HIx 1) (Elt F) ℕ UU ℕ

variable (m : (ℓ : Loc nD τ sig) → Buf (Elt F) ℓ) (ρ : Dev nD → PrngReg)

/-! ## One host operation over its two arrays -/

/-- Two distinct arrays held whole, as a conjunction over the pair. -/
theorem held_pair (d : Dev nD) (x y : Ref sig .tc) (hne : (Proc.devRef .tc x : DevRef τ sig) ≠ Proc.devRef .tc y) (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by rw [Finset.mem_singleton]; exact hne), bigSep_singleton]

/-- A host operation that reads array `x` and writes array `y` with `g` of `x`'s contents, at the head of a program:
    from the region boundary and the two arrays whole, the continuation runs with the boundary back, `x` as it was and
    `y` at `g` of `x`'s contents. -/
theorem wp_hlo_pair {Λ : Labels} {defs : Defs nD τ sig (Elt F) Λ} (𝒱' : Variants) (d : Dev nD) (op : HloOp τ sig (Elt F)) (x y : Ref sig .tc)
    (hne : (Proc.devRef .tc x : DevRef τ sig) ≠ Proc.devRef .tc y)
    (hb : op.bufs = {Proc.devRef .tc x, Proc.devRef .tc y}) (hw : op.writes = {Proc.devRef .tc y}) (hf : op.fresh = ∅)
    (g : (Proc.devRef .tc x : DevRef τ sig).ty.Contents (Elt F) → (Proc.devRef .tc y : DevRef τ sig).ty.Contents (Elt F))
    (hg : ∀ V : Valuation τ sig (Elt F), op.result V (Proc.devRef .tc y) = g (V (Proc.devRef .tc x)))
    (V0 : Valuation τ sig (Elt F)) (fx : (Proc.devRef .tc x : DevRef τ sig).ty.Contents (Elt F)) (fy : (Proc.devRef .tc y : DevRef τ sig).ty.Contents (Elt F))
    {α : Type} (k : ((b : op.writes) → b.1.ty.Contents (Elt F)) → Prog (TpuEff nD τ sig (Elt F) Λ .tc) α) (Q : α → sProp 𝕄) :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} g fx))
            -∗ wp frame (wpE defs 𝒱' (SparseCore.T d) none) Set.univ
                (k (op.fn fun b => Function.update (Function.update V0 (Proc.devRef .tc x) fx) (Proc.devRef .tc y) fy b.1)) Q)
        -∗ wp frame (wpE defs 𝒱' (SparseCore.T d) none) Set.univ (hlo rfl op k) Q) := by
  have hx : Function.update (Function.update V0 (Proc.devRef .tc x) fx) (Proc.devRef .tc y) fy (Proc.devRef .tc x) = fx := by
    rw [Function.update_of_ne hne, Function.update_self]
  have hy : Function.update (Function.update V0 (Proc.devRef .tc x) fx) (Proc.devRef .tc y) fy (Proc.devRef .tc y) = fy :=
    Function.update_self _ _ _
  have hrx : op.result (Function.update (Function.update V0 (Proc.devRef .tc x) fx) (Proc.devRef .tc y) fy) (Proc.devRef .tc x) = fx := by
    rw [op.result_of_not_mem _ (by rw [hw, Finset.mem_singleton]; exact hne), hx]
  have hry : op.result (Function.update (Function.update V0 (Proc.devRef .tc x) fx) (Proc.devRef .tc y) fy) (Proc.devRef .tc y) = g fx := by
    rw [hg, hx]
  have h := wp_hlo_within (defs := defs) 𝒱' (SparseCore.T d) none Set.univ (hp := rfl) (op := op) (k := k)
    (S := {Proc.devRef .tc x, Proc.devRef .tc y}) (hb ▸ subset_rfl)
    (V := Function.update (Function.update V0 (Proc.devRef .tc x) fx) (Proc.devRef .tc y) fy) (Q := Q) hf
  rw [held_pair d x y hne, held_pair d x y hne, hx, hy, hrx, hry] at h
  exact h

/-! ## @main's operations and what they leave -/

/-- The weights feature-major, as the transpose of the third argument leaves them. -/
def W3 (d : Dev nD) : Buf (Elt F) (v3Loc d) :=
  transpose S64x100000 [1, 0] (m (a2Loc d)) transposes_S100000x64_S64x100000_1_0
/-- The bias as one row, as the reshape of the fourth argument leaves it. -/
def B4 (d : Dev nD) : Buf (Elt F) (v4Loc d) :=
  shapeCast S1x100000 (m (a3Loc d)) shapeCasts_S100000_S1x100000

/-- The scores are the transpose of an array the projection's region may leave over the transposed weights, the
    averaged features and the bias row. -/
def ResultOK (d : Dev nD) (f6 : Buf (Elt F) (v6Loc d)) : Prop :=
  ∃ f5 : Buf (Elt F) (v5Loc d), Cert.KernelIdeal.Mm.MmPost d (W3 m d) (PF m d) (B4 m d) (m (v5Loc d)) f5
    ∧ f6 = transpose S1024x100000 [1, 0] f5 transposes_S100000x1024_S1024x100000_1_0

/-- What @main leaves the claim: the four arguments at their launch contents, and scores of that form. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f6, (v6Loc d ↦{fullShare} f6) ∗ ⌜ResultOK m d f6⌝)

abbrev tr0 : (⟨S1024x50, .i32⟩ : BufTy).Contents (Elt F) → (⟨S50x1024, .i32⟩ : BufTy).Contents (Elt F) := (transpose S50x1024 [1, 0] · transposes_S1024x50_S50x1024_1_0)
abbrev tr1 : (⟨S100000x64, .f32⟩ : BufTy).Contents (Elt F) → (⟨S64x100000, .f32⟩ : BufTy).Contents (Elt F) := (transpose S64x100000 [1, 0] · transposes_S100000x64_S64x100000_1_0)
abbrev rs4 : (⟨S100000, .f32⟩ : BufTy).Contents (Elt F) → (⟨S1x100000, .f32⟩ : BufTy).Contents (Elt F) := (shapeCast S1x100000 · shapeCasts_S100000_S1x100000)
abbrev tr6 : (⟨S100000x1024, .f32⟩ : BufTy).Contents (Elt F) → (⟨S1024x100000, .f32⟩ : BufTy).Contents (Elt F) := (transpose S1024x100000 [1, 0] · transposes_S100000x1024_S1024x100000_1_0)
abbrev op0 : HloOp τ sig (Elt F) := StableHlo.unary main_arg0 main_v0 (tr0 (F := F))
abbrev op1 : HloOp τ sig (Elt F) := StableHlo.unary main_arg1 main_v1 (tr1 (F := F))
abbrev op3 : HloOp τ sig (Elt F) := StableHlo.unary main_arg2 main_v3 (tr1 (F := F))
abbrev op4 : HloOp τ sig (Elt F) := StableHlo.reshape main_arg3 main_v4 rfl shapeCasts_S100000_S1x100000
abbrev op6 : HloOp τ sig (Elt F) := StableHlo.unary main_v5 main_v6 (tr6 (F := F))

/-- The launch contents as a valuation of device `d`'s arrays. -/
def V0 (d : Dev nD) : Valuation τ sig (Elt F) := fun b => m (d, b)

/-- The TensorCore's unscoped arrays are @main's eleven. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3) ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## @main -/

-- the rules are stated for any thread; at the TensorCore thread their metavariables' types unfold plain definitions
set_option backward.isDefEq.respectTransparency.types false in
/-- @main on device `d`'s TensorCore, from the launch contents and the staging cells' ghost state: it ends with the
    handshakes past the one call, the arguments unchanged and the scores of the form `ResultOK`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2, Hv3, Hv4, Hv5, Hv6⟩, -, -⟩, Hg, Ht⟩
  -- the context words, position-major
  iapply (wp_hlo_pair (defs := (K (F := F)).defs (D (F := F))) 𝒱 d (op0 (F := F)) main_arg0 main_v0 (by decide) rfl rfl rfl (tr0 (F := F))
      (fun V => StableHlo.unary_result main_arg0 main_v0 (tr0 (F := F)) _ _ V) (V0 m d) (m (a0Loc d)) (m (v0Loc d))) $$ [Hb Ha0 Hv0]
  · isplitl [Hb]; · iexact Hb
    isplitl [Ha0]; · iexact Ha0
    iexact Hv0
  iintro ⟨Hb, Ha0, Hv0⟩
  rw [wp_ret]; imodintro
  -- the table, feature-major
  iapply (wp_hlo_pair (defs := (K (F := F)).defs (D (F := F))) 𝒱 d (op1 (F := F)) main_arg1 main_v1 (by decide) rfl rfl rfl (tr1 (F := F))
      (fun V => StableHlo.unary_result main_arg1 main_v1 (tr1 (F := F)) _ _ V) (V0 m d) (m (a1Loc d)) (m (v1Loc d))) $$ [Hb Ha1 Hv1]
  · isplitl [Hb]; · iexact Hb
    isplitl [Ha1]; · iexact Ha1
    iexact Hv1
  iintro ⟨Hb, Ha1, Hv1⟩
  rw [wp_ret]; imodintro
  -- the pooling call: the three arrays dealt to the tasks and collected
  iapply ((K (F := F)).wp_run (D (F := F)) 𝒱 (EH := EH) (P := P m) κ d 0) $$ [Hst Hb Ha0 Ha1 Ha2 Ha3 Hv0 Hv1 Hv2 Hv3 Hv4 Hv5 Hv6 Hg Ht]
  isplitr; · iexact Hctx
  isplitl [Hst]; · iexact Hst
  isplitl [Hv0 Hv1 Hv2]
  · iapply (split_st m d (m (v2Loc d)))
    isplitl [Hv0]; · iexact Hv0
    isplitl [Hv1]; · iexact Hv1
    iexact Hv2
  iintro ⟨Hst, Hdn⟩
  ihave Hdn' := (join_dn m d) $$ Hdn
  icases Hdn' with ⟨Hv0, Hv1, Hv2⟩
  -- the weights, feature-major
  iapply (wp_hlo_pair (defs := (K (F := F)).defs (D (F := F))) 𝒱 d (op3 (F := F)) main_arg2 main_v3 (by decide) rfl rfl rfl (tr1 (F := F))
      (fun V => StableHlo.unary_result main_arg2 main_v3 (tr1 (F := F)) _ _ V) (V0 m d) (m (a2Loc d)) (m (v3Loc d))) $$ [Hb Ha2 Hv3]
  · isplitl [Hb]; · iexact Hb
    isplitl [Ha2]; · iexact Ha2
    iexact Hv3
  iintro ⟨Hb, Ha2, Hv3⟩
  rw [wp_ret]; imodintro
  -- the bias as one row
  iapply (wp_hlo_pair (defs := (K (F := F)).defs (D (F := F))) 𝒱 d (op4 (F := F)) main_arg3 main_v4 (by decide) rfl rfl rfl (rs4 (F := F))
      (fun V => (StableHlo.reshape_result main_arg3 main_v4 rfl shapeCasts_S100000_S1x100000 _ _ V).trans rfl) (V0 m d) (m (a3Loc d)) (m (v4Loc d))) $$ [Hb Ha3 Hv4]
  · isplitl [Hb]; · iexact Hb
    isplitl [Ha3]; · iexact Ha3
    iexact Hv4
  iintro ⟨Hb, Ha3, Hv4⟩
  rw [wp_ret]; imodintro
  -- the projection's region
  iapply (Cert.KernelIdeal.Mm.mm_step (F := F) (Name := ℕ) (U := UU) EH EP (P m) κ d (W3 m d) (PF m d) (B4 m d) (m (v5Loc d)) _)
    $$ [Hst Hb Ha0 Ha1 Ha2 Ha3 Hv0 Hv1 Hv2 Hv3 Hv4 Hv5 Hv6 Hg Ht]
  isplitr; · iexact Hctx
  isplitl [Hst]; · iexact Hst
  isplitl [Hb]; · iexact Hb
  isplitl [Hg]; · iexact Hg
  isplitl [Ht]; · iexact Ht
  isplitl [Hv3]; · iexact Hv3
  isplitl [Hv2]; · iexact Hv2
  isplitl [Hv4]; · iexact Hv4
  isplitl [Hv5]; · iexact Hv5
  iintro ⟨Hst, Hb, Hv3, Hv2, Hv4, ⟨%f5, Hv5, %hpost⟩⟩
  -- the scores
  iapply (wp_hlo_pair (defs := (K (F := F)).defs (D (F := F))) 𝒱 d (op6 (F := F)) main_v5 main_v6 (by decide) rfl rfl rfl (tr6 (F := F))
      (fun V => StableHlo.unary_result main_v5 main_v6 (tr6 (F := F)) _ _ V) (V0 m d) (f5) (m (v6Loc d))) $$ [Hb Hv5 Hv6]
  · isplitl [Hb]; · iexact Hb
    isplitl [Hv5]; · iexact Hv5
    iexact Hv6
  iintro ⟨Hb, Hv5, Hv6⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexists _
  isplitl [Hv6]; · iexact Hv6
  ipureintro
  exact ⟨f5, hpost, rfl⟩

end Cert.KernelIdeal.Tile

end
-- ==== Proof.Run.lean ====
/-
  The whole program's run: the launch theorem at the one SparseCore call, the task obligation, the TensorCore's program, and how
  the final memory reads: the four arguments unchanged and the result related to them by the matrix unit's region over the
  pooled features.
-/
import proofs.«204130_g36155034698017_cont_8to1_b_1516_18_alg».proof.Proof.TileObl
import proofs.«204130_g36155034698017_cont_8to1_b_1516_18_alg».proof.Proof.LaunchMain
import proofs.«204130_g36155034698017_cont_8to1_b_1516_18_alg».proof.Proof.LaunchGhost

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F] [Named F]

local notation "ctxV" => (Memref.whole Cert.KernelIdeal.main_v0_scv : Memref Cert.KernelIdeal.sig Kind.scVector Space.hbm Cert.KernelIdeal.S50x1024 EltTy.i32)
local notation "tabV" => (Memref.whole Cert.KernelIdeal.main_v1_scv : Memref Cert.KernelIdeal.sig Kind.scVector Space.hbm Cert.KernelIdeal.S64x100000 EltTy.f32)
local notation "outV" => (Memref.whole Cert.KernelIdeal.main_v2_scv : Memref Cert.KernelIdeal.sig Kind.scVector Space.hbm Cert.KernelIdeal.S64x1024 EltTy.f32)
local notation "rowV" => (Memref.whole Cert.KernelIdeal.cc0_scratch0 : Memref Cert.KernelIdeal.sig Kind.scVector Space.vmem Cert.KernelIdeal.S100000 EltTy.f32)
local notation "i0V" => (Memref.whole Cert.KernelIdeal.cc0_scratch1 : Memref Cert.KernelIdeal.sig Kind.scVector Space.vmem Cert.KernelIdeal.S50x128 EltTy.i32)
local notation "i1V" => (Memref.whole Cert.KernelIdeal.cc0_scratch2 : Memref Cert.KernelIdeal.sig Kind.scVector Space.vmem Cert.KernelIdeal.S50x128 EltTy.i32)
local notation "accV" => (Memref.whole Cert.KernelIdeal.cc0_scratch3 : Memref Cert.KernelIdeal.sig Kind.scVector Space.vmem Cert.KernelIdeal.S2x1024 EltTy.f32)

local notation "𝕄" => MT nD τ sig (HIx 1) (Elt F) ℕ UU ℕ

variable (m : (ℓ : Loc nD τ sig) → Buf (Elt F) ℓ) (ρ : Dev nD → PrngReg)

/-- What the final memory of device `d` is asked: the arguments as launched, the result in the region's relation. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d) ∧ ResultOK m d (s'.mem.mem (v6Loc d))

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, %f6, H6, %hok⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v6Loc d) (I := Finset.univ) (q := fullShare) (f := f6)) $$ [HSI H6]
  · isplitl [HSI] <;> iassumption
  icases H with %h6
  ipureintro
  have e6 : s'.mem.mem (v6Loc d) = f6 := funext fun i => h6 i (Finset.mem_univ i)
  exact ⟨funext fun i => h0 i (Finset.mem_univ i), funext fun i => h1 i (Finset.mem_univ i), funext fun i => h2 i (Finset.mem_univ i),
    funext fun i => h3 i (Finset.mem_univ i), e6 ▸ hok⟩

/-- What every run ends in. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)
    ∧ r.2.mem (a3Loc c) = m (a3Loc c) ∧ ResultOK m c (r.2.mem (v6Loc c))

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.KernelIdeal.Tile

end
-- ==== Proof.KTileDefs.lean ====
/-
  A vector subcore's task of the pooling kernel: the names of its arrays and scratch buffers, what a loop over the 50
  context positions keeps true, and that the words it reads off a staged chunk name table rows.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204130_g36155034698017_cont_8to1_b_1516_18_alg».proof.Proof.Gen.Kernel
import proofs.«204130_g36155034698017_cont_8to1_b_1516_18_alg».proof.Proof.Gen.Kernel.Skeleton
import proofs.«204130_g36155034698017_cont_8to1_b_1516_18_alg».proof.Proof.PoolFold

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep rowOf chunkOf)

variable {F : FTy → Type} [FloatOps F]
variable {U : Type} [URA U] [CountersIn U]

local notation "𝕄" => MT nD τ sig (HIx 1) (Elt F) ℕ U ℕ

abbrev 𝒱₀ : Variants := Variants.none

local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)

variable (d : Dev nD) (L : grid0.Coords)

/-- The SparseCore and the vector subcore a grid point names. -/
abbrev cV (L : grid0.Coords) : Fin τ.nSC := (L 0).castLE hcore0
abbrev jV (L : grid0.Coords) : Fin τ.nSub := (L 1).castLE hsub0

/-- The eight accumulators after `n` context positions over table row `row` and staged chunk `ch`. -/
def accT (row : FVec F S100000 .f32) (ch : IVec S50x128 32) (n : ℕ) :
    FVec F S16 .f32 × FVec F S16 .f32 × FVec F S16 .f32 × FVec F S16 .f32 × FVec F S16 .f32 × FVec F S16 .f32 × FVec F S16 .f32 × FVec F S16 .f32 :=
  (accF row ch 0 n, accF row ch 1 n, accF row ch 2 n, accF row ch 3 n, accF row ch 4 n, accF row ch 5 n, accF row ch 6 n, accF row ch 7 n)

/-- The table row a task's round `r` works on: a task handles two consecutive rows, and the tasks' pairs are dealt
    subcore-major over the two cores. -/
def dRow (L : grid0.Coords) (r : Fin 2) : Fin 64 :=
  ⟨4 * (L 1).val + 2 * (L 0).val + r.val, by
    have h1 : (L 1).val < 16 := (L 1).isLt
    have h0 : (L 0).val < 2 := (L 0).isLt
    have := r.isLt; omega⟩

/-- What a loop over the context positions keeps, the chunk staged in the FIRST index buffer: the row scratch holds table
    row `dd` of the feature-major table `A1`, the index buffer chunk `c` of the position-major context words `A0`, both
    whole and only read, and the accumulators are at their values after `n` positions. -/
def linv0 (A0 : IVec S50x1024 32) (A1 : FVec F S64x100000 .f32) (dd : Fin 64) (c : Fin 8) (n : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(∃ (row : Buf (Elt F) ((V d (cV L) (jV L)).loc cc0_scratch0)) (ch : Buf (Elt F) ((V d (cV L) (jV L)).loc cc0_scratch1)),
    ((rowV).view.loc (V d (cV L) (jV L)) ↦{fullShare} row) ∗ ((i0V).view.loc (V d (cV L) (jV L)) ↦{fullShare} ch)
      ∗ ⌜acc = accT row ch n ∧ row = rowOf A1 dd ∧ ch = chunkOf A0 c⌝)

/-- The same with the chunk staged in the SECOND index buffer. -/
def linv1 (A0 : IVec S50x1024 32) (A1 : FVec F S64x100000 .f32) (dd : Fin 64) (c : Fin 8) (n : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(∃ (row : Buf (Elt F) ((V d (cV L) (jV L)).loc cc0_scratch0)) (ch : Buf (Elt F) ((V d (cV L) (jV L)).loc cc0_scratch2)),
    ((rowV).view.loc (V d (cV L) (jV L)) ↦{fullShare} row) ∗ ((i1V).view.loc (V d (cV L) (jV L)) ↦{fullShare} ch)
      ∗ ⌜acc = accT row ch n ∧ row = rowOf A1 dd ∧ ch = chunkOf A0 c⌝)

omit [FloatOps F] [CountersIn U] in
/-- Every word of a chunk of the context words names a table row when every context word does. -/
theorem chunk_lt (A0 : IVec S50x1024 32) (hA0 : ∀ x, (A0 x).toNat < 100000) (c : Fin 8) : ∀ x, (chunkOf A0 c x).toNat < 100000 :=
  fun _ => hA0 _

omit [CountersIn U] in
/-- Words read off the first index buffer all name table rows when every word of the buffer does. -/
theorem chk_ok0 (ch : Buf (Elt F) ((V d (cV L) (jV L)).loc cc0_scratch1)) (hch : ∀ x, (ch x).toNat < 100000)
    (r : LoadRect S50x128) (hsc : r.shape.ShapeCasts S16) :
    ∀ a x, ((![shapeCast S16 (View.readAt (Elt F) (i0V).view r ch) hsc] : Fin 1 → IVec S16 32) a x).toNat < S100000.size a := by
  intro a x
  match a with
  | ⟨0, _⟩ =>
    show (shapeCast S16 (View.readAt (Elt F) (i0V).view r ch) hsc x).toNat < 100000
    unfold shapeCast
    rw [View.readAt_apply]
    simp only [Memref.view_whole, View.read_whole]
    exact hch _

omit [CountersIn U] in
/-- The same for the second index buffer. -/
theorem chk_ok1 (ch : Buf (Elt F) ((V d (cV L) (jV L)).loc cc0_scratch2)) (hch : ∀ x, (ch x).toNat < 100000)
    (r : LoadRect S50x128) (hsc : r.shape.ShapeCasts S16) :
    ∀ a x, ((![shapeCast S16 (View.readAt (Elt F) (i1V).view r ch) hsc] : Fin 1 → IVec S16 32) a x).toNat < S100000.size a := by
  intro a x
  match a with
  | ⟨0, _⟩ =>
    show (shapeCast S16 (View.readAt (Elt F) (i1V).view r ch) hsc x).toNat < 100000
    unfold shapeCast
    rw [View.readAt_apply]
    simp only [Memref.view_whole, View.read_whole]
    exact hch _

end Cert.Kernel.Tile

end
-- ==== Proof.KTileStep.lean ====
/-
  One accumulation step of a pooling worker in the spelling of its program's symbolic run: the table row and the 16
  context words are read off the worker's scratch buffers through their views. A whole buffer read through its whole
  view at the whole rectangle is its contents; read at a unit-stride rectangle it is its contents at the rectangle's
  placed indices. With the two reads so rewritten the step is the step `gstep` of the pooling arithmetic.
-/
import proofs.«204130_g36155034698017_cont_8to1_b_1516_18_alg».proof.Proof.KTileDefs
import proofs.«204130_g36155034698017_cont_8to1_b_1516_18_alg».proof.Proof.PoolFoldStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

/-- The step of the symbolic run over the first index buffer is `gstep`: the whole row scratch read through its whole view
    is its contents, the 1 x 16 rectangle of the index buffer read through its whole view is the buffer at the
    rectangle's placed indices, and the rest is `Cert.PoolFold.step_eq`. -/
theorem step0 (row : Buf (Elt F) ((V d (cV L) (jV L)).loc cc0_scratch0)) (ch : Buf (Elt F) ((V d (cV L) (jV L)).loc cc0_scratch1))
    (k : ℕ) (hk : k < 50) (g : Fin 8) (off : Fin 2 → Nat) (hoff : off = ![k, 16 * g.val])
    (inb : ∀ a, off a + S1x16.size a ≤ S50x128.size a) (h) (acc : FVec F S16 .f32) :
    addf acc (loadIdx (e := .f32) (View.readAt (Elt F) (rowV).view (LoadRect.whole S100000) row)
        ![shapeCast S16 (View.readAt (Elt F) (i0V).view (Rect.unit (s := S50x128) off S1x16.size inb).toLoadRect ch) shapeCasts_S1x16_S16] h)
      = gstep row ch k g acc := by
  have e1 : View.readAt (Elt F) (rowV).view (LoadRect.whole S100000) row = row :=
    Memref.readAt_whole (Elt F) cc0_scratch0 row
  have e2 : View.readAt (Elt F) (i0V).view (Rect.unit (s := S50x128) off S1x16.size inb).toLoadRect ch
      = fun x => ch ((Rect.unit (s := S50x128) off S1x16.size inb).emb x) := by
    funext x
    rw [View.readAt_apply]
    simp only [Memref.view_whole, View.read_whole]
    rfl
  revert h
  rw [e1, e2]
  intro h
  exact Cert.PoolFold.step_eq row ch k hk g off hoff inb _ h acc

/-- The step of the symbolic run over the second index buffer is `gstep`: the whole row scratch read through its whole view
    is its contents, the 1 x 16 rectangle of the index buffer read through its whole view is the buffer at the
    rectangle's placed indices, and the rest is `Cert.PoolFold.step_eq`. -/
theorem step1 (row : Buf (Elt F) ((V d (cV L) (jV L)).loc cc0_scratch0)) (ch : Buf (Elt F) ((V d (cV L) (jV L)).loc cc0_scratch2))
    (k : ℕ) (hk : k < 50) (g : Fin 8) (off : Fin 2 → Nat) (hoff : off = ![k, 16 * g.val])
    (inb : ∀ a, off a + S1x16.size a ≤ S50x128.size a) (h) (acc : FVec F S16 .f32) :
    addf acc (loadIdx (e := .f32) (View.readAt (Elt F) (rowV).view (LoadRect.whole S100000) row)
        ![shapeCast S16 (View.readAt (Elt F) (i1V).view (Rect.unit (s := S50x128) off S1x16.size inb).toLoadRect ch) shapeCasts_S1x16_S16] h)
      = gstep row ch k g acc := by
  have e1 : View.readAt (Elt F) (rowV).view (LoadRect.whole S100000) row = row :=
    Memref.readAt_whole (Elt F) cc0_scratch0 row
  have e2 : View.readAt (Elt F) (i1V).view (Rect.unit (s := S50x128) off S1x16.size inb).toLoadRect ch
      = fun x => ch ((Rect.unit (s := S50x128) off S1x16.size inb).emb x) := by
    funext x
    rw [View.readAt_apply]
    simp only [Memref.view_whole, View.read_whole]
    rfl
  revert h
  rw [e1, e2]
  intro h
  exact Cert.PoolFold.step_eq row ch k hk g off hoff inb _ h acc

end Cert.Kernel.Tile

end
-- ==== Proof.KLoopsA.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.KTileDefs
import proofs.«204130_g36155034698017_cont_8to1_b_1516_18_alg».proof.Proof.KTileStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

/-- One trip of the loop over the context positions, chunk loop 1: 16 words per lane group are read, found to name table
    rows, and the entries they name added to the group's accumulator. -/
theorem trip1 (A0 : IVec S50x1024 32) (hA0 : ∀ x, (A0 x).toNat < 100000) (A1 : FVec F S64x100000 .f32) (dd : Fin 64) (c : Fin 8) (v18 : FVec F S16 .f32) (v19 : FVec F S16 .f32) (v20 : FVec F S16 .f32) (v21 : FVec F S16 .f32) (v22 : FVec F S16 .f32) (v23 : FVec F S16 .f32) (v24 : FVec F S16 .f32) (v25 : FVec F S16 .f32)
    (k : Fin k0_t1_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t1_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v18 v19 v20 v21 v22 v23 v24 v25 k acc)
          (linv0 (F := F) (U := U) d L A0 A1 dd c (k.val + 1)) := by
  obtain ⟨a0, a1, a2, a3, a4, a5, a6, a7⟩ := acc
  have hk : k.val < 50 := lt_of_lt_of_le k.isLt k0_t1_abs.2.1
  unfold k0_t1_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off2 k) (k0_off2_eq k) _ _ _
  · exact step0 d L row ch k.val hk 1 (k0_off3 k) (k0_off3_eq k) _ _ _
  · exact step0 d L row ch k.val hk 2 (k0_off4 k) (k0_off4_eq k) _ _ _
  · exact step0 d L row ch k.val hk 3 (k0_off5 k) (k0_off5_eq k) _ _ _
  · exact step0 d L row ch k.val hk 4 (k0_off6 k) (k0_off6_eq k) _ _ _
  · exact step0 d L row ch k.val hk 5 (k0_off7 k) (k0_off7_eq k) _ _ _
  · exact step0 d L row ch k.val hk 6 (k0_off8 k) (k0_off8_eq k) _ _ _
  · exact step0 d L row ch k.val hk 7 (k0_off9 k) (k0_off9_eq k) _ _ _

/-- One trip of the loop over the context positions, chunk loop 2: 16 words per lane group are read, found to name table
    rows, and the entries they name added to the group's accumulator. -/
theorem trip2 (A0 : IVec S50x1024 32) (hA0 : ∀ x, (A0 x).toNat < 100000) (A1 : FVec F S64x100000 .f32) (dd : Fin 64) (c : Fin 8) (v27_6 : FVec F S16 .f32) (v27_7 : FVec F S16 .f32)
    (k : Fin k0_t2_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t2_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v27_6 v27_7 k acc)
          (linv1 (F := F) (U := U) d L A0 A1 dd c (k.val + 1)) := by
  obtain ⟨a0, a1, a2, a3, a4, a5, a6, a7⟩ := acc
  have hk : k.val < 50 := lt_of_lt_of_le k.isLt k0_t2_abs.2.1
  unfold k0_t2_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off10 k) (k0_off10_eq k) _ _ _
  · exact step1 d L row ch k.val hk 1 (k0_off11 k) (k0_off11_eq k) _ _ _
  · exact step1 d L row ch k.val hk 2 (k0_off12 k) (k0_off12_eq k) _ _ _
  · exact step1 d L row ch k.val hk 3 (k0_off13 k) (k0_off13_eq k) _ _ _
  · exact step1 d L row ch k.val hk 4 (k0_off14 k) (k0_off14_eq k) _ _ _
  · exact step1 d L row ch k.val hk 5 (k0_off15 k) (k0_off15_eq k) _ _ _
  · exact step1 d L row ch k.val hk 6 (k0_off16 k) (k0_off16_eq k) _ _ _
  · exact step1 d L row ch k.val hk 7 (k0_off17 k) (k0_off17_eq k) _ _ _

/-- One trip of the loop over the context positions, chunk loop 3: 16 words per lane group are read, found to name table
    rows, and the entries they name added to the group's accumulator. -/
theorem trip3 (A0 : IVec S50x1024 32) (hA0 : ∀ x, (A0 x).toNat < 100000) (A1 : FVec F S64x100000 .f32) (dd : Fin 64) (c : Fin 8) (v103 : FVec F S16 .f32)
    (k : Fin k0_t3_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t3_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v103 k acc)
          (linv0 (F := F) (U := U) d L A0 A1 dd c (k.val + 1)) := by
  obtain ⟨a0, a1, a2, a3, a4, a5, a6, a7⟩ := acc
  have hk : k.val < 50 := lt_of_lt_of_le k.isLt k0_t3_abs.2.1
  unfold k0_t3_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off18 k) (k0_off18_eq k) _ _ _
  · exact step0 d L row ch k.val hk 1 (k0_off19 k) (k0_off19_eq k) _ _ _
  · exact step0 d L row ch k.val hk 2 (k0_off20 k) (k0_off20_eq k) _ _ _
  · exact step0 d L row ch k.val hk 3 (k0_off21 k) (k0_off21_eq k) _ _ _
  · exact step0 d L row ch k.val hk 4 (k0_off22 k) (k0_off22_eq k) _ _ _
  · exact step0 d L row ch k.val hk 5 (k0_off23 k) (k0_off23_eq k) _ _ _
  · exact step0 d L row ch k.val hk 6 (k0_off24 k) (k0_off24_eq k) _ _ _
  · exact step0 d L row ch k.val hk 7 (k0_off25 k) (k0_off25_eq k) _ _ _

/-- One trip of the loop over the context positions, chunk loop 4: 16 words per lane group are read, found to name table
    rows, and the entries they name added to the group's accumulator. -/
theorem trip4 (A0 : IVec S50x1024 32) (hA0 : ∀ x, (A0 x).toNat < 100000) (A1 : FVec F S64x100000 .f32) (dd : Fin 64) (c : Fin 8)
    (k : Fin k0_t4_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t4_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv1 (F := F) (U := U) d L A0 A1 dd c (k.val + 1)) := by
  obtain ⟨a0, a1, a2, a3, a4, a5, a6, a7⟩ := acc
  have hk : k.val < 50 := lt_of_lt_of_le k.isLt k0_t4_abs.2.1
  unfold k0_t4_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off26 k) (k0_off26_eq k) _ _ _
  · exact step1 d L row ch k.val hk 1 (k0_off27 k) (k0_off27_eq k) _ _ _
  · exact step1 d L row ch k.val hk 2 (k0_off28 k) (k0_off28_eq k) _ _ _
  · exact step1 d L row ch k.val hk 3 (k0_off29 k) (k0_off29_eq k) _ _ _
  · exact step1 d L row ch k.val hk 4 (k0_off30 k) (k0_off30_eq k) _ _ _
  · exact step1 d L row ch k.val hk 5 (k0_off31 k) (k0_off31_eq k) _ _ _
  · exact step1 d L row ch k.val hk 6 (k0_off32 k) (k0_off32_eq k) _ _ _
  · exact step1 d L row ch k.val hk 7 (k0_off33 k) (k0_off33_eq k) _ _ _

end Cert.Kernel.Tile

end
-- ==== Proof.KLoopsB.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.KTileDefs
import proofs.«204130_g36155034698017_cont_8to1_b_1516_18_alg».proof.Proof.KTileStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

/-- One trip of the loop over the context positions, chunk loop 5: 16 words per lane group are read, found to name table
    rows, and the entries they name added to the group's accumulator. -/
theorem trip5 (A0 : IVec S50x1024 32) (hA0 : ∀ x, (A0 x).toNat < 100000) (A1 : FVec F S64x100000 .f32) (dd : Fin 64) (c : Fin 8) (v202 : FVec F S16 .f32) (v203 : FVec F S16 .f32)
    (k : Fin k0_t5_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t5_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v202 v203 k acc)
          (linv0 (F := F) (U := U) d L A0 A1 dd c (k.val + 1)) := by
  obtain ⟨a0, a1, a2, a3, a4, a5, a6, a7⟩ := acc
  have hk : k.val < 50 := lt_of_lt_of_le k.isLt k0_t5_abs.2.1
  unfold k0_t5_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off34 k) (k0_off34_eq k) _ _ _
  · exact step0 d L row ch k.val hk 1 (k0_off35 k) (k0_off35_eq k) _ _ _
  · exact step0 d L row ch k.val hk 2 (k0_off36 k) (k0_off36_eq k) _ _ _
  · exact step0 d L row ch k.val hk 3 (k0_off37 k) (k0_off37_eq k) _ _ _
  · exact step0 d L row ch k.val hk 4 (k0_off38 k) (k0_off38_eq k) _ _ _
  · exact step0 d L row ch k.val hk 5 (k0_off39 k) (k0_off39_eq k) _ _ _
  · exact step0 d L row ch k.val hk 6 (k0_off40 k) (k0_off40_eq k) _ _ _
  · exact step0 d L row ch k.val hk 7 (k0_off41 k) (k0_off41_eq k) _ _ _

/-- One trip of the loop over the context positions, chunk loop 6: 16 words per lane group are read, found to name table
    rows, and the entries they name added to the group's accumulator. -/
theorem trip6 (A0 : IVec S50x1024 32) (hA0 : ∀ x, (A0 x).toNat < 100000) (A1 : FVec F S64x100000 .f32) (dd : Fin 64) (c : Fin 8) (v248 : FVec F S16 .f32) (v249 : FVec F S16 .f32) (v250 : FVec F S16 .f32) (v251 : FVec F S16 .f32) (v252 : FVec F S16 .f32) (v253 : FVec F S16 .f32) (v254 : FVec F S16 .f32) (v255 : FVec F S16 .f32)
    (k : Fin k0_t6_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t6_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v248 v249 v250 v251 v252 v253 v254 v255 k acc)
          (linv1 (F := F) (U := U) d L A0 A1 dd c (k.val + 1)) := by
  obtain ⟨a0, a1, a2, a3, a4, a5, a6, a7⟩ := acc
  have hk : k.val < 50 := lt_of_lt_of_le k.isLt k0_t6_abs.2.1
  unfold k0_t6_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off42 k) (k0_off42_eq k) _ _ _
  · exact step1 d L row ch k.val hk 1 (k0_off43 k) (k0_off43_eq k) _ _ _
  · exact step1 d L row ch k.val hk 2 (k0_off44 k) (k0_off44_eq k) _ _ _
  · exact step1 d L row ch k.val hk 3 (k0_off45 k) (k0_off45_eq k) _ _ _
  · exact step1 d L row ch k.val hk 4 (k0_off46 k) (k0_off46_eq k) _ _ _
  · exact step1 d L row ch k.val hk 5 (k0_off47 k) (k0_off47_eq k) _ _ _
  · exact step1 d L row ch k.val hk 6 (k0_off48 k) (k0_off48_eq k) _ _ _
  · exact step1 d L row ch k.val hk 7 (k0_off49 k) (k0_off49_eq k) _ _ _

/-- One trip of the loop over the context positions, chunk loop 7: 16 words per lane group are read, found to name table
    rows, and the entries they name added to the group's accumulator. -/
theorem trip7 (A0 : IVec S50x1024 32) (hA0 : ∀ x, (A0 x).toNat < 100000) (A1 : FVec F S64x100000 .f32) (dd : Fin 64) (c : Fin 8) (v257_6 : FVec F S16 .f32) (v257_7 : FVec F S16 .f32)
    (k : Fin k0_t7_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t7_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v257_6 v257_7 k acc)
          (linv0 (F := F) (U := U) d L A0 A1 dd c (k.val + 1)) := by
  obtain ⟨a0, a1, a2, a3, a4, a5, a6, a7⟩ := acc
  have hk : k.val < 50 := lt_of_lt_of_le k.isLt k0_t7_abs.2.1
  unfold k0_t7_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off50 k) (k0_off50_eq k) _ _ _
  · exact step0 d L row ch k.val hk 1 (k0_off51 k) (k0_off51_eq k) _ _ _
  · exact step0 d L row ch k.val hk 2 (k0_off52 k) (k0_off52_eq k) _ _ _
  · exact step0 d L row ch k.val hk 3 (k0_off53 k) (k0_off53_eq k) _ _ _
  · exact step0 d L row ch k.val hk 4 (k0_off54 k) (k0_off54_eq k) _ _ _
  · exact step0 d L row ch k.val hk 5 (k0_off55 k) (k0_off55_eq k) _ _ _
  · exact step0 d L row ch k.val hk 6 (k0_off56 k) (k0_off56_eq k) _ _ _
  · exact step0 d L row ch k.val hk 7 (k0_off57 k) (k0_off57_eq k) _ _ _

/-- One trip of the loop over the context positions, chunk loop 8: 16 words per lane group are read, found to name table
    rows, and the entries they name added to the group's accumulator. -/
theorem trip8 (A0 : IVec S50x1024 32) (hA0 : ∀ x, (A0 x).toNat < 100000) (A1 : FVec F S64x100000 .f32) (dd : Fin 64) (c : Fin 8) (v333 : FVec F S16 .f32)
    (k : Fin k0_t8_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t8_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v333 k acc)
          (linv1 (F := F) (U := U) d L A0 A1 dd c (k.val + 1)) := by
  obtain ⟨a0, a1, a2, a3, a4, a5, a6, a7⟩ := acc
  have hk : k.val < 50 := lt_of_lt_of_le k.isLt k0_t8_abs.2.1
  unfold k0_t8_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off58 k) (k0_off58_eq k) _ _ _
  · exact step1 d L row ch k.val hk 1 (k0_off59 k) (k0_off59_eq k) _ _ _
  · exact step1 d L row ch k.val hk 2 (k0_off60 k) (k0_off60_eq k) _ _ _
  · exact step1 d L row ch k.val hk 3 (k0_off61 k) (k0_off61_eq k) _ _ _
  · exact step1 d L row ch k.val hk 4 (k0_off62 k) (k0_off62_eq k) _ _ _
  · exact step1 d L row ch k.val hk 5 (k0_off63 k) (k0_off63_eq k) _ _ _
  · exact step1 d L row ch k.val hk 6 (k0_off64 k) (k0_off64_eq k) _ _ _
  · exact step1 d L row ch k.val hk 7 (k0_off65 k) (k0_off65_eq k) _ _ _

end Cert.Kernel.Tile

end
-- ==== Proof.KLoopsC.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.KTileDefs
import proofs.«204130_g36155034698017_cont_8to1_b_1516_18_alg».proof.Proof.KTileStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

/-- One trip of the loop over the context positions, chunk loop 9: 16 words per lane group are read, found to name table
    rows, and the entries they name added to the group's accumulator. -/
theorem trip9 (A0 : IVec S50x1024 32) (hA0 : ∀ x, (A0 x).toNat < 100000) (A1 : FVec F S64x100000 .f32) (dd : Fin 64) (c : Fin 8)
    (k : Fin k0_t9_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t9_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t9_abs.2.1
  unfold k0_t9_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off66 k) (k0_off66_eq k) _ _ _
  · exact step0 d L row ch k.val hk 1 (k0_off67 k) (k0_off67_eq k) _ _ _
  · exact step0 d L row ch k.val hk 2 (k0_off68 k) (k0_off68_eq k) _ _ _
  · exact step0 d L row ch k.val hk 3 (k0_off69 k) (k0_off69_eq k) _ _ _
  · exact step0 d L row ch k.val hk 4 (k0_off70 k) (k0_off70_eq k) _ _ _
  · exact step0 d L row ch k.val hk 5 (k0_off71 k) (k0_off71_eq k) _ _ _
  · exact step0 d L row ch k.val hk 6 (k0_off72 k) (k0_off72_eq k) _ _ _
  · exact step0 d L row ch k.val hk 7 (k0_off73 k) (k0_off73_eq k) _ _ _

/-- One trip of the loop over the context positions, chunk loop 10: 16 words per lane group are read, found to name table
    rows, and the entries they name added to the group's accumulator. -/
theorem trip10 (A0 : IVec S50x1024 32) (hA0 : ∀ x, (A0 x).toNat < 100000) (A1 : FVec F S64x100000 .f32) (dd : Fin 64) (c : Fin 8)
    (k : Fin k0_t10_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t10_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv1 (F := F) (U := U) d L A0 A1 dd c (k.val + 1)) := by
  obtain ⟨a0, a1, a2, a3, a4, a5, a6, a7⟩ := acc
  have hk : k.val < 50 := lt_of_lt_of_le k.isLt k0_t10_abs.2.1
  unfold k0_t10_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off74 k) (k0_off74_eq k) _ _ _
  · exact step1 d L row ch k.val hk 1 (k0_off75 k) (k0_off75_eq k) _ _ _
  · exact step1 d L row ch k.val hk 2 (k0_off76 k) (k0_off76_eq k) _ _ _
  · exact step1 d L row ch k.val hk 3 (k0_off77 k) (k0_off77_eq k) _ _ _
  · exact step1 d L row ch k.val hk 4 (k0_off78 k) (k0_off78_eq k) _ _ _
  · exact step1 d L row ch k.val hk 5 (k0_off79 k) (k0_off79_eq k) _ _ _
  · exact step1 d L row ch k.val hk 6 (k0_off80 k) (k0_off80_eq k) _ _ _
  · exact step1 d L row ch k.val hk 7 (k0_off81 k) (k0_off81_eq k) _ _ _

/-- One trip of the loop over the context positions, chunk loop 11: 16 words per lane group are read, found to name table
    rows, and the entries they name added to the group's accumulator. -/
theorem trip11 (A0 : IVec S50x1024 32) (hA0 : ∀ x, (A0 x).toNat < 100000) (A1 : FVec F S64x100000 .f32) (dd : Fin 64) (c : Fin 8)
    (k : Fin k0_t11_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t11_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t11_abs.2.1
  unfold k0_t11_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off82 k) (k0_off82_eq k) _ _ _
  · exact step0 d L row ch k.val hk 1 (k0_off83 k) (k0_off83_eq k) _ _ _
  · exact step0 d L row ch k.val hk 2 (k0_off84 k) (k0_off84_eq k) _ _ _
  · exact step0 d L row ch k.val hk 3 (k0_off85 k) (k0_off85_eq k) _ _ _
  · exact step0 d L row ch k.val hk 4 (k0_off86 k) (k0_off86_eq k) _ _ _
  · exact step0 d L row ch k.val hk 5 (k0_off87 k) (k0_off87_eq k) _ _ _
  · exact step0 d L row ch k.val hk 6 (k0_off88 k) (k0_off88_eq k) _ _ _
  · exact step0 d L row ch k.val hk 7 (k0_off89 k) (k0_off89_eq k) _ _ _

/-- One trip of the loop over the context positions, chunk loop 12: 16 words per lane group are read, found to name table
    rows, and the entries they name added to the group's accumulator. -/
theorem trip12 (A0 : IVec S50x1024 32) (hA0 : ∀ x, (A0 x).toNat < 100000) (A1 : FVec F S64x100000 .f32) (dd : Fin 64) (c : Fin 8) (v534 : FVec F S16 .f32) (v535 : FVec F S16 .f32) (v536 : FVec F S16 .f32) (v537 : FVec F S16 .f32) (v538 : FVec F S16 .f32)
    (k : Fin k0_t12_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t12_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v534 v535 v536 v537 v538 k acc)
          (linv1 (F := F) (U := U) d L A0 A1 dd c (k.val + 1)) := by
  obtain ⟨a0, a1, a2, a3, a4, a5, a6, a7⟩ := acc
  have hk : k.val < 50 := lt_of_lt_of_le k.isLt k0_t12_abs.2.1
  unfold k0_t12_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off90 k) (k0_off90_eq k) _ _ _
  · exact step1 d L row ch k.val hk 1 (k0_off91 k) (k0_off91_eq k) _ _ _
  · exact step1 d L row ch k.val hk 2 (k0_off92 k) (k0_off92_eq k) _ _ _
  · exact step1 d L row ch k.val hk 3 (k0_off93 k) (k0_off93_eq k) _ _ _
  · exact step1 d L row ch k.val hk 4 (k0_off94 k) (k0_off94_eq k) _ _ _
  · exact step1 d L row ch k.val hk 5 (k0_off95 k) (k0_off95_eq k) _ _ _
  · exact step1 d L row ch k.val hk 6 (k0_off96 k) (k0_off96_eq k) _ _ _
  · exact step1 d L row ch k.val hk 7 (k0_off97 k) (k0_off97_eq k) _ _ _

end Cert.Kernel.Tile

end
-- ==== Proof.KLoopsD.lean ====
/-
  The loops over the 50 context positions, one trip each: every trip reads, for each of the eight lane groups, the 16 context
  words of its position, finds them to name table rows, and adds the 16 table entries they name to the group's
  accumulator; the table row and the staged chunk are only read.
-/
import proofs.«204130_g36155034698017_cont_8to1_b_1516_18_alg».proof.Proof.KTileDefs
import proofs.«204130_g36155034698017_cont_8to1_b_1516_18_alg».proof.Proof.KTileStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

/-- One trip of the loop over the context positions, chunk loop 13: 16 words per lane group are read, found to name table
    rows, and the entries they name added to the group's accumulator. -/
theorem trip13 (A0 : IVec S50x1024 32) (hA0 : ∀ x, (A0 x).toNat < 100000) (A1 : FVec F S64x100000 .f32) (dd : Fin 64) (c : Fin 8) (v543_6 : FVec F S16 .f32) (v543_7 : FVec F S16 .f32) (v565 : FVec F S16 .f32)
    (k : Fin k0_t13_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t13_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v543_6 v543_7 v565 k acc)
          (linv0 (F := F) (U := U) d L A0 A1 dd c (k.val + 1)) := by
  obtain ⟨a0, a1, a2, a3, a4, a5, a6, a7⟩ := acc
  have hk : k.val < 50 := lt_of_lt_of_le k.isLt k0_t13_abs.2.1
  unfold k0_t13_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off98 k) (k0_off98_eq k) _ _ _
  · exact step0 d L row ch k.val hk 1 (k0_off99 k) (k0_off99_eq k) _ _ _
  · exact step0 d L row ch k.val hk 2 (k0_off100 k) (k0_off100_eq k) _ _ _
  · exact step0 d L row ch k.val hk 3 (k0_off101 k) (k0_off101_eq k) _ _ _
  · exact step0 d L row ch k.val hk 4 (k0_off102 k) (k0_off102_eq k) _ _ _
  · exact step0 d L row ch k.val hk 5 (k0_off103 k) (k0_off103_eq k) _ _ _
  · exact step0 d L row ch k.val hk 6 (k0_off104 k) (k0_off104_eq k) _ _ _
  · exact step0 d L row ch k.val hk 7 (k0_off105 k) (k0_off105_eq k) _ _ _

/-- One trip of the loop over the context positions, chunk loop 14: 16 words per lane group are read, found to name table
    rows, and the entries they name added to the group's accumulator. -/
theorem trip14 (A0 : IVec S50x1024 32) (hA0 : ∀ x, (A0 x).toNat < 100000) (A1 : FVec F S64x100000 .f32) (dd : Fin 64) (c : Fin 8) (v589_7 : FVec F S16 .f32) (v615 : FVec F S16 .f32)
    (k : Fin k0_t14_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t14_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v589_7 v615 k acc)
          (linv1 (F := F) (U := U) d L A0 A1 dd c (k.val + 1)) := by
  obtain ⟨a0, a1, a2, a3, a4, a5, a6, a7⟩ := acc
  have hk : k.val < 50 := lt_of_lt_of_le k.isLt k0_t14_abs.2.1
  unfold k0_t14_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off106 k) (k0_off106_eq k) _ _ _
  · exact step1 d L row ch k.val hk 1 (k0_off107 k) (k0_off107_eq k) _ _ _
  · exact step1 d L row ch k.val hk 2 (k0_off108 k) (k0_off108_eq k) _ _ _
  · exact step1 d L row ch k.val hk 3 (k0_off109 k) (k0_off109_eq k) _ _ _
  · exact step1 d L row ch k.val hk 4 (k0_off110 k) (k0_off110_eq k) _ _ _
  · exact step1 d L row ch k.val hk 5 (k0_off111 k) (k0_off111_eq k) _ _ _
  · exact step1 d L row ch k.val hk 6 (k0_off112 k) (k0_off112_eq k) _ _ _
  · exact step1 d L row ch k.val hk 7 (k0_off113 k) (k0_off113_eq k) _ _ _

/-- One trip of the loop over the context positions, chunk loop 15: 16 words per lane group are read, found to name table
    rows, and the entries they name added to the group's accumulator. -/
theorem trip15 (A0 : IVec S50x1024 32) (hA0 : ∀ x, (A0 x).toNat < 100000) (A1 : FVec F S64x100000 .f32) (dd : Fin 64) (c : Fin 8)
    (k : Fin k0_t15_loop.trips) (acc : FVec F S16 .f32 × FVec F S16 .f32 × FVec F S16 .f32 × FVec F S16 .f32 × FVec F S16 .f32 × FVec F S16 .f32 × FVec F S16 .f32 × FVec F S16 .f32) :
    linv0 (F := F) (U := U) d L A0 A1 dd c k.val acc
      ⊢ wp frame (wpE (defs₀ (F := F)) 𝒱₀ (V d (cV L) (jV L)) none) Set.univ
          (k0_t15_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0  k acc)
          (linv0 (F := F) (U := U) d L A0 A1 dd c (k.val + 1)) := by
  obtain ⟨a0, a1, a2, a3, a4, a5, a6, a7⟩ := acc
  have hk : k.val < 50 := lt_of_lt_of_le k.isLt k0_t15_abs.2.1
  unfold k0_t15_body
  unfold SparseCore.vectorLoadIdx
  unfold linv0
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok0 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step0 d L row ch k.val hk 0 (k0_off114 k) (k0_off114_eq k) _ _ _
  · exact step0 d L row ch k.val hk 1 (k0_off115 k) (k0_off115_eq k) _ _ _
  · exact step0 d L row ch k.val hk 2 (k0_off116 k) (k0_off116_eq k) _ _ _
  · exact step0 d L row ch k.val hk 3 (k0_off117 k) (k0_off117_eq k) _ _ _
  · exact step0 d L row ch k.val hk 4 (k0_off118 k) (k0_off118_eq k) _ _ _
  · exact step0 d L row ch k.val hk 5 (k0_off119 k) (k0_off119_eq k) _ _ _
  · exact step0 d L row ch k.val hk 6 (k0_off120 k) (k0_off120_eq k) _ _ _
  · exact step0 d L row ch k.val hk 7 (k0_off121 k) (k0_off121_eq k) _ _ _

/-- One trip of the loop over the context positions, chunk loop 16: 16 words per lane group are read, found to name table
    rows, and the entries they name added to the group's accumulator. -/
theorem trip16 (A0 : IVec S50x1024 32) (hA0 : ∀ x, (A0 x).toNat < 100000) (A1 : FVec F S64x100000 .f32) (dd : Fin 64) (c : Fin 8) (v716 : FVec F S16 .f32) (v717 : FVec F S16 .f32) (cst_607 : F .f32)
    (k : Fin k0_t16_loop.trips) (acc : FVec F S16 .f32 × FVec F S16 .f32 × FVec F S16 .f32 × FVec F S16 .f32 × FVec F S16 .f32 × FVec F S16 .f32 × FVec F S16 .f32 × FVec F S16 .f32) :
    linv1 (F := F) (U := U) d L A0 A1 dd c k.val acc
      ⊢ wp frame (wpE (defs₀ (F := F)) 𝒱₀ (V d (cV L) (jV L)) none) Set.univ
          (k0_t16_body L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0 v716 v717 cst_607 k acc)
          (linv1 (F := F) (U := U) d L A0 A1 dd c (k.val + 1)) := by
  obtain ⟨a0, a1, a2, a3, a4, a5, a6, a7⟩ := acc
  have hk : k.val < 50 := lt_of_lt_of_le k.isLt k0_t16_abs.2.1
  unfold k0_t16_body
  unfold SparseCore.vectorLoadIdx
  unfold linv1
  iintro ⟨%row, %ch, Hrow, Hch, %hfacts⟩
  obtain ⟨hacc, hrow, hcc⟩ := hfacts
  have hch : ∀ x, (ch x).toNat < 100000 := by rw [hcc]; exact chunk_lt A0 hA0 c
  sl_exec (disch := (intro a x; exact chk_ok1 d L ch hch _ _ a x))
  sl_step
  iexists row, ch
  isplitl [Hrow]; · iexact Hrow
  isplitl [Hch]; · iexact Hch
  ipureintro
  refine And.intro ?_ (And.intro hrow hcc)
  simp only [accT, Prod.mk.injEq] at hacc ⊢
  obtain ⟨h0, h1, h2, h3, h4, h5, h6, h7⟩ := hacc
  subst h0 h1 h2 h3 h4 h5 h6 h7
  refine ⟨?_, ?_, ?_, ?_, ?_, ?_, ?_, ?_⟩
  · exact step1 d L row ch k.val hk 0 (k0_off122 k) (k0_off122_eq k) _ _ _
  · exact step1 d L row ch k.val hk 1 (k0_off123 k) (k0_off123_eq k) _ _ _
  · exact step1 d L row ch k.val hk 2 (k0_off124 k) (k0_off124_eq k) _ _ _
  · exact step1 d L row ch k.val hk 3 (k0_off125 k) (k0_off125_eq k) _ _ _
  · exact step1 d L row ch k.val hk 4 (k0_off126 k) (k0_off126_eq k) _ _ _
  · exact step1 d L row ch k.val hk 5 (k0_off127 k) (k0_off127_eq k) _ _ _
  · exact step1 d L row ch k.val hk 6 (k0_off128 k) (k0_off128_eq k) _ _ _
  · exact step1 d L row ch k.val hk 7 (k0_off129 k) (k0_off129_eq k) _ _ _

end Cert.Kernel.Tile

end
-- ==== Proof.KTileStage.lean ====
/-
  What a copy leaves in a scratch buffer, as a whole function. A task copies a window of an array into a scratch
  buffer of the window's shape, writing every element of the buffer: afterwards the buffer holds the window, whatever it
  held before. The window of 128 examples at column offset 128 c of the position-major context words is chunk c; the
  window of one row at row offset d of the feature-major table, with its unit axis dropped, is row d.
-/
import proofs.«204130_g36155034698017_cont_8to1_b_1516_18_alg».proof.Proof.KTileDefs

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)
open Cert.PoolFold (rowOf chunkOf)

variable {F : FTy → Type} [FloatOps F]
variable {U : Type} [URA U] [CountersIn U]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)

variable (d : Dev nD) (L : grid0.Coords)

omit [FloatOps F] in
/-- The window of 128 examples at column offset 128 c of the context words, read at an index, is the array at that
    position and example 128 c + the window's example. -/
theorem window_chunk (A0 : Buf (Elt F) ((SparseCore.T d : Thread nD τ).loc main_v0)) (c : Fin 8)
    (inb : ∀ a, (![0, 128 * c.val] : Fin 2 → Nat) a + S50x128.size a ≤ S50x1024.size a)
    (hst : ∀ a, (Rect.unit (s := S50x1024) ![0, 128 * c.val] S50x128.size inb).stride a = 1) :
    View.read (Elt F) ((ctxV).slice (Rect.unit (s := S50x1024) ![0, 128 * c.val] S50x128.size inb) hst).view A0 = chunkOf A0 c := by
  funext i
  rw [View.read_apply, cast_eq]
  unfold chunkOf
  refine congrArg A0 (funext fun a => Fin.ext ?_)
  match a with
  | ⟨0, _⟩ =>
    show 0 + 1 * (i 0).val = (i 0).val
    omega
  | ⟨1, _⟩ =>
    show 128 * c.val + 1 * (i 1).val = 128 * c.val + (i 1).val
    omega

omit [FloatOps F] in
/-- A chunk copied into the first index buffer: the buffer holds the chunk. -/
theorem staged0_eq (A0 : Buf (Elt F) ((SparseCore.T d : Thread nD τ).loc main_v0)) (prev : Buf (Elt F) ((V d (cV L) (jV L)).loc cc0_scratch1))
    (c : Fin 8) (off : Fin 2 → Nat) (hoff : off = ![0, 128 * c.val]) (inb : ∀ a, off a + S50x128.size a ≤ S50x1024.size a)
    (hst : ∀ a, (Rect.unit (s := S50x1024) off S50x128.size inb).stride a = 1) :
    View.write (Elt F) (i0V).view prev
        (ReadAs.same.apply (View.read (Elt F) ((ctxV).slice (Rect.unit (s := S50x1024) off S50x128.size inb) hst).view A0)) Finset.univ
      = chunkOf A0 c := by
  subst hoff
  simp only [Memref.view_whole, View.write_whole_univ, ReadAs.apply_same]
  exact window_chunk d A0 c inb hst

omit [FloatOps F] in
/-- A chunk copied into the second index buffer: the buffer holds the chunk. -/
theorem staged1_eq (A0 : Buf (Elt F) ((SparseCore.T d : Thread nD τ).loc main_v0)) (prev : Buf (Elt F) ((V d (cV L) (jV L)).loc cc0_scratch2))
    (c : Fin 8) (off : Fin 2 → Nat) (hoff : off = ![0, 128 * c.val]) (inb : ∀ a, off a + S50x128.size a ≤ S50x1024.size a)
    (hst : ∀ a, (Rect.unit (s := S50x1024) off S50x128.size inb).stride a = 1) :
    View.write (Elt F) (i1V).view prev
        (ReadAs.same.apply (View.read (Elt F) ((ctxV).slice (Rect.unit (s := S50x1024) off S50x128.size inb) hst).view A0)) Finset.univ
      = chunkOf A0 c := by
  subst hoff
  simp only [Memref.view_whole, View.write_whole_univ, ReadAs.apply_same]
  exact window_chunk d A0 c inb hst

/-- The window of one row at row offset d of the feature-major table, its unit axis dropped, read at an index, is the
    table at row d and that column. -/
theorem window_row (A1 : Buf (Elt F) ((SparseCore.T d : Thread nD τ).loc main_v1)) (dd : Fin 64)
    (inb : ∀ a, (![dd.val, 0] : Fin 2 → Nat) a + S1x100000.size a ≤ S64x100000.size a)
    (hst : ∀ a, (Rect.unit (s := S64x100000) ![dd.val, 0] S1x100000.size inb).stride a = 1)
    (hsq : (Rect.unit (s := S64x100000) ![dd.val, 0] S1x100000.size inb).shape.Squeezes S100000) :
    View.read (Elt F) (((tabV).slice (Rect.unit (s := S64x100000) ![dd.val, 0] S1x100000.size inb) hst).squeeze S100000 hsq).view A1
      = rowOf A1 dd := by
  funext j
  rw [View.read_apply, cast_eq]
  unfold rowOf
  -- the index of the window with the unit axis restored: row 0, the same column
  have hy : Shape.reshapeEquiv hsq.numel_eq j
      = (fun a => match a with
          | ⟨0, _⟩ => ⟨0, Nat.one_pos⟩
          | ⟨1, _⟩ => ⟨(j 0).val, (j 0).isLt⟩ : (⟨2, S1x100000.size⟩ : Shape).Idx) := by
    refine Shape.reshapeEquiv_eq_of_rowMajor hsq.numel_eq ?_
    rw [Shape.rowMajor_val_two, Shape.rowMajor_val_one]
    show 0 * 100000 + (j 0).val = (j 0).val
    omega
  refine congrArg A1 (funext fun a => Fin.ext ?_)
  match a with
  | ⟨0, _⟩ =>
    show dd.val + 1 * ((Shape.reshapeEquiv hsq.numel_eq j) (0 : Fin 2)).val = dd.val
    rw [hy]
    show dd.val + 1 * 0 = dd.val
    omega
  | ⟨1, _⟩ =>
    show 0 + 1 * ((Shape.reshapeEquiv hsq.numel_eq j) (1 : Fin 2)).val = (j 0).val
    rw [hy]
    show 0 + 1 * (j 0).val = (j 0).val
    omega

/-- A table row copied into the row scratch: the buffer holds the row. -/
theorem staged_row_eq (A1 : Buf (Elt F) ((SparseCore.T d : Thread nD τ).loc main_v1)) (prev : Buf (Elt F) ((V d (cV L) (jV L)).loc cc0_scratch0))
    (dd : Fin 64) (off : Fin 2 → Nat) (hoff : off = ![dd.val, 0]) (inb : ∀ a, off a + S1x100000.size a ≤ S64x100000.size a)
    (hst : ∀ a, (Rect.unit (s := S64x100000) off S1x100000.size inb).stride a = 1)
    (hsq : (Rect.unit (s := S64x100000) off S1x100000.size inb).shape.Squeezes S100000) :
    View.write (Elt F) (rowV).view prev
        (ReadAs.same.apply (View.read (Elt F) (((tabV).slice (Rect.unit (s := S64x100000) off S1x100000.size inb) hst).squeeze S100000 hsq).view A1))
        Finset.univ
      = rowOf A1 dd := by
  subst hoff
  simp only [Memref.view_whole, View.write_whole_univ, ReadAs.apply_same]
  exact window_row d A1 dd inb hst hsq

end Cert.Kernel.Tile

end
-- ==== Proof.KTileNames.lean ====
/-
  The pooling kernel as the launch theorem sees it: the call's configuration and facts, a task's thread and grid point,
  the two result rows a task writes, and its four transfer semaphores.
-/
import proofs.«204130_g36155034698017_cont_8to1_b_1516_18_alg».proof.Proof.KTileDefs

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

abbrev ΛP : Labels := Pipeline.Sig Λ₀ (Fin 1) fun p => (pcfgs (F := F) p).Adm
abbrev K : SparseCore.Cfg τ sig (ΛP (F := F)) 1 := sc (F := F)

/-- The two rows of the result this task writes, as the task slices them. -/
abbrev oRowK (L : grid0.Coords) : Memref sig .scVector .hbm S2x1024 .f32 :=
  (outV).slice (Rect.unit (s := S64x1024) (k0_off130 L) S2x1024.size (k0_off130_inb L)) (fun _ => rfl)

abbrev semA (d : Dev nD) (c : Fin τ.nSC) (i : Fin τ.nSub) : GSem nD τ sig := (V d c i, .dma cc0_scratch4.sem)
abbrev semB (d : Dev nD) (c : Fin τ.nSC) (i : Fin τ.nSub) : GSem nD τ sig := (V d c i, .dma cc0_scratch5.sem)
abbrev semC (d : Dev nD) (c : Fin τ.nSC) (i : Fin τ.nSub) : GSem nD τ sig := (V d c i, .dma cc0_scratch6.sem)
abbrev semD (d : Dev nD) (c : Fin τ.nSC) (i : Fin τ.nSub) : GSem nD τ sig := (V d c i, .dma cc0_scoped0.sem)

abbrev D : Defs nD τ sig (Elt F) (ΛP (F := F)) := Pipeline.defs pcfgs defs₀
abbrev 𝒱 : Variants := 𝒱₀.lift
abbrev v₀ : 𝒱.V := Sum.inl none

omit [FloatOps F] in
theorem nSub_zero : (K (F := F)).nSub 0 = 16 := rfl
omit [FloatOps F] in
theorem nCore_zero : (K (F := F)).nCore 0 = 2 := rfl

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The reciprocal of the number of context positions, as the kernel's body spells it. -/
def c50 : F .f32 := Scalar.ofBits .f32 0x3CA3D70A#32

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A task's number among the 32: subcore-major over the two cores. It writes result rows 2 w and 2 w + 1. -/
def wid (L : grid0.Coords) : ℕ := 2 * (L 1).val + (L 0).val

omit [FloatOps F] in
theorem wid_lt (L : grid0.Coords) : wid L < 32 := by
  have h1 : (L 1).val < 16 := (L 1).isLt
  have h0 : (L 0).val < 2 := (L 0).isLt
  unfold wid; omega

theorem odiv : 32 ∣ S64x1024.size 0 := ⟨2, rfl⟩
/-- Result rows 2 w and 2 w + 1. -/
abbrev orow (w : Fin 32) : Rect S64x1024 := Rect.part (s := S64x1024) (a₀ := 0) odiv w
abbrev oRowSet (w : Fin 32) : Finset S64x1024.Idx := ((outV).view.slice (orow w)).set

end Cert.Kernel.Tile

end
-- ==== Proof.KTileOut.lean ====
/-
  What a task leaves in its accumulator scratch and in its two result rows. The scratch is 2 rows of 1024 lanes; the
  task stores 128 tiles of 16 lanes into it: tile (r, c, g) sits in row r at lanes 128 c + 16 g to 128 c + 16 g + 15 and
  holds the 16 averaged entries of lane group g of chunk c over the table row of round r. The tiles are pairwise
  disjoint and cover the scratch, so the scratch read at (r, b) is the tile of chunk b / 128, lane group (b mod 128) / 16,
  at lane b mod 16: the pooled array at (row of round r, b). The two result rows are then written whole from the scratch.
-/
import proofs.«204130_g36155034698017_cont_8to1_b_1516_18_alg».proof.Proof.KTileNames
import Idealize.ShloMosaic.Lib.WritesUnit
import Idealize.ShloMosaic.Lib.Pipeline.Value

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)
open Cert.PoolFold (rowOf chunkOf outVec poolF)
open Idealize.ShloMosaic.ValueIdx (ix1 ix2 eq_ix2)

variable {F : FTy → Type} [FloatOps F]
variable {U : Type} [URA U] [CountersIn U]

local notation "outV" => (Memref.whole Cert.Kernel.main_v2_scv : Memref Cert.Kernel.sig Kind.scVector Space.hbm Cert.Kernel.S64x1024 EltTy.f32)
local notation "accV" => (Memref.whole Cert.Kernel.cc0_scratch3 : Memref Cert.Kernel.sig Kind.scVector Space.vmem Cert.Kernel.S2x1024 EltTy.f32)

variable (d : Dev nD) (L : grid0.Coords)

/-- Tile (r, c, g) lies inside the 2 x 1024 scratch. -/
theorem tile_inb (r : Fin 2) (c g : Fin 8) :
    ∀ a, (![r.val, 128 * c.val + 16 * g.val] : Fin 2 → ℕ) a + S1x16.size a ≤ S2x1024.size a := by
  intro a
  have hr := r.isLt
  have hc := c.isLt
  have hg := g.isLt
  match a with
  | ⟨0, _⟩ =>
    show r.val + 1 ≤ 2
    omega
  | ⟨1, _⟩ =>
    show 128 * c.val + 16 * g.val + 16 ≤ 1024
    omega

/-- Tile (r, c, g): its rectangle, and the 16 averaged entries it holds. -/
def tile (cc : F .f32) (A0 : IVec S50x1024 32) (A1 : FVec F S64x100000 .f32) (L : grid0.Coords) (r : Fin 2) (c g : Fin 8) :
    View.Piece (Elt F) S2x1024 .f32 :=
  ⟨Rect.unit (s := S2x1024) ![r.val, 128 * c.val + 16 * g.val] S1x16.size (tile_inb r c g),
    shapeCast S1x16 (outVec cc (rowOf A1 (dRow L r)) (chunkOf A0 c) g) shapeCasts_S16_S1x16⟩

/-- The tile stored `t`-th: round t / 64, chunk (t mod 64) / 8, lane group t mod 8. -/
def tileAt (cc : F .f32) (A0 : IVec S50x1024 32) (A1 : FVec F S64x100000 .f32) (L : grid0.Coords) (t : ℕ) :
    View.Piece (Elt F) S2x1024 .f32 :=
  tile cc A0 A1 L ⟨t / 64 % 2, Nat.mod_lt _ (by norm_num)⟩ ⟨t % 64 / 8, by omega⟩ ⟨t % 8, Nat.mod_lt _ (by norm_num)⟩

/-- The first `n` tiles stored, the latest first. -/
def tilesUpTo (cc : F .f32) (A0 : IVec S50x1024 32) (A1 : FVec F S64x100000 .f32) (L : grid0.Coords) :
    ℕ → List (View.Piece (Elt F) S2x1024 .f32)
  | 0 => []
  | n + 1 => tileAt cc A0 A1 L n :: tilesUpTo cc A0 A1 L n

/-- All 128 tiles, the latest first. -/
def tiles (cc : F .f32) (A0 : IVec S50x1024 32) (A1 : FVec F S64x100000 .f32) (L : grid0.Coords) :
    List (View.Piece (Elt F) S2x1024 .f32) :=
  tilesUpTo cc A0 A1 L 128

/-- Under the latest tile the scratch reads that tile's entry at the lane. -/
theorem read_tile_hit (cc : F .f32) (A0 : IVec S50x1024 32) (A1 : FVec F S64x100000 .f32)
    (fa : Buf (Elt F) ((V d (cV L) (jV L)).loc cc0_scratch3)) (Lst : List (View.Piece (Elt F) S2x1024 .f32))
    (r : Fin 2) (c g : Fin 8) (b : Fin 1024) (hb : b.val = 128 * c.val + 16 * g.val + b.val % 16) :
    (accV).view.read (Elt F) ((accV).view.writes (Elt F) fa (tile cc A0 A1 L r c g :: Lst)) (ix2 r b)
      = outVec cc (rowOf A1 (dRow L r)) (chunkOf A0 c) g (ix1 ⟨b.val % 16, Nat.mod_lt _ (by norm_num)⟩) := by
  unfold tile
  rw [View.read_writes_cons_unit_of_mem (accV).view fa (tile_inb r c g) _ Lst (ix2 r b)
    (fun a => match a with
      | ⟨0, _⟩ => ⟨0, Nat.one_pos⟩
      | ⟨1, _⟩ => ⟨b.val % 16, Nat.mod_lt _ (by norm_num)⟩) rfl
    (fun a => by
      match a with
      | ⟨0, _⟩ => show r.val = r.val + 0; omega
      | ⟨1, _⟩ => show b.val = 128 * c.val + 16 * g.val + b.val % 16; exact hb)]
  refine shapeCast_apply _ _ _ _ ?_
  rw [Shape.rowMajor_val_one, Shape.rowMajor_val_two]
  show b.val % 16 = 0 * 16 + b.val % 16
  omega

/-- Off the latest tile the scratch reads what the earlier tiles left. -/
theorem read_tile_miss (cc : F .f32) (A0 : IVec S50x1024 32) (A1 : FVec F S64x100000 .f32)
    (fa : Buf (Elt F) ((V d (cV L) (jV L)).loc cc0_scratch3)) (Lst : List (View.Piece (Elt F) S2x1024 .f32))
    (r : Fin 2) (c g : Fin 8) (r' : Fin 2) (b : Fin 1024)
    (h : r'.val ≠ r.val ∨ b.val < 128 * c.val + 16 * g.val ∨ 128 * c.val + 16 * g.val + 16 ≤ b.val) :
    (accV).view.read (Elt F) ((accV).view.writes (Elt F) fa (tile cc A0 A1 L r c g :: Lst)) (ix2 r' b)
      = (accV).view.read (Elt F) ((accV).view.writes (Elt F) fa Lst) (ix2 r' b) := by
  unfold tile
  rcases h with h | h
  · exact View.read_writes_cons_unit_of_not_mem (accV).view fa (tile_inb r c g) _ Lst (ix2 r' b) rfl (0 : Fin 2) (by
      show r'.val < r.val ∨ r.val + 1 ≤ r'.val
      omega)
  · exact View.read_writes_cons_unit_of_not_mem (accV).view fa (tile_inb r c g) _ Lst (ix2 r' b) rfl (1 : Fin 2) (by
      show b.val < 128 * c.val + 16 * g.val ∨ 128 * c.val + 16 * g.val + 16 ≤ b.val
      exact h)

/-- After the first `n` tiles, an entry whose tile is among them reads its tile. -/
theorem read_tilesUpTo (cc : F .f32) (A0 : IVec S50x1024 32) (A1 : FVec F S64x100000 .f32)
    (fa : Buf (Elt F) ((V d (cV L) (jV L)).loc cc0_scratch3)) (r : Fin 2) (b : Fin 1024) :
    ∀ n : ℕ, n ≤ 128 → 64 * r.val + 8 * (b.val / 128) + b.val % 128 / 16 < n →
      (accV).view.read (Elt F) ((accV).view.writes (Elt F) fa (tilesUpTo cc A0 A1 L n)) (ix2 r b)
        = outVec cc (rowOf A1 (dRow L r)) (chunkOf A0 ⟨b.val / 128, by have := b.isLt; omega⟩)
            ⟨b.val % 128 / 16, by omega⟩ (ix1 ⟨b.val % 16, Nat.mod_lt _ (by norm_num)⟩)
  | 0, _, h => absurd h (Nat.not_lt_zero _)
  | n + 1, hn, h => by
    have hr := r.isLt
    have hb := b.isLt
    show (accV).view.read (Elt F) ((accV).view.writes (Elt F) fa (tileAt cc A0 A1 L n :: tilesUpTo cc A0 A1 L n)) (ix2 r b) = _
    unfold tileAt
    by_cases hit : n = 64 * r.val + 8 * (b.val / 128) + b.val % 128 / 16
    · have e1 : (⟨n / 64 % 2, Nat.mod_lt _ (by norm_num)⟩ : Fin 2) = r := Fin.ext (by show n / 64 % 2 = r.val; omega)
      have e2 : (⟨n % 64 / 8, by omega⟩ : Fin 8) = ⟨b.val / 128, by omega⟩ := Fin.ext (by show n % 64 / 8 = b.val / 128; omega)
      have e3 : (⟨n % 8, Nat.mod_lt _ (by norm_num)⟩ : Fin 8) = ⟨b.val % 128 / 16, by omega⟩ :=
        Fin.ext (by show n % 8 = b.val % 128 / 16; omega)
      rw [e1, e2, e3]
      exact read_tile_hit d L cc A0 A1 fa _ r _ _ b (by show b.val = 128 * (b.val / 128) + 16 * (b.val % 128 / 16) + b.val % 16; omega)
    · rw [read_tile_miss d L cc A0 A1 fa _ _ _ _ r b (by
        show r.val ≠ n / 64 % 2 ∨ b.val < 128 * (n % 64 / 8) + 16 * (n % 8) ∨ 128 * (n % 64 / 8) + 16 * (n % 8) + 16 ≤ b.val
        omega)]
      exact read_tilesUpTo cc A0 A1 fa r b n (by omega) (by omega)

/-- THE SCRATCH READ BACK: after the 128 tiles, entry (r, b) is the pooled array at (row of round r, b). -/
theorem acc_readback (cc : F .f32) (A0 : IVec S50x1024 32) (A1 : FVec F S64x100000 .f32)
    (fa : Buf (Elt F) ((V d (cV L) (jV L)).loc cc0_scratch3)) (r : Fin 2) (b : Fin 1024) :
    (accV).view.writes (Elt F) fa (tiles cc A0 A1 L) (ix2 r b) = poolF cc A0 A1 (ix2 (dRow L r) b) := by
  have hr := r.isLt
  have hb := b.isLt
  exact read_tilesUpTo d L cc A0 A1 fa r b 128 (Nat.le_refl _) (by omega)

/-- THE RESULT ROWS: the two rows a task writes whole from its scratch hold the pooled array. -/
theorem out_rows_eq (cc : F .f32) (A0 : IVec S50x1024 32) (A1 : FVec F S64x100000 .f32)
    (fo : Buf (Elt F) ((SparseCore.T d : Thread nD τ).loc main_v2)) (fa : Buf (Elt F) ((V d (cV L) (jV L)).loc cc0_scratch3))
    (LL : List (View.Piece (Elt F) S2x1024 .f32)) (hLL : LL = tiles cc A0 A1 L) :
    ∀ i ∈ (oRowK L).view.set,
      ((oRowK L).view.writes (Elt F) fo
        [⟨Rect.whole S2x1024, ReadAs.same.apply (View.read (Elt F) (accV).view ((accV).view.writes (Elt F) fa LL))⟩]) i
        = poolF cc A0 A1 i := by
  subst hLL
  intro i hi
  obtain ⟨y, -, rfl⟩ := Finset.mem_map.mp hi
  obtain ⟨r, b, rfl⟩ : ∃ (r : Fin 2) (b : Fin 1024), y = ix2 r b := ⟨y 0, y 1, eq_ix2 y⟩
  have hrd := View.read_writes_cons_emb (oRowK L).view fo (Rect.whole S2x1024)
    (ReadAs.same.apply (View.read (Elt F) (accV).view ((accV).view.writes (Elt F) fa (tiles cc A0 A1 L)))) [] (ix2 r b)
  rw [Rect.emb_whole_apply, View.read_apply, cast_eq] at hrd
  rw [hrd]
  have hacc := acc_readback d L cc A0 A1 fa r b
  have hidx : (oRowK L).view.emb (ix2 r b) = ix2 (dRow L r) b := by
    funext a
    refine Fin.ext ?_
    have ho := k0_off130_eq L
    match a with
    | ⟨0, _⟩ =>
      show k0_off130 L 0 + 1 * r.val = 4 * (L 1).val + 2 * (L 0).val + r.val
      rw [ho]
      show 4 * (L 1).val + 2 * (L 0).val + 1 * r.val = _
      omega
    | ⟨1, _⟩ =>
      show k0_off130 L 1 + 1 * b.val = b.val
      rw [ho]
      show 0 + 1 * b.val = b.val
      omega
  rw [hidx]
  exact hacc

end Cert.Kernel.Tile

end
-- ==== Proof.KTileBody.lean ====
/-
  A task of the pooling kernel, run: two table rows, for each eight chunks of 128 examples; the chunk's context words and the
  table row are staged by copies whose waits precede every read; eight accumulators sum 50 looked-up entries each and are
  stored times the reciprocal of 50; the two finished rows are written out by one copy.
-/
import proofs.«204130_g36155034698017_cont_8to1_b_1516_18_alg».proof.Proof.KTileDefs
import proofs.«204130_g36155034698017_cont_8to1_b_1516_18_alg».proof.Proof.KLoopsA
import proofs.«204130_g36155034698017_cont_8to1_b_1516_18_alg».proof.Proof.KLoopsB
import proofs.«204130_g36155034698017_cont_8to1_b_1516_18_alg».proof.Proof.KLoopsC
import proofs.«204130_g36155034698017_cont_8to1_b_1516_18_alg».proof.Proof.KLoopsD
import proofs.«204130_g36155034698017_cont_8to1_b_1516_18_alg».proof.Proof.KTileStage
import proofs.«204130_g36155034698017_cont_8to1_b_1516_18_alg».proof.Proof.KTileNames
import proofs.«204130_g36155034698017_cont_8to1_b_1516_18_alg».proof.Proof.KTileOut

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PoolFold (accF gstep)

variable {F : FTy → Type} [FloatOps F]
variable {U : Type} [URA U] [CountersIn U]

local notation "𝕄" => MT nD τ sig (HIx 1) (Elt F) ℕ U ℕ

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

variable (d : Dev nD) (L : grid0.Coords)

omit [FloatOps F] [CountersIn U] in
theorem waits_grow {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

set_option maxHeartbeats 40000000 in
/-- A task of the pooling kernel, in the spelling its body's memrefs give the resources: from its shares of the two read-only
    arrays, its two result rows, its four scratch buffers and four transfer semaphores at zero, it runs to the end, gives
    all of them back, the two result rows at the averaged features. -/
theorem tile_core (q0 q1 : PosShare TreeShare)
    (A0 : Buf (Elt F) ((SparseCore.T d).loc main_v0)) (A1 : Buf (Elt F) ((SparseCore.T d).loc main_v1))
    (fo : Buf (Elt F) ((SparseCore.T d).loc main_v2))
    (hA0 : ∀ x, (A0 x).toNat < 100000)
    (fr : Buf (Elt F) ((V d (cV L) (jV L)).loc cc0_scratch0)) (f0 : Buf (Elt F) ((V d (cV L) (jV L)).loc cc0_scratch1))
    (f1 : Buf (Elt F) ((V d (cV L) (jV L)).loc cc0_scratch2)) (fa : Buf (Elt F) ((V d (cV L) (jV L)).loc cc0_scratch3))
    (O : CellTallies nD τ sig (HIx 1)) (W : Waits sig (HIx 1)) :
    iprop(Transfers.MayWaits (V d (cV L) (jV L)) (default : HIx 1) O
        ∗ ((ctxV).view.loc (V d (cV L) (jV L)) ↦{q0} A0) ∗ ((tabV).view.loc (V d (cV L) (jV L)) ↦{q1} A1)
        ∗ ((oRowK L).view.loc (V d (cV L) (jV L)) ↦[(oRowK L).view.set]{fullShare} fo)
        ∗ ((rowV).view.loc (V d (cV L) (jV L)) ↦{fullShare} fr) ∗ ((i0V).view.loc (V d (cV L) (jV L)) ↦{fullShare} f0)
        ∗ ((i1V).view.loc (V d (cV L) (jV L)) ↦{fullShare} f1) ∗ ((accV).view.loc (V d (cV L) (jV L)) ↦{fullShare} fa)
        ∗ semVal (semA d (cV L) (jV L)) 0 ∗ semVal (semB d (cV L) (jV L)) 0 ∗ semVal (semC d (cV L) (jV L)) 0 ∗ semVal (semD d (cV L) (jV L)) 0
        ∗ owes (V d (cV L) (jV L)) O W)
      ⊢ wp frame (wpE (defs₀ (F := F)) 𝒱₀ (V d (cV L) (jV L)) none) Set.univ
          (cc0__sc_pool_kernel L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0)
          fun _ => (iprop(((ctxV).view.loc (V d (cV L) (jV L)) ↦{q0} A0) ∗ ((tabV).view.loc (V d (cV L) (jV L)) ↦{q1} A1)
            ∗ ((oRowK L).view.loc (V d (cV L) (jV L)) ↦[(oRowK L).view.set]{fullShare} Cert.PoolFold.poolF (c50 (F := F)) A0 A1)
            ∗ (∃ f, (rowV).view.loc (V d (cV L) (jV L)) ↦{fullShare} f) ∗ (∃ f, (i0V).view.loc (V d (cV L) (jV L)) ↦{fullShare} f)
            ∗ (∃ f, (i1V).view.loc (V d (cV L) (jV L)) ↦{fullShare} f) ∗ (∃ f, (accV).view.loc (V d (cV L) (jV L)) ↦{fullShare} f)
            ∗ semVal (semA d (cV L) (jV L)) 0 ∗ semVal (semB d (cV L) (jV L)) 0 ∗ semVal (semC d (cV L) (jV L)) 0 ∗ semVal (semD d (cV L) (jV L)) 0
            ∗ ∃ W' : Waits sig (HIx 1), ⌜∀ p ∈ W', p ∈ W ∨ p.2 = none⌝ ∗ owes (V d (cV L) (jV L)) O W') : sProp 𝕄) := by
  rw [cc0__sc_pool_kernel_eq_skeleton]; unfold cc0__sc_pool_kernel_skel
  iintro ⟨Hmw, Hc, Ht, Ho, Hrow, Hi0, Hi1, Hacc, HsA, HsB, HsC, HsD, HO⟩
  sl_exec_parts
  -- chunk 0 of table round 0
  sl_for (linv0 (F := F) (U := U) d L A0 A1 (dRow L 0) 0) $$ [Hrow Hi0]
  case region =>
    intro k acc
    exact trip1 d L A0 hA0 A1 (dRow L 0) 0 _ _ _ _ _ _ _ _ k acc
  · unfold linv0
    iexists _, _
    isplitl [Hrow]; · iexact Hrow
    isplitl [Hi0]; · iexact Hi0
    ipureintro
    exact ⟨rfl, staged_row_eq d L A1 _ (dRow L 0) _ (k0_off1_eq L 0) _ _ _, staged0_eq d L A0 _ 0 _ rfl _ _⟩
  iintro %acc1 HI
  unfold linv0
  icases HI with ⟨%row1, %ch1, Hrow, Hi0, %hf1⟩
  obtain ⟨hacc1, hrow1, hch1⟩ := hf1
  have hacc1' : acc1 = accT row1 ch1 50 := hacc1
  clear hacc1
  subst hacc1' hrow1 hch1
  sl_exec_parts
  -- chunk 1 of table round 0
  sl_for (linv1 (F := F) (U := U) d L A0 A1 (dRow L 0) 1) $$ [Hrow Hi1]
  case region =>
    intro k acc
    exact trip2 d L A0 hA0 A1 (dRow L 0) 1 _ _ k acc
  · unfold linv1
    iexists _, _
    isplitl [Hrow]; · iexact Hrow
    isplitl [Hi1]; · iexact Hi1
    ipureintro
    exact ⟨rfl, rfl, staged1_eq d L A0 _ 1 _ rfl _ _⟩
  iintro %acc2 HI
  unfold linv1
  icases HI with ⟨%row2, %ch2, Hrow, Hi1, %hf2⟩
  obtain ⟨hacc2, hrow2, hch2⟩ := hf2
  have hacc2' : acc2 = accT row2 ch2 50 := hacc2
  clear hacc2
  subst hacc2' hrow2 hch2
  sl_exec_parts
  -- chunk 2 of table round 0
  sl_for (linv0 (F := F) (U := U) d L A0 A1 (dRow L 0) 2) $$ [Hrow Hi0]
  case region =>
    intro k acc
    exact trip3 d L A0 hA0 A1 (dRow L 0) 2 _ k acc
  · unfold linv0
    iexists _, _
    isplitl [Hrow]; · iexact Hrow
    isplitl [Hi0]; · iexact Hi0
    ipureintro
    exact ⟨rfl, rfl, staged0_eq d L A0 _ 2 _ rfl _ _⟩
  iintro %acc3 HI
  unfold linv0
  icases HI with ⟨%row3, %ch3, Hrow, Hi0, %hf3⟩
  obtain ⟨hacc3, hrow3, hch3⟩ := hf3
  have hacc3' : acc3 = accT row3 ch3 50 := hacc3
  clear hacc3
  subst hacc3' hrow3 hch3
  sl_exec_parts
  -- chunk 3 of table round 0
  sl_for (linv1 (F := F) (U := U) d L A0 A1 (dRow L 0) 3) $$ [Hrow Hi1]
  case region =>
    intro k acc
    exact trip4 d L A0 hA0 A1 (dRow L 0) 3  k acc
  · unfold linv1
    iexists _, _
    isplitl [Hrow]; · iexact Hrow
    isplitl [Hi1]; · iexact Hi1
    ipureintro
    exact ⟨rfl, rfl, staged1_eq d L A0 _ 3 _ rfl _ _⟩
  iintro %acc4 HI
  unfold linv1
  icases HI with ⟨%row4, %ch4, Hrow, Hi1, %hf4⟩
  obtain ⟨hacc4, hrow4, hch4⟩ := hf4
  have hacc4' : acc4 = accT row4 ch4 50 := hacc4
  clear hacc4
  subst hacc4' hrow4 hch4
  sl_exec_parts
  -- chunk 4 of table round 0
  sl_for (linv0 (F := F) (U := U) d L A0 A1 (dRow L 0) 4) $$ [Hrow Hi0]
  case region =>
    intro k acc
    exact trip5 d L A0 hA0 A1 (dRow L 0) 4 _ _ k acc
  · unfold linv0
    iexists _, _
    isplitl [Hrow]; · iexact Hrow
    isplitl [Hi0]; · iexact Hi0
    ipureintro
    exact ⟨rfl, rfl, staged0_eq d L A0 _ 4 _ rfl _ _⟩
  iintro %acc5 HI
  unfold linv0
  icases HI with ⟨%row5, %ch5, Hrow, Hi0, %hf5⟩
  obtain ⟨hacc5, hrow5, hch5⟩ := hf5
  have hacc5' : acc5 = accT row5 ch5 50 := hacc5
  clear hacc5
  subst hacc5' hrow5 hch5
  sl_exec_parts
  -- chunk 5 of table round 0
  sl_for (linv1 (F := F) (U := U) d L A0 A1 (dRow L 0) 5) $$ [Hrow Hi1]
  case region =>
    intro k acc
    exact trip6 d L A0 hA0 A1 (dRow L 0) 5 _ _ _ _ _ _ _ _ k acc
  · unfold linv1
    iexists _, _
    isplitl [Hrow]; · iexact Hrow
    isplitl [Hi1]; · iexact Hi1
    ipureintro
    exact ⟨rfl, rfl, staged1_eq d L A0 _ 5 _ rfl _ _⟩
  iintro %acc6 HI
  unfold linv1
  icases HI with ⟨%row6, %ch6, Hrow, Hi1, %hf6⟩
  obtain ⟨hacc6, hrow6, hch6⟩ := hf6
  have hacc6' : acc6 = accT row6 ch6 50 := hacc6
  clear hacc6
  subst hacc6' hrow6 hch6
  sl_exec_parts
  -- chunk 6 of table round 0
  sl_for (linv0 (F := F) (U := U) d L A0 A1 (dRow L 0) 6) $$ [Hrow Hi0]
  case region =>
    intro k acc
    exact trip7 d L A0 hA0 A1 (dRow L 0) 6 _ _ k acc
  · unfold linv0
    iexists _, _
    isplitl [Hrow]; · iexact Hrow
    isplitl [Hi0]; · iexact Hi0
    ipureintro
    exact ⟨rfl, rfl, staged0_eq d L A0 _ 6 _ rfl _ _⟩
  iintro %acc7 HI
  unfold linv0
  icases HI with ⟨%row7, %ch7, Hrow, Hi0, %hf7⟩
  obtain ⟨hacc7, hrow7, hch7⟩ := hf7
  have hacc7' : acc7 = accT row7 ch7 50 := hacc7
  clear hacc7
  subst hacc7' hrow7 hch7
  sl_exec_parts
  -- chunk 7 of table round 0
  sl_for (linv1 (F := F) (U := U) d L A0 A1 (dRow L 0) 7) $$ [Hrow Hi1]
  case region =>
    intro k acc
    exact trip8 d L A0 hA0 A1 (dRow L 0) 7 _ k acc
  · unfold linv1
    iexists _, _
    isplitl [Hrow]; · iexact Hrow
    isplitl [Hi1]; · iexact Hi1
    ipureintro
    exact ⟨rfl, rfl, staged1_eq d L A0 _ 7 _ rfl _ _⟩
  iintro %acc8 HI
  unfold linv1
  icases HI with ⟨%row8, %ch8, Hrow, Hi1, %hf8⟩
  obtain ⟨hacc8, hrow8, hch8⟩ := hf8
  have hacc8' : acc8 = accT row8 ch8 50 := hacc8
  clear hacc8
  subst hacc8' hrow8 hch8
  sl_exec_parts
  -- chunk 0 of table round 1
  sl_for (linv0 (F := F) (U := U) d L A0 A1 (dRow L 1) 0) $$ [Hrow Hi0]
  case region =>
    intro k acc
    exact trip9 d L A0 hA0 A1 (dRow L 1) 0  k acc
  · unfold linv0
    iexists _, _
    isplitl [Hrow]; · iexact Hrow
    isplitl [Hi0]; · iexact Hi0
    ipureintro
    exact ⟨rfl, staged_row_eq d L A1 _ (dRow L 1) _ (k0_off1_eq L 1) _ _ _, staged0_eq d L A0 _ 0 _ rfl _ _⟩
  iintro %acc9 HI
  unfold linv0
  icases HI with ⟨%row9, %ch9, Hrow, Hi0, %hf9⟩
  obtain ⟨hacc9, hrow9, hch9⟩ := hf9
  have hacc9' : acc9 = accT row9 ch9 50 := hacc9
  clear hacc9
  subst hacc9' hrow9 hch9
  sl_exec_parts
  -- chunk 1 of table round 1
  sl_for (linv1 (F := F) (U := U) d L A0 A1 (dRow L 1) 1) $$ [Hrow Hi1]
  case region =>
    intro k acc
    exact trip10 d L A0 hA0 A1 (dRow L 1) 1  k acc
  · unfold linv1
    iexists _, _
    isplitl [Hrow]; · iexact Hrow
    isplitl [Hi1]; · iexact Hi1
    ipureintro
    exact ⟨rfl, rfl, staged1_eq d L A0 _ 1 _ rfl _ _⟩
  iintro %acc10 HI
  unfold linv1
  icases HI with ⟨%row10, %ch10, Hrow, Hi1, %hf10⟩
  obtain ⟨hacc10, hrow10, hch10⟩ := hf10
  have hacc10' : acc10 = accT row10 ch10 50 := hacc10
  clear hacc10
  subst hacc10' hrow10 hch10
  sl_exec_parts
  -- chunk 2 of table round 1
  sl_for (linv0 (F := F) (U := U) d L A0 A1 (dRow L 1) 2) $$ [Hrow Hi0]
  case region =>
    intro k acc
    exact trip11 d L A0 hA0 A1 (dRow L 1) 2  k acc
  · unfold linv0
    iexists _, _
    isplitl [Hrow]; · iexact Hrow
    isplitl [Hi0]; · iexact Hi0
    ipureintro
    exact ⟨rfl, rfl, staged0_eq d L A0 _ 2 _ rfl _ _⟩
  iintro %acc11 HI
  unfold linv0
  icases HI with ⟨%row11, %ch11, Hrow, Hi0, %hf11⟩
  obtain ⟨hacc11, hrow11, hch11⟩ := hf11
  have hacc11' : acc11 = accT row11 ch11 50 := hacc11
  clear hacc11
  subst hacc11' hrow11 hch11
  sl_exec_parts
  -- chunk 3 of table round 1
  sl_for (linv1 (F := F) (U := U) d L A0 A1 (dRow L 1) 3) $$ [Hrow Hi1]
  case region =>
    intro k acc
    exact trip12 d L A0 hA0 A1 (dRow L 1) 3 _ _ _ _ _ k acc
  · unfold linv1
    iexists _, _
    isplitl [Hrow]; · iexact Hrow
    isplitl [Hi1]; · iexact Hi1
    ipureintro
    exact ⟨rfl, rfl, staged1_eq d L A0 _ 3 _ rfl _ _⟩
  iintro %acc12 HI
  unfold linv1
  icases HI with ⟨%row12, %ch12, Hrow, Hi1, %hf12⟩
  obtain ⟨hacc12, hrow12, hch12⟩ := hf12
  have hacc12' : acc12 = accT row12 ch12 50 := hacc12
  clear hacc12
  subst hacc12' hrow12 hch12
  sl_exec_parts
  -- chunk 4 of table round 1
  sl_for (linv0 (F := F) (U := U) d L A0 A1 (dRow L 1) 4) $$ [Hrow Hi0]
  case region =>
    intro k acc
    exact trip13 d L A0 hA0 A1 (dRow L 1) 4 _ _ _ k acc
  · unfold linv0
    iexists _, _
    isplitl [Hrow]; · iexact Hrow
    isplitl [Hi0]; · iexact Hi0
    ipureintro
    exact ⟨rfl, rfl, staged0_eq d L A0 _ 4 _ rfl _ _⟩
  iintro %acc13 HI
  unfold linv0
  icases HI with ⟨%row13, %ch13, Hrow, Hi0, %hf13⟩
  obtain ⟨hacc13, hrow13, hch13⟩ := hf13
  have hacc13' : acc13 = accT row13 ch13 50 := hacc13
  clear hacc13
  subst hacc13' hrow13 hch13
  sl_exec_parts
  -- chunk 5 of table round 1
  sl_for (linv1 (F := F) (U := U) d L A0 A1 (dRow L 1) 5) $$ [Hrow Hi1]
  case region =>
    intro k acc
    exact trip14 d L A0 hA0 A1 (dRow L 1) 5 _ _ k acc
  · unfold linv1
    iexists _, _
    isplitl [Hrow]; · iexact Hrow
    isplitl [Hi1]; · iexact Hi1
    ipureintro
    exact ⟨rfl, rfl, staged1_eq d L A0 _ 5 _ rfl _ _⟩
  iintro %acc14 HI
  unfold linv1
  icases HI with ⟨%row14, %ch14, Hrow, Hi1, %hf14⟩
  obtain ⟨hacc14, hrow14, hch14⟩ := hf14
  have hacc14' : acc14 = accT row14 ch14 50 := hacc14
  clear hacc14
  subst hacc14' hrow14 hch14
  sl_exec_parts
  -- chunk 6 of table round 1
  sl_for (linv0 (F := F) (U := U) d L A0 A1 (dRow L 1) 6) $$ [Hrow Hi0]
  case region =>
    intro k acc
    exact trip15 d L A0 hA0 A1 (dRow L 1) 6  k acc
  · unfold linv0
    iexists _, _
    isplitl [Hrow]; · iexact Hrow
    isplitl [Hi0]; · iexact Hi0
    ipureintro
    exact ⟨rfl, rfl, staged0_eq d L A0 _ 6 _ rfl _ _⟩
  iintro %acc15 HI
  unfold linv0
  icases HI with ⟨%row15, %ch15, Hrow, Hi0, %hf15⟩
  obtain ⟨hacc15, hrow15, hch15⟩ := hf15
  have hacc15' : acc15 = accT row15 ch15 50 := hacc15
  clear hacc15
  subst hacc15' hrow15 hch15
  sl_exec_parts
  -- chunk 7 of table round 1
  sl_for (linv1 (F := F) (U := U) d L A0 A1 (dRow L 1) 7) $$ [Hrow Hi1]
  case region =>
    intro k acc
    exact trip16 d L A0 hA0 A1 (dRow L 1) 7 _ _ _ k acc
  · unfold linv1
    iexists _, _
    isplitl [Hrow]; · iexact Hrow
    isplitl [Hi1]; · iexact Hi1
    ipureintro
    exact ⟨rfl, rfl, staged1_eq d L A0 _ 7 _ rfl _ _⟩
  iintro %acc16 HI
  unfold linv1
  icases HI with ⟨%row16, %ch16, Hrow, Hi1, %hf16⟩
  obtain ⟨hacc16, hrow16, hch16⟩ := hf16
  have hacc16' : acc16 = accT row16 ch16 50 := hacc16
  clear hacc16
  subst hacc16' hrow16 hch16
  sl_exec_parts
  sl_step
  isplitl [Hc]; · iexact Hc
  isplitl [Ht]; · iexact Ht
  isplitl [Ho]
  · ihave Ho' := (Entails.of_eq (pointsTo_congr (out_rows_eq (F := F) d L (c50 (F := F)) A0 A1 fo fa _ rfl))) $$ Ho
    iexact Ho'
  isplitl [Hrow]; · iexists _; iexact Hrow
  isplitl [Hi0]; · iexists _; iexact Hi0
  isplitl [Hi1]; · iexists _; iexact Hi1
  isplitl [Hacc]; · iexists _; iexact Hacc
  isplitl [HsA]; · iexact HsA
  isplitl [HsB]; · iexact HsB
  isplitl [HsC]; · iexact HsC
  isplitl [HsD]; · iexact HsD
  iexists _; isplitr
  swap; · iexact HO
  ipureintro
  repeat' apply waits_grow
  exact fun p hp => .inl hp

end Cert.Kernel.Tile

end
-- ==== Proof.KLaunchDefs.lean ====
/-
  The launch of the pooling kernel's 32 tasks and what the handshakes carry: the ghost state (the handshakes' rounds, the
  matrix unit's staging cells, the transfers' counters), the contents of the two transposed arrays at the call, the shares
  of them a task reads, the two result rows a task writes, and the record of what each start / go / done hands over.
-/
import proofs.«204130_g36155034698017_cont_8to1_b_1516_18_alg».proof.Proof.KTileNames

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

/-! ## The resource algebra -/

abbrev UH : Type := URounds (GSem nD τ sig) ℕ
abbrev UP : Type := URounds (GSem nD τ sig) Unit
abbrev UU : Type := (UH × UP) × Counters

local notation "𝕄" => MT nD τ sig (HIx 1) (Elt F) ℕ UU ℕ

/-- The handshakes' rounds: the first factor. -/
def EH : Emb UH (MT nD τ sig (HIx 1) (Elt F) ℕ UU ℕ) :=
  ((Emb.inl : Emb UH (UH × UP)).trans (Emb.inl : Emb (UH × UP) UU)).trans
    (uEmb (nD := nD) (τ := τ) (sig := sig) (Ix := HIx 1) (Val := Elt F) (Name := ℕ) (U := UU) (Lvl := ℕ)).toEmb
/-- The matrix unit's staging cells' rounds: the second factor. -/
def EP : Emb UP (MT nD τ sig (HIx 1) (Elt F) ℕ UU ℕ) :=
  ((Emb.inr : Emb UP (UH × UP)).trans (Emb.inl : Emb (UH × UP) UU)).trans
    (uEmb (nD := nD) (τ := τ) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- The context words position-major, as the first host operation leaves them. -/
def A0 (d : Dev nD) : Buf (Elt F) (v0Loc d) :=
  transpose S50x1024 [1, 0] (m (a0Loc d)) transposes_S1024x50_S50x1024_1_0
/-- The table feature-major, as the second host operation leaves it. -/
def A1 (d : Dev nD) : Buf (Elt F) (v1Loc d) :=
  transpose S64x100000 [1, 0] (m (a1Loc d)) transposes_S100000x64_S64x100000_1_0
/-- What the pooling kernel leaves: the averaged features, feature-major. -/
def PF (d : Dev nD) : Buf (Elt F) (v2Loc d) := Cert.PoolFold.poolF (c50 (F := F)) (A0 m d) (A1 m d)

/-! ## Shares: the full share halved five times, one leaf per task -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The share of the two read-only arrays task `w` holds. -/
abbrev tq (w : Fin 32) : PosShare TreeShare := leaf 5 fullShare w

/-! ## What the handshakes carry -/

/-- What a task is handed: its shares of the two read-only arrays and its two result rows, at anything. -/
def goP (d : Dev nD) (w : Fin 32) : sProp 𝕄 :=
  iprop((v0Loc d ↦{tq w} A0 m d) ∗ (v1Loc d ↦{tq w} A1 m d) ∗ ∃ f, v2Loc d ↦[oRowSet w]{fullShare} f)
/-- What a task hands back: the same shares, and its two result rows at the averaged features. -/
def tdP (d : Dev nD) (w : Fin 32) : sProp 𝕄 :=
  iprop((v0Loc d ↦{tq w} A0 m d) ∗ (v1Loc d ↦{tq w} A1 m d) ∗ (v2Loc d ↦[oRowSet w]{fullShare} PF m d))

/-- Task number of vector subcore `i` of SparseCore `c`, as numbers. -/
def wOf (c i : ℕ) : Fin 32 := ⟨(2 * i + c) % 32, Nat.mod_lt _ (by norm_num)⟩

/-- The one call hands SparseCore `c` its sixteen tasks' parts, each task its own, and takes them back. -/
def P : (K (F := F)).Pay (nD := nD) (Val := Elt F) (Name := ℕ) (U := UU) where
  st := fun q d c => bigSep Finset.univ fun i : Fin ((K (F := F)).nSub q) => goP m d (wOf c.val i.val)
  dn := fun q d c => bigSep Finset.univ fun i : Fin ((K (F := F)).nSub q) => tdP m d (wOf c.val i.val)
  go := fun _ d c i => goP m d (wOf c.val i.val)
  td := fun _ d c i => tdP m d (wOf c.val i.val)
  x := fun _ _ => iprop(emp)

instance P_storable : (P (F := F) m).IsStorable where
  st _ _ _ := by unfold P goP; infer_instance
  dn _ _ _ := by unfold P tdP; infer_instance
  go _ _ _ _ := by unfold P goP; infer_instance
  td _ _ _ _ := by unfold P tdP; infer_instance

/-- The sequencer deals its tasks' parts as they come and collects them as they return. -/
theorem vecSplit : (K (F := F)).VecSplit' (P m) 0 := by
  intro d c
  show (bigSep Finset.univ fun i : Fin ((K (F := F)).nSub 0) => goP m d (wOf c.val i.val)) ⊢ |={Set.univ}=> iprop(
      (bigSep Finset.univ fun i : Fin ((K (F := F)).nSub 0) => goP m d (wOf c.val i.val))
      ∗ ((bigSep Finset.univ fun i : Fin ((K (F := F)).nSub 0) => tdP m d (wOf c.val i.val))
          -∗ (bigSep Finset.univ fun i : Fin ((K (F := F)).nSub 0) => tdP m d (wOf c.val i.val))))
  iintro H; imodintro
  isplitl [H]; · iexact H
  iintro H; iexact H

end Cert.Kernel.Tile

end
-- ==== Proof.KTileObl.lean ====
/-
  The launch theorem's obligation for a task: from what the go handshake hands it, its own scratch buffers and semaphores,
  the task runs (its body's run) and hands back what the done handshake carries.
-/
import proofs.«204130_g36155034698017_cont_8to1_b_1516_18_alg».proof.Proof.KTileBody
import proofs.«204130_g36155034698017_cont_8to1_b_1516_18_alg».proof.Proof.KLaunchDefs
import proofs.«204130_g36155034698017_cont_8to1_b_1516_18_alg».proof.Proof.PoolFoldIdeal

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

local notation "𝕄" => MT nD τ sig (HIx 1) (Elt F) ℕ UU ℕ

variable (m : (ℓ : Loc nD τ sig) → Buf (Elt F) ℓ) (ρ : Dev nD → PrngReg)

/-- What the proof asks of the launch memory: every context word names a table row. -/
def PreOK : Prop := ∀ (d : Dev nD) (x : S1024x50.Idx), (m (a0Loc d) x).toNat < 100000

theorem A0_lt (hpre : PreOK m) (d : Dev nD) : ∀ x, (A0 m d x).toNat < 100000 := by
  intro x
  unfold A0
  rw [Cert.PoolFold.transpose_swap]
  exact hpre d _

section Tile

variable (d : Dev nD) (L : grid0.Coords)

omit [FloatOps F] in
/-- The rows the task slices are its two rows of the launch's dealing. -/
theorem oRowK_rect : Rect.unit (s := S64x1024) (k0_off130 L) S2x1024.size (k0_off130_inb L) = orow ⟨wid L, wid_lt L⟩ := by
  unfold orow Rect.part Rect.block
  congr 1 <;> funext a
  · rw [k0_off130_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_oRowK : (oRowK L).view.set = oRowSet ⟨wid L, wid_lt L⟩ := by
  show ((outV).view.slice (Rect.unit (s := S64x1024) (k0_off130 L) S2x1024.size (k0_off130_inb L))).set = ((outV).view.slice (orow ⟨wid L, wid_lt L⟩)).set
  rw [oRowK_rect]

omit [FloatOps F] in
theorem pts_oRowK (f : Buf (Elt F) (v2Loc d)) :
    ((oRowK L).view.loc (V d (cV L) (jV L)) ↦[(oRowK L).view.set]{fullShare} f : sProp 𝕄) = v2Loc d ↦[oRowSet ⟨wid L, wid_lt L⟩]{fullShare} f := by
  rw [set_oRowK]
omit [FloatOps F] in
theorem pts_ctxV (q : PosShare TreeShare) (f : Buf (Elt F) (v0Loc d)) :
    ((ctxV).view.loc (V d (cV L) (jV L)) ↦{q} f : sProp 𝕄) = v0Loc d ↦{q} f := rfl
omit [FloatOps F] in
theorem pts_tabV (q : PosShare TreeShare) (f : Buf (Elt F) (v1Loc d)) :
    ((tabV).view.loc (V d (cV L) (jV L)) ↦{q} f : sProp 𝕄) = v1Loc d ↦{q} f := rfl
omit [FloatOps F] in
theorem pts_rowV (f : Buf (Elt F) ((V d (cV L) (jV L)).loc cc0_scratch0)) :
    ((rowV).view.loc (V d (cV L) (jV L)) ↦{fullShare} f : sProp 𝕄) = (V d (cV L) (jV L)).loc cc0_scratch0 ↦{fullShare} f := rfl
omit [FloatOps F] in
theorem pts_i0V (f : Buf (Elt F) ((V d (cV L) (jV L)).loc cc0_scratch1)) :
    ((i0V).view.loc (V d (cV L) (jV L)) ↦{fullShare} f : sProp 𝕄) = (V d (cV L) (jV L)).loc cc0_scratch1 ↦{fullShare} f := rfl
omit [FloatOps F] in
theorem pts_i1V (f : Buf (Elt F) ((V d (cV L) (jV L)).loc cc0_scratch2)) :
    ((i1V).view.loc (V d (cV L) (jV L)) ↦{fullShare} f : sProp 𝕄) = (V d (cV L) (jV L)).loc cc0_scratch2 ↦{fullShare} f := rfl
omit [FloatOps F] in
theorem pts_accV (f : Buf (Elt F) ((V d (cV L) (jV L)).loc cc0_scratch3)) :
    ((accV).view.loc (V d (cV L) (jV L)) ↦{fullShare} f : sProp 𝕄) = (V d (cV L) (jV L)).loc cc0_scratch3 ↦{fullShare} f := rfl

omit [FloatOps F] in
/-- The task's four transfer semaphores are among its own scoped cells. -/
theorem ownSems0_V :
    (ownSems0 (V d (cV L) (jV L)) : sProp 𝕄)
      = iprop(semVal (semA d (cV L) (jV L)) 0 ∗ semVal (semB d (cV L) (jV L)) 0 ∗ semVal (semC d (cV L) (jV L)) 0 ∗ semVal (semD d (cV L) (jV L)) 0
          ∗ bigSep (((((ownCells (V d (cV L) (jV L))).erase (semA d (cV L) (jV L))).erase (semB d (cV L) (jV L))).erase (semC d (cV L) (jV L))).erase (semD d (cV L) (jV L))) fun g => semVal g 0) := by
  unfold SparseCore.Cfg.ownSems0
  rw [SparseCore.bigSep_erase' ((mem_ownCells (g := semA d (cV L) (jV L))).mpr ⟨rfl, by
      show (SemLoc.dma cc0_scratch4.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scratch5.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d (cV L) (jV L))).mpr ⟨rfl, by show (SemLoc.dma cc0_scratch6.sem : SemLoc sig).isScoped .scVector = true; decide⟩⟩⟩),
    SparseCore.bigSep_erase' (Finset.mem_erase.mpr ⟨by simp [semC, semD]; decide, Finset.mem_erase.mpr ⟨by simp [semB, semD]; decide, Finset.mem_erase.mpr ⟨by simp [semA, semD]; decide,
      (mem_ownCells (g := semD d (cV L) (jV L))).mpr ⟨rfl, by show (SemLoc.dma cc0_scoped0.sem : SemLoc sig).isScoped .scVector = true; decide⟩⟩⟩⟩)]

omit [FloatOps F] in
/-- The task's four scratch buffers are among its own, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

/-- What the body's run leaves, in the spelling of its memrefs. -/
abbrev corePost (O : CellTallies nD τ sig (HIx 1)) (W : Waits sig (HIx 1)) : PUnit → sProp 𝕄 :=
  let q0 := tq ⟨wid L, wid_lt L⟩; let q1 := tq ⟨wid L, wid_lt L⟩; let A0 := A0 m d; let A1 := A1 m d
  fun _ => (iprop(((ctxV).view.loc (V d (cV L) (jV L)) ↦{q0} A0) ∗ ((tabV).view.loc (V d (cV L) (jV L)) ↦{q1} A1)
            ∗ ((oRowK L).view.loc (V d (cV L) (jV L)) ↦[(oRowK L).view.set]{fullShare} Cert.PoolFold.poolF (c50 (F := F)) A0 A1)
            ∗ (∃ f, (rowV).view.loc (V d (cV L) (jV L)) ↦{fullShare} f) ∗ (∃ f, (i0V).view.loc (V d (cV L) (jV L)) ↦{fullShare} f)
            ∗ (∃ f, (i1V).view.loc (V d (cV L) (jV L)) ↦{fullShare} f) ∗ (∃ f, (accV).view.loc (V d (cV L) (jV L)) ↦{fullShare} f)
            ∗ semVal (semA d (cV L) (jV L)) 0 ∗ semVal (semB d (cV L) (jV L)) 0 ∗ semVal (semC d (cV L) (jV L)) 0 ∗ semVal (semD d (cV L) (jV L)) 0
            ∗ ∃ W' : Waits sig (HIx 1), ⌜∀ p ∈ W', p ∈ W ∨ p.2 = none⌝ ∗ owes (V d (cV L) (jV L)) O W') : sProp 𝕄)

set_option maxHeartbeats 4000000 in
/-- The task on vector subcore `(L 0, L 1)` of device `d`, in the launch's spelling. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d ⟨wid L, wid_lt L⟩
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_pool_kernel L ctxV (Memref.isWhole_whole _) tabV (Memref.isWhole_whole _) outV (Memref.isWhole_whole _)
            rowV (Memref.isWhole_whole _) i0V (Memref.isWhole_whole _) i1V (Memref.isWhole_whole _) accV (Memref.isWhole_whole _)
            cc0_scratch4 cc0_scratch5 cc0_scratch6 cc0_scoped0)
          fun _ => (iprop(tdP m d ⟨wid L, wid_lt L⟩ ∗ scopedBufs (V d (cV L) (jV L)) ∗ scopedSems0 (V d (cV L) (jV L))
            ∗ ∃ W' : Waits sig (HIx 1), ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  unfold goP tdP
  iintro ⟨#Hlv, -, ⟨Hc, Ht, %fo, Ho⟩, ⟨⟨%fr, Hrow⟩, ⟨%f0, Hi0⟩, ⟨%f1, Hi1⟩, ⟨%fa, Hacc⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  iapply (wp_wand_r frame (wpE (defs₀ (F := F)) 𝒱₀ (V d (cV L) (jV L)) none) Set.univ (Q := corePost (F := F) m d L O W))
  isplitl [Hmw Hc Ht Ho' Hrow Hi0 Hi1 Hacc HsA HsB HsC HsD HO]
  · iapply (tile_core (F := F) (U := UU) d L (tq ⟨wid L, wid_lt L⟩) (tq ⟨wid L, wid_lt L⟩) (A0 m d) (A1 m d) fo (A0_lt m hpre d) fr f0 f1 fa O W)
    isplitl [Hmw]; · iexact Hmw
    isplitl [Hc]; · iexact Hc
    isplitl [Ht]; · iexact Ht
    isplitl [Ho']; · iexact Ho'
    isplitl [Hrow]; · iexact Hrow
    isplitl [Hi0]; · iexact Hi0
    isplitl [Hi1]; · iexact Hi1
    isplitl [Hacc]; · iexact Hacc
    isplitl [HsA]; · iexact HsA
    isplitl [HsB]; · iexact HsB
    isplitl [HsC]; · iexact HsC
    isplitl [HsD]; · iexact HsD
    iexact HO
  iintro %u HQ
  icases HQ with ⟨Hc, Ht, Ho, ⟨%fr', Hrow⟩, ⟨%f0', Hi0⟩, ⟨%f1', Hi1⟩, ⟨%fa', Hacc⟩, HsA, HsB, HsC, HsD, ⟨%W', %hW', HO⟩⟩
  ihave Ho'' := (Entails.of_eq (pts_oRowK (F := F) d L _)) $$ Ho
  isplitl [Hc Ht Ho'']
  · isplitl [Hc]; · iexact Hc
    isplitl [Ht]; · iexact Ht
    iexact Ho''
  isplitl [Hrow Hi0 Hi1 Hacc Hbufs]
  · isplitl [Hrow]; · iexists _; iexact Hrow
    isplitl [Hi0]; · iexists _; iexact Hi0
    isplitl [Hi1]; · iexists _; iexact Hi1
    isplitl [Hacc]; · iexists _; iexact Hacc
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists W'; isplitr
  · ipureintro; exact hW'
  · iexact HO

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_pool_kernel (coordsV c s)
          ctxV (Memref.isWhole_whole _) tabV (Memref.isWhole_whole _) outV (Memref.isWhole_whole _)
          rowV (Memref.isWhole_whole _) i0V (Memref.isWhole_whole _) i1V (Memref.isWhole_whole _) accV (Memref.isWhole_whole _)
          cc0_scratch4 cc0_scratch5 cc0_scratch6 cc0_scoped0) ⟨⟩ c s := rfl

set_option maxRecDepth 16384 in
/-- The launch theorem's obligation at the one call: every task runs its body. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wOf c.val i.val = ⟨wid (coordsV ⟨_, hci.1⟩ ⟨_, hci.2⟩), wid_lt _⟩ := by
    apply Fin.ext
    show (2 * i.val + c.val) % 32 = 2 * i.val + c.val
    have h1 : i.val < 16 := i.isLt
    have h0 : c.val < 2 := c.isLt
    omega
  show iprop(_ ∗ _ ∗ goP m d (wOf c.val i.val) ∗ _) ⊢ wp _ _ _ _ (fun _ => iprop(tdP m d (wOf c.val i.val) ∗ _))
  rw [hw]
  exact (tile_body m d (coordsV ⟨_, hci.1⟩ ⟨_, hci.2⟩) hF hpre O W hO).trans (wp_mono frame _ _ fun _ => obl_post)

end Tile

end Cert.Kernel.Tile

end
-- ==== Proof.KLaunchSplit.lean ====
/-
  Dealing the three arrays of the pooling call to its 32 tasks, and collecting them.

  The two read-only arrays go out as shares: the full share halved five times has 32 leaves, and a points-to at a share is
  its two halves' at once, so by induction on the depth it is all its leaves' at once. The result array goes out by rows:
  the 32 pairs of rows are pairwise disjoint and cover the array, so a points-to of the whole array is the 32 pairs' at
  once. A task is named by its SparseCore c and its vector subcore i as number 2 i + c, a bijection of the 2 x 16 pairs
  with the 32 numbers, so the separating conjunction over the cores of the conjunctions over their subcores is the
  conjunction over the 32 tasks. A task is handed its rows at anything (the contents it finds, introduced row by row);
  it hands them back at the averaged features, one function for all tasks, so the rows join with no choice to make.
-/
import proofs.«204130_g36155034698017_cont_8to1_b_1516_18_alg».proof.Proof.KLaunchDefs

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

local notation "𝕄" => MT nD τ sig (HIx 1) (Elt F) ℕ UU ℕ

variable (m : (ℓ : Loc nD τ sig) → Buf (Elt F) ℓ) (ρ : Dev nD → PrngReg)

/-! ## The shares: a points-to at a share is its leaves' at once -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

/-- A leaf in the first half of depth `n + 1` is the leaf of the left half-share at depth `n`. -/
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
/-- A leaf in the second half is the leaf of the right half-share. -/
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The context words, whole, are the 32 tasks' shares of them. -/
theorem v0_shares (d : Dev nD) (f : Buf (Elt F) (v0Loc d)) :
    (v0Loc d ↦{fullShare} f : sProp 𝕄) = bigSep Finset.univ fun w : Fin 32 => v0Loc d ↦{tq w} f :=
  pointsTo_leaves Finset.univ f 5 fullShare
/-- The table, whole, is the 32 tasks' shares of it. -/
theorem v1_shares (d : Dev nD) (f : Buf (Elt F) (v1Loc d)) :
    (v1Loc d ↦{fullShare} f : sProp 𝕄) = bigSep Finset.univ fun w : Fin 32 => v1Loc d ↦{tq w} f :=
  pointsTo_leaves Finset.univ f 5 fullShare

/-! ## The rows of the result -/

/-- A task's element set of the result is its pair of rows. -/
theorem oRowSet_eq (w : Fin 32) : oRowSet w = (orow w).set := by
  show ((View.whole (main_v2_scv : Ref sig .scVector)).slice (orow w)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)

/-- The result, whole, is the 32 tasks' pairs of rows. -/
theorem v2_rows (d : Dev nD) (f : Buf (Elt F) (v2Loc d)) :
    (v2Loc d ↦{fullShare} f : sProp 𝕄) = bigSep Finset.univ fun w : Fin 32 => v2Loc d ↦[oRowSet w]{fullShare} f := by
  rw [← pointsTo_biUnion Finset.univ (ℓ := v2Loc d) oRowSet orows_disjoint, orows_cover]; try rfl

/-- Each pair of rows held at the one contents `f` is held at some contents. -/
theorem v2_rows_exists (d : Dev nD) (f : Buf (Elt F) (v2Loc d)) :
    (v2Loc d ↦{fullShare} f : sProp 𝕄) ⊢ bigSep Finset.univ fun w : Fin 32 => iprop(∃ g, v2Loc d ↦[oRowSet w]{fullShare} g) := by
  rw [v2_rows]
  refine bigSep_mono fun w _ => ?_
  show (v2Loc d ↦[oRowSet w]{fullShare} f : sProp 𝕄) ⊢ iprop(∃ g, v2Loc d ↦[oRowSet w]{fullShare} g)
  iintro H; iexists f; iexact H

/-! ## The 32 tasks as 2 cores of 16 subcores -/

/-- Subcore `i` of core `c` is task `2 i + c`: a bijection of the 2 x 16 pairs with the 32 tasks. -/
def wEquiv : Fin 2 × Fin 16 ≃ Fin 32 where
  toFun p := wOf p.1.val p.2.val
  invFun w := (⟨w.val % 2, Nat.mod_lt _ (by norm_num)⟩, ⟨w.val / 2, by have := w.isLt; omega⟩)
  left_inv p := by
    obtain ⟨c, i⟩ := p
    have hc := c.isLt
    have hi := i.isLt
    refine Prod.ext (Fin.ext ?_) (Fin.ext ?_)
    · show (2 * i.val + c.val) % 32 % 2 = c.val
      omega
    · show (2 * i.val + c.val) % 32 / 2 = i.val
      omega
  right_inv w := by
    have hw := w.isLt
    refine Fin.ext ?_
    show (2 * (w.val / 2) + w.val % 2) % 32 = w.val
    omega

/-- The conjunction over the cores of the conjunctions over their subcores is the conjunction over the tasks. -/
theorem bigSep_tasks (Φ : Fin 32 → sProp 𝕄) :
    (bigSep Finset.univ fun c : Fin ((K (F := F)).nCore 0) => bigSep Finset.univ fun i : Fin ((K (F := F)).nSub 0) => Φ (wOf c.val i.val))
      = bigSep Finset.univ Φ := by
  show (bigSep (Finset.univ : Finset (Fin 2)) fun c => bigSep (Finset.univ : Finset (Fin 16)) fun i => Φ (wOf c.val i.val)) = _
  rw [bigSep_univ_equiv wEquiv Φ, bigSep_univ_prod]
  rfl

/-- What the call hands a SparseCore: its sixteen tasks' parts. -/
theorem st_eq (d : Dev nD) (c : Fin ((K (F := F)).nCore 0)) :
    (P m).st 0 d c = bigSep Finset.univ fun i : Fin ((K (F := F)).nSub 0) => goP m d (wOf c.val i.val) := rfl
/-- What a SparseCore hands back: its sixteen tasks' parts. -/
theorem dn_eq (d : Dev nD) (c : Fin ((K (F := F)).nCore 0)) :
    (P m).dn 0 d c = bigSep Finset.univ fun i : Fin ((K (F := F)).nSub 0) => tdP m d (wOf c.val i.val) := rfl

/-- All tasks' hand-outs: the shares of the two read-only arrays, and every pair of result rows at something. -/
theorem goP_all (d : Dev nD) :
    (bigSep Finset.univ fun w : Fin 32 => goP m d w)
      = iprop((bigSep Finset.univ fun w : Fin 32 => v0Loc d ↦{tq w} A0 m d) ∗ (bigSep Finset.univ fun w : Fin 32 => v1Loc d ↦{tq w} A1 m d)
          ∗ bigSep Finset.univ fun w : Fin 32 => iprop(∃ g, v2Loc d ↦[oRowSet w]{fullShare} g)) := by
  unfold goP
  rw [bigSep_sep', bigSep_sep']
/-- All tasks' returns: the same shares, and every pair of result rows at the averaged features. -/
theorem tdP_all (d : Dev nD) :
    (bigSep Finset.univ fun w : Fin 32 => tdP m d w)
      = iprop((bigSep Finset.univ fun w : Fin 32 => v0Loc d ↦{tq w} A0 m d) ∗ (bigSep Finset.univ fun w : Fin 32 => v1Loc d ↦{tq w} A1 m d)
          ∗ bigSep Finset.univ fun w : Fin 32 => v2Loc d ↦[oRowSet w]{fullShare} PF m d) := by
  unfold tdP
  rw [bigSep_sep', bigSep_sep']

/-! ## Dealing and collecting -/

/-- The three arrays, whole, are what the call hands its SparseCores. -/
theorem split_st (d : Dev nD) (f : Buf (Elt F) (v2Loc d)) :
    iprop((v0Loc d ↦{fullShare} A0 m d) ∗ (v1Loc d ↦{fullShare} A1 m d) ∗ (v2Loc d ↦{fullShare} f))
      ⊢ (bigSep Finset.univ fun c : Fin ((K (F := F)).nCore 0) => (P m).st 0 d c : sProp 𝕄) := by
  rw [bigSep_congr (fun c _ => st_eq m d c), bigSep_tasks (F := F) (fun w => goP m d w), goP_all, ← v0_shares, ← v1_shares]
  iintro ⟨H0, H1, H2⟩
  isplitl [H0]; · iexact H0
  isplitl [H1]; · iexact H1
  iapply (v2_rows_exists d f); iexact H2

/-- What the SparseCores hand back is the three arrays, whole, the result at the averaged features. -/
theorem join_dn (d : Dev nD) :
    (bigSep Finset.univ fun c : Fin ((K (F := F)).nCore 0) => (P m).dn 0 d c : sProp 𝕄)
      ⊢ iprop((v0Loc d ↦{fullShare} A0 m d) ∗ (v1Loc d ↦{fullShare} A1 m d) ∗ (v2Loc d ↦{fullShare} PF m d)) := by
  rw [bigSep_congr (fun c _ => dn_eq m d c), bigSep_tasks (F := F) (fun w => tdP m d w), tdP_all, ← v0_shares, ← v1_shares, ← v2_rows]

end Cert.Kernel.Tile

end
-- ==== Proof.KLaunchGhost.lean ====
/-
  The launch element of the ghost state and what it funds: the handshakes' rounds as the launch theorem takes them, and
  for each device the matrix unit's staging cells at round 0 with a duty token for every transfer its pipeline issues.
  The transfers' counters start at their unit and the handshakes carry nothing of a kernel's own.
-/
import proofs.«204130_g36155034698017_cont_8to1_b_1516_18_alg».proof.Proof.KLaunchDefs
import proofs.«204130_g36155034698017_cont_8to1_b_1516_18_alg».proof.Proof.Gen.Kernel.Launch
import Idealize.ShloMosaic.Lib.Pipeline.Kit

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- What the launch deals device `d`'s TensorCore for the projection's region: its staging cells' ghost state and the
    duty tokens of its pipeline's transfers. -/
def G (d : Dev nD) : sProp 𝕄 := iprop(Pipeline.cellsGhost cfgs (EP (F := F)) 0 d ∗ Pipeline.toksInit cfgs (EP (F := F)) 0 d)

/-- The launch element: the handshakes' cells and tokens, the staging cells and the pipeline's transfers, the counters'
    unit. -/
def u₀ : UU :=
  ((initOf (K (F := F)).hsCells (K (F := F)).hsToks,
    initOf (Pipeline.cells (nD := nD) (τ := τ) cfgs cellOf_inj) (Pipeline.launchToks (nD := nD) (τ := τ) cfgs cellOf_inj)), 1)

theorem bigSep_emp' {I : Type} (s : Finset I) : (bigSep s fun _ => iprop(emp)) = (iprop(emp) : sProp 𝕄) := bigSep_emp_const s

/-- The launch element splits into its three factors: the handshakes' goes to the launch theorem as it is, the staging
    cells' is dealt per device, the counters' is let go. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  unfold u₀ EH
  iintro Hu
  ihave H := (ownU_pair _ _) $$ Hu
  icases H with ⟨HL, -⟩
  ihave H2 := (own_pair_emb (embL (A := UH × UP) (B := Counters)) _ _) $$ HL
  icases H2 with ⟨HH, HP⟩
  imod (Pipeline.fund_ghost (nD := nD) (τ := τ) cfgs (EP (F := F)) cellOf_inj) $$ [HP] with ⟨Hg, Ht⟩
  · unfold EP; iexact HP
  ihave Hg' := (Entails.of_eq e1) $$ Hg
  ihave Ht' := (Entails.of_eq e2) $$ Ht
  imodintro
  isplitl [HH]; · iexact HH
  isplitl [Hg' Ht']
  · unfold G; rw [bigSep_sep']
    isplitl [Hg']; · iexact Hg'
    iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Tile

end
-- ==== Proof.KMmBody.lean ====
/-
  The projection kernel's body and the proof data of its region.

  One grid point of the projection reads a block of the transposed weights (64 rows, 4096 columns), the whole pooled
  operand (64 rows, 1024 columns) and a block of the bias row (4096 entries), and stores the 4096 × 1024 block
  `mmBlock wt x bb`: the contraction of `wt` and `x` over their 64 rows, plus the bias entry of the block's row
  broadcast along the row. The three input buffers are left as found.

  The contraction is, for an arbitrary float instance, a function of its WHOLE operands. At the last grid point the
  weight block and the bias block overhang their arrays: the buffers' columns past the arrays' end hold words nothing
  names. So the proof data is relational: what the output buffer ends with is `mmBlock` of three buffers each of which
  is its array's block on the part inside the array and anything elsewhere (`fet0`, `fet1`, `fet2`).
-/
import proofs.«204130_g36155034698017_cont_8to1_b_1516_18_alg».proof.Proof.Gen.Kernel.Skeleton
import proofs.«204130_g36155034698017_cont_8to1_b_1516_18_alg».proof.Proof.Gen.Kernel.Launch
import proofs.«204130_g36155034698017_cont_8to1_b_1516_18_alg».proof.Proof.Gen.Kernel.Points
import Idealize.ShloMosaic.Lib.Tactic
import Idealize.ShloMosaic.Lib.Pipeline.FrameBody
import Idealize.ShloMosaic.Lib.Pipeline.Value

noncomputable section

namespace Cert.Kernel.Mm

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The block of the product the kernel stores at one grid point, as a function of the three blocks it loads:
    the transposed weight block times the pooled block, the bias row transposed and broadcast along the columns. -/
def mmBlock (wt : Vec F S64x4096 .f32) (x : Vec F S64x1024 .f32) (bb : Vec F S1x4096 .f32) : Vec F S4096x1024 .f32 :=
  k1_pay1 wt x bb

theorem hz2 : (![0, 0] : Fin 2 → Nat) = fun _ => 0 := funext fun a => by fin_cases a <;> rfl

/-- The body at symbolic whole staging memrefs: the three input buffers are read and left as they were, the output
    buffer ends at `mmBlock` of what they read. -/
theorem mm_body [∀ e, Nonempty (Elt F e)] (c : Dev nD) (E : Set Name) (i : grid1.Coords)
    (M1 : Memref sig .tc .vmem S64x4096 .f32) (h1 : M1.IsWhole) (M2 : Memref sig .tc .vmem S64x1024 .f32) (h2 : M2.IsWhole)
    (M3 : Memref sig .tc .vmem S1x4096 .f32) (h3 : M3.IsWhole) (M4 : Memref sig .tc .vmem S4096x1024 .f32) (h4 : M4.IsWhole)
    (X1 : Vec F S64x4096 .f32) (X2 : Vec F S64x1024 .f32) (X3 : Vec F S1x4096 .f32) (X4 : Vec F S4096x1024 .f32)
    (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4
        ∗ (iprop(owns (c : Thread nD τ) M1 fullShare X1 ∗ owns (c : Thread nD τ) M2 fullShare X2 ∗ owns (c : Thread nD τ) M3 fullShare X3
              ∗ owns (c : Thread nD τ) M4 fullShare (mmBlock X1 X2 X3)) -∗ K ⟨⟩))
      ⊢ wp frame (wpE (defs₀ (F := F)) Variants.none (c : Thread nD τ) none) E (cc1__mm_kernel i M1 h1 M2 h2 M3 h3 M4 h4) K := by
  unfold owns
  iintro ⟨⟨%f1, %e1, H1⟩, ⟨%f2, %e2, H2⟩, ⟨%f3, %e3, H3⟩, ⟨%f4, %e4, H4⟩, Hk⟩
  simp only [cc1__mm_kernel_eq_skeleton]; unfold cc1__mm_kernel_skel
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  · iexists _; isplitr; swap; (· iexact H4)
    ipureintro
    rw [View.read_writes_eq_canon _ _ _ (fun y => ⟨_, List.mem_singleton_self _, View.mem_set_unit_zero hz2 inb_S4096x1024_S4096x1024_0_0 y⟩),
      View.canon_unit_zero hz2, View.readAt_eq_ld, View.readAt_eq_ld, View.readAt_eq_ld,
      View.ld_unit_zero (S := S64x4096) hz2, View.ld_unit_zero (S := S64x1024) hz2, View.ld_unit_zero (S := S1x4096) hz2, e1, e2, e3]
    rfl

/-! ## The proof data of the region on one core -/

section Data

variable (c : Dev nD) (a3 : Buf (Elt F) ((c : Thread nD τ).loc main_v3)) (a2 : Buf (Elt F) ((c : Thread nD τ).loc main_v2))
  (a4 : Buf (Elt F) ((c : Thread nD τ).loc main_v4)) (a5 : Buf (Elt F) ((c : Thread nD τ).loc main_v5))

/-- What the weight window's staging buffer holds once the fetch at point `t` has landed in it, if it held `d`:
    the columns of block `t` that lie inside the array, `d` on the columns past its end. -/
def fet0 (t : Fin cfg1.N) (d : S64x4096.Idx → Elt F .f32) : S64x4096.Idx → Elt F .f32 :=
  win1_0.fill (grid1.coords t) d ((win1_0.blk t).view.read (Elt F) a3)
/-- The pooled operand's: its one block is the whole array. -/
def fet1 (t : Fin cfg1.N) (d : S64x1024.Idx → Elt F .f32) : S64x1024.Idx → Elt F .f32 :=
  win1_1.fill (grid1.coords t) d ((win1_1.blk t).view.read (Elt F) a2)
/-- The bias row's, as the weight's. -/
def fet2 (t : Fin cfg1.N) (d : S1x4096.Idx → Elt F .f32) : S1x4096.Idx → Elt F .f32 :=
  win1_2.fill (grid1.coords t) d ((win1_2.blk t).view.read (Elt F) a4)

/-- The proof data: the four arrays at entry; the body leaves the three input buffers as it found them and the
    output buffer at `mmBlock` of three fetched buffers (whatever lay past the arrays' ends in them); no invariant; the
    core owes `O` throughout, its recorded waits within `B`. -/
def rdat (O : CellTallies nD τ sig Ix) (B : Set (SemLoc sig × Ix)) : RDat τ (Elt F) Ix Name U Lvl cfg1 c where
  A w := match w with
    | ⟨0, _⟩ => a3
    | ⟨1, _⟩ => a2
    | ⟨2, _⟩ => a4
    | ⟨3, _⟩ => a5
  after w t := match w with
    | ⟨0, _⟩ => fun Y X => X = Y
    | ⟨1, _⟩ => fun Y X => X = Y
    | ⟨2, _⟩ => fun Y X => X = Y
    | ⟨3, _⟩ => fun _ X => ∃ d0 d1 d2, X = mmBlock (fet0 c a3 t d0) (fet1 c a2 t d1) (fet2 c a4 t d2)
  Φ _ := iprop(emp)
  q _ := fullShare
  owed _ := O
  recorded _ := B

variable [∀ e, Nonempty (Elt F e)]

theorem finds0 (O : CellTallies nD τ sig Ix) (B : Set (SemLoc sig × Ix)) (t : Fin cfg1.N) (Y)
    (h : (rdat (Name := Name) (U := U) (Lvl := Lvl) c a3 a2 a4 a5 O B).Finds 0 t Y) : ∃ d, Y = fet0 c a3 t d :=
  RDat.finds_in_eq_fetched (rdat (Name := Name) (U := U) (Lvl := Lvl) c a3 a2 a4 a5 O B) 0 rfl
    (fun t t' h => funext fun a => by
      show Pipeline.Clip.of (cc1_transform_0 (grid1.coords t) a) _ _ = Pipeline.Clip.of (cc1_transform_0 (grid1.coords t') a) _ _
      rw [show cc1_transform_0 (grid1.coords t) a = cc1_transform_0 (grid1.coords t') a from congrFun h a])
    (fun _ _ _ h => h) t Y h

theorem finds1 (O : CellTallies nD τ sig Ix) (B : Set (SemLoc sig × Ix)) (t : Fin cfg1.N) (Y)
    (h : (rdat (Name := Name) (U := U) (Lvl := Lvl) c a3 a2 a4 a5 O B).Finds 1 t Y) : ∃ d, Y = fet1 c a2 t d :=
  RDat.finds_in_eq_fetched (rdat (Name := Name) (U := U) (Lvl := Lvl) c a3 a2 a4 a5 O B) 1 rfl
    (fun _ _ _ => rfl) (fun _ _ _ h => h) t Y h

theorem finds2 (O : CellTallies nD τ sig Ix) (B : Set (SemLoc sig × Ix)) (t : Fin cfg1.N) (Y)
    (h : (rdat (Name := Name) (U := U) (Lvl := Lvl) c a3 a2 a4 a5 O B).Finds 2 t Y) : ∃ d, Y = fet2 c a4 t d :=
  RDat.finds_in_eq_fetched (rdat (Name := Name) (U := U) (Lvl := Lvl) c a3 a2 a4 a5 O B) 2 rfl
    (fun t t' h => funext fun a => by
      show Pipeline.Clip.of (cc1_transform_2 (grid1.coords t) a) _ _ = Pipeline.Clip.of (cc1_transform_2 (grid1.coords t') a) _ _
      rw [show cc1_transform_2 (grid1.coords t) a = cc1_transform_2 (grid1.coords t') a from congrFun h a])
    (fun _ _ _ h => h) t Y h

/-- The library's body obligation over the relational data: whatever the three input buffers hold is a fetched
    buffer; the body leaves them so and the output buffer at `mmBlock` of them. -/
theorem body_obligation (ι : Ix) (O : CellTallies nD τ sig Ix) (B : Set (SemLoc sig × Ix)) :
    (rdat (Name := Name) (U := U) (Lvl := Lvl) c a3 a2 a4 a5 O B).BodyObligation (defs₀ (F := F)) Variants.none ι Set.univ := by
  intro t Y hY
  obtain ⟨d0, e0⟩ := finds0 c a3 a2 a4 a5 O B t _ (hY 0)
  obtain ⟨d1, e1⟩ := finds1 c a3 a2 a4 a5 O B t _ (hY 1)
  obtain ⟨d2, e2⟩ := finds2 c a3 a2 a4 a5 O B t _ (hY 2)
  rw [bigSep_W1, bigSep_W1,
    show (rdat (Name := Name) (U := U) (Lvl := Lvl) c a3 a2 a4 a5 O B).Φ t.succ = (rdat (Name := Name) (U := U) (Lvl := Lvl) c a3 a2 a4 a5 O B).Φ t.castSucc from rfl,
    show (rdat (Name := Name) (U := U) (Lvl := Lvl) c a3 a2 a4 a5 O B).owesAt ι t.succ = (rdat (Name := Name) (U := U) (Lvl := Lvl) c a3 a2 a4 a5 O B).owesAt ι t.castSucc from rfl]
  iintro ⟨HΦ, HO, H0, H1, H2, H3⟩
  iapply (mm_body (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists mmBlock (Y 0) (Y 1) (Y 2); isplitr; swap; (· iexact H3)
    ipureintro
    exact ⟨d0, d1, d2, by rw [e0, e1, e2]⟩

end Data

end Cert.Kernel.Mm

end
-- ==== Proof.KMmPost.lean ====
/-
  What the projection's region leaves in its result array, as a predicate on the array's final contents: the
  write-backs of the 25 grid points, in order, each overwriting the part of its 4096-row block that lies inside the
  array with that part of `mmBlock` of three fetched buffers. The buffers' words past the arrays' end are quantified:
  for an arbitrary float instance the contraction may read them.
-/
import proofs.«204130_g36155034698017_cont_8to1_b_1516_18_alg».proof.Proof.KMmBody

noncomputable section

namespace Cert.Kernel.Mm

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Post

variable (c : Dev nD) (a3 : Buf (Elt F) ((c : Thread nD τ).loc main_v3)) (a2 : Buf (Elt F) ((c : Thread nD τ).loc main_v2))
  (a4 : Buf (Elt F) ((c : Thread nD τ).loc main_v4)) (a5 : Buf (Elt F) ((c : Thread nD τ).loc main_v5))

/-- What the result array may hold after the write-backs of the points below `n`: its contents at entry, the part of
    each block inside the array overwritten, in point order, by that part of `mmBlock` of three fetched buffers. -/
def MmArr : Nat → Buf (Elt F) ((c : Thread nD τ).loc main_v5) → Prop
  | 0 => fun G => G = a5
  | n + 1 => fun G =>
    if h : n < cfg1.N then
      ∃ G₀ d0 d1 d2, MmArr n G₀ ∧
        G = (win1_3.blk ⟨n, h⟩).view.write (Elt F) G₀
              (win1_3.cut (grid1.coords ⟨n, h⟩) (mmBlock (fet0 c a3 ⟨n, h⟩ d0) (fet1 c a2 ⟨n, h⟩ d1) (fet2 c a4 ⟨n, h⟩ d2))) Finset.univ
    else MmArr n G

/-- What the region leaves in the result array: every block written back. -/
def MmPost (f5 : Buf (Elt F) ((c : Thread nD τ).loc main_v5)) : Prop := MmArr c a3 a2 a4 a5 cfg1.N f5

variable [∀ e, Nonempty (Elt F e)]

/-- What the pipeline's relational data let the result array hold is that. -/
theorem mmArr_of_arrAt (O : CellTallies nD τ sig Ix) (B : Set (SemLoc sig × Ix)) :
    ∀ (n : Nat), n ≤ cfg1.N → ∀ G, (rdat (Name := Name) (U := U) (Lvl := Lvl) c a3 a2 a4 a5 O B).ArrAt 3 n G → MmArr c a3 a2 a4 a5 n G
  | 0, _, G, h => h
  | n + 1, hn', G, h => by
    have hn : n < cfg1.N := hn'
    have e := RDat.ArrAt_succ (rdat (Name := Name) (U := U) (Lvl := Lvl) c a3 a2 a4 a5 O B) 3 ⟨n, hn⟩
    rw [if_pos (flush1_3 ⟨n, hn⟩)] at e
    obtain ⟨G₀, X, hG₀, ⟨Y, -, hX⟩, hG⟩ := (congrFun e G).mp h
    obtain ⟨d0, d1, d2, rfl⟩ := hX
    unfold MmArr; rw [dif_pos hn]
    exact ⟨G₀, d0, d1, d2, mmArr_of_arrAt O B n (Nat.le_of_lt hn) G₀ hG₀, hG⟩

end Post

end Cert.Kernel.Mm

end
-- ==== Proof.KMmRegion.lean ====
/-
  The projection's region, run on a device's TensorCore inside a program that also launches SparseCore kernels: one
  lemma, for an arbitrary float instance and an arbitrary ghost algebra that holds a copy of the pipeline's rounds.

  From the three operand arrays and the result array held whole, what the core owes (every unit of it at an index
  other than the pipeline's own, so that the pipeline's waits may pass: `hw`), the region boundary, and the staging
  cells' ghost state as the launch deals it, the custom call runs the 25 grid points — fetch, body, write-back — and
  returns the operands unchanged and the result array at contents `MmPost` describes.
-/
import proofs.«204130_g36155034698017_cont_8to1_b_1516_18_alg».proof.Proof.KMmPost
import Idealize.ShloMosaic.Lib.Pipeline.Regions
import Idealize.ShloMosaic.Lib.SparseCore.Threads

noncomputable section

namespace Cert.Kernel.Mm

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Idealize.ShloMosaic.SparseCore.Cfg (HIx)

variable {F : FTy → Type} [FloatOps F] [∀ e, Nonempty (Elt F e)]
variable {Name : Type} [DecidableEq Name] [Infinite Name] {U : Type} [URA U]

local notation "𝕄" => MT nD τ sig (HIx 1) (Elt F) Name U ℕ

/-- The region's pipeline prefetches no table: the one admissible contents. -/
abbrev adm : (p : Fin 1) → (pcfgs (F := F) p).Adm := fun p => (cfgs p).toPCfg_adm

section Region

variable (a3 : (c : Dev nD) → Buf (Elt F) ((c : Thread nD τ).loc main_v3)) (a2 : (c : Dev nD) → Buf (Elt F) ((c : Thread nD τ).loc main_v2))
  (a4 : (c : Dev nD) → Buf (Elt F) ((c : Thread nD τ).loc main_v4)) (a5 : (c : Dev nD) → Buf (Elt F) ((c : Thread nD τ).loc main_v5))
  (O : Dev nD → CellTallies nD τ sig (HIx 1)) (B : Set (SemLoc sig × HIx 1))

/-- The proof data on every core. -/
def rdats (_ : Fin 1) (c : Dev nD) : RDat τ (Elt F) (HIx 1) Name U ℕ cfg1 c :=
  rdat c (a3 c) (a2 c) (a4 c) (a5 c) (O c) B

/-- What the region is entered from on core `c`: the three operand arrays and the result array held whole, and what the
    core owes, its recorded waits within `B`. -/
def pre (c : Dev nD) : sProp 𝕄 :=
  iprop((((c : Thread nD τ).loc main_v3) ↦{fullShare} a3 c) ∗ (((c : Thread nD τ).loc main_v2) ↦{fullShare} a2 c)
    ∗ (((c : Thread nD τ).loc main_v4) ↦{fullShare} a4 c) ∗ (((c : Thread nD τ).loc main_v5) ↦{fullShare} a5 c)
    ∗ Pipeline.owesWithin c (O c) B)

/-- What it leaves: the operands as they were, the result array at contents the write-backs may have left, the core
    owing the same, its recorded waits grown by the pipeline's own. -/
def post (c : Dev nD) : sProp 𝕄 :=
  iprop((((c : Thread nD τ).loc main_v3) ↦{fullShare} a3 c) ∗ (((c : Thread nD τ).loc main_v2) ↦{fullShare} a2 c)
    ∗ (((c : Thread nD τ).loc main_v4) ↦{fullShare} a4 c)
    ∗ (∃ f5, (((c : Thread nD τ).loc main_v5) ↦{fullShare} f5) ∗ ⌜MmPost c (a3 c) (a2 c) (a4 c) (a5 c) f5⌝)
    ∗ Pipeline.owesWithin c (O c) (B ∪ Cfg.waitPairs cfg1 (none : HIx 1)))

theorem A0 (c : Dev nD) : (rdats (Name := Name) (U := U) a3 a2 a4 a5 O B 0 c).A 0 = a3 c := by dsimp only [rdats, rdat]
theorem A1 (c : Dev nD) : (rdats (Name := Name) (U := U) a3 a2 a4 a5 O B 0 c).A 1 = a2 c := by dsimp only [rdats, rdat]
theorem A2 (c : Dev nD) : (rdats (Name := Name) (U := U) a3 a2 a4 a5 O B 0 c).A 2 = a4 c := by dsimp only [rdats, rdat]

theorem arr_pt (c : Dev nD) (w : Fin 4) (G : Buf (Elt F) ((cfg1.win w).arr.view.loc (c : Thread nD τ))) :
    (((cfg1.win w).arr.view.loc (c : Thread nD τ)) ↦[(cfg1.win w).arr.view.set]{(rdats (Name := Name) (U := U) a3 a2 a4 a5 O B 0 c).share w} G : sProp 𝕄)
      = (((c : Thread nD τ).loc (Pipeline.arrRef spec1 w)) ↦{fullShare} G) := by
  rw [(arr_whole1 w).set_eq_univ, Pipeline.RDat.share_full _ (fun _ => rfl)]

-- the record's fields are stated over the pinned configuration, which unfolds to `cfg1`
set_option backward.isDefEq.respectTransparency.types false in
set_option maxHeartbeats 1600000 in
/-- The region as the library's record: the decided layout, no semaphore of the kernel's own, the body obligation,
    the wait evidence from the level facts, and the entry and exit around `pre` and `post`. -/
@[reducible] def reg (L : GSem nD τ sig → Finset (HIx 1)) (lv : GSem nD τ sig → HIx 1 → ℕ)
    (hw : ∀ (c : Dev nD) (sm : SemLoc sig), (levAts L lv : sProp 𝕄) ⊢ MayWait (c : Thread nD τ) sm (none : HIx 1) (O c)) :
    Pipeline.RDat.RegionSeg (pcfgs (F := F)) adm (rdats (Name := Name) (U := U) a3 a2 a4 a5 O B) (none : HIx 1) defs₀ Variants.none L lv 0 where
  win := launch1.win.to₀
  block_pos := launch1.block_pos
  stage_whole := launch1.stage_whole
  K := PEmpty
  osem := fun k => k.elim
  ho := Pipeline.OwnSemFacts.none _
  hbody c := body_obligation c (a3 c) (a2 c) (a4 c) (a5 c) none (O c) B
  hwaits c := Pipeline.RDat.cellsWaits_intro _ _ _ 0 c fun w s t => hw c _
  pre := pre a3 a2 a4 a5 O B
  post := post a3 a2 a4 a5 O B
  X _ := iprop(emp)
  Y _ := iprop(emp)
  Z _ := iprop(emp)
  hentry c := by
    rw [Pipeline.RDat.arrays_eq (pcfgs (F := F)) adm (rdats (Name := Name) (U := U) a3 a2 a4 a5 O B) 0 c launch1.arr_whole
      (fun w => Pipeline.RDat.share_full _ (fun _ => rfl) w), bigSep_W1]
    unfold pre
    iintro ⟨⟨H3, H2, H4, H5, HO⟩, -, -⟩
    imodintro
    isplitl [H3 H2 H4 H5]
    · isplitl [H3]; · iexact H3
      isplitl [H2]; · iexact H2
      isplitl [H4]; · iexact H4
      iexact H5
    isplitr
    · unfold Pipeline.prefHeld; rw [show (Finset.univ : Finset (Fin 0)) = ∅ from rfl, BI.bigSep_empty]; iempintro
    isplitl [HO]
    · iapply (Pipeline.owesWithin_mono c (O c) (Set.subset_union_left (s := B) (t := Cfg.waitPairs cfg1 (none : HIx 1)))); iexact HO
    isplitr <;> iempintro
  hin c := by iintro -; iempintro
  hout c := by
    rw [Pipeline.ownSems0_none, scopedRest1_eq]
    iintro -
    isplitr; · iempintro
    isplitr <;> iempintro
  hexit c := by
    have hsh := Pipeline.RDat.share_full (rdats (Name := Name) (U := U) a3 a2 a4 a5 O B 0 c) (fun _ => rfl)
    unfold RDat.arraysAt post
    rw [bigSep_W1]
    simp only [View.set_whole, hsh]
    iintro ⟨⟨⟨%F0, %h0, H0⟩, ⟨%F1, %h1, H1⟩, ⟨%F2, %h2, H2⟩, ⟨%F3, %h3, H3⟩⟩, HO, -, -⟩
    have e0 : F0 = a3 c :=
      ((congrFun (RDat.ArrAt_in (rdats (Name := Name) (U := U) a3 a2 a4 a5 O B 0 c) 0 rfl _) F0).mp h0).trans (A0 a3 a2 a4 a5 O B c)
    have e1 : F1 = a2 c :=
      ((congrFun (RDat.ArrAt_in (rdats (Name := Name) (U := U) a3 a2 a4 a5 O B 0 c) 1 rfl _) F1).mp h1).trans (A1 a3 a2 a4 a5 O B c)
    have e2 : F2 = a4 c :=
      ((congrFun (RDat.ArrAt_in (rdats (Name := Name) (U := U) a3 a2 a4 a5 O B 0 c) 2 rfl _) F2).mp h2).trans (A2 a3 a2 a4 a5 O B c)
    subst e0 e1 e2
    imodintro
    isplitl [H0]; · iexact H0
    isplitl [H1]; · iexact H1
    isplitl [H2]; · iexact H2
    isplitl [H3]
    · iexists F3; isplitl [H3]; · iexact H3
      ipureintro
      exact mmArr_of_arrAt c (a3 c) (a2 c) (a4 c) (a5 c) (O c) B cfg1.N (Nat.le_refl _) F3 h3
    iexact HO

-- as `reg`; and the region rule is stated for a device's TensorCore written `c.tc`
set_option backward.isDefEq.respectTransparency.types false in
/-- THE REGION. On device `d`'s TensorCore, in the program's extended body table: from the region boundary, the level
    facts, the staging cells' launch ghost state and duty tokens, and `pre`, the projection's custom call runs to the
    boundary and `post`. -/
theorem mm_region (EP : Emb (URounds (GSem nD τ sig) Unit) (MT nD τ sig (HIx 1) (Elt F) Name U ℕ)) [EP.LandsIn (upEmb : UEmb _ 𝕄)]
    (L : GSem nD τ sig → Finset (HIx 1)) (lv : GSem nD τ sig → HIx 1 → ℕ)
    (hw : ∀ (c : Dev nD) (sm : SemLoc sig), (levAts L lv : sProp 𝕄) ⊢ MayWait (c : Thread nD τ) sm (none : HIx 1) (O c))
    (d : Dev nD) (Φ : PUnit → sProp 𝕄) :
    iprop(boundary (d : Thread nD τ) ∗ levAts L lv ∗ Pipeline.cellsGhost cfgs EP 0 d ∗ Pipeline.toksInit cfgs EP 0 d
        ∗ pre a3 a2 a4 a5 O B d
        ∗ (iprop(boundary (d : Thread nD τ) ∗ post a3 a2 a4 a5 O B d) -∗ Φ ⟨⟩))
      ⊢ wp frame (wpE ((sc (F := F)).defs (Pipeline.defs pcfgs defs₀)) (Variants.lift Variants.none) (SparseCore.T d) none) Set.univ
          (Prog.lift (.customCall (SparseCore.inner (Pipeline.entry 0)) ())) Φ := by
  iintro ⟨Hb, #Hl, Hg, Ht, Hpre, Hk⟩
  iapply ((sc (F := F)).wp_liftProg (Pipeline.defs pcfgs defs₀) (Variants.lift Variants.none) (SparseCore.T d) Set.univ none
    (.op (.customCall (Pipeline.entry 0) ()) fun _ => .ret ⟨⟩) Φ)
  iapply (Pipeline.RDat.RegionSeg.wp (pcfgs (F := F)) adm (rdats (Name := Name) (U := U) a3 a2 a4 a5 O B) (none : HIx 1) cellOf_inj EP defs₀ Variants.none L lv
    (reg a3 a2 a4 a5 O B L lv hw) d none (fun _ h => nomatch h) (fun _ => .ret ⟨⟩) Φ)
  isplitl [Hk]
  · iintro H
    rw [wp_ret]
    imodintro
    iapply Hk; iexact H
  isplitl [Hb]; · iexact Hb
  isplitl [Hpre]; · iexact Hpre
  isplitr; · iexact Hl
  isplitl [Hg]; · iexact Hg
  iexact Ht

end Region

end Cert.Kernel.Mm

end
-- ==== Proof.KMmStep.lean ====
/-
  The projection's region as a step of @main between two states of the TensorCore's handshakes with the SparseCores:
  `mm_region` with what the TensorCore owes taken out of, and put back into, its handshake state.
-/
import proofs.«204130_g36155034698017_cont_8to1_b_1516_18_alg».proof.Proof.KMmRegion

noncomputable section

namespace Cert.Kernel.Mm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg)
open Idealize.ShloMosaic.SparseCore.Cfg (HIx)

variable {F : FTy → Type} [FloatOps F] [∀ e, Nonempty (Elt F e)]
variable {Name : Type} [DecidableEq Name] [Infinite Name] {U : Type} [URA U]

local notation "𝕄" => MT nD τ sig (HIx 1) (Elt F) Name U ℕ

/-- After the one SparseCore call the TensorCore owes nothing at the index of a kernel's own waits. -/
theorem Otc_none (d : Dev nD) (n : ℕ) (g : GSem nD τ sig) : (sc (F := F)).Otc d n g none = 0 := by
  by_contra h
  have := SparseCore.Cfg.lev_of_Otc_pos (K := sc (F := F)) (Nat.pos_of_ne_zero h)
  rw [SparseCore.Cfg.lev_none] at this; omega

-- as `mm_region`
set_option backward.isDefEq.respectTransparency.types false in
/-- THE REGION STEP of @main on device `d`'s TensorCore, after the SparseCore call has returned: from the handshakes'
    context, the TensorCore's handshake state before call 1, the region boundary, the staging cells' launch ghost state
    and the four arrays, the projection's custom call runs to the same with the result array at contents `MmPost`
    describes. The pipeline's waits sit at the index of a kernel's own waits, level 0, below everything the TensorCore
    owes; they add recorded pairs at level 0 only, so the state's bound on the recorded pairs is kept. -/
theorem mm_step (EH : Emb (URounds (GSem nD τ sig) ℕ) (MT nD τ sig (HIx 1) (Elt F) Name U ℕ))
    (EP : Emb (URounds (GSem nD τ sig) Unit) (MT nD τ sig (HIx 1) (Elt F) Name U ℕ)) [EP.LandsIn (upEmb : UEmb _ 𝕄)]
    (P : (sc (F := F)).Pay (nD := nD) (Val := Elt F) (Name := Name) (U := U)) (κ : GSem nD τ sig → Name) (d : Dev nD)
    (a3 : Buf (Elt F) ((d : Thread nD τ).loc main_v3)) (a2 : Buf (Elt F) ((d : Thread nD τ).loc main_v2))
    (a4 : Buf (Elt F) ((d : Thread nD τ).loc main_v4)) (a5 : Buf (Elt F) ((d : Thread nD τ).loc main_v5))
    (Φ : PUnit → sProp 𝕄) :
    iprop((sc (F := F)).ctx EH P κ ∗ (sc (F := F)).tcSt EH d 1 ∗ boundary (SparseCore.T d)
        ∗ Pipeline.cellsGhost cfgs EP 0 d ∗ Pipeline.toksInit cfgs EP 0 d
        ∗ (((SparseCore.T d).loc main_v3) ↦{fullShare} a3) ∗ (((SparseCore.T d).loc main_v2) ↦{fullShare} a2)
        ∗ (((SparseCore.T d).loc main_v4) ↦{fullShare} a4) ∗ (((SparseCore.T d).loc main_v5) ↦{fullShare} a5)
        ∗ (iprop((sc (F := F)).tcSt EH d 1 ∗ boundary (SparseCore.T d)
              ∗ (((SparseCore.T d).loc main_v3) ↦{fullShare} a3) ∗ (((SparseCore.T d).loc main_v2) ↦{fullShare} a2)
              ∗ (((SparseCore.T d).loc main_v4) ↦{fullShare} a4)
              ∗ ∃ f5, (((SparseCore.T d).loc main_v5) ↦{fullShare} f5) ∗ ⌜MmPost d a3 a2 a4 a5 f5⌝) -∗ Φ ⟨⟩))
      ⊢ wp frame (wpE ((sc (F := F)).defs (Pipeline.defs pcfgs defs₀)) (Variants.lift Variants.none) (SparseCore.T d) none) Set.univ
          (Prog.lift (.customCall (SparseCore.inner (Pipeline.entry 0)) ())) Φ := by
  unfold SparseCore.Cfg.tcSt
  iintro ⟨#Hctx, ⟨⟨%W, %hW, HO⟩, Hat, Hrd, Hrs, Htoks⟩, Hb, Hg, Ht, H3, H2, H4, H5, Hk⟩
  ihave Hlev := (SparseCore.Cfg.ctx_levAts (K := sc (F := F)) (EH := EH) (P := P) κ) $$ Hctx
  iapply (mm_region (F := F) (Name := Name) (U := U) (fun _ => a3) (fun _ => a2) (fun _ => a4) (fun _ => a5)
    (fun c => (sc (F := F)).Otc c 1) {p | (sc (F := F)).lev (SparseCore.T d, p.1) p.2 ≤ 8 * 1} EP (sc (F := F)).L (sc (F := F)).lev
    (fun c sm => (sc (F := F)).mayWait_none sm (Otc_none c 1)) d Φ)
  isplitl [Hb]; · iexact Hb
  isplitl [Hlev]; · iexact Hlev
  isplitl [Hg]; · iexact Hg
  isplitl [Ht]; · iexact Ht
  isplitl [H3 H2 H4 H5 HO]
  · unfold pre
    isplitl [H3]; · iexact H3
    isplitl [H2]; · iexact H2
    isplitl [H4]; · iexact H4
    isplitl [H5]; · iexact H5
    iexists W; isplitr
    · ipureintro; exact fun p hp => hW p (Finset.mem_coe.mp hp)
    iexact HO
  iintro ⟨Hb, Hpost⟩
  unfold post
  icases Hpost with ⟨H3, H2, H4, H5, ⟨%W', %hW', HO⟩⟩
  iapply Hk
  isplitl [HO Hat Hrd Hrs Htoks]
  · isplitl [HO]
    · iexists W'; isplitr
      · ipureintro
        intro p hp
        rcases hW' (Finset.mem_coe.mpr hp) with h | ⟨w, s, e⟩
        · exact h
        · subst e; exact Nat.zero_le _
      iexact HO
    isplitl [Hat]; · iexact Hat
    isplitl [Hrd]; · iexact Hrd
    isplitl [Hrs]; · iexact Hrs
    iexact Htoks
  isplitl [Hb]; · iexact Hb
  isplitl [H3]; · iexact H3
  isplitl [H2]; · iexact H2
  isplitl [H4]; · iexact H4
  iexact H5

end Cert.Kernel.Mm

end
-- ==== Proof.KLaunchMain.lean ====
/-
  @main on the TensorCore: two transposes lay the context words out position-major and the table feature-major; the
  pooling call takes them and the result array, deals them to its 32 tasks and collects them with the result at the
  averaged features; a transpose and a reshape lay the weights and the bias out for the projection; the projection's
  region runs over them and the averaged features; a last transpose gives the scores. Each host operation reads one
  array and writes another; the arguments are never written.
-/
import proofs.«204130_g36155034698017_cont_8to1_b_1516_18_alg».proof.Proof.KLaunchSplit
import proofs.«204130_g36155034698017_cont_8to1_b_1516_18_alg».proof.Proof.KLaunchGhost
import proofs.«204130_g36155034698017_cont_8to1_b_1516_18_alg».proof.Proof.KMmStep

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

local notation "𝕄" => MT nD τ sig (HIx 1) (Elt F) ℕ UU ℕ

variable (m : (ℓ : Loc nD τ sig) → Buf (Elt F) ℓ) (ρ : Dev nD → PrngReg)

/-! ## One host operation over its two arrays -/

/-- Two distinct arrays held whole, as a conjunction over the pair. -/
theorem held_pair (d : Dev nD) (x y : Ref sig .tc) (hne : (Proc.devRef .tc x : DevRef τ sig) ≠ Proc.devRef .tc y) (W : Valuation τ sig (Elt F)) :
    (held (T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by rw [Finset.mem_singleton]; exact hne), bigSep_singleton]

/-- A host operation that reads array `x` and writes array `y` with `g` of `x`'s contents, at the head of a program:
    from the region boundary and the two arrays whole, the continuation runs with the boundary back, `x` as it was and
    `y` at `g` of `x`'s contents. -/
theorem wp_hlo_pair {Λ : Labels} {defs : Defs nD τ sig (Elt F) Λ} (𝒱' : Variants) (d : Dev nD) (op : HloOp τ sig (Elt F)) (x y : Ref sig .tc)
    (hne : (Proc.devRef .tc x : DevRef τ sig) ≠ Proc.devRef .tc y)
    (hb : op.bufs = {Proc.devRef .tc x, Proc.devRef .tc y}) (hw : op.writes = {Proc.devRef .tc y}) (hf : op.fresh = ∅)
    (g : (Proc.devRef .tc x : DevRef τ sig).ty.Contents (Elt F) → (Proc.devRef .tc y : DevRef τ sig).ty.Contents (Elt F))
    (hg : ∀ V : Valuation τ sig (Elt F), op.result V (Proc.devRef .tc y) = g (V (Proc.devRef .tc x)))
    (V0 : Valuation τ sig (Elt F)) (fx : (Proc.devRef .tc x : DevRef τ sig).ty.Contents (Elt F)) (fy : (Proc.devRef .tc y : DevRef τ sig).ty.Contents (Elt F))
    {α : Type} (k : ((b : op.writes) → b.1.ty.Contents (Elt F)) → Prog (TpuEff nD τ sig (Elt F) Λ .tc) α) (Q : α → sProp 𝕄) :
    iprop(boundary (SparseCore.T d) ∗ ((SparseCore.T d).loc x ↦{fullShare} fx) ∗ ((SparseCore.T d).loc y ↦{fullShare} fy))
      ⊢ iprop(((boundary (SparseCore.T d) ∗ ((SparseCore.T d).loc x ↦{fullShare} fx) ∗ ((SparseCore.T d).loc y ↦{fullShare} g fx))
            -∗ wp frame (wpE defs 𝒱' (SparseCore.T d) none) Set.univ
                (k (op.fn fun b => Function.update (Function.update V0 (Proc.devRef .tc x) fx) (Proc.devRef .tc y) fy b.1)) Q)
        -∗ wp frame (wpE defs 𝒱' (SparseCore.T d) none) Set.univ (hlo rfl op k) Q) := by
  have hx : Function.update (Function.update V0 (Proc.devRef .tc x) fx) (Proc.devRef .tc y) fy (Proc.devRef .tc x) = fx := by
    rw [Function.update_of_ne hne, Function.update_self]
  have hy : Function.update (Function.update V0 (Proc.devRef .tc x) fx) (Proc.devRef .tc y) fy (Proc.devRef .tc y) = fy :=
    Function.update_self _ _ _
  have hrx : op.result (Function.update (Function.update V0 (Proc.devRef .tc x) fx) (Proc.devRef .tc y) fy) (Proc.devRef .tc x) = fx := by
    rw [op.result_of_not_mem _ (by rw [hw, Finset.mem_singleton]; exact hne), hx]
  have hry : op.result (Function.update (Function.update V0 (Proc.devRef .tc x) fx) (Proc.devRef .tc y) fy) (Proc.devRef .tc y) = g fx := by
    rw [hg, hx]
  have h := wp_hlo_within (defs := defs) 𝒱' (SparseCore.T d) none Set.univ (hp := rfl) (op := op) (k := k)
    (S := {Proc.devRef .tc x, Proc.devRef .tc y}) (hb ▸ subset_rfl)
    (V := Function.update (Function.update V0 (Proc.devRef .tc x) fx) (Proc.devRef .tc y) fy) (Q := Q) hf
  rw [held_pair d x y hne, held_pair d x y hne, hx, hy, hrx, hry] at h
  exact h

/-! ## @main's operations and what they leave -/

/-- The weights feature-major, as the transpose of the third argument leaves them. -/
def W3 (d : Dev nD) : Buf (Elt F) (v3Loc d) :=
  transpose S64x100000 [1, 0] (m (a2Loc d)) transposes_S100000x64_S64x100000_1_0
/-- The bias as one row, as the reshape of the fourth argument leaves it. -/
def B4 (d : Dev nD) : Buf (Elt F) (v4Loc d) :=
  shapeCast S1x100000 (m (a3Loc d)) shapeCasts_S100000_S1x100000

/-- The scores are the transpose of an array the projection's region may leave over the transposed weights, the
    averaged features and the bias row. -/
def ResultOK (d : Dev nD) (f6 : Buf (Elt F) (v6Loc d)) : Prop :=
  ∃ f5 : Buf (Elt F) (v5Loc d), Cert.Kernel.Mm.MmPost d (W3 m d) (PF m d) (B4 m d) (m (v5Loc d)) f5
    ∧ f6 = transpose S1024x100000 [1, 0] f5 transposes_S100000x1024_S1024x100000_1_0

/-- What @main leaves the claim: the four arguments at their launch contents, and scores of that form. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f6, (v6Loc d ↦{fullShare} f6) ∗ ⌜ResultOK m d f6⌝)

abbrev tr0 : (⟨S1024x50, .i32⟩ : BufTy).Contents (Elt F) → (⟨S50x1024, .i32⟩ : BufTy).Contents (Elt F) := (transpose S50x1024 [1, 0] · transposes_S1024x50_S50x1024_1_0)
abbrev tr1 : (⟨S100000x64, .f32⟩ : BufTy).Contents (Elt F) → (⟨S64x100000, .f32⟩ : BufTy).Contents (Elt F) := (transpose S64x100000 [1, 0] · transposes_S100000x64_S64x100000_1_0)
abbrev rs4 : (⟨S100000, .f32⟩ : BufTy).Contents (Elt F) → (⟨S1x100000, .f32⟩ : BufTy).Contents (Elt F) := (shapeCast S1x100000 · shapeCasts_S100000_S1x100000)
abbrev tr6 : (⟨S100000x1024, .f32⟩ : BufTy).Contents (Elt F) → (⟨S1024x100000, .f32⟩ : BufTy).Contents (Elt F) := (transpose S1024x100000 [1, 0] · transposes_S100000x1024_S1024x100000_1_0)
abbrev op0 : HloOp τ sig (Elt F) := StableHlo.unary main_arg0 main_v0 (tr0 (F := F))
abbrev op1 : HloOp τ sig (Elt F) := StableHlo.unary main_arg1 main_v1 (tr1 (F := F))
abbrev op3 : HloOp τ sig (Elt F) := StableHlo.unary main_arg2 main_v3 (tr1 (F := F))
abbrev op4 : HloOp τ sig (Elt F) := StableHlo.reshape main_arg3 main_v4 rfl shapeCasts_S100000_S1x100000
abbrev op6 : HloOp τ sig (Elt F) := StableHlo.unary main_v5 main_v6 (tr6 (F := F))

/-- The launch contents as a valuation of device `d`'s arrays. -/
def V0 (d : Dev nD) : Valuation τ sig (Elt F) := fun b => m (d, b)

/-- The TensorCore's unscoped arrays are @main's eleven. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3) ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## @main -/

-- the rules are stated for any thread; at the TensorCore thread their metavariables' types unfold plain definitions
set_option backward.isDefEq.respectTransparency.types false in
/-- @main on device `d`'s TensorCore, from the launch contents and the staging cells' ghost state: it ends with the
    handshakes past the one call, the arguments unchanged and the scores of the form `ResultOK`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha0, Ha1, Ha2, Ha3, Hv0, Hv1, Hv2, Hv3, Hv4, Hv5, Hv6⟩, -, -⟩, Hg, Ht⟩
  -- the context words, position-major
  iapply (wp_hlo_pair (defs := (K (F := F)).defs (D (F := F))) 𝒱 d (op0 (F := F)) main_arg0 main_v0 (by decide) rfl rfl rfl (tr0 (F := F))
      (fun V => StableHlo.unary_result main_arg0 main_v0 (tr0 (F := F)) _ _ V) (V0 m d) (m (a0Loc d)) (m (v0Loc d))) $$ [Hb Ha0 Hv0]
  · isplitl [Hb]; · iexact Hb
    isplitl [Ha0]; · iexact Ha0
    iexact Hv0
  iintro ⟨Hb, Ha0, Hv0⟩
  rw [wp_ret]; imodintro
  -- the table, feature-major
  iapply (wp_hlo_pair (defs := (K (F := F)).defs (D (F := F))) 𝒱 d (op1 (F := F)) main_arg1 main_v1 (by decide) rfl rfl rfl (tr1 (F := F))
      (fun V => StableHlo.unary_result main_arg1 main_v1 (tr1 (F := F)) _ _ V) (V0 m d) (m (a1Loc d)) (m (v1Loc d))) $$ [Hb Ha1 Hv1]
  · isplitl [Hb]; · iexact Hb
    isplitl [Ha1]; · iexact Ha1
    iexact Hv1
  iintro ⟨Hb, Ha1, Hv1⟩
  rw [wp_ret]; imodintro
  -- the pooling call: the three arrays dealt to the tasks and collected
  iapply ((K (F := F)).wp_run (D (F := F)) 𝒱 (EH := EH) (P := P m) κ d 0) $$ [Hst Hb Ha0 Ha1 Ha2 Ha3 Hv0 Hv1 Hv2 Hv3 Hv4 Hv5 Hv6 Hg Ht]
  isplitr; · iexact Hctx
  isplitl [Hst]; · iexact Hst
  isplitl [Hv0 Hv1 Hv2]
  · iapply (split_st m d (m (v2Loc d)))
    isplitl [Hv0]; · iexact Hv0
    isplitl [Hv1]; · iexact Hv1
    iexact Hv2
  iintro ⟨Hst, Hdn⟩
  ihave Hdn' := (join_dn m d) $$ Hdn
  icases Hdn' with ⟨Hv0, Hv1, Hv2⟩
  -- the weights, feature-major
  iapply (wp_hlo_pair (defs := (K (F := F)).defs (D (F := F))) 𝒱 d (op3 (F := F)) main_arg2 main_v3 (by decide) rfl rfl rfl (tr1 (F := F))
      (fun V => StableHlo.unary_result main_arg2 main_v3 (tr1 (F := F)) _ _ V) (V0 m d) (m (a2Loc d)) (m (v3Loc d))) $$ [Hb Ha2 Hv3]
  · isplitl [Hb]; · iexact Hb
    isplitl [Ha2]; · iexact Ha2
    iexact Hv3
  iintro ⟨Hb, Ha2, Hv3⟩
  rw [wp_ret]; imodintro
  -- the bias as one row
  iapply (wp_hlo_pair (defs := (K (F := F)).defs (D (F := F))) 𝒱 d (op4 (F := F)) main_arg3 main_v4 (by decide) rfl rfl rfl (rs4 (F := F))
      (fun V => (StableHlo.reshape_result main_arg3 main_v4 rfl shapeCasts_S100000_S1x100000 _ _ V).trans rfl) (V0 m d) (m (a3Loc d)) (m (v4Loc d))) $$ [Hb Ha3 Hv4]
  · isplitl [Hb]; · iexact Hb
    isplitl [Ha3]; · iexact Ha3
    iexact Hv4
  iintro ⟨Hb, Ha3, Hv4⟩
  rw [wp_ret]; imodintro
  -- the projection's region
  iapply (Cert.Kernel.Mm.mm_step (F := F) (Name := ℕ) (U := UU) EH EP (P m) κ d (W3 m d) (PF m d) (B4 m d) (m (v5Loc d)) _)
    $$ [Hst Hb Ha0 Ha1 Ha2 Ha3 Hv0 Hv1 Hv2 Hv3 Hv4 Hv5 Hv6 Hg Ht]
  isplitr; · iexact Hctx
  isplitl [Hst]; · iexact Hst
  isplitl [Hb]; · iexact Hb
  isplitl [Hg]; · iexact Hg
  isplitl [Ht]; · iexact Ht
  isplitl [Hv3]; · iexact Hv3
  isplitl [Hv2]; · iexact Hv2
  isplitl [Hv4]; · iexact Hv4
  isplitl [Hv5]; · iexact Hv5
  iintro ⟨Hst, Hb, Hv3, Hv2, Hv4, ⟨%f5, Hv5, %hpost⟩⟩
  -- the scores
  iapply (wp_hlo_pair (defs := (K (F := F)).defs (D (F := F))) 𝒱 d (op6 (F := F)) main_v5 main_v6 (by decide) rfl rfl rfl (tr6 (F := F))
      (fun V => StableHlo.unary_result main_v5 main_v6 (tr6 (F := F)) _ _ V) (V0 m d) (f5) (m (v6Loc d))) $$ [Hb Hv5 Hv6]
  · isplitl [Hb]; · iexact Hb
    isplitl [Hv5]; · iexact Hv5
    iexact Hv6
  iintro ⟨Hb, Hv5, Hv6⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexists _
  isplitl [Hv6]; · iexact Hv6
  ipureintro
  exact ⟨f5, hpost, rfl⟩

end Cert.Kernel.Tile

end
-- ==== Proof.KRun.lean ====
/-
  The whole program's run: the launch theorem at the one SparseCore call, the task obligation, the TensorCore's program, and how
  the final memory reads: the four arguments unchanged and the result related to them by the matrix unit's region over the
  pooled features.
-/
import proofs.«204130_g36155034698017_cont_8to1_b_1516_18_alg».proof.Proof.KTileObl
import proofs.«204130_g36155034698017_cont_8to1_b_1516_18_alg».proof.Proof.KLaunchMain
import proofs.«204130_g36155034698017_cont_8to1_b_1516_18_alg».proof.Proof.KLaunchGhost

noncomputable section

namespace Cert.Kernel.Tile

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "ctxV" => (Memref.whole Cert.Kernel.main_v0_scv : Memref Cert.Kernel.sig Kind.scVector Space.hbm Cert.Kernel.S50x1024 EltTy.i32)
local notation "tabV" => (Memref.whole Cert.Kernel.main_v1_scv : Memref Cert.Kernel.sig Kind.scVector Space.hbm Cert.Kernel.S64x100000 EltTy.f32)
local notation "outV" => (Memref.whole Cert.Kernel.main_v2_scv : Memref Cert.Kernel.sig Kind.scVector Space.hbm Cert.Kernel.S64x1024 EltTy.f32)
local notation "rowV" => (Memref.whole Cert.Kernel.cc0_scratch0 : Memref Cert.Kernel.sig Kind.scVector Space.vmem Cert.Kernel.S100000 EltTy.f32)
local notation "i0V" => (Memref.whole Cert.Kernel.cc0_scratch1 : Memref Cert.Kernel.sig Kind.scVector Space.vmem Cert.Kernel.S50x128 EltTy.i32)
local notation "i1V" => (Memref.whole Cert.Kernel.cc0_scratch2 : Memref Cert.Kernel.sig Kind.scVector Space.vmem Cert.Kernel.S50x128 EltTy.i32)
local notation "accV" => (Memref.whole Cert.Kernel.cc0_scratch3 : Memref Cert.Kernel.sig Kind.scVector Space.vmem Cert.Kernel.S2x1024 EltTy.f32)

local notation "𝕄" => MT nD τ sig (HIx 1) (Elt F) ℕ UU ℕ

variable (m : (ℓ : Loc nD τ sig) → Buf (Elt F) ℓ) (ρ : Dev nD → PrngReg)

/-- What the final memory of device `d` is asked: the arguments as launched, the result in the region's relation. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ s'.mem.mem (a3Loc d) = m (a3Loc d) ∧ ResultOK m d (s'.mem.mem (v6Loc d))

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, H3, %f6, H6, %hok⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v6Loc d) (I := Finset.univ) (q := fullShare) (f := f6)) $$ [HSI H6]
  · isplitl [HSI] <;> iassumption
  icases H with %h6
  ipureintro
  have e6 : s'.mem.mem (v6Loc d) = f6 := funext fun i => h6 i (Finset.mem_univ i)
  exact ⟨funext fun i => h0 i (Finset.mem_univ i), funext fun i => h1 i (Finset.mem_univ i), funext fun i => h2 i (Finset.mem_univ i),
    funext fun i => h3 i (Finset.mem_univ i), e6 ▸ hok⟩

/-- What every run ends in. -/
def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c)
    ∧ r.2.mem (a3Loc c) = m (a3Loc c) ∧ ResultOK m c (r.2.mem (v6Loc c))

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.Kernel.Tile

end
-- ==== Proof.RefOps.lean ====
/-
  The reference program as a straight line. Its entry point calls the outlined lookup function, which calls the outlined
  select; a call executes the callee's body on the caller's buffers, so the whole program is one list of thirty-three
  tensor operations: twenty-three of the lookup (wrap a negative word by the table's height, gather the rows, mask the
  rows whose word is out of range) and ten of the entry point (sum over the fifty words, divide by fifty, transpose the
  weights, contract, add the bias). Every weakly fair execution of such a line terminates with every buffer at the fold
  of the operations' results over the launch contents.
-/
import proofs.«204130_g36155034698017_cont_8to1_b_1516_18_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The lookup's twenty-three operations, in order, over the buffers of the entry point's one call of it. -/
abbrev opsTake : List (HloOp τ sig (Elt F)) :=
  [ TRef.nullary main_call0.c (constantI S_ 32 0#32),
    TRef.unary main_call0.c main_call0.v0 (broadcastInDim S1024x50 ![] bcast_S_S1024x50),
    TRef.binary (.of main_arg0) main_call0.v0 main_call0.v1 (cmpi .slt),
    TRef.nullary main_call0.c_0 (constantI S_ 32 100000#32),
    TRef.unary main_call0.c_0 main_call0.v2 (broadcastInDim S1024x50 ![] bcast_S_S1024x50),
    TRef.binary (.of main_arg0) main_call0.v2 main_call0.v3 addi,
    TRef.ternary main_call0.v1 main_call0.v3 (.of main_arg0) main_call0.call0.v0 select,
    TRef.unary main_call0.call0.v0 main_call0.v5 (broadcastInDim S1024x50x1 ![0, 1] bcast_S1024x50_S1024x50x1_0_1),
    TRef.nullary main_call0.c_1 (constantI S1 32 99999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg1) main_call0.v5 main_call0.v13 (fun x i => Host.gather gather_S100000x64_S1024x50x1_S1024x50x64_2_0_n_n_0_2_164 x i),
    TRef.unary main_call0.v12 main_call0.v14 (broadcastInDim S1024x50x64 ![0, 1] bcast_S1024x50_S1024x50x64_0_1),
    TRef.nullary main_call0.cst (constant S_ .f32 0x7FC00000#32),
    TRef.unary main_call0.cst main_call0.v15 (broadcastInDim S1024x50x64 ![] bcast_S_S1024x50x64),
    TRef.ternary main_call0.v14 main_call0.v13 main_call0.v15 main_call0.v16 select ]

/-- The entry point's own ten operations, after the call. -/
abbrev opsTail : List (HloOp τ sig (Elt F)) :=
  [ nullary main_cst (constant S_ .f32 0x00000000#32),
    binary main_v0 main_cst main_v1 ((fun x v => Host.reduceAdd x v reducesTo_S1024x50x64_S1024x64_d1 h_S_) : (⟨S1024x50x64, .f32⟩ : BufTy).Contents (Elt F) → (⟨S_, .f32⟩ : BufTy).Contents (Elt F) → (⟨S1024x64, .f32⟩ : BufTy).Contents (Elt F)),
    nullary main_cst_0 (constant S_ .f32 0x42480000#32),
    unary main_cst_0 main_v2 (broadcastInDim S1024x64 ![] bcast_S_S1024x64 : (⟨S_, .f32⟩ : BufTy).Contents (Elt F) → (⟨S1024x64, .f32⟩ : BufTy).Contents (Elt F)),
    binary main_v1 main_v2 main_v3 (Host.divf : (⟨S1024x64, .f32⟩ : BufTy).Contents (Elt F) → (⟨S1024x64, .f32⟩ : BufTy).Contents (Elt F) → (⟨S1024x64, .f32⟩ : BufTy).Contents (Elt F)),
    unary main_arg2 main_v4 ((transpose S64x100000 [1, 0] · transposes_S100000x64_S64x100000_1_0) : (⟨S100000x64, .f32⟩ : BufTy).Contents (Elt F) → (⟨S64x100000, .f32⟩ : BufTy).Contents (Elt F)),
    binary main_v3 main_v4 main_v5 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_arg3 main_v6 (broadcastInDim S1x100000 ![1] bcast_S100000_S1x100000_1 : (⟨S100000, .f32⟩ : BufTy).Contents (Elt F) → (⟨S1x100000, .f32⟩ : BufTy).Contents (Elt F)),
    unary main_v6 main_v7 (broadcastInDim S1024x100000 ![0, 1] bcast_S1x100000_S1024x100000_0_1 : (⟨S1x100000, .f32⟩ : BufTy).Contents (Elt F) → (⟨S1024x100000, .f32⟩ : BufTy).Contents (Elt F)),
    binary main_v5 main_v7 main_v8 (addf : (⟨S1024x100000, .f32⟩ : BufTy).Contents (Elt F) → (⟨S1024x100000, .f32⟩ : BufTy).Contents (Elt F) → (⟨S1024x100000, .f32⟩ : BufTy).Contents (Elt F)) ]

/-- The whole program: the lookup, then the entry point's own operations. -/
abbrev ops : List (HloOp τ sig (Elt F)) := opsTake ++ opsTail

/-- The entry point is that straight line: the two outlined functions unfolded at their calls, the sequencing
    reassociated. -/
theorem main_eq (c : Dev nD) : main (F := F) c = seq ops := by
  simp only [main, fn_take.body, fn_where.body, ops, opsTake, opsTail, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem opsTail_sub : (opsTail : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig :=
  List.forall_append.2 ⟨opsTake_sub, opsTail_sub⟩

/-- The fold over two lines in a row is the second line's fold over the first's. -/
theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- For any float values, from any memory with zero counters: every weakly fair execution of the entry point
    terminates, and every buffer ends at the fold of the thirty-three operations over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsTake (launchContents m c)) (b : DevRef τ sig) := by
  have h := run_seq scopedRefs_eq scopedSems_eq defs main (fun _ => ops) main_eq (fun _ => ops_sub) m ρ
  refine (θ_run defs _ _).mono (fun r hr c b => ?_) h
  rw [hr c b]
  exact congrFun (after_two opsTake opsTail (launchContents m c)) _

end Cert.ReferenceIdeal.RefRun

end
-- ==== Proof.RefRead.lean ====
/-
  What the reference's line leaves in its result buffer, as a pure term of the four arguments. The lookup's value:
  the context words wrapped (a negative word has the table's height added), the table's rows gathered at the wrapped
  words, and the rows of the words outside [0, 99999] replaced by a not-a-number word. The entry point's value of a
  looked-up array X: (sum of X over the fifty words, from zero) / 50, contracted with the transposed weights, plus the
  bias broadcast along the examples. Both are read off the fold one stretch at a time, over an arbitrary valuation.
-/
import proofs.«204130_g36155034698017_cont_8to1_b_1516_18_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The context words with the negative ones wrapped: a word below zero has 100000 added. -/
def wrapped (ctx : IVec S1024x50 32) : IVec S1024x50 32 :=
  select (cmpi .slt ctx (broadcastInDim S1024x50 ![] bcast_S_S1024x50 (constantI S_ 32 0#32)))
    (addi ctx (broadcastInDim S1024x50 ![] bcast_S_S1024x50 (constantI S_ 32 100000#32))) ctx

/-- The wrapped words as the gather's start indices: a trailing axis of extent one. -/
def starts (ctx : IVec S1024x50 32) : IVec S1024x50x1 32 :=
  broadcastInDim S1024x50x1 ![0, 1] bcast_S1024x50_S1024x50x1_0_1 (wrapped ctx)

/-- Per word, whether its wrapped value lies in [0, 99999] (signed): the lookup's mask. -/
def inRange (ctx : IVec S1024x50 32) : IVec S1024x50 1 :=
  Host.reduce IntOp.andi
    (andi (cmpi .sge (starts ctx) (broadcastInDim S1024x50x1 ![] bcast_S_S1024x50x1 (constantI S_ 32 0#32)))
      (cmpi .sle (starts ctx) (broadcastInDim S1024x50x1 ![0, 1, 2] bcast_S1x1x1_S1024x50x1_0_1_2
        (broadcastInDim S1x1x1 ![2] bcast_S1_S1x1x1_2 (constantI S1 32 99999#32)))))
    (constantI S_ 1 1#1) reducesTo_S1024x50x1_S1024x50_d2 h_S_

/-- The lookup: the table's rows at the wrapped words, the rows of out-of-range words masked. -/
def lookup (E : FVec F S100000x64 .f32) (ctx : IVec S1024x50 32) : FVec F S1024x50x64 .f32 :=
  select (broadcastInDim S1024x50x64 ![0, 1] bcast_S1024x50_S1024x50x64_0_1 (inRange ctx))
    (Host.gather gather_S100000x64_S1024x50x1_S1024x50x64_2_0_n_n_0_2_164 E (starts ctx))
    (broadcastInDim S1024x50x64 ![] bcast_S_S1024x50x64 (constant (F := F) S_ .f32 0x7FC00000#32))

/-- The mean over the fifty words: the sum from zero, divided by fifty. -/
def meanRows (X : FVec F S1024x50x64 .f32) : FVec F S1024x64 .f32 :=
  Host.divf (F := F) (Host.reduceAdd (F := F) X (constant (F := F) S_ .f32 0x00000000#32) reducesTo_S1024x50x64_S1024x64_d1 h_S_)
    (broadcastInDim S1024x64 ![] bcast_S_S1024x64 (constant (F := F) S_ .f32 0x42480000#32))

/-- The projection: the means against the transposed weights, plus the bias along the examples. -/
def project (M : FVec F S1024x64 .f32) (W : FVec F S100000x64 .f32) (b : FVec F S100000 .f32) : FVec F S1024x100000 .f32 :=
  addf (Host.dotGeneral (F := F) dot_S1024x64_S64x100000_S1024x100000_1_0_0_1_n_n none M
      (transpose S64x100000 [1, 0] W transposes_S100000x64_S64x100000_1_0))
    (broadcastInDim S1024x100000 ![0, 1] bcast_S1x100000_S1024x100000_0_1
      (broadcastInDim S1x100000 ![1] bcast_S100000_S1x100000_1 b))

/-- The whole reference as one pure term of its arguments. -/
def value (ctx : IVec S1024x50 32) (E W : FVec F S100000x64 .f32) (b : FVec F S100000 .f32) : FVec F S1024x100000 .f32 :=
  project (meanRows (lookup E ctx)) W b

/-! ## The lookup's stretch, over any valuation -/

-- the reduction and the gather are searches over their operands' elements: kept folded while the two sides are compared
attribute [local irreducible] Host.reduce Host.gather in
theorem take_v0 (V : Valuation τ sig (Elt F)) :
    after opsTake V (main_v0 : DevRef τ sig) = lookup (F := F) (V (main_arg1 : DevRef τ sig)) (V (main_arg0 : DevRef τ sig)) := by
  after_results_simp
  rfl

theorem take_arg2 (V : Valuation τ sig (Elt F)) : after opsTake V (main_arg2 : DevRef τ sig) = V (main_arg2 : DevRef τ sig) := by
  after_results
theorem take_arg3 (V : Valuation τ sig (Elt F)) : after opsTake V (main_arg3 : DevRef τ sig) = V (main_arg3 : DevRef τ sig) := by
  after_results
theorem take_arg0 (V : Valuation τ sig (Elt F)) : after opsTake V (main_arg0 : DevRef τ sig) = V (main_arg0 : DevRef τ sig) := by
  after_results
theorem take_arg1 (V : Valuation τ sig (Elt F)) : after opsTake V (main_arg1 : DevRef τ sig) = V (main_arg1 : DevRef τ sig) := by
  after_results

/-! ## The entry point's stretch, over any valuation -/

theorem tail_v8 (V : Valuation τ sig (Elt F)) :
    after opsTail V (main_v8 : DevRef τ sig)
      = project (F := F) (meanRows (F := F) (V (main_v0 : DevRef τ sig))) (V (main_arg2 : DevRef τ sig)) (V (main_arg3 : DevRef τ sig)) := by
  after_results
  rfl

theorem tail_arg0 (V : Valuation τ sig (Elt F)) : after opsTail V (main_arg0 : DevRef τ sig) = V (main_arg0 : DevRef τ sig) := by
  after_results
theorem tail_arg1 (V : Valuation τ sig (Elt F)) : after opsTail V (main_arg1 : DevRef τ sig) = V (main_arg1 : DevRef τ sig) := by
  after_results
theorem tail_arg2 (V : Valuation τ sig (Elt F)) : after opsTail V (main_arg2 : DevRef τ sig) = V (main_arg2 : DevRef τ sig) := by
  after_results
theorem tail_arg3 (V : Valuation τ sig (Elt F)) : after opsTail V (main_arg3 : DevRef τ sig) = V (main_arg3 : DevRef τ sig) := by
  after_results

end Cert.ReferenceIdeal.RefRun

end
-- ==== Proof.RefRun.lean ====
/-
  The reference's run: every weakly fair execution of the entry point terminates with the result buffer at the
  reference's pure term of the four arguments' launch contents, and the four arguments unchanged. The line's fold is
  read one stretch after the other: the entry point's own operations over the valuation the lookup leaves.
-/
import proofs.«204130_g36155034698017_cont_8to1_b_1516_18_alg».proof.Proof.RefRead

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]

/-- For any float values, from any memory with zero counters: every weakly fair execution of the entry point terminates,
    the result at `value` of the arguments, the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = value (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_ops (F := F) m ρ)
  refine ⟨?_, ?_, ?_, ?_, ?_⟩
  · rw [h c main_v8, tail_v8, take_v0, take_arg2, take_arg3]; rfl
  · rw [h c main_arg0, tail_arg0, take_arg0]
  · rw [h c main_arg1, tail_arg1, take_arg1]
  · rw [h c main_arg2, tail_arg2, take_arg2]
  · rw [h c main_arg3, tail_arg3, take_arg3]

end Cert.ReferenceIdeal.RefRun

end
-- ==== Proof.RefLookup.lean ====
/-
  The lookup on words in range. When every context word lies in [0, 99999] (as a signed integer) nothing is wrapped
  (no word is negative), every word passes the range mask (the mask is all ones, so the masking select keeps the
  gathered row), and the gather's clamp of a start index into [0, 99999] is the identity: the looked-up array at
  (p, j, d) is the table at (row of word (p, j), d). This holds for every kind of float value: no float operation is
  involved.
-/
import proofs.«204130_g36155034698017_cont_8to1_b_1516_18_alg».proof.Proof.RefRead
import proofs.«204130_g36155034698017_cont_8to1_b_1516_18_alg».proof.Proof.PoolSpec
import Idealize.ShloMosaic.Lib.Pipeline.Value
import Idealize.ShloMosaic.Lib.Affine

noncomputable section

namespace Cert.ReferenceIdeal.RefValue

open Cert.ReferenceIdeal Cert.ReferenceIdeal.RefRun Idealize.ShloMosaic Idealize.ShloMosaic.ValueIdx
open Cert.ReferenceIdeal.Facts₀

variable [Cert.ReferenceIdeal.Facts]

/-- Every context word is a table row: in [0, 99999] read signed, so below 100000 read unsigned. -/
def WordsInRange (ctx : IVec S1024x50 32) : Prop := ∀ i, (ctx i).toNat < 100000 ∧ 0 ≤ (ctx i).toInt

/-- A non-negative word's signed value is its unsigned one. -/
theorem toInt_of_nonneg (w : BitVec 32) (h : 0 ≤ w.toInt) : w.toInt = (w.toNat : Int) := by
  have hw := w.isLt
  rw [BitVec.toInt_eq_toNat_cond] at h ⊢
  split at h <;> split <;> omega

/-- No word in range is wrapped. -/
theorem wrapped_eq (ctx : IVec S1024x50 32) (h : WordsInRange ctx) : wrapped ctx = ctx := by
  funext i
  show Scalar.select (IntOp.cmpi .slt (ctx i) (0#32)) (IntOp.addi (ctx i) (100000#32)) (ctx i) = ctx i
  unfold Scalar.select
  rw [if_neg]
  intro hc
  have h1 := IntOp.cmpi_slt.1 hc
  have e0 : (0#32 : BitVec 32).toInt = 0 := by decide
  have h2 := (h i).2
  omega

/-- The start index of (p, j) is the wrapped word (p, j). -/
theorem starts_apply (ctx : IVec S1024x50 32) (p : Fin 1024) (j : Fin 50) (k : Fin 1) :
    starts ctx (ix3 p j k) = wrapped ctx (ix2 p j) := by
  unfold starts
  refine broadcastInDim_apply _ _ _ _ _ ?_
  intro a
  match a with
  | ⟨0, _⟩ => rfl
  | ⟨1, _⟩ => rfl

/-- A fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 by decide]
    exact foldl_andi_one f l fun n hn => h n (List.mem_cons_of_mem _ hn)

/-- An `and`-reduction from 1 of an array of ones is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ fun n _ => hx _

/-- Every word in range passes the mask. -/
theorem inRange_eq_one (ctx : IVec S1024x50 32) (h : WordsInRange ctx) (q : S1024x50.Idx) : inRange ctx q = 1#1 := by
  unfold inRange
  refine reduce_andi_one _ _ _ _ (fun i => ?_) (fun _ => rfl) q
  obtain ⟨p, j, k, rfl⟩ : ∃ (p : Fin 1024) (j : Fin 50) (k : Fin 1), i = ix3 p j k := ⟨i 0, i 1, i 2, eq_ix3 i⟩
  show IntOp.andi (IntOp.cmpi .sge (starts ctx (ix3 p j k)) (0#32)) (IntOp.cmpi .sle (starts ctx (ix3 p j k)) (99999#32)) = 1#1
  rw [starts_apply, wrapped_eq ctx h]
  have e0 : (0#32 : BitVec 32).toInt = 0 := by decide
  have e1 : (99999#32 : BitVec 32).toInt = 99999 := by decide
  have h0 := (h (ix2 p j)).2
  have h1 := (h (ix2 p j)).1
  have h2 := toInt_of_nonneg _ h0
  refine IntOp.andi_eq_one.2 ⟨IntOp.cmpi_sge.2 ?_, IntOp.cmpi_sle.2 ?_⟩
  · rw [e0]; exact h0
  · rw [e1]; omega

/-- The gather of rows read at (p, j, d): the table at the start index of (p, j), read signed and clamped into
    [0, 99999], and column d. -/
theorem gather_apply {α : Type} (E : S100000x64.Idx → α) (idx : IVec S1024x50x1 32) (p : Fin 1024) (j : Fin 50) (d : Fin 64) :
    Host.gather gather_S100000x64_S1024x50x1_S1024x50x64_2_0_n_n_0_2_164 E idx (ix3 p j d)
      = E (ix2 (⟨min (idx (ix3 p j (0 : Fin 1))).toInt.toNat 99999, by omega⟩ : Fin 100000) d) := by
  unfold Host.gather
  refine congrArg E (funext fun a => Fin.ext ?_)
  match a with
  | ⟨0, _⟩ =>
    -- the row axis is collapsed and indexed: the clamped start, no batching or offset coordinate
    show gather_S100000x64_S1024x50x1_S1024x50x64_2_0_n_n_0_2_164.start (ix3 p j d) idx 0
        + gather_S100000x64_S1024x50x1_S1024x50x64_2_0_n_n_0_2_164.batchCoord (ix3 p j d) 0
        + gather_S100000x64_S1024x50x1_S1024x50x64_2_0_n_n_0_2_164.offCoord (ix3 p j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1024x50x1_S1024x50x64_2_0_n_n_0_2_164.startIndexMap from
      List.mem_singleton.mpr rfl)]
    have hsi : gather_S100000x64_S1024x50x1_S1024x50x64_2_0_n_n_0_2_164.siIdx (ix3 p j d)
        ⟨List.idxOf (0 : Fin 2) gather_S100000x64_S1024x50x1_S1024x50x64_2_0_n_n_0_2_164.startIndexMap,
          List.idxOf_lt_length_iff.2 (List.mem_singleton.mpr rfl)⟩ = ix3 p j (0 : Fin 1) := by
      funext b; refine Fin.ext ?_
      match b with
      | ⟨0, _⟩ => rfl
      | ⟨1, _⟩ => rfl
      | ⟨2, _⟩ => rfl
    rw [hsi]
    rfl
  | ⟨1, _⟩ =>
    -- the feature axis is the one offset axis: no start, no batching coordinate, the result's last coordinate
    show gather_S100000x64_S1024x50x1_S1024x50x64_2_0_n_n_0_2_164.start (ix3 p j d) idx 1
        + gather_S100000x64_S1024x50x1_S1024x50x64_2_0_n_n_0_2_164.batchCoord (ix3 p j d) 1
        + gather_S100000x64_S1024x50x1_S1024x50x64_2_0_n_n_0_2_164.offCoord (ix3 p j d) 1 = d.val
    have hs : gather_S100000x64_S1024x50x1_S1024x50x64_2_0_n_n_0_2_164.start (ix3 p j d) idx 1 = 0 := by
      unfold GatherDims.start
      rw [dif_neg (show (1 : Fin 2) ∉ gather_S100000x64_S1024x50x1_S1024x50x64_2_0_n_n_0_2_164.startIndexMap from by
        show (1 : Fin 2) ∉ [(0 : Fin 2)]
        decide)]
    have hk : (1 : Fin 2) ∈ gather_S100000x64_S1024x50x1_S1024x50x64_2_0_n_n_0_2_164.sKept :=
      (GatherDims.mem_sKept _ _).mpr ⟨by show (1 : Fin 2) ∉ [(0 : Fin 2)]; decide, List.not_mem_nil⟩
    have ho : gather_S100000x64_S1024x50x1_S1024x50x64_2_0_n_n_0_2_164.offCoord (ix3 p j d) 1 = d.val := by
      unfold GatherDims.offCoord
      rw [dif_pos hk]
      rfl
    rw [hs, GatherDims.batchCoord_eq_zero _ _ _ List.not_mem_nil, ho]
    omega

/-- THE LOOKUP ON WORDS IN RANGE: the table's row of each word. -/
theorem lookup_apply {F : FTy → Type} [FloatOps F] (E : FVec F S100000x64 .f32) (ctx : IVec S1024x50 32) (h : WordsInRange ctx)
    (p : Fin 1024) (j : Fin 50) (d : Fin 64) :
    lookup (F := F) E ctx (ix3 p j d) = E (ix2 (Cert.PoolSpec.row ctx p j) d) := by
  unfold lookup
  rw [select_apply,
    broadcastInDim_apply _ _ (inRange ctx) (ix3 p j d) (ix2 p j) (fun a => by match a with | ⟨0, _⟩ => rfl | ⟨1, _⟩ => rfl),
    inRange_eq_one ctx h, select_one, gather_apply]
  refine congrArg (fun r : Fin 100000 => E (ix2 r d)) (Fin.ext ?_)
  have h0 := (h (ix2 p j)).2
  have h1 := (h (ix2 p j)).1
  have h2 := toInt_of_nonneg _ h0
  show min (starts ctx (ix3 p j (0 : Fin 1))).toInt.toNat 99999 = (ctx (ix2 p j)).toNat % 100000
  rw [starts_apply, wrapped_eq ctx h, Nat.mod_eq_of_lt h1]
  omega

end Cert.ReferenceIdeal.RefValue

end
-- ==== Proof.RefPool.lean ====
/-
  The entry point's arithmetic on the extended reals, read at an index. The sum over the fifty words starts from the
  word 0x00000000, which is zero; the quotient by the word 0x42480000, which is fifty, is the product with 1/50 (on
  every extended real, the infinities included); the contraction against the transposed weights is the sum over the
  sixty-four features of mean times weight; the bias is broadcast along the examples.
-/
import proofs.«204130_g36155034698017_cont_8to1_b_1516_18_alg».proof.Proof.RefRead
import Idealize.ShloMosaic.Lib.ValueLayout
import Idealize.ShloMosaic.PureOps.Ideal.Laws

noncomputable section

open scoped BigOperators

namespace Cert.ReferenceIdeal.RefValue

open Cert.ReferenceIdeal Cert.ReferenceIdeal.RefRun Idealize.ShloMosaic Idealize.ShloMosaic.ValueIdx
open Cert.ReferenceIdeal.Facts₀

variable [Cert.ReferenceIdeal.Facts]

/-- The f32 word 0x42480000 is fifty: sign 0, exponent 132, fraction 0x480000, (2^23 + 4718592) * 2^(132 - 127 - 23). -/
theorem ofBits_fifty : Ideal.ofBits .f32 0x42480000#32 = ((50 : ℝ) : EReal) := by
  simp [Ideal.ofBits, Ideal.ieee, -EReal.coe_mul]; norm_num

/-- The mean at an index, for any float values: the host's quotient of the host's sum by the broadcast word. -/
theorem meanRows_unfold {F : FTy → Type} [FloatOps F] (X : FVec F S1024x50x64 .f32) (i : S1024x64.Idx) :
    meanRows (F := F) X i
      = FloatOps.hostDivf (FloatOps.hostReduceAdd [1] reducesTo_S1024x50x64_S1024x64_d1 .single X (FloatOps.ofBits .f32 0x00000000#32) i)
          (FloatOps.ofBits .f32 0x42480000#32) := rfl

/-- THE MEAN on the extended reals: the sum over the fifty words, times 1/50. -/
theorem meanRows_apply (X : FVec Ideal S1024x50x64 .f32) (p : Fin 1024) (d : Fin 64) :
    meanRows (F := Ideal) X (ix2 p d) = (∑ j : Fin 50, X (ix3 p j d)) * ((1 / 50 : ℝ) : EReal) := by
  have hR : S1024x50x64.Reduces [1] S1024x64 := by decide
  rw [meanRows_unfold]
  simp only [Ideal.hostDivf_def, Ideal.hostReduceAdd_def, Ideal.ofBits_def]
  rw [Ideal.hostReduceAdd_single reducesTo_S1024x50x64_S1024x64_d1 hR, Ideal.ofBits_zero_f32, zero_add, ofBits_fifty,
    Ideal.div_coe (by norm_num)]
  refine congrArg (· * _) (Finset.sum_congr rfl fun j _ => congrArg X ?_)
  funext a
  match a with
  | ⟨0, _⟩ => rfl
  | ⟨1, _⟩ => rfl
  | ⟨2, _⟩ => rfl

/-- The projection at an index, for any float values: the sum of the host's contraction and the twice-broadcast bias. -/
theorem project_unfold {F : FTy → Type} [FloatOps F] (M : FVec F S1024x64 .f32) (W : FVec F S100000x64 .f32) (b : FVec F S100000 .f32)
    (i : S1024x100000.Idx) :
    project (F := F) M W b i
      = FloatOps.addf (FloatOps.dotGeneral dot_S1024x64_S64x100000_S1024x100000_1_0_0_1_n_n none .single M
            (transpose S64x100000 [1, 0] W transposes_S100000x64_S64x100000_1_0) i)
          (broadcastInDim S1024x100000 ![0, 1] bcast_S1x100000_S1024x100000_0_1
            (broadcastInDim S1x100000 ![1] bcast_S100000_S1x100000_1 b) i) := rfl

/-- The bias broadcast to a row and then down the examples reads the bias at the column. -/
theorem bias_apply {α : Type} (b : S100000.Idx → α) (p : Fin 1024) (v : Fin 100000) :
    broadcastInDim S1024x100000 ![0, 1] bcast_S1x100000_S1024x100000_0_1
      (broadcastInDim S1x100000 ![1] bcast_S100000_S1x100000_1 b) (ix2 p v) = b (ix1 v) := by
  rw [broadcastInDim_apply _ _ _ _ (ix2 (0 : Fin 1) v) (fun a => by match a with | ⟨0, _⟩ => rfl | ⟨1, _⟩ => rfl),
    broadcastInDim_apply _ _ _ _ (ix1 v) (fun a => by match a with | ⟨0, _⟩ => rfl)]

/-- THE PROJECTION on the extended reals: mean times weight summed over the features, plus the bias. -/
theorem project_apply (M : FVec Ideal S1024x64 .f32) (W : FVec Ideal S100000x64 .f32) (b : FVec Ideal S100000 .f32)
    (p : Fin 1024) (v : Fin 100000) :
    project (F := Ideal) M W b (ix2 p v) = (∑ d : Fin 64, M (ix2 p d) * W (ix2 v d)) + b (ix1 v) := by
  rw [project_unfold, bias_apply]
  simp only [Ideal.addf_def]
  refine congrArg (· + _) ?_
  rw [Ideal.dotGeneral_apply,
    ← Equiv.sum_comp (contrEquiv1 dot_S1024x64_S64x100000_S1024x100000_1_0_0_1_n_n 64 rfl rfl).symm]
  refine Finset.sum_congr rfl fun c _ => ?_
  have c2 := contrEquiv1_symm_val dot_S1024x64_S64x100000_S1024x100000_1_0_0_1_n_n 64 rfl rfl c
  have l2 : dot_S1024x64_S64x100000_S1024x100000_1_0_0_1_n_n.lhsIdx (ix2 p v)
      ((contrEquiv1 dot_S1024x64_S64x100000_S1024x100000_1_0_0_1_n_n 64 rfl rfl).symm c) = ix2 p c := by
    funext ax; apply Fin.ext
    match ax with
    | ⟨0, _⟩ => rfl
    | ⟨1, _⟩ =>
      exact (DotDims.lhsIdx_val_of_single dot_S1024x64_S64x100000_S1024x100000_1_0_0_1_n_n (cl := 1) rfl _ _).trans c2
  have r2 : dot_S1024x64_S64x100000_S1024x100000_1_0_0_1_n_n.rhsIdx (ix2 p v)
      ((contrEquiv1 dot_S1024x64_S64x100000_S1024x100000_1_0_0_1_n_n 64 rfl rfl).symm c) = ix2 c v := by
    funext ax; apply Fin.ext
    match ax with
    | ⟨0, _⟩ =>
      exact (DotDims.rhsIdx_val_of_single dot_S1024x64_S64x100000_S1024x100000_1_0_0_1_n_n (cr := 0) rfl _ _).trans c2
    | ⟨1, _⟩ => rfl
  rw [l2, r2, transpose_ix2_apply]

end Cert.ReferenceIdeal.RefValue

end
-- ==== Proof.RefValue.lean ====
/-
  The reference computes the pooled projection. With every context word in [0, 99999] the lookup reads the table's
  row of each word; the mean over the fifty words is their sum times 1/50; the projection is the weight row against the
  means plus the bias. Commuting each product puts the weight first, as the specification writes it. No finiteness is
  used: x / 50 = x * (1/50) holds for every extended real, and the rest is a re-indexing of sums.
-/
import proofs.«204130_g36155034698017_cont_8to1_b_1516_18_alg».proof.Proof.RefRun
import proofs.«204130_g36155034698017_cont_8to1_b_1516_18_alg».proof.Proof.RefLookup
import proofs.«204130_g36155034698017_cont_8to1_b_1516_18_alg».proof.Proof.RefPool
import proofs.«204130_g36155034698017_cont_8to1_b_1516_18_alg».proof.Proof.PoolSpec

noncomputable section

open scoped BigOperators

namespace Cert.ReferenceIdeal.RefValue

open Cert.ReferenceIdeal Idealize.ShloMosaic Idealize.ShloMosaic.TcCoe Idealize.SL.Sem Idealize.ShloMosaic.ValueIdx

variable [Cert.ReferenceIdeal.Facts]

/-- On words in range the reference's term is the specification, entry by entry. -/
theorem value_eq (ctx : IVec S1024x50 32) (E W : FVec Ideal S100000x64 .f32) (b : FVec Ideal S100000 .f32)
    (h : WordsInRange ctx) :
    RefRun.value (F := Ideal) ctx E W b = Cert.PoolSpec.out ctx E W b := by
  funext i
  obtain ⟨p, v, rfl⟩ : ∃ (p : Fin 1024) (v : Fin 100000), i = ix2 p v := ⟨i 0, i 1, eq_ix2 i⟩
  unfold RefRun.value
  rw [project_apply, Cert.PoolSpec.out_apply]
  refine congrArg (· + _) (Finset.sum_congr rfl fun d _ => ?_)
  have hs : (∑ j : Fin 50, RefRun.lookup (F := Ideal) E ctx (ix3 p j d)) = Cert.PoolSpec.bag ctx E p d :=
    Finset.sum_congr rfl fun j _ => lookup_apply E ctx h p j d
  rw [meanRows_apply, mul_comm, hs]
  rfl

/-- THE REFERENCE'S RUN AND VALUE: from any memory whose context words are in range, every weakly fair execution of the
    reference terminates with its result the specification of the four arguments, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hr : ∀ (c : Dev Cert.ReferenceIdeal.nD) i,
      (m ((c.tc : Thread Cert.ReferenceIdeal.nD Cert.ReferenceIdeal.τ).loc Cert.ReferenceIdeal.main_arg0) i).toNat < 100000
        ∧ 0 ≤ (m ((c.tc : Thread Cert.ReferenceIdeal.nD Cert.ReferenceIdeal.τ).loc Cert.ReferenceIdeal.main_arg0) i).toInt) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v8)
            = Cert.PoolSpec.out (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun r h c => ⟨(h c).1.trans (value_eq _ _ _ _ (hr c)), (h c).2⟩)
    (RefRun.run (F := Ideal) m g)

end Cert.ReferenceIdeal.RefValue

end
-- ==== Proof.MmValue.lean ====
/-
  The projection's result array read on the extended reals.

  There the contraction is the exact sum of products, so an entry of the stored block depends on one column of the
  weight block, one column of the pooled operand and one entry of the bias block: the words past the arrays' end in the
  last block's buffers drop out. Row `v` of the result lies in block `v / 4096`, whose write-back is the last to touch
  it; hence every entry is  (sum over the 64 features of  a3[d, v] * a2[d, p]) + a4[0, v].
-/
import proofs.«204130_g36155034698017_cont_8to1_b_1516_18_alg».proof.Proof.MmPost
import proofs.«204130_g36155034698017_cont_8to1_b_1516_18_alg».proof.Proof.PoolSpec
import Idealize.ShloMosaic.Lib.ValueLayout
import Idealize.ShloMosaic.PureOps.Ideal.Laws

noncomputable section

open scoped BigOperators

namespace Cert.KernelIdeal.Mm

open Cert.KernelIdeal Cert.KernelIdeal.Gen
open Idealize.ShloMosaic Idealize.ShloMosaic.ValueIdx
open Idealize.ShloMosaic.TcCoe
open Idealize.ShloMosaic.Pipeline (Window)

/-- The contraction's dimension numbers: both operands contract their first axis. -/
abbrev mmDims := dot_S64x4096_S64x1024_S4096x1024_0_0_1_1_n_n

/-- THE STORED BLOCK on the extended reals: row `r`, column `p` is the sum over the 64 features of the weight block's
    column `r` against the pooled operand's column `p`, plus the bias block's entry `r`. -/
theorem mmBlock_apply (wt : FVec Ideal S64x4096 .f32) (x : FVec Ideal S64x1024 .f32) (bb : FVec Ideal S1x4096 .f32) (r : Fin 4096) (p : Fin 1024) :
    mmBlock (F := Ideal) wt x bb (ix2 r p) = (∑ k : Fin 64, wt (ix2 k r) * x (ix2 k p)) + bb (ix2 (0 : Fin 1) r) := by
  show addf (F := Ideal) (FloatOps.matmul (F := Ideal) mmDims none (shapeCast S64x4096 wt shapeCasts_S64x4096_S64x4096) (shapeCast S64x1024 x shapeCasts_S64x1024_S64x1024)
        (constant S4096x1024 .f32 0x00000000#32))
      (broadcastTo S4096x1024 (transpose S4096x1 [1, 0] (shapeCast S1x4096 bb shapeCasts_S1x4096_S1x4096) transposes_S1x4096_p1_0_S4096x1)
        broadcasts_S4096x1_S4096x1024) (ix2 r p) = _
  rw [shapeCast_self, shapeCast_self, shapeCast_self, addf_apply]
  refine congrArg₂ (· + ·) ?_ ?_
  · rw [Ideal.matmul_constant_zero_apply, ← Equiv.sum_comp (contrEquiv1 mmDims 64 rfl rfl).symm]
    refine Finset.sum_congr rfl fun k _ => ?_
    have c2 := contrEquiv1_symm_val mmDims 64 rfl rfl k
    have l2 : mmDims.lhsIdx (ix2 r p) ((contrEquiv1 mmDims 64 rfl rfl).symm k) = ix2 k r := by
      funext ax; apply Fin.ext
      match ax with
      | ⟨0, _⟩ => exact (DotDims.lhsIdx_val_of_single mmDims (cl := 0) rfl _ _).trans c2
      | ⟨1, _⟩ => rfl
    have r2 : mmDims.rhsIdx (ix2 r p) ((contrEquiv1 mmDims 64 rfl rfl).symm k) = ix2 k p := by
      funext ax; apply Fin.ext
      match ax with
      | ⟨0, _⟩ => exact (DotDims.rhsIdx_val_of_single mmDims (cr := 0) rfl _ _).trans c2
      | ⟨1, _⟩ => rfl
    rw [l2, r2]
  · rw [broadcastTo_apply _ _ (ix2 r p) (ix2 r (0 : Fin 1)) (fun a => by match a with | ⟨0, _⟩ => rfl | ⟨1, _⟩ => rfl),
      transpose_ix2_apply]

/-! ## The blocks' places in their arrays, decided over the grid -/

theorem facts0 : ∀ t : Fin cfg1.N, win1_0.index t (0 : Fin 2) = 0 ∧ win1_0.index t (1 : Fin 2) = t.val
    ∧ win1_0.xsize (grid1.coords t) (0 : Fin 2) = 64 ∧ win1_0.xsize (grid1.coords t) (1 : Fin 2) = min 4096 (100000 - t.val * 4096) :=
  (by decide +kernel : ∀ t : Fin grid1.N, _)
theorem facts1 : ∀ t : Fin cfg1.N, win1_1.index t (0 : Fin 2) = 0 ∧ win1_1.index t (1 : Fin 2) = 0
    ∧ win1_1.xsize (grid1.coords t) (0 : Fin 2) = 64 ∧ win1_1.xsize (grid1.coords t) (1 : Fin 2) = 1024 :=
  (by decide +kernel : ∀ t : Fin grid1.N, _)
theorem facts2 : ∀ t : Fin cfg1.N, win1_2.index t (0 : Fin 2) = 0 ∧ win1_2.index t (1 : Fin 2) = t.val
    ∧ win1_2.xsize (grid1.coords t) (0 : Fin 2) = 1 ∧ win1_2.xsize (grid1.coords t) (1 : Fin 2) = min 4096 (100000 - t.val * 4096) :=
  (by decide +kernel : ∀ t : Fin grid1.N, _)
theorem facts3 : ∀ t : Fin cfg1.N, win1_3.index t (0 : Fin 2) = t.val ∧ win1_3.index t (1 : Fin 2) = 0
    ∧ win1_3.xsize (grid1.coords t) (0 : Fin 2) = min 4096 (100000 - t.val * 4096) ∧ win1_3.xsize (grid1.coords t) (1 : Fin 2) = 1024 :=
  (by decide +kernel : ∀ t : Fin grid1.N, _)
theorem N25 : cfg1.N = 25 := N_1

section Value

variable (c : Dev nD) (a3 : S64x100000.Idx → EReal) (a2 : S64x1024.Idx → EReal) (a4 : S1x100000.Idx → EReal) (a5 : S100000x1024.Idx → EReal)

/-- A fetched weight buffer at a column inside the array reads the array: block `t`'s column `r` is column `4096 t + r`. -/
theorem fet0_apply (t : Fin cfg1.N) (d : S64x4096.Idx → EReal) (k : Fin 64) (r : Fin 4096) (v : Fin 100000) (hv : v.val = t.val * 4096 + r.val) :
    fet0 (F := Ideal) c a3 t d (ix2 k r) = a3 (ix2 k v) := by
  obtain ⟨e0, e1, e2, e3⟩ := facts0 t
  have hmv : win1_0.moved (grid1.coords t) (ix2 k r) = true := (win1_0.moved_iff _ _).mpr fun a => by
    match a with
    | ⟨0, _⟩ => show k.val < win1_0.xsize (grid1.coords t) (0 : Fin 2); rw [e2]; exact k.isLt
    | ⟨1, _⟩ => show r.val < win1_0.xsize (grid1.coords t) (1 : Fin 2); rw [e3]; have := v.isLt; have := r.isLt; omega
  unfold fet0 Window.fill
  rw [dif_pos hmv]
  show a3 ((win1_0.blk t).view.emb _) = a3 (ix2 k v)
  refine congrArg a3 (funext fun a => Fin.ext ?_)
  match a with
  | ⟨0, _⟩ => show win1_0.index t (0 : Fin 2) * 64 + 1 * k.val = k.val; omega
  | ⟨1, _⟩ => show win1_0.index t (1 : Fin 2) * 4096 + 1 * r.val = v.val; omega

/-- A fetched pooled buffer reads the pooled array: its one block is the array. -/
theorem fet1_apply (t : Fin cfg1.N) (d : S64x1024.Idx → EReal) (k : Fin 64) (p : Fin 1024) :
    fet1 (F := Ideal) c a2 t d (ix2 k p) = a2 (ix2 k p) := by
  obtain ⟨e0, e1, e2, e3⟩ := facts1 t
  have hmv : win1_1.moved (grid1.coords t) (ix2 k p) = true := (win1_1.moved_iff _ _).mpr fun a => by
    match a with
    | ⟨0, _⟩ => show k.val < win1_1.xsize (grid1.coords t) (0 : Fin 2); rw [e2]; exact k.isLt
    | ⟨1, _⟩ => show p.val < win1_1.xsize (grid1.coords t) (1 : Fin 2); rw [e3]; exact p.isLt
  unfold fet1 Window.fill
  rw [dif_pos hmv]
  show a2 ((win1_1.blk t).view.emb _) = a2 (ix2 k p)
  refine congrArg a2 (funext fun a => Fin.ext ?_)
  match a with
  | ⟨0, _⟩ => show win1_1.index t (0 : Fin 2) * 64 + 1 * k.val = k.val; omega
  | ⟨1, _⟩ => show win1_1.index t (1 : Fin 2) * 1024 + 1 * p.val = p.val; omega

/-- A fetched bias buffer at an entry inside the array reads the array, as the weight's. -/
theorem fet2_apply (t : Fin cfg1.N) (d : S1x4096.Idx → EReal) (r : Fin 4096) (v : Fin 100000) (hv : v.val = t.val * 4096 + r.val) :
    fet2 (F := Ideal) c a4 t d (ix2 (0 : Fin 1) r) = a4 (ix2 (0 : Fin 1) v) := by
  obtain ⟨e0, e1, e2, e3⟩ := facts2 t
  have hmv : win1_2.moved (grid1.coords t) (ix2 (0 : Fin 1) r) = true := (win1_2.moved_iff _ _).mpr fun a => by
    match a with
    | ⟨0, _⟩ => show 0 < win1_2.xsize (grid1.coords t) (0 : Fin 2); rw [e2]; exact Nat.one_pos
    | ⟨1, _⟩ => show r.val < win1_2.xsize (grid1.coords t) (1 : Fin 2); rw [e3]; have := v.isLt; have := r.isLt; omega
  unfold fet2 Window.fill
  rw [dif_pos hmv]
  show a4 ((win1_2.blk t).view.emb _) = a4 (ix2 (0 : Fin 1) v)
  refine congrArg a4 (funext fun a => Fin.ext ?_)
  match a with
  | ⟨0, _⟩ => show win1_2.index t (0 : Fin 2) * 1 + 1 * 0 = 0; omega
  | ⟨1, _⟩ => show win1_2.index t (1 : Fin 2) * 4096 + 1 * r.val = v.val; omega

/-- An index of the result array is in point `t`'s block iff its row is among the block's rows inside the array. -/
theorem mem_blk3 (t : Fin cfg1.N) (i : S100000x1024.Idx) :
    i ∈ (win1_3.blk t).view.setOn Finset.univ ↔ ∀ a : Fin 2, win1_3.index t a * S4096x1024.size a ≤ (i a).val
      ∧ (i a).val < win1_3.index t a * S4096x1024.size a + win1_3.xsize (grid1.coords t) a := by
  rw [View.setOn_univ]
  show i ∈ ((View.whole main_v5).slice (win1_3.rect t)).set ↔ _
  rw [View.set_slice_whole, Rect.mem_set_unit]
  exact Iff.rfl

/-- The entry the projection computes. -/
def entry (v : Fin 100000) (p : Fin 1024) : EReal := (∑ k : Fin 64, a3 (ix2 k v) * a2 (ix2 k p)) + a4 (ix2 (0 : Fin 1) v)

/-- After the write-backs of the points below `n`, the rows below `4096 n` hold the projection's entries. -/
theorem mmArr_apply : ∀ (n : Nat), n ≤ cfg1.N → ∀ G : S100000x1024.Idx → EReal, MmArr (F := Ideal) c a3 a2 a4 a5 n G →
    ∀ (v : Fin 100000) (p : Fin 1024), v.val < 4096 * n → G (ix2 v p) = entry a3 a2 a4 v p
  | 0, _, G, _, v, p, hv => absurd hv (by omega)
  | n + 1, hn', G, hG, v, p, hv => by
    have hn : n < cfg1.N := hn'
    have hN := N25
    unfold MmArr at hG; rw [dif_pos hn] at hG
    obtain ⟨G₀, d0, d1, d2, hG₀, rfl⟩ := hG
    obtain ⟨e0, e1, e2, e3⟩ := facts3 ⟨n, hn⟩
    have e0 : win1_3.index ⟨n, hn⟩ (0 : Fin 2) = n := e0
    have e2 : win1_3.xsize (grid1.coords ⟨n, hn⟩) (0 : Fin 2) = min 4096 (100000 - n * 4096) := e2
    have hvlt := v.isLt
    by_cases hm : ix2 v p ∈ (win1_3.blk ⟨n, hn⟩).view.setOn Finset.univ
    · obtain ⟨j, -, ej⟩ := Finset.mem_map.mp hm
      have b0 := (mem_blk3 ⟨n, hn⟩ (ix2 v p)).mp hm 0
      have b0' : n * 4096 ≤ v.val := by
        have : win1_3.index ⟨n, hn⟩ (0 : Fin 2) * 4096 ≤ v.val := b0.1
        rw [e0] at this; exact this
      have j0 : (j 0).val = v.val - n * 4096 := by
        have h := congrArg (fun i : S100000x1024.Idx => (i 0).val) ej
        have h' : win1_3.index ⟨n, hn⟩ (0 : Fin 2) * 4096 + 1 * (j 0).val = v.val := h
        rw [e0] at h'; show (j 0).val = v.val - n * 4096; omega
      have j1 : (j 1).val = p.val := by
        have h := congrArg (fun i : S100000x1024.Idx => (i 1).val) ej
        have h' : win1_3.index ⟨n, hn⟩ (1 : Fin 2) * 1024 + 1 * (j 1).val = p.val := h
        rw [e1] at h'; omega
      have hr : v.val - n * 4096 < 4096 := by omega
      rw [← ej, View.write_emb_of_mem _ _ (Finset.mem_univ j)]
      show mmBlock (F := Ideal) _ _ _ (win1_3.xinj (grid1.coords ⟨n, hn⟩) j) = _
      rw [show win1_3.xinj (grid1.coords ⟨n, hn⟩) j = ix2 (⟨v.val - n * 4096, hr⟩ : Fin 4096) p from
        funext fun a => Fin.ext (by match a with | ⟨0, _⟩ => exact j0 | ⟨1, _⟩ => exact j1), mmBlock_apply]
      unfold entry
      refine congrArg₂ (· + ·) (Finset.sum_congr rfl fun k _ => ?_) ?_
      · rw [fet0_apply c a3 ⟨n, hn⟩ d0 k ⟨v.val - n * 4096, hr⟩ v (by show v.val = n * 4096 + (v.val - n * 4096); omega), fet1_apply]
      · exact fet2_apply c a4 ⟨n, hn⟩ d2 ⟨v.val - n * 4096, hr⟩ v (by show v.val = n * 4096 + (v.val - n * 4096); omega)
    · rw [View.write_of_not_mem _ _ _ hm]
      refine mmArr_apply n (Nat.le_of_lt hn) G₀ hG₀ v p ?_
      by_contra hlt
      refine hm ((mem_blk3 ⟨n, hn⟩ (ix2 v p)).mpr fun a => ?_)
      match a with
      | ⟨0, _⟩ =>
        show win1_3.index ⟨n, hn⟩ (0 : Fin 2) * 4096 ≤ v.val ∧ v.val < win1_3.index ⟨n, hn⟩ (0 : Fin 2) * 4096 + win1_3.xsize (grid1.coords ⟨n, hn⟩) (0 : Fin 2)
        rw [e0, e2]; show n * 4096 ≤ v.val ∧ v.val < n * 4096 + min 4096 (100000 - n * 4096); omega
      | ⟨1, _⟩ =>
        show win1_3.index ⟨n, hn⟩ (1 : Fin 2) * 1024 ≤ p.val ∧ p.val < win1_3.index ⟨n, hn⟩ (1 : Fin 2) * 1024 + win1_3.xsize (grid1.coords ⟨n, hn⟩) (1 : Fin 2)
        rw [e1, e3]; have := p.isLt; omega

/-- THE RESULT ARRAY on the extended reals: whatever the region leaves, every entry is the projection's. -/
theorem mmPost_apply (f5 : S100000x1024.Idx → EReal) (h : MmPost (F := Ideal) c a3 a2 a4 a5 f5) (v : Fin 100000) (p : Fin 1024) :
    f5 (ix2 v p) = (∑ k : Fin 64, a3 (ix2 k v) * a2 (ix2 k p)) + a4 (ix2 (0 : Fin 1) v) :=
  mmArr_apply c a3 a2 a4 a5 cfg1.N (Nat.le_refl _) f5 h v p (by have := v.isLt; rw [N25]; omega)

/-- The projection as one whole-array function on the extended reals. -/
def projT : S100000x1024.Idx → EReal := fun i => entry a3 a2 a4 (i 0) (i 1)

theorem mmPost_eq_projT (f5 : S100000x1024.Idx → EReal) (h : MmPost (F := Ideal) c a3 a2 a4 a5 f5) : f5 = projT a3 a2 a4 := by
  funext i
  obtain ⟨v, p, rfl⟩ : ∃ (v : Fin 100000) (p : Fin 1024), i = ix2 v p := ⟨i 0, i 1, eq_ix2 i⟩
  exact mmPost_apply c a3 a2 a4 a5 f5 h v p

end Value

/-- With the weights transposed, the pooled features feature-major and the bias as a row, the projection is the
    transpose of the specification's scores. -/
theorem projT_pool (ctx : IVec Cert.PoolSpec.SCtx 32) (E W : FVec Ideal Cert.PoolSpec.STab .f32) (b : FVec Ideal Cert.PoolSpec.SBias .f32)
    (a3 : S64x100000.Idx → EReal) (a4 : S1x100000.Idx → EReal)
    (h3 : ∀ (d : Fin 64) (v : Fin 100000), a3 (ix2 d v) = W (ix2 v d)) (h4 : ∀ v : Fin 100000, a4 (ix2 (0 : Fin 1) v) = b (ix1 v))
    (v : Fin 100000) (p : Fin 1024) :
    projT a3 (Cert.PoolSpec.poolT ctx E) a4 (ix2 v p) = Cert.PoolSpec.out ctx E W b (ix2 p v) := by
  show entry a3 (Cert.PoolSpec.poolT ctx E) a4 v p = _
  rw [Cert.PoolSpec.out_apply]; unfold entry
  rw [h4]
  refine congrArg (· + _) (Finset.sum_congr rfl fun d _ => ?_)
  rw [h3, Cert.PoolSpec.poolT_apply]

end Cert.KernelIdeal.Mm

end
-- ==== Proof.KernelValue.lean ====
/-
  The whole kernel's value on the extended reals. The host transposes the context words, the table and the weights,
  re-lays the bias as one row, and transposes the projection's result back. The pooling over the transposed words and
  table, with the reciprocal of 50 as its constant, is the specification's feature-major array of averaged features;
  the projection of those against the transposed weights, plus the bias row, is the transpose of the specification's
  scores; so the result transposed back is the specification.
-/
import proofs.«204130_g36155034698017_cont_8to1_b_1516_18_alg».proof.Proof.TileNames
import proofs.«204130_g36155034698017_cont_8to1_b_1516_18_alg».proof.Proof.PoolFoldIdeal
import proofs.«204130_g36155034698017_cont_8to1_b_1516_18_alg».proof.Proof.MmValue
import proofs.«204130_g36155034698017_cont_8to1_b_1516_18_alg».proof.Proof.PoolSpec
import Idealize.ShloMosaic.PureOps.IdealRules

noncomputable section

namespace Cert.KernelIdeal.Tile

open Cert.KernelIdeal Cert.KernelIdeal.Gen
open Idealize.ShloMosaic
open Idealize.ShloMosaic.ValueIdx (ix1 ix2 eq_ix2 transpose_ix2_apply)

/-- The kernel's named reciprocal is, on the extended reals, the rational 1/50 its table gives it. -/
theorem c50_ideal : c50 (F := Ideal) = ((1 / 50 : ℝ) : EReal) := by
  unfold c50
  exact IdealRules.named_const.ideal_named_scalar _ _ _ _ rfl

/-- The kernel's value from the projection region's post, the three operands given by equations: the weights
    transposed, the pooling of the transposed words and table, the bias as one row. -/
theorem result_of_post (d : Dev nD) (ctx : IVec S1024x50 32) (E W : FVec Ideal S100000x64 .f32) (b : FVec Ideal S100000 .f32)
    (a3 : FVec Ideal S64x100000 .f32) (a2 : FVec Ideal S64x1024 .f32) (a4 : FVec Ideal S1x100000 .f32) (a5 f5 : FVec Ideal S100000x1024 .f32)
    (h3 : a3 = transpose S64x100000 [1, 0] W transposes_S100000x64_S64x100000_1_0)
    (h2 : a2 = Cert.PoolFold.poolF (c50 (F := Ideal)) (transpose S50x1024 [1, 0] ctx transposes_S1024x50_S50x1024_1_0)
      (transpose S64x100000 [1, 0] E transposes_S100000x64_S64x100000_1_0))
    (h4 : a4 = shapeCast S1x100000 b shapeCasts_S100000_S1x100000)
    (h : Cert.KernelIdeal.Mm.MmPost (F := Ideal) d a3 a2 a4 a5 f5) :
    transpose S1024x100000 [1, 0] f5 transposes_S100000x1024_S1024x100000_1_0 = Cert.PoolSpec.out ctx E W b := by
  have hf : f5 = Cert.KernelIdeal.Mm.projT a3 a2 a4 := Cert.KernelIdeal.Mm.mmPost_eq_projT d a3 a2 a4 a5 f5 h
  have e0 := Cert.PoolFold.transpose_swap ctx transposes_S1024x50_S50x1024_1_0
  have e1 := Cert.PoolFold.transpose_swap E transposes_S100000x64_S64x100000_1_0
  have hp : a2 = Cert.PoolSpec.poolT ctx E := by
    rw [h2, e0, e1]
    exact Cert.PoolFold.poolF_ideal ctx E _ c50_ideal
  funext i
  obtain ⟨p, v, rfl⟩ : ∃ (p : Fin 1024) (v : Fin 100000), i = ix2 p v := ⟨i 0, i 1, eq_ix2 i⟩
  rw [transpose_ix2_apply, hf, hp]
  refine Cert.KernelIdeal.Mm.projT_pool ctx E W b a3 a4 (fun dd vv => ?_) (fun vv => ?_) v p
  · rw [h3]
    exact transpose_ix2_apply W transposes_S100000x64_S64x100000_1_0 dd vv
  · rw [h4]
    exact Cert.PoolFold.shapeCast_toRow_apply b shapeCasts_S100000_S1x100000 vv

/-- THE KERNEL'S VALUE: whatever the projection region leaves, over the host-transposed operands, the result transposed
    back is the specification. -/
theorem result_eq (d : Dev nD) (ctx : IVec S1024x50 32) (E W : FVec Ideal S100000x64 .f32) (b : FVec Ideal S100000 .f32)
    (a5 f5 : FVec Ideal S100000x1024 .f32)
    (h : Cert.KernelIdeal.Mm.MmPost (F := Ideal) d
      (transpose S64x100000 [1, 0] W transposes_S100000x64_S64x100000_1_0)
      (Cert.PoolFold.poolF (c50 (F := Ideal)) (transpose S50x1024 [1, 0] ctx transposes_S1024x50_S50x1024_1_0)
        (transpose S64x100000 [1, 0] E transposes_S100000x64_S64x100000_1_0))
      (shapeCast S1x100000 b shapeCasts_S100000_S1x100000) a5 f5) :
    transpose S1024x100000 [1, 0] f5 transposes_S100000x1024_S1024x100000_1_0 = Cert.PoolSpec.out ctx E W b :=
  result_of_post d ctx E W b _ _ _ a5 f5 rfl rfl rfl h

end Cert.KernelIdeal.Tile

end
-- ==== Proof.InputRange.lean ====
/-
  The precondition read at one context word. The printed predicate is an `and` of four `all`-reductions; its last
  conjunct is the reduction, over all 1024 x 50 entries, of (0 <= ctx) and (ctx <= 99999), both compared signed.
  When the predicate holds, that reduction is 1, so every entry passes both comparisons: read as an integer the word
  lies in [0, 99999], and a non-negative word's integer value is its natural-number value. Nothing here is about
  floats: the statement holds at every float instance.
-/
import proofs.«204130_g36155034698017_cont_8to1_b_1516_18_alg».proof.Pre_input_domain
import Idealize.ShloMosaic.Lib.ReduceAll

noncomputable section

namespace Cert.InputRange

open Idealize.ShloMosaic

/-- The rank-0 shape has one index. -/
instance subsingleton_scalar_idx : Subsingleton Cert.Pre_input_domain.S_.Idx := ⟨fun a b => funext fun d => d.elim0⟩

/-- A 32-bit word that is non-negative as a signed integer and at most 99999 is below 100000 as a natural number. -/
theorem word_range (w : BitVec 32) (h0 : (0#32 : BitVec 32).toInt ≤ w.toInt) (h1 : w.toInt ≤ (99999#32 : BitVec 32).toInt) :
    w.toNat < 100000 ∧ 0 ≤ w.toInt := by
  have e0 : (0#32 : BitVec 32).toInt = 0 := by decide
  have e1 : (99999#32 : BitVec 32).toInt = 99999 := by decide
  rw [e0] at h0
  rw [e1] at h1
  refine ⟨?_, h0⟩
  have hw := w.isLt
  rw [BitVec.toInt_eq_toNat_cond] at h0 h1
  split at h1 <;> omega

/-- Under the printed precondition every context word is a table row: in [0, 99999] as a signed integer. -/
theorem ctx_lt {F : FTy → Type} [FloatOps F] [Cert.Pre_input_domain.Facts]
    (a0 : IVec Cert.Pre_input_domain.S1024x50 32) (a1 a2 : FVec F Cert.Pre_input_domain.S100000x64 .f32)
    (a3 : FVec F Cert.Pre_input_domain.S100000 .f32)
    (h : Cert.Pre_input_domain.fn (F := F) a0 a1 a2 a3 = fun _ => 1#1) :
    ∀ i, (a0 i).toNat < 100000 ∧ 0 ≤ (a0 i).toInt := by
  intro i
  have e := congrFun h (fun d => d.elim0)
  dsimp only [Cert.Pre_input_domain.fn, Cert.Pre_input_domain.fn_part1] at e
  -- the outermost `and`: the float conjuncts on the left, the integer reduction on the right
  have e2 := (IntOp.andi_eq_one.1 e).2
  have e3 := Host.reduce_andi_all _ _ _ _ _ e2 i
  obtain ⟨hge, hle⟩ := IntOp.andi_eq_one.1 e3
  exact word_range (a0 i) (IntOp.cmpi_sge.1 hge) (IntOp.cmpi_sle.1 hle)

end Cert.InputRange

end
-- ==== Proof.lean ====
/-
  The certificate of the embedding-bag kernel against its reference, on the extended reals.

  Both programs compute, for each of 1024 examples and 100000 vocabulary words,
      out[p, v] = (sum over 64 features d of  W[v, d] * mean over the 50 context positions j of E[ctx[p, j], d])  +  b[v].
  The reference gathers the 50 rows, sums them, divides by 50 and multiplies by the transposed weights. The kernel works
  feature-major: 32 vector subcores each take two features; a subcore copies its feature's table row and, chunk by chunk of
  128 examples, the context words, sums the 50 looked-up entries per example in 16-lane accumulators and multiplies by the
  named constant 1/50; a matrix-unit kernel then contracts the 64 averaged features against the weights, 4096 vocabulary words
  at a time, and adds the bias. On the extended reals the product with 1/50 is the quotient by 50, sums may be regrouped, and
  products commute; the context words are in the table's range by the precondition, so the reference's lookup reads the rows
  the kernel's indexed loads read. The three frames are the runs with the values dropped.
-/
import proofs.«204130_g36155034698017_cont_8to1_b_1516_18_alg».proof.Defs
import proofs.«204130_g36155034698017_cont_8to1_b_1516_18_alg».proof.Proof.Gen.Kernel
import proofs.«204130_g36155034698017_cont_8to1_b_1516_18_alg».proof.Proof.Gen.KernelIdeal
import proofs.«204130_g36155034698017_cont_8to1_b_1516_18_alg».proof.Proof.Gen.ReferenceIdeal
import proofs.«204130_g36155034698017_cont_8to1_b_1516_18_alg».proof.Proof.Gen.Pre_input_domain
import proofs.«204130_g36155034698017_cont_8to1_b_1516_18_alg».proof.Proof.Run
import proofs.«204130_g36155034698017_cont_8to1_b_1516_18_alg».proof.Proof.KRun
import proofs.«204130_g36155034698017_cont_8to1_b_1516_18_alg».proof.Proof.RefValue
import proofs.«204130_g36155034698017_cont_8to1_b_1516_18_alg».proof.Proof.KernelValue
import proofs.«204130_g36155034698017_cont_8to1_b_1516_18_alg».proof.Proof.InputRange
import Idealize.ShloMosaic.Adequacy
import Idealize.ShloMosaic.Init

noncomputable section

namespace Cert.Proof

open Idealize.ShloMosaic Idealize.SL.Sem

/-- Under the precondition every context word names a table row (word-level program). -/
theorem wordsOK_bits (m : (ℓ : Loc Cert.Kernel.nD Cert.Kernel.τ Cert.Kernel.sig) → Buf (Elt Bits) ℓ) (h : Cert.Pre_Kernel m) :
    Cert.Kernel.Tile.PreOK (F := Bits) m :=
  fun d x => (Cert.InputRange.ctx_lt (F := Bits) _ _ _ _ (h d) x).1

/-- Under the precondition every context word names a table row (idealized program). -/
theorem wordsOK_ideal (m : (ℓ : Loc Cert.KernelIdeal.nD Cert.KernelIdeal.τ Cert.KernelIdeal.sig) → Buf (Elt Ideal) ℓ) (h : Cert.Pre_KernelIdeal m) :
    Cert.KernelIdeal.Tile.PreOK (F := Ideal) m :=
  fun d x => (Cert.InputRange.ctx_lt (F := Ideal) _ _ _ _ (h d) x).1

theorem frame_k : Cert.frame_Kernel := fun m ρ hpre =>
  (θ_run Cert.Kernel.defs _ _).mono (fun _ h c => ⟨(h c).1, (h c).2.1, (h c).2.2.1, (h c).2.2.2.1⟩)
    (Cert.Kernel.Tile.run_main (F := Bits) m ρ (wordsOK_bits m hpre))

theorem frame_ki : Cert.frame_KernelIdeal := fun m ρ hpre =>
  (θ_run Cert.KernelIdeal.defs _ _).mono (fun _ h c => ⟨(h c).1, (h c).2.1, (h c).2.2.1, (h c).2.2.2.1⟩)
    (Cert.KernelIdeal.Tile.run_main (F := Ideal) m ρ (wordsOK_ideal m hpre))

theorem frame_ri : Cert.frame_ReferenceIdeal := fun m ρ _ =>
  (θ_run Cert.ReferenceIdeal.defs _ _).mono (fun _ h c => (h c).2) (Cert.ReferenceIdeal.RefRun.run (F := Ideal) m ρ)

/-- Every occurrence of the reciprocal of 50 in the kernel's body is the one named constant: the table gives it the
    rational 1/50. -/
theorem preserves : Cert.preserves_Kernel_KernelIdeal := by
  have s := IdealRules.named_const.statement Cert.KernelIdeal.κ "inv_50" .f32 0x3CA3D70A#32 ((1 / 50 : ℝ) : EReal) rfl
  exact ⟨s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s, s⟩

/-- Both programs end at the specification's array of the argument arrays. -/
theorem algebraic : Cert.algebraic_KernelIdeal_ReferenceIdeal := by
  intro m ρ m' ρ' hpre hagree
  refine ⟨fun c => Cert.PoolSpec.out (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run Cert.KernelIdeal.defs _ _).mono (fun r h c => ?_) (Cert.KernelIdeal.Tile.run_main (F := Ideal) m ρ (wordsOK_ideal m hpre))
    obtain ⟨h0, h1, h2, h3, f5, hpost, h6⟩ := h c
    exact ⟨h6.trans (Cert.KernelIdeal.Tile.result_eq c _ _ _ _ _ f5 hpost), h0, h1, h2, h3⟩
  · have hr : ∀ (c : Dev Cert.ReferenceIdeal.nD) i,
        (m' ((c.tc : Thread _ _).loc Cert.ReferenceIdeal.main_arg0) i).toNat < 100000 ∧ 0 ≤ (m' ((c.tc : Thread _ _).loc Cert.ReferenceIdeal.main_arg0) i).toInt := by
      intro c i
      rw [(hagree c).1]
      exact Cert.InputRange.ctx_lt (F := Ideal) _ _ _ _ (hpre c) i
    refine (θ_run Cert.ReferenceIdeal.defs _ _).mono (fun r h c => ?_) (Cert.ReferenceIdeal.RefValue.run m' ρ' hr)
    obtain ⟨h8, h0, h1, h2, h3⟩ := h c
    refine ⟨?_, h0, h1, h2, h3⟩
    rw [h8, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
